-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v152)) (v1 : (c : Dev Cert.KernelIdeal.nD) → Buf (Elt Ideal) ((c.tc : Thread Cert.KernelIdeal.nD Cert.KernelIdeal.τ).loc Cert.KernelIdeal.main_v169)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v152) = v0 c
          ∧ r.2.mem ((c.tc : Thread Cert.KernelIdeal.nD Cert.KernelIdeal.τ).loc Cert.KernelIdeal.main_v169) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S1x32768x256 : Shape := ⟨3, ![1, 32768, 256]⟩
abbrev S_ : Shape := ⟨0, ![]⟩
abbrev S512 : Shape := ⟨1, ![512]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S1x32768x256 : S_.BroadcastsInDim S1x32768x256 (![] : Fin 0 → Fin S1x32768x256.rank)
  reducesTo_S1x32768x256_S_d0_1_2 : S1x32768x256.ReducesTo [0, 1, 2] S_
  reducesTo_S512x256_S512_d1 : S512x256.ReducesTo [1] S512
  bcast_S_S512 : S_.BroadcastsInDim S512 (![] : Fin 0 → Fin S512.rank)
  reducesTo_S512_S_d0 : S512.ReducesTo [0] S_

variable [Facts]

def fn_part5 {F : FTy → Type} [FloatOps F] (main_v79 : IVec S_ 1) (main_v84 : IVec S512 1) : IVec S_ 1 :=
  let main_c_33 : IVec S_ 1 := constantI S_ 1 1#1
  let main_v85 : IVec S_ 1 := (fun x v => Host.reduce IntOp.andi x v reducesTo_S512_S_d0 h_S_) main_v84 main_c_33
  let main_v86 : IVec S_ 1 := andi main_v79 main_v85
  main_v86

def fn_part4 {F : FTy → Type} [FloatOps F] (main_arg2 : FVec F S512x256 .f32) (main_arg3 : FVec F S512x256 .f32) (main_v65 : IVec S_ 1) (main_v67 : FVec F S512 .f32) : IVec S_ 1 :=
  let main_v68 : FVec F S512 .f32 := Host.sqrt main_v67
  let main_cst_26 : FVec F S_ .f32 := constant S_ .f32 0x00000000#32
  let main_v69 : FVec F S512 .f32 := broadcastInDim S512 ![] bcast_S_S512 main_cst_26
  let main_v70 : IVec S512 1 := cmpf .une main_v68 main_v69
  let main_c_27 : IVec S_ 1 := constantI S_ 1 1#1
  let main_v71 : IVec S_ 1 := (fun x v => Host.reduce IntOp.andi x v reducesTo_S512_S_d0 h_S_) main_v70 main_c_27
  let main_v72 : IVec S_ 1 := andi main_v65 main_v71
  let main_v73 : FVec F S512x256 .f32 := mulf main_arg2 main_arg2
  let main_cst_28 : FVec F S_ .f32 := constant S_ .f32 0x00000000#32
  let main_v74 : FVec F S512 .f32 := (fun x v => Host.reduceAdd x v reducesTo_S512x256_S512_d1 h_S_) main_v73 main_cst_28
  let main_v75 : FVec F S512 .f32 := Host.sqrt main_v74
  let main_cst_29 : FVec F S_ .f32 := constant S_ .f32 0x00000000#32
  let main_v76 : FVec F S512 .f32 := broadcastInDim S512 ![] bcast_S_S512 main_cst_29
  let main_v77 : IVec S512 1 := cmpf .une main_v75 main_v76
  let main_c_30 : IVec S_ 1 := constantI S_ 1 1#1
  let main_v78 : IVec S_ 1 := (fun x v => Host.reduce IntOp.andi x v reducesTo_S512_S_d0 h_S_) main_v77 main_c_30
  let main_v79 : IVec S_ 1 := andi main_v72 main_v78
  let main_v80 : FVec F S512x256 .f32 := mulf main_arg3 main_arg3
  let main_cst_31 : FVec F S_ .f32 := constant S_ .f32 0x00000000#32
  let main_v81 : FVec F S512 .f32 := (fun x v => Host.reduceAdd x v reducesTo_S512x256_S512_d1 h_S_) main_v80 main_cst_31
  let main_v82 : FVec F S512 .f32 := Host.sqrt main_v81
  let main_cst_32 : FVec F S_ .f32 := constant S_ .f32 0x00000000#32
  let main_v83 : FVec F S512 .f32 := broadcastInDim S512 ![] bcast_S_S512 main_cst_32
  let main_v84 : IVec S512 1 := cmpf .une main_v82 main_v83
  fn_part5 (F := F) main_v79 main_v84

def fn_part3 {F : FTy → Type} [FloatOps F] (main_arg0 : FVec F S512x256 .f32) (main_arg1 : FVec F S512x256 .f32) (main_arg2 : FVec F S512x256 .f32) (main_arg3 : FVec F S512x256 .f32) (main_arg11 : FVec F S1x32768x256 .f32) (main_v48 : IVec S_ 1) (main_v49 : FVec F S1x32768x256 .f32) (main_v50 : FVec F S1x32768x256 .f32) : IVec S_ 1 :=
  let main_v51 : IVec S1x32768x256 1 := cmpf .olt main_v49 main_v50
  let main_c_19 : IVec S_ 1 := constantI S_ 1 1#1
  let main_v52 : IVec S_ 1 := (fun x v => Host.reduce IntOp.andi x v reducesTo_S1x32768x256_S_d0_1_2 h_S_) main_v51 main_c_19
  let main_v53 : IVec S_ 1 := andi main_v48 main_v52
  let main_v54 : FVec F S1x32768x256 .f32 := Host.absf main_arg11
  let main_cst_20 : FVec F S_ .f32 := constant S_ .f32 0x7F800000#32
  let main_v55 : FVec F S1x32768x256 .f32 := broadcastInDim S1x32768x256 ![] bcast_S_S1x32768x256 main_cst_20
  let main_v56 : IVec S1x32768x256 1 := cmpf .olt main_v54 main_v55
  let main_c_21 : IVec S_ 1 := constantI S_ 1 1#1
  let main_v57 : IVec S_ 1 := (fun x v => Host.reduce IntOp.andi x v reducesTo_S1x32768x256_S_d0_1_2 h_S_) main_v56 main_c_21
  let main_v58 : IVec S_ 1 := andi main_v53 main_v57
  let main_v59 : FVec F S512x256 .f32 := mulf main_arg0 main_arg0
  let main_cst_22 : FVec F S_ .f32 := constant S_ .f32 0x00000000#32
  let main_v60 : FVec F S512 .f32 := (fun x v => Host.reduceAdd x v reducesTo_S512x256_S512_d1 h_S_) main_v59 main_cst_22
  let main_v61 : FVec F S512 .f32 := Host.sqrt main_v60
  let main_cst_23 : FVec F S_ .f32 := constant S_ .f32 0x00000000#32
  let main_v62 : FVec F S512 .f32 := broadcastInDim S512 ![] bcast_S_S512 main_cst_23
  let main_v63 : IVec S512 1 := cmpf .une main_v61 main_v62
  let main_c_24 : IVec S_ 1 := constantI S_ 1 1#1
  let main_v64 : IVec S_ 1 := (fun x v => Host.reduce IntOp.andi x v reducesTo_S512_S_d0 h_S_) main_v63 main_c_24
  let main_v65 : IVec S_ 1 := andi main_v58 main_v64
  let main_v66 : FVec F S512x256 .f32 := mulf main_arg1 main_arg1
  let main_cst_25 : FVec F S_ .f32 := constant S_ .f32 0x00000000#32
  let main_v67 : FVec F S512 .f32 := (fun x v => Host.reduceAdd x v reducesTo_S512x256_S512_d1 h_S_) main_v66 main_cst_25
  fn_part4 (F := F) main_arg2 main_arg3 main_v65 main_v67

def fn_part2 {F : FTy → Type} [FloatOps F] (main_arg0 : FVec F S512x256 .f32) (main_arg1 : FVec F S512x256 .f32) (main_arg2 : FVec F S512x256 .f32) (main_arg3 : FVec F S512x256 .f32) (main_arg7 : FVec F S512x256 .f32) (main_arg8 : FVec F S1x32768x256 .f32) (main_arg9 : FVec F S1x32768x256 .f32) (main_arg10 : FVec F S1x32768x256 .f32) (main_arg11 : FVec F S1x32768x256 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S1x32768x256 .f32 := Host.absf main_arg8
  let main_cst_14 : FVec F S_ .f32 := constant S_ .f32 0x7F800000#32
  let main_v40 : FVec F S1x32768x256 .f32 := broadcastInDim S1x32768x256 ![] bcast_S_S1x32768x256 main_cst_14
  let main_v41 : IVec S1x32768x256 1 := cmpf .olt main_v39 main_v40
  let main_c_15 : IVec S_ 1 := constantI S_ 1 1#1
  let main_v42 : IVec S_ 1 := (fun x v => Host.reduce IntOp.andi x v reducesTo_S1x32768x256_S_d0_1_2 h_S_) main_v41 main_c_15
  let main_v43 : IVec S_ 1 := andi main_v38 main_v42
  let main_v44 : FVec F S1x32768x256 .f32 := Host.absf main_arg9
  let main_cst_16 : FVec F S_ .f32 := constant S_ .f32 0x7F800000#32
  let main_v45 : FVec F S1x32768x256 .f32 := broadcastInDim S1x32768x256 ![] bcast_S_S1x32768x256 main_cst_16
  let main_v46 : IVec S1x32768x256 1 := cmpf .olt main_v44 main_v45
  let main_c_17 : IVec S_ 1 := constantI S_ 1 1#1
  let main_v47 : IVec S_ 1 := (fun x v => Host.reduce IntOp.andi x v reducesTo_S1x32768x256_S_d0_1_2 h_S_) main_v46 main_c_17
  let main_v48 : IVec S_ 1 := andi main_v43 main_v47
  let main_v49 : FVec F S1x32768x256 .f32 := Host.absf main_arg10
  let main_cst_18 : FVec F S_ .f32 := constant S_ .f32 0x7F800000#32
  let main_v50 : FVec F S1x32768x256 .f32 := broadcastInDim S1x32768x256 ![] bcast_S_S1x32768x256 main_cst_18
  fn_part3 (F := F) main_arg0 main_arg1 main_arg2 main_arg3 main_arg11 main_v48 main_v49 main_v50

def fn_part1 {F : FTy → Type} [FloatOps F] (main_arg0 : FVec F S512x256 .f32) (main_arg1 : FVec F S512x256 .f32) (main_arg2 : FVec F S512x256 .f32) (main_arg3 : FVec F S512x256 .f32) (main_arg4 : FVec F S512x256 .f32) (main_arg5 : FVec F S512x256 .f32) (main_arg6 : FVec F S512x256 .f32) (main_arg7 : FVec F S512x256 .f32) (main_arg8 : FVec F S1x32768x256 .f32) (main_arg9 : FVec F S1x32768x256 .f32) (main_arg10 : FVec F S1x32768x256 .f32) (main_arg11 : FVec F S1x32768x256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S512x256 .f32 := Host.absf main_arg6
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg0 main_arg1 main_arg2 main_arg3 main_arg7 main_arg8 main_arg9 main_arg10 main_arg11 main_v33

def fn {F : FTy → Type} [FloatOps F] (main_arg0 : FVec F S512x256 .f32) (main_arg1 : FVec F S512x256 .f32) (main_arg2 : FVec F S512x256 .f32) (main_arg3 : FVec F S512x256 .f32) (main_arg4 : FVec F S512x256 .f32) (main_arg5 : FVec F S512x256 .f32) (main_arg6 : FVec F S512x256 .f32) (main_arg7 : FVec F S512x256 .f32) (main_arg8 : FVec F S1x32768x256 .f32) (main_arg9 : FVec F S1x32768x256 .f32) (main_arg10 : FVec F S1x32768x256 .f32) (main_arg11 : FVec F S1x32768x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg0 main_arg1 main_arg2 main_arg3 main_arg4 main_arg5 main_arg6 main_arg7 main_arg8 main_arg9 main_arg10 main_arg11 main_v13 main_v16
-- ==== Kernel.lean ====
abbrev S512x256 : Shape := ⟨2, ![512, 256]⟩
abbrev S1x32768x256 : Shape := ⟨3, ![1, 32768, 256]⟩
abbrev S_ : Shape := ⟨0, ![]⟩
abbrev S512 : Shape := ⟨1, ![512]⟩
abbrev S512x1 : Shape := ⟨2, ![512, 1]⟩
abbrev S1x512x1 : Shape := ⟨3, ![1, 512, 1]⟩
abbrev S8x512x1 : Shape := ⟨3, ![8, 512, 1]⟩
abbrev S1x512x256 : Shape := ⟨3, ![1, 512, 256]⟩
abbrev S3x512x256 : Shape := ⟨3, ![3, 512, 256]⟩
abbrev S3x512x1 : Shape := ⟨3, ![3, 512, 1]⟩
abbrev S32768x256 : Shape := ⟨2, ![32768, 256]⟩
abbrev S3x512x32768 : Shape := ⟨3, ![3, 512, 32768]⟩
abbrev S2048x256 : Shape := ⟨2, ![2048, 256]⟩
abbrev S1x512x2048 : Shape := ⟨3, ![1, 512, 2048]⟩
abbrev S512x2048 : Shape := ⟨2, ![512, 2048]⟩
abbrev S1x512x32768 : Shape := ⟨3, ![1, 512, 32768]⟩
abbrev S512x32768 : Shape := ⟨2, ![512, 32768]⟩
abbrev S2x512x256 : Shape := ⟨3, ![2, 512, 256]⟩
abbrev S2x512x1 : Shape := ⟨3, ![2, 512, 1]⟩
abbrev S2x512x32768 : Shape := ⟨3, ![2, 512, 32768]⟩
abbrev S8x512x32768 : Shape := ⟨3, ![8, 512, 32768]⟩
abbrev S8x512x32769 : Shape := ⟨3, ![8, 512, 32769]⟩
abbrev S1x32256x256 : Shape := ⟨3, ![1, 32256, 256]⟩
abbrev S1x1x32768x256 : Shape := ⟨4, ![1, 1, 32768, 256]⟩
abbrev S4x1x32768x256 : Shape := ⟨4, ![4, 1, 32768, 256]⟩

abbrev nBuf : Space → Nat
  | .hbm => 222
  | .vmem => 30
  | .smem => 0
  | _ => 0

abbrev hbmTy0_0 (i : Nat) : BufTy := match i % 128 with
  | 0 => ⟨S512x256, .f32⟩
  | 1 => ⟨S512x256, .f32⟩
  | 2 => ⟨S512x256, .f32⟩
  | 3 => ⟨S512x256, .f32⟩
  | 4 => ⟨S512x256, .f32⟩
  | 5 => ⟨S512x256, .f32⟩
  | 6 => ⟨S512x256, .f32⟩
  | 7 => ⟨S512x256, .f32⟩
  | 8 => ⟨S1x32768x256, .f32⟩
  | 9 => ⟨S1x32768x256, .f32⟩
  | 10 => ⟨S1x32768x256, .f32⟩
  | 11 => ⟨S1x32768x256, .f32⟩
  | 12 => ⟨S512x256, .f32⟩
  | 13 => ⟨S_, .f32⟩
  | 14 => ⟨S512, .f32⟩
  | 15 => ⟨S512x1, .f32⟩
  | 16 => ⟨S512x1, .f32⟩
  | 17 => ⟨S512x256, .f32⟩
  | 18 => ⟨S_, .f32⟩
  | 19 => ⟨S512, .f32⟩
  | 20 => ⟨S512x1, .f32⟩
  | 21 => ⟨S512x1, .f32⟩
  | 22 => ⟨S512x256, .f32⟩
  | 23 => ⟨S_, .f32⟩
  | 24 => ⟨S512, .f32⟩
  | 25 => ⟨S512x1, .f32⟩
  | 26 => ⟨S512x1, .f32⟩
  | 27 => ⟨S512x256, .f32⟩
  | 28 => ⟨S_, .f32⟩
  | 29 => ⟨S512, .f32⟩
  | 30 => ⟨S512x1, .f32⟩
  | 31 => ⟨S512x1, .f32⟩
  | 32 => ⟨S512x1, .f32⟩
  | 33 => ⟨S_, .f32⟩
  | 34 => ⟨S512x1, .f32⟩
  | 35 => ⟨S512x1, .f32⟩
  | 36 => ⟨S_, .f32⟩
  | 37 => ⟨S512x1, .f32⟩
  | 38 => ⟨S512x1, .f32⟩
  | 39 => ⟨S512x1, .f32⟩
  | 40 => ⟨S_, .f32⟩
  | 41 => ⟨S512x1, .f32⟩
  | 42 => ⟨S512x1, .f32⟩
  | 43 => ⟨S_, .f32⟩
  | 44 => ⟨S512x1, .f32⟩
  | 45 => ⟨S512x1, .f32⟩
  | 46 => ⟨S512x1, .f32⟩
  | 47 => ⟨S_, .f32⟩
  | 48 => ⟨S512x1, .f32⟩
  | 49 => ⟨S512x1, .f32⟩
  | 50 => ⟨S_, .f32⟩
  | 51 => ⟨S512x1, .f32⟩
  | 52 => ⟨S512x1, .f32⟩
  | 53 => ⟨S512x1, .f32⟩
  | 54 => ⟨S_, .f32⟩
  | 55 => ⟨S512x1, .f32⟩
  | 56 => ⟨S512x1, .f32⟩
  | 57 => ⟨S_, .f32⟩
  | 58 => ⟨S512x1, .f32⟩
  | 59 => ⟨S512x1, .f32⟩
  | 60 => ⟨S512x1, .f32⟩
  | 61 => ⟨S_, .f32⟩
  | 62 => ⟨S512x1, .f32⟩
  | 63 => ⟨S512x1, .f32⟩
  | 64 => ⟨S_, .f32⟩
  | 65 => ⟨S512x1, .f32⟩
  | 66 => ⟨S512x1, .f32⟩
  | 67 => ⟨S512x1, .f32⟩
  | 68 => ⟨S_, .f32⟩
  | 69 => ⟨S512x1, .f32⟩
  | 70 => ⟨S512x1, .f32⟩
  | 71 => ⟨S_, .f32⟩
  | 72 => ⟨S512x1, .f32⟩
  | 73 => ⟨S512x1, .f32⟩
  | 74 => ⟨S512x1, .f32⟩
  | 75 => ⟨S_, .f32⟩
  | 76 => ⟨S512x1, .f32⟩
  | 77 => ⟨S512x1, .f32⟩
  | 78 => ⟨S_, .f32⟩
  | 79 => ⟨S512x1, .f32⟩
  | 80 => ⟨S512x1, .f32⟩
  | 81 => ⟨S512x1, .f32⟩
  | 82 => ⟨S_, .f32⟩
  | 83 => ⟨S512x1, .f32⟩
  | 84 => ⟨S512x1, .f32⟩
  | 85 => ⟨S_, .f32⟩
  | 86 => ⟨S512x1, .f32⟩
  | 87 => ⟨S512x1, .f32⟩
  | 88 => ⟨S512x256, .f32⟩
  | 89 => ⟨S_, .f32⟩
  | 90 => ⟨S512, .f32⟩
  | 91 => ⟨S512x1, .f32⟩
  | 92 => ⟨S512x256, .f32⟩
  | 93 => ⟨S_, .f32⟩
  | 94 => ⟨S512, .f32⟩
  | 95 => ⟨S512x1, .f32⟩
  | 96 => ⟨S512x256, .f32⟩
  | 97 => ⟨S_, .f32⟩
  | 98 => ⟨S512, .f32⟩
  | 99 => ⟨S512x1, .f32⟩
  | 100 => ⟨S512x256, .f32⟩
  | 101 => ⟨S_, .f32⟩
  | 102 => ⟨S512, .f32⟩
  | 103 => ⟨S512x1, .f32⟩
  | 104 => ⟨S512x256, .f32⟩
  | 105 => ⟨S_, .f32⟩
  | 106 => ⟨S512, .f32⟩
  | 107 => ⟨S512x1, .f32⟩
  | 108 => ⟨S512x256, .f32⟩
  | 109 => ⟨S_, .f32⟩
  | 110 => ⟨S512, .f32⟩
  | 111 => ⟨S512x1, .f32⟩
  | 112 => ⟨S512x256, .f32⟩
  | 113 => ⟨S_, .f32⟩
  | 114 => ⟨S512, .f32⟩
  | 115 => ⟨S512x1, .f32⟩
  | 116 => ⟨S512x256, .f32⟩
  | 117 => ⟨S_, .f32⟩
  | 118 => ⟨S512, .f32⟩
  | 119 => ⟨S512x1, .f32⟩
  | 120 => ⟨S512x1, .f32⟩
  | 121 => ⟨S512x1, .f32⟩
  | 122 => ⟨S512x1, .f32⟩
  | 123 => ⟨S512x1, .f32⟩
  | 124 => ⟨S512x1, .f32⟩
  | 125 => ⟨S512x1, .f32⟩
  | 126 => ⟨S512x1, .f32⟩
  | 127 => ⟨S512x1, .f32⟩
  | _ => ⟨S512x256, .f32⟩

abbrev hbmTy0_1 (i : Nat) : BufTy := match i % 128 with
  | 0 => ⟨S512x1, .f32⟩
  | 1 => ⟨S512x1, .f32⟩
  | 2 => ⟨S512x1, .f32⟩
  | 3 => ⟨S512x1, .f32⟩
  | 4 => ⟨S512x1, .f32⟩
  | 5 => ⟨S512x1, .f32⟩
  | 6 => ⟨S512x1, .f32⟩
  | 7 => ⟨S512x1, .f32⟩
  | 8 => ⟨S1x512x1, .f32⟩
  | 9 => ⟨S1x512x1, .f32⟩
  | 10 => ⟨S1x512x1, .f32⟩
  | 11 => ⟨S1x512x1, .f32⟩
  | 12 => ⟨S1x512x1, .f32⟩
  | 13 => ⟨S1x512x1, .f32⟩
  | 14 => ⟨S1x512x1, .f32⟩
  | 15 => ⟨S1x512x1, .f32⟩
  | 16 => ⟨S8x512x1, .f32⟩
  | 17 => ⟨S8x512x1, .f32⟩
  | 18 => ⟨S1x512x256, .f32⟩
  | 19 => ⟨S1x512x256, .f32⟩
  | 20 => ⟨S1x512x256, .f32⟩
  | 21 => ⟨S3x512x256, .f32⟩
  | 22 => ⟨S1x512x1, .f32⟩
  | 23 => ⟨S1x512x1, .f32⟩
  | 24 => ⟨S1x512x1, .f32⟩
  | 25 => ⟨S3x512x1, .f32⟩
  | 26 => ⟨S32768x256, .f32⟩
  | 27 => ⟨S3x512x32768, .f32⟩
  | 28 => ⟨S3x512x32768, .f32⟩
  | 29 => ⟨S1x512x32768, .f32⟩
  | 30 => ⟨S512x32768, .f32⟩
  | 31 => ⟨S1x512x32768, .f32⟩
  | 32 => ⟨S512x32768, .f32⟩
  | 33 => ⟨S1x512x32768, .f32⟩
  | 34 => ⟨S512x32768, .f32⟩
  | 35 => ⟨S1x512x256, .f32⟩
  | 36 => ⟨S1x512x256, .f32⟩
  | 37 => ⟨S2x512x256, .f32⟩
  | 38 => ⟨S1x512x1, .f32⟩
  | 39 => ⟨S1x512x1, .f32⟩
  | 40 => ⟨S2x512x1, .f32⟩
  | 41 => ⟨S32768x256, .f32⟩
  | 42 => ⟨S2x512x32768, .f32⟩
  | 43 => ⟨S2x512x32768, .f32⟩
  | 44 => ⟨S1x512x32768, .f32⟩
  | 45 => ⟨S512x32768, .f32⟩
  | 46 => ⟨S1x512x32768, .f32⟩
  | 47 => ⟨S512x32768, .f32⟩
  | 48 => ⟨S1x512x256, .f32⟩
  | 49 => ⟨S1x512x256, .f32⟩
  | 50 => ⟨S2x512x256, .f32⟩
  | 51 => ⟨S1x512x1, .f32⟩
  | 52 => ⟨S1x512x1, .f32⟩
  | 53 => ⟨S2x512x1, .f32⟩
  | 54 => ⟨S32768x256, .f32⟩
  | 55 => ⟨S2x512x32768, .f32⟩
  | 56 => ⟨S2x512x32768, .f32⟩
  | 57 => ⟨S1x512x32768, .f32⟩
  | 58 => ⟨S512x32768, .f32⟩
  | 59 => ⟨S1x512x32768, .f32⟩
  | 60 => ⟨S512x32768, .f32⟩
  | 61 => ⟨S1x512x256, .f32⟩
  | 62 => ⟨S1x512x1, .f32⟩
  | 63 => ⟨S32768x256, .f32⟩
  | 64 => ⟨S1x512x32768, .f32⟩
  | 65 => ⟨S1x512x32768, .f32⟩
  | 66 => ⟨S512x32768, .f32⟩
  | 67 => ⟨S1x512x32768, .f32⟩
  | 68 => ⟨S1x512x32768, .f32⟩
  | 69 => ⟨S1x512x32768, .f32⟩
  | 70 => ⟨S1x512x32768, .f32⟩
  | 71 => ⟨S1x512x32768, .f32⟩
  | 72 => ⟨S1x512x32768, .f32⟩
  | 73 => ⟨S1x512x32768, .f32⟩
  | 74 => ⟨S1x512x32768, .f32⟩
  | 75 => ⟨S8x512x32768, .f32⟩
  | 76 => ⟨S8x512x32769, .f32⟩
  | 77 => ⟨S1x32256x256, .f32⟩
  | 78 => ⟨S1x512x256, .f32⟩
  | 79 => ⟨S1x32768x256, .f32⟩
  | 80 => ⟨S1x32256x256, .f32⟩
  | 81 => ⟨S1x512x256, .f32⟩
  | 82 => ⟨S1x32768x256, .f32⟩
  | 83 => ⟨S1x32256x256, .f32⟩
  | 84 => ⟨S1x512x256, .f32⟩
  | 85 => ⟨S1x32768x256, .f32⟩
  | 86 => ⟨S1x32256x256, .f32⟩
  | 87 => ⟨S1x512x256, .f32⟩
  | 88 => ⟨S1x32768x256, .f32⟩
  | 89 => ⟨S1x1x32768x256, .f32⟩
  | 90 => ⟨S1x1x32768x256, .f32⟩
  | 91 => ⟨S1x1x32768x256, .f32⟩
  | 92 => ⟨S1x1x32768x256, .f32⟩
  | 93 => ⟨S4x1x32768x256, .f32⟩
  | _ => ⟨S512x256, .f32⟩

abbrev hbmTy (i : Nat) : BufTy := match i / 128 with
  | 0 => hbmTy0_0 i
  | 1 => hbmTy0_1 i
  | _ => ⟨S512x256, .f32⟩

abbrev bufTy : (tb : Table) → Fin (tcTables nBuf tb) → BufTy
  | .hbm, ⟨i, _⟩ => hbmTy i
  | .local _ .vmem, ⟨0, _⟩ => ⟨S1x512x256, .f32⟩
  | .local _ .vmem, ⟨1, _⟩ => ⟨S1x512x256, .f32⟩
  | .local _ .vmem, ⟨2, _⟩ => ⟨S2048x256, .f32⟩
  | .local _ .vmem, ⟨3, _⟩ => ⟨S2048x256, .f32⟩
  | .local _ .vmem, ⟨4, _⟩ => ⟨S1x512x1, .f32⟩
  | .local _ .vmem, ⟨5, _⟩ => ⟨S1x512x1, .f32⟩
  | .local _ .vmem, ⟨6, _⟩ => ⟨S1x512x2048, .f32⟩
  | .local _ .vmem, ⟨7, _⟩ => ⟨S1x512x2048, .f32⟩
  | .local _ .vmem, ⟨8, _⟩ => ⟨S1x512x256, .f32⟩
  | .local _ .vmem, ⟨9, _⟩ => ⟨S1x512x256, .f32⟩
  | .local _ .vmem, ⟨10, _⟩ => ⟨S2048x256, .f32⟩
  | .local _ .vmem, ⟨11, _⟩ => ⟨S2048x256, .f32⟩
  | .local _ .vmem, ⟨12, _⟩ => ⟨S1x512x1, .f32⟩
  | .local _ .vmem, ⟨13, _⟩ => ⟨S1x512x1, .f32⟩
  | .local _ .vmem, ⟨14, _⟩ => ⟨S1x512x2048, .f32⟩
  | .local _ .vmem, ⟨15, _⟩ => ⟨S1x512x2048, .f32⟩
  | .local _ .vmem, ⟨16, _⟩ => ⟨S1x512x256, .f32⟩
  | .local _ .vmem, ⟨17, _⟩ => ⟨S1x512x256, .f32⟩
  | .local _ .vmem, ⟨18, _⟩ => ⟨S2048x256, .f32⟩
  | .local _ .vmem, ⟨19, _⟩ => ⟨S2048x256, .f32⟩
  | .local _ .vmem, ⟨20, _⟩ => ⟨S1x512x1, .f32⟩
  | .local _ .vmem, ⟨21, _⟩ => ⟨S1x512x1, .f32⟩
  | .local _ .vmem, ⟨22, _⟩ => ⟨S1x512x2048, .f32⟩
  | .local _ .vmem, ⟨23, _⟩ => ⟨S1x512x2048, .f32⟩
  | .local _ .vmem, ⟨24, _⟩ => ⟨S1x512x256, .f32⟩
  | .local _ .vmem, ⟨25, _⟩ => ⟨S2048x256, .f32⟩
  | .local _ .vmem, ⟨26, _⟩ => ⟨S2048x256, .f32⟩
  | .local _ .vmem, ⟨27, _⟩ => ⟨S1x512x1, .f32⟩
  | .local _ .vmem, ⟨28, _⟩ => ⟨S1x512x2048, .f32⟩
  | .local _ .vmem, ⟨29, _⟩ => ⟨S1x512x2048, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v0 : Ref sig .tc := ⟨.hbm, 16, rfl⟩
abbrev main_call1_v0 : Ref sig .tc := ⟨.hbm, 17, rfl⟩
abbrev main_call1_cst : Ref sig .tc := ⟨.hbm, 18, rfl⟩
abbrev main_call1_v1 : Ref sig .tc := ⟨.hbm, 19, rfl⟩
abbrev main_call1_v2 : Ref sig .tc := ⟨.hbm, 20, rfl⟩
abbrev main_v1 : Ref sig .tc := ⟨.hbm, 21, rfl⟩
abbrev main_call2_v0 : Ref sig .tc := ⟨.hbm, 22, rfl⟩
abbrev main_call2_cst : Ref sig .tc := ⟨.hbm, 23, rfl⟩
abbrev main_call2_v1 : Ref sig .tc := ⟨.hbm, 24, rfl⟩
abbrev main_call2_v2 : Ref sig .tc := ⟨.hbm, 25, rfl⟩
abbrev main_v2 : Ref sig .tc := ⟨.hbm, 26, rfl⟩
abbrev main_call3_v0 : Ref sig .tc := ⟨.hbm, 27, rfl⟩
abbrev main_call3_cst : Ref sig .tc := ⟨.hbm, 28, rfl⟩
abbrev main_call3_v1 : Ref sig .tc := ⟨.hbm, 29, rfl⟩
abbrev main_call3_v2 : Ref sig .tc := ⟨.hbm, 30, rfl⟩
abbrev main_v3 : Ref sig .tc := ⟨.hbm, 31, rfl⟩
abbrev main_v4 : Ref sig .tc := ⟨.hbm, 32, rfl⟩
abbrev main_cst : Ref sig .tc := ⟨.hbm, 33, rfl⟩
abbrev main_v5 : Ref sig .tc := ⟨.hbm, 34, rfl⟩
abbrev main_v6 : Ref sig .tc := ⟨.hbm, 35, rfl⟩
abbrev main_cst_0 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_cst_1 : Ref sig .tc := ⟨.hbm, 40, rfl⟩
abbrev main_v10 : Ref sig .tc := ⟨.hbm, 41, rfl⟩
abbrev main_v11 : Ref sig .tc := ⟨.hbm, 42, rfl⟩
abbrev main_cst_2 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_cst_3 : Ref sig .tc := ⟨.hbm, 47, rfl⟩
abbrev main_v15 : Ref sig .tc := ⟨.hbm, 48, rfl⟩
abbrev main_v16 : Ref sig .tc := ⟨.hbm, 49, rfl⟩
abbrev main_cst_4 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_cst_5 : Ref sig .tc := ⟨.hbm, 54, rfl⟩
abbrev main_v20 : Ref sig .tc := ⟨.hbm, 55, rfl⟩
abbrev main_v21 : Ref sig .tc := ⟨.hbm, 56, rfl⟩
abbrev main_cst_6 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_cst_7 : Ref sig .tc := ⟨.hbm, 61, rfl⟩
abbrev main_v25 : Ref sig .tc := ⟨.hbm, 62, rfl⟩
abbrev main_v26 : Ref sig .tc := ⟨.hbm, 63, rfl⟩
abbrev main_cst_8 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_cst_9 : Ref sig .tc := ⟨.hbm, 68, rfl⟩
abbrev main_v30 : Ref sig .tc := ⟨.hbm, 69, rfl⟩
abbrev main_v31 : Ref sig .tc := ⟨.hbm, 70, rfl⟩
abbrev main_cst_10 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_cst_11 : Ref sig .tc := ⟨.hbm, 75, rfl⟩
abbrev main_v35 : Ref sig .tc := ⟨.hbm, 76, rfl⟩
abbrev main_v36 : Ref sig .tc := ⟨.hbm, 77, rfl⟩
abbrev main_cst_12 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_cst_13 : Ref sig .tc := ⟨.hbm, 82, rfl⟩
abbrev main_v40 : Ref sig .tc := ⟨.hbm, 83, rfl⟩
abbrev main_v41 : Ref sig .tc := ⟨.hbm, 84, rfl⟩
abbrev main_cst_14 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_cst_15 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_cst_16 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_cst_17 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_cst_18 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_cst_19 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_cst_20 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_cst_21 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_cst_22 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨2, ![16, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![16, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage1_0 : Fin 2 → Memref sig .tc .vmem S1x512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![16, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage2_0 : Fin 2 → Memref sig .tc .vmem S1x512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x512x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![16, 1], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage3_0 : Fin 1 → Memref sig .tc .vmem S1x512x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, true]

abbrev stage3_1 : Fin 2 → Memref sig .tc .vmem S2048x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 1 → Memref sig .tc .vmem S1x512x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, true]

abbrev stage3_3 : Fin 2 → Memref sig .tc .vmem S1x512x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

class Facts₀ : Prop where
  reducesTo_S512x256_S512_d1 : S512x256.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S1x512x1_1_2 : S512x1.BroadcastsInDim S1x512x1 (![1, 2] : Fin 2 → Fin S1x512x1.rank)
  concatenates_S1x512x1_S1x512x1_S1x512x1_S1x512x1_S1x512x1_S1x512x1_S1x512x1_S1x512x1_S8x512x1_d0 : Shape.Concatenates [S1x512x1, S1x512x1, S1x512x1, S1x512x1, S1x512x1, S1x512x1, S1x512x1, S1x512x1] S8x512x1 0
  bcast_S512x256_S1x512x256_1_2 : S512x256.BroadcastsInDim S1x512x256 (![1, 2] : Fin 2 → Fin S1x512x256.rank)
  concatenates_S1x512x256_S1x512x256_S1x512x256_S3x512x256_d0 : Shape.Concatenates [S1x512x256, S1x512x256, S1x512x256] S3x512x256 0
  concatenates_S1x512x1_S1x512x1_S1x512x1_S3x512x1_d0 : Shape.Concatenates [S1x512x1, S1x512x1, S1x512x1] S3x512x1 0
  shapeCasts_S1x32768x256_S32768x256 : S1x32768x256.ShapeCasts S32768x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  slices_S3x512x32768_S1x512x32768_0_0_0 : S3x512x32768.Slices ![0, 0, 0] S1x512x32768
  shapeCasts_S1x512x32768_S512x32768 : S1x512x32768.ShapeCasts S512x32768
  slices_S3x512x32768_S1x512x32768_1_0_0 : S3x512x32768.Slices ![1, 0, 0] S1x512x32768
  slices_S3x512x32768_S1x512x32768_2_0_0 : S3x512x32768.Slices ![2, 0, 0] S1x512x32768
  concatenates_S1x512x256_S1x512x256_S2x512x256_d0 : Shape.Concatenates [S1x512x256, S1x512x256] S2x512x256 0
  concatenates_S1x512x1_S1x512x1_S2x512x1_d0 : Shape.Concatenates [S1x512x1, S1x512x1] S2x512x1 0
  slices_S2x512x32768_S1x512x32768_0_0_0 : S2x512x32768.Slices ![0, 0, 0] S1x512x32768
  slices_S2x512x32768_S1x512x32768_1_0_0 : S2x512x32768.Slices ![1, 0, 0] S1x512x32768
  bcast_S512x32768_S1x512x32768_1_2 : S512x32768.BroadcastsInDim S1x512x32768 (![1, 2] : Fin 2 → Fin S1x512x32768.rank)
  concatenates_S1x512x32768_S1x512x32768_S1x512x32768_S1x512x32768_S1x512x32768_S1x512x32768_S1x512x32768_S1x512x32768_S8x512x32768_d0 : Shape.Concatenates [S1x512x32768, S1x512x32768, S1x512x32768, S1x512x32768, S1x512x32768, S1x512x32768, S1x512x32768, S1x512x32768] S8x512x32768 0
  concatenates_S8x512x1_S8x512x32768_S8x512x32769_d2 : Shape.Concatenates [S8x512x1, S8x512x32768] S8x512x32769 2
  slices_S1x32768x256_S1x32256x256_0_512_0 : S1x32768x256.Slices ![0, 512, 0] S1x32256x256
  concatenates_S1x32256x256_S1x512x256_S1x32768x256_d1 : Shape.Concatenates [S1x32256x256, S1x512x256] S1x32768x256 1
  bcast_S1x32768x256_S1x1x32768x256_1_2_3 : S1x32768x256.BroadcastsInDim S1x1x32768x256 (![1, 2, 3] : Fin 3 → Fin S1x1x32768x256.rank)
  concatenates_S1x1x32768x256_S1x1x32768x256_S1x1x32768x256_S1x1x32768x256_S4x1x32768x256_d0 : Shape.Concatenates [S1x1x32768x256, S1x1x32768x256, S1x1x32768x256, S1x1x32768x256] S4x1x32768x256 0
  dot_S512x256_S2048x256_S512x2048_1_1_0_0_n_n_wf : DotDims.WF S512x256 S2048x256 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S3x512x256.size a
  hwx0_0 : ∀ i : grid0.Coords, EltTy.bits .f32 = 32 ∨ (Rect.block (s := S3x512x256) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S32768x256.size a
  hwx0_1 : ∀ i : grid0.Coords, EltTy.bits .f32 = 32 ∨ (Rect.block (s := S32768x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S3x512x1.size a
  hwx0_2 : ∀ i : grid0.Coords, EltTy.bits .f32 = 32 ∨ (Rect.block (s := S3x512x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S3x512x32768.size a
  hwx0_3 : ∀ i : grid0.Coords, EltTy.bits .f32 = 32 ∨ (Rect.block (s := S3x512x32768) S1x512x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x256.size a ≤ S2x512x256.size a
  hwx1_0 : ∀ i : grid1.Coords, EltTy.bits .f32 = 32 ∨ (Rect.block (s := S2x512x256) S1x512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S32768x256.size a
  hwx1_1 : ∀ i : grid1.Coords, EltTy.bits .f32 = 32 ∨ (Rect.block (s := S32768x256) S2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1.size a ≤ S2x512x1.size a
  hwx1_2 : ∀ i : grid1.Coords, EltTy.bits .f32 = 32 ∨ (Rect.block (s := S2x512x1) S1x512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x2048.size a ≤ S2x512x32768.size a
  hwx1_3 : ∀ i : grid1.Coords, EltTy.bits .f32 = 32 ∨ (Rect.block (s := S2x512x32768) S1x512x2048.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x256.size a ≤ S2x512x256.size a
  hwx2_0 : ∀ i : grid2.Coords, EltTy.bits .f32 = 32 ∨ (Rect.block (s := S2x512x256) S1x512x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S32768x256.size a
  hwx2_1 : ∀ i : grid2.Coords, EltTy.bits .f32 = 32 ∨ (Rect.block (s := S32768x256) S2048x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512x1.size a ≤ S2x512x1.size a
  hwx2_2 : ∀ i : grid2.Coords, EltTy.bits .f32 = 32 ∨ (Rect.block (s := S2x512x1) S1x512x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x2048.size a ≤ S2x512x32768.size a
  hwx2_3 : ∀ i : grid2.Coords, EltTy.bits .f32 = 32 ∨ (Rect.block (s := S2x512x32768) S1x512x2048.size (cc2_transform_3 i) (hinb2_3 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S1x512x256.size a ≤ S1x512x256.size a
  hwx3_0 : ∀ i : grid3.Coords, EltTy.bits .f32 = 32 ∨ (Rect.block (s := S1x512x256) S1x512x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x256.size a ≤ S32768x256.size a
  hwx3_1 : ∀ i : grid3.Coords, EltTy.bits .f32 = 32 ∨ (Rect.block (s := S32768x256) S2048x256.size (cc3_transform_1 i) (hinb3_1 i)).WholeWords (EltTy.packing .f32)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S1x512x1.size a ≤ S1x512x1.size a
  hwx3_2 : ∀ i : grid3.Coords, EltTy.bits .f32 = 32 ∨ (Rect.block (s := S1x512x1) S1x512x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x512x2048.size a ≤ S1x512x32768.size a
  hwx3_3 : ∀ i : grid3.Coords, EltTy.bits .f32 = 32 ∨ (Rect.block (s := S1x512x32768) S1x512x2048.size (cc3_transform_3 i) (hinb3_3 i)).WholeWords (EltTy.packing .f32)

variable [Facts₀]

def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf

abbrev win0_0 : Pipeline.Window sig grid0 :=
  Pipeline.Window.ofSpec (Memref.whole main_v97) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v102) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v101) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v103) S1x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v113) S1x512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v117) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v116) S1x512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v118) S1x512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v126) S1x512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v130) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v129) S1x512x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v131) S1x512x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v137) S1x512x256.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_v139) S2048x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v138) S1x512x1.size cc3_transform_2 reads3_2 false false 1 stage3_2 sem3_2
    hrank3 hreads3_2 hinb3_2 nbuf3_2 (Memref.isWhole_whole _) hwx3_2 hstage3_2

abbrev win3_3 : Pipeline.Window sig grid3 :=
  Pipeline.Window.ofSpec (Memref.whole main_v140) S1x512x2048.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S512x256 : Shape := ⟨2, ![512, 256]⟩
abbrev S1x32768x256 : Shape := ⟨3, ![1, 32768, 256]⟩
abbrev S_ : Shape := ⟨0, ![]⟩
abbrev S512 : Shape := ⟨1, ![512]⟩
abbrev S512x1 : Shape := ⟨2, ![512, 1]⟩
abbrev S32768x256 : Shape := ⟨2, ![32768, 256]⟩
abbrev S512x32768 : Shape := ⟨2, ![512, 32768]⟩
abbrev S512x32769 : Shape := ⟨2, ![512, 32769]⟩
abbrev S1x32256x256 : Shape := ⟨3, ![1, 32256, 256]⟩
abbrev S1x512x256 : Shape := ⟨3, ![1, 512, 256]⟩
abbrev S1x512x32769 : Shape := ⟨3, ![1, 512, 32769]⟩
abbrev S8x512x32769 : Shape := ⟨3, ![8, 512, 32769]⟩
abbrev S1x1x32768x256 : Shape := ⟨4, ![1, 1, 32768, 256]⟩
abbrev S4x1x32768x256 : Shape := ⟨4, ![4, 1, 32768, 256]⟩

abbrev nBuf : Space → Nat
  | .hbm => 170
  | .vmem => 0
  | .smem => 0
  | _ => 0

abbrev hbmTy0_0 (i : Nat) : BufTy := match i % 128 with
  | 0 => ⟨S512x256, .f32⟩
  | 1 => ⟨S512x256, .f32⟩
  | 2 => ⟨S512x256, .f32⟩
  | 3 => ⟨S512x256, .f32⟩
  | 4 => ⟨S512x256, .f32⟩
  | 5 => ⟨S512x256, .f32⟩
  | 6 => ⟨S512x256, .f32⟩
  | 7 => ⟨S512x256, .f32⟩
  | 8 => ⟨S1x32768x256, .f32⟩
  | 9 => ⟨S1x32768x256, .f32⟩
  | 10 => ⟨S1x32768x256, .f32⟩
  | 11 => ⟨S1x32768x256, .f32⟩
  | 12 => ⟨S512x256, .f32⟩
  | 13 => ⟨S_, .f32⟩
  | 14 => ⟨S512, .f32⟩
  | 15 => ⟨S512x1, .f32⟩
  | 16 => ⟨S512x1, .f32⟩
  | 17 => ⟨S512x256, .f32⟩
  | 18 => ⟨S_, .f32⟩
  | 19 => ⟨S512, .f32⟩
  | 20 => ⟨S512x1, .f32⟩
  | 21 => ⟨S512x1, .f32⟩
  | 22 => ⟨S512x256, .f32⟩
  | 23 => ⟨S_, .f32⟩
  | 24 => ⟨S512, .f32⟩
  | 25 => ⟨S512x1, .f32⟩
  | 26 => ⟨S512x1, .f32⟩
  | 27 => ⟨S512x256, .f32⟩
  | 28 => ⟨S_, .f32⟩
  | 29 => ⟨S512, .f32⟩
  | 30 => ⟨S512x1, .f32⟩
  | 31 => ⟨S512x1, .f32⟩
  | 32 => ⟨S512x256, .f32⟩
  | 33 => ⟨S_, .f32⟩
  | 34 => ⟨S512, .f32⟩
  | 35 => ⟨S512x1, .f32⟩
  | 36 => ⟨S32768x256, .f32⟩
  | 37 => ⟨S512x32768, .f32⟩
  | 38 => ⟨S512x32769, .f32⟩
  | 39 => ⟨S512x1, .f32⟩
  | 40 => ⟨S512x32769, .f32⟩
  | 41 => ⟨S512x32769, .f32⟩
  | 42 => ⟨S_, .f32⟩
  | 43 => ⟨S512x32769, .f32⟩
  | 44 => ⟨S512x32769, .f32⟩
  | 45 => ⟨S512x32769, .f32⟩
  | 46 => ⟨S512x256, .f32⟩
  | 47 => ⟨S_, .f32⟩
  | 48 => ⟨S512, .f32⟩
  | 49 => ⟨S512x1, .f32⟩
  | 50 => ⟨S32768x256, .f32⟩
  | 51 => ⟨S512x32768, .f32⟩
  | 52 => ⟨S512x32769, .f32⟩
  | 53 => ⟨S512x1, .f32⟩
  | 54 => ⟨S512x32769, .f32⟩
  | 55 => ⟨S512x32769, .f32⟩
  | 56 => ⟨S_, .f32⟩
  | 57 => ⟨S512x32769, .f32⟩
  | 58 => ⟨S512x32769, .f32⟩
  | 59 => ⟨S512x32769, .f32⟩
  | 60 => ⟨S512x256, .f32⟩
  | 61 => ⟨S_, .f32⟩
  | 62 => ⟨S512, .f32⟩
  | 63 => ⟨S512x1, .f32⟩
  | 64 => ⟨S32768x256, .f32⟩
  | 65 => ⟨S512x32768, .f32⟩
  | 66 => ⟨S512x32769, .f32⟩
  | 67 => ⟨S512x1, .f32⟩
  | 68 => ⟨S512x32769, .f32⟩
  | 69 => ⟨S512x32769, .f32⟩
  | 70 => ⟨S_, .f32⟩
  | 71 => ⟨S512x32769, .f32⟩
  | 72 => ⟨S512x32769, .f32⟩
  | 73 => ⟨S512x32769, .f32⟩
  | 74 => ⟨S512x256, .f32⟩
  | 75 => ⟨S_, .f32⟩
  | 76 => ⟨S512, .f32⟩
  | 77 => ⟨S512x1, .f32⟩
  | 78 => ⟨S32768x256, .f32⟩
  | 79 => ⟨S512x32768, .f32⟩
  | 80 => ⟨S512x32769, .f32⟩
  | 81 => ⟨S512x1, .f32⟩
  | 82 => ⟨S512x32769, .f32⟩
  | 83 => ⟨S512x32769, .f32⟩
  | 84 => ⟨S_, .f32⟩
  | 85 => ⟨S512x32769, .f32⟩
  | 86 => ⟨S512x32769, .f32⟩
  | 87 => ⟨S512x32769, .f32⟩
  | 88 => ⟨S512x256, .f32⟩
  | 89 => ⟨S_, .f32⟩
  | 90 => ⟨S512, .f32⟩
  | 91 => ⟨S512x1, .f32⟩
  | 92 => ⟨S32768x256, .f32⟩
  | 93 => ⟨S512x32768, .f32⟩
  | 94 => ⟨S512x32769, .f32⟩
  | 95 => ⟨S512x1, .f32⟩
  | 96 => ⟨S512x32769, .f32⟩
  | 97 => ⟨S512x32769, .f32⟩
  | 98 => ⟨S_, .f32⟩
  | 99 => ⟨S512x32769, .f32⟩
  | 100 => ⟨S512x32769, .f32⟩
  | 101 => ⟨S512x32769, .f32⟩
  | 102 => ⟨S512x256, .f32⟩
  | 103 => ⟨S_, .f32⟩
  | 104 => ⟨S512, .f32⟩
  | 105 => ⟨S512x1, .f32⟩
  | 106 => ⟨S32768x256, .f32⟩
  | 107 => ⟨S512x32768, .f32⟩
  | 108 => ⟨S512x32769, .f32⟩
  | 109 => ⟨S512x1, .f32⟩
  | 110 => ⟨S512x32769, .f32⟩
  | 111 => ⟨S512x32769, .f32⟩
  | 112 => ⟨S_, .f32⟩
  | 113 => ⟨S512x32769, .f32⟩
  | 114 => ⟨S512x32769, .f32⟩
  | 115 => ⟨S512x32769, .f32⟩
  | 116 => ⟨S512x256, .f32⟩
  | 117 => ⟨S_, .f32⟩
  | 118 => ⟨S512, .f32⟩
  | 119 => ⟨S512x1, .f32⟩
  | 120 => ⟨S32768x256, .f32⟩
  | 121 => ⟨S512x32768, .f32⟩
  | 122 => ⟨S512x32769, .f32⟩
  | 123 => ⟨S512x1, .f32⟩
  | 124 => ⟨S512x32769, .f32⟩
  | 125 => ⟨S512x32769, .f32⟩
  | 126 => ⟨S_, .f32⟩
  | 127 => ⟨S512x32769, .f32⟩
  | _ => ⟨S512x256, .f32⟩

abbrev hbmTy0_1 (i : Nat) : BufTy := match i % 128 with
  | 0 => ⟨S512x32769, .f32⟩
  | 1 => ⟨S512x32769, .f32⟩
  | 2 => ⟨S512x256, .f32⟩
  | 3 => ⟨S_, .f32⟩
  | 4 => ⟨S512, .f32⟩
  | 5 => ⟨S512x1, .f32⟩
  | 6 => ⟨S32768x256, .f32⟩
  | 7 => ⟨S512x32768, .f32⟩
  | 8 => ⟨S512x32769, .f32⟩
  | 9 => ⟨S512x1, .f32⟩
  | 10 => ⟨S512x32769, .f32⟩
  | 11 => ⟨S512x32769, .f32⟩
  | 12 => ⟨S_, .f32⟩
  | 13 => ⟨S512x32769, .f32⟩
  | 14 => ⟨S512x32769, .f32⟩
  | 15 => ⟨S512x32769, .f32⟩
  | 16 => ⟨S1x32256x256, .f32⟩
  | 17 => ⟨S1x512x256, .f32⟩
  | 18 => ⟨S1x32768x256, .f32⟩
  | 19 => ⟨S1x32256x256, .f32⟩
  | 20 => ⟨S1x512x256, .f32⟩
  | 21 => ⟨S1x32768x256, .f32⟩
  | 22 => ⟨S1x32256x256, .f32⟩
  | 23 => ⟨S1x512x256, .f32⟩
  | 24 => ⟨S1x32768x256, .f32⟩
  | 25 => ⟨S1x32256x256, .f32⟩
  | 26 => ⟨S1x512x256, .f32⟩
  | 27 => ⟨S1x32768x256, .f32⟩
  | 28 => ⟨S1x512x32769, .f32⟩
  | 29 => ⟨S1x512x32769, .f32⟩
  | 30 => ⟨S1x512x32769, .f32⟩
  | 31 => ⟨S1x512x32769, .f32⟩
  | 32 => ⟨S1x512x32769, .f32⟩
  | 33 => ⟨S1x512x32769, .f32⟩
  | 34 => ⟨S1x512x32769, .f32⟩
  | 35 => ⟨S1x512x32769, .f32⟩
  | 36 => ⟨S8x512x32769, .f32⟩
  | 37 => ⟨S1x1x32768x256, .f32⟩
  | 38 => ⟨S1x1x32768x256, .f32⟩
  | 39 => ⟨S1x1x32768x256, .f32⟩
  | 40 => ⟨S1x1x32768x256, .f32⟩
  | 41 => ⟨S4x1x32768x256, .f32⟩
  | _ => ⟨S512x256, .f32⟩

abbrev hbmTy (i : Nat) : BufTy := match i / 128 with
  | 0 => hbmTy0_0 i
  | 1 => hbmTy0_1 i
  | _ => ⟨S512x256, .f32⟩

abbrev bufTy : (tb : Table) → Fin (tcTables nBuf tb) → BufTy
  | .hbm, ⟨i, _⟩ => hbmTy i
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v0 : Ref sig .tc := ⟨.hbm, 16, rfl⟩
abbrev main_call1_v0 : Ref sig .tc := ⟨.hbm, 17, rfl⟩
abbrev main_call1_cst : Ref sig .tc := ⟨.hbm, 18, rfl⟩
abbrev main_call1_v1 : Ref sig .tc := ⟨.hbm, 19, rfl⟩
abbrev main_call1_v2 : Ref sig .tc := ⟨.hbm, 20, rfl⟩
abbrev main_v1 : Ref sig .tc := ⟨.hbm, 21, rfl⟩
abbrev main_call2_v0 : Ref sig .tc := ⟨.hbm, 22, rfl⟩
abbrev main_call2_cst : Ref sig .tc := ⟨.hbm, 23, rfl⟩
abbrev main_call2_v1 : Ref sig .tc := ⟨.hbm, 24, rfl⟩
abbrev main_call2_v2 : Ref sig .tc := ⟨.hbm, 25, rfl⟩
abbrev main_v2 : Ref sig .tc := ⟨.hbm, 26, rfl⟩
abbrev main_call3_v0 : Ref sig .tc := ⟨.hbm, 27, rfl⟩
abbrev main_call3_cst : Ref sig .tc := ⟨.hbm, 28, rfl⟩
abbrev main_call3_v1 : Ref sig .tc := ⟨.hbm, 29, rfl⟩
abbrev main_call3_v2 : Ref sig .tc := ⟨.hbm, 30, rfl⟩
abbrev main_v3 : Ref sig .tc := ⟨.hbm, 31, rfl⟩
abbrev main_v4 : Ref sig .tc := ⟨.hbm, 32, rfl⟩
abbrev main_cst : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_cst_0 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_cst_1 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst_2 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_3 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_4 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_5 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_6 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_7 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_8 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_9 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_10 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_11 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_12 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_13 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_14 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩

abbrev nD : Nat := 1
abbrev τ : Topo := Topo.v7x

variable {F : FTy → Type} [FloatOps F]

class Facts₀ : Prop where
  reducesTo_S512x256_S512_d1 : S512x256.ReducesTo [1] S512
  h_S_ : 0 < S_.numel
  bcast_S512_S512x1_0 : S512.BroadcastsInDim S512x1 (![0] : Fin 1 → Fin S512x1.rank)
  shapeCasts_S1x32768x256_S32768x256 : S1x32768x256.ShapeCasts S32768x256
  concatenates_S512x1_S512x32768_S512x32769_d1 : Shape.Concatenates [S512x1, S512x32768] S512x32769 1
  bcast_S512x1_S512x32769_0_1 : S512x1.BroadcastsInDim S512x32769 (![0, 1] : Fin 2 → Fin S512x32769.rank)
  bcast_S_S512x32769 : S_.BroadcastsInDim S512x32769 (![] : Fin 0 → Fin S512x32769.rank)
  slices_S1x32768x256_S1x32256x256_0_512_0 : S1x32768x256.Slices ![0, 512, 0] S1x32256x256
  bcast_S512x256_S1x512x256_1_2 : S512x256.BroadcastsInDim S1x512x256 (![1, 2] : Fin 2 → Fin S1x512x256.rank)
  concatenates_S1x32256x256_S1x512x256_S1x32768x256_d1 : Shape.Concatenates [S1x32256x256, S1x512x256] S1x32768x256 1
  bcast_S512x32769_S1x512x32769_1_2 : S512x32769.BroadcastsInDim S1x512x32769 (![1, 2] : Fin 2 → Fin S1x512x32769.rank)
  concatenates_S1x512x32769_S1x512x32769_S1x512x32769_S1x512x32769_S1x512x32769_S1x512x32769_S1x512x32769_S1x512x32769_S8x512x32769_d0 : Shape.Concatenates [S1x512x32769, S1x512x32769, S1x512x32769, S1x512x32769, S1x512x32769, S1x512x32769, S1x512x32769, S1x512x32769] S8x512x32769 0
  bcast_S1x32768x256_S1x1x32768x256_1_2_3 : S1x32768x256.BroadcastsInDim S1x1x32768x256 (![1, 2, 3] : Fin 3 → Fin S1x1x32768x256.rank)
  concatenates_S1x1x32768x256_S1x1x32768x256_S1x1x32768x256_S1x1x32768x256_S4x1x32768x256_d0 : Shape.Concatenates [S1x1x32768x256, S1x1x32768x256, S1x1x32768x256, S1x1x32768x256] S4x1x32768x256 0
  dot_S512x256_S32768x256_S512x32768_1_1_0_0_n_n_wf : DotDims.WF S512x256 S32768x256 S512x32768 [1] [1] [0] [0] [] []

variable [Facts₀]

def dot_S512x256_S32768x256_S512x32768_1_1_0_0_n_n : DotDims S512x256 S32768x256 S512x32768 where
  lhsContracting := [1]
  rhsContracting := [1]
  lhsNonContracting := [0]
  rhsNonContracting := [0]
  lhsBatch := []
  rhsBatch := []
  wf := dot_S512x256_S32768x256_S512x32768_1_1_0_0_n_n_wf

class Facts : Prop extends Facts₀ where

variable [Facts]
-- ==== Proof.KbRegion0.lean ====
/-
  Region 0 of the program's four launches of one body: from a view block [1,512,256], a bank tile [2048,256] and a
  column of scales [1,512,1] the body stores exp((view · tileᵀ) · scale) into the output block [1,512,2048].
  Here: what each window's buffer holds around the body at a grid point, the body's run on whole buffers, and the
  obligation the launch asks of every point, for whatever the arrays hold when the region is entered.
-/
import proofs.«112372_j79972291051933_2_alg».proof.Proof.Gen.Kernel.Launch
import proofs.«112372_j79972291051933_2_alg».proof.Proof.Gen.Kernel.Skeleton
import proofs.«112372_j79972291051933_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: one launch of the matmul-scale-exp body over its grid, from the contents `V` it is entered with -/

section Region0
variable (V : (c : Dev nD) → (b : Ref sig .tc) → Buf (Elt F) ((c : Thread nD τ).loc b))

/-- Window `w`'s block at grid point `t`, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the block was fetched there or kept
    from the point before (its index has not moved then). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_x : Rect S1x512x256 := Rect.unit (s := S1x512x256) ![0, 0, 0] S1x512x256.size inb_S1x512x256_S1x512x256_0_0_0
abbrev r0_m : Rect S2048x256 := Rect.unit (s := S2048x256) ![0, 0] S2048x256.size inb_S2048x256_S2048x256_0_0
abbrev r0_s : Rect S1x512x1 := Rect.unit (s := S1x512x1) ![0, 0, 0] S1x512x1.size inb_S1x512x1_S1x512x1_0_0_0
abbrev r0_o : Rect S1x512x2048 := Rect.unit (s := S1x512x2048) ![0, 0, 0] S1x512x2048.size inb_S1x512x2048_S1x512x2048_0_0_0

/-- What the body leaves in the output window's buffer: its one store, of the product block scaled row by row and
    exponentiated, computed from the three input blocks. -/
def out0_3 (x0 : Vec F S1x512x256 .f32) (x1 : Vec F S2048x256 .f32) (x2 : Vec F S1x512x1 .f32) : Vec F S1x512x2048 .f32 :=
  View.canon [⟨r0_o, k0_pay1 (View.ld x0 r0_x) (View.ld x1 r0_m) (View.ld x2 r0_s)⟩]

/-- The one store covers the buffer. -/
theorem cover0_3 (p0 : Vec F S1x512x2048 .f32) (y : S1x512x2048.Idx) :
    ∃ pc ∈ ([⟨r0_o, p0⟩] : List (View.Piece (Elt F) S1x512x2048 .f32)), y ∈ pc.1.set :=
  View.cover_of_tiled [⟨r0_o, p0⟩] S1x512x2048.size (by rfl) y

set_option maxHeartbeats 4000000 in
/-- The body on whole staging buffers, the inputs at known contents and the output at anything, ends with the inputs
    as they were and the output at `out0_3` of them. -/
theorem sound_kernel0 (c : Dev nD) (E : Set ℕ) (i : grid0.Coords) (arg2 : Memref sig .tc .vmem S1x512x256 .f32) (harg2 : arg2.IsWhole) (arg3 : Memref sig .tc .vmem S2048x256 .f32) (harg3 : arg3.IsWhole) (arg4 : Memref sig .tc .vmem S1x512x1 .f32) (harg4 : arg4.IsWhole) (arg5 : Memref sig .tc .vmem S1x512x2048 .f32) (harg5 : arg5.IsWhole)
    (x0 : Vec F S1x512x256 .f32) (x1 : Vec F S2048x256 .f32) (x2 : Vec F S1x512x1 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__mem_exp_kernel i arg2 harg2 arg3 harg3 arg4 harg4 arg5 harg5) K := by
  simp only [cc0__mem_exp_kernel_eq_skeleton]; unfold cc0__mem_exp_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data: the arrays as the region finds them; after the body each input's buffer still at its
    block and the output's at `out0_3` of the input blocks; nothing owed, full shares, the untouched rest as invariant. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KbRegion1.lean ====
/-
  Region 1 of the program's four launches of one body: from a view block [1,512,256], a bank tile [2048,256] and a
  column of scales [1,512,1] the body stores exp((view · tileᵀ) · scale) into the output block [1,512,2048].
  Here: what each window's buffer holds around the body at a grid point, the body's run on whole buffers, and the
  obligation the launch asks of every point, for whatever the arrays hold when the region is entered.
-/
import proofs.«112372_j79972291051933_2_alg».proof.Proof.Gen.Kernel.Launch
import proofs.«112372_j79972291051933_2_alg».proof.Proof.Gen.Kernel.Skeleton
import proofs.«112372_j79972291051933_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: one launch of the matmul-scale-exp body over its grid, from the contents `V` it is entered with -/

section Region1
variable (V : (c : Dev nD) → (b : Ref sig .tc) → Buf (Elt F) ((c : Thread nD τ).loc b))

/-- Window `w`'s block at grid point `t`, cut out of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the block was fetched there or kept
    from the point before (its index has not moved then). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev r1_x : Rect S1x512x256 := Rect.unit (s := S1x512x256) ![0, 0, 0] S1x512x256.size inb_S1x512x256_S1x512x256_0_0_0
abbrev r1_m : Rect S2048x256 := Rect.unit (s := S2048x256) ![0, 0] S2048x256.size inb_S2048x256_S2048x256_0_0
abbrev r1_s : Rect S1x512x1 := Rect.unit (s := S1x512x1) ![0, 0, 0] S1x512x1.size inb_S1x512x1_S1x512x1_0_0_0
abbrev r1_o : Rect S1x512x2048 := Rect.unit (s := S1x512x2048) ![0, 0, 0] S1x512x2048.size inb_S1x512x2048_S1x512x2048_0_0_0

/-- What the body leaves in the output window's buffer: its one store, of the product block scaled row by row and
    exponentiated, computed from the three input blocks. -/
def out1_3 (x0 : Vec F S1x512x256 .f32) (x1 : Vec F S2048x256 .f32) (x2 : Vec F S1x512x1 .f32) : Vec F S1x512x2048 .f32 :=
  View.canon [⟨r1_o, k1_pay1 (View.ld x0 r1_x) (View.ld x1 r1_m) (View.ld x2 r1_s)⟩]

/-- The one store covers the buffer. -/
theorem cover1_3 (p0 : Vec F S1x512x2048 .f32) (y : S1x512x2048.Idx) :
    ∃ pc ∈ ([⟨r1_o, p0⟩] : List (View.Piece (Elt F) S1x512x2048 .f32)), y ∈ pc.1.set :=
  View.cover_of_tiled [⟨r1_o, p0⟩] S1x512x2048.size (by rfl) y

set_option maxHeartbeats 4000000 in
/-- The body on whole staging buffers, the inputs at known contents and the output at anything, ends with the inputs
    as they were and the output at `out1_3` of them. -/
theorem sound_kernel1 (c : Dev nD) (E : Set ℕ) (i : grid1.Coords) (arg2 : Memref sig .tc .vmem S1x512x256 .f32) (harg2 : arg2.IsWhole) (arg3 : Memref sig .tc .vmem S2048x256 .f32) (harg3 : arg3.IsWhole) (arg4 : Memref sig .tc .vmem S1x512x1 .f32) (harg4 : arg4.IsWhole) (arg5 : Memref sig .tc .vmem S1x512x2048 .f32) (harg5 : arg5.IsWhole)
    (x0 : Vec F S1x512x256 .f32) (x1 : Vec F S2048x256 .f32) (x2 : Vec F S1x512x1 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__mem_exp_kernel i arg2 harg2 arg3 harg3 arg4 harg4 arg5 harg5) K := by
  simp only [cc1__mem_exp_kernel_eq_skeleton]; unfold cc1__mem_exp_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The region's proof data: the arrays as the region finds them; after the body each input's buffer still at its
    block and the output's at `out1_3` of the input blocks; nothing owed, full shares, the untouched rest as invariant. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `sound_kernel1` applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KbRegion2.lean ====
/-
  Region 2 of the program's four launches of one body: from a view block [1,512,256], a bank tile [2048,256] and a
  column of scales [1,512,1] the body stores exp((view · tileᵀ) · scale) into the output block [1,512,2048].
  Here: what each window's buffer holds around the body at a grid point, the body's run on whole buffers, and the
  obligation the launch asks of every point, for whatever the arrays hold when the region is entered.
-/
import proofs.«112372_j79972291051933_2_alg».proof.Proof.Gen.Kernel.Launch
import proofs.«112372_j79972291051933_2_alg».proof.Proof.Gen.Kernel.Skeleton
import proofs.«112372_j79972291051933_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: one launch of the matmul-scale-exp body over its grid, from the contents `V` it is entered with -/

section Region2
variable (V : (c : Dev nD) → (b : Ref sig .tc) → Buf (Elt F) ((c : Thread nD τ).loc b))

/-- Window `w`'s block at grid point `t`, cut out of its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether the block was fetched there or kept
    from the point before (its index has not moved then). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev r2_x : Rect S1x512x256 := Rect.unit (s := S1x512x256) ![0, 0, 0] S1x512x256.size inb_S1x512x256_S1x512x256_0_0_0
abbrev r2_m : Rect S2048x256 := Rect.unit (s := S2048x256) ![0, 0] S2048x256.size inb_S2048x256_S2048x256_0_0
abbrev r2_s : Rect S1x512x1 := Rect.unit (s := S1x512x1) ![0, 0, 0] S1x512x1.size inb_S1x512x1_S1x512x1_0_0_0
abbrev r2_o : Rect S1x512x2048 := Rect.unit (s := S1x512x2048) ![0, 0, 0] S1x512x2048.size inb_S1x512x2048_S1x512x2048_0_0_0

/-- What the body leaves in the output window's buffer: its one store, of the product block scaled row by row and
    exponentiated, computed from the three input blocks. -/
def out2_3 (x0 : Vec F S1x512x256 .f32) (x1 : Vec F S2048x256 .f32) (x2 : Vec F S1x512x1 .f32) : Vec F S1x512x2048 .f32 :=
  View.canon [⟨r2_o, k2_pay1 (View.ld x0 r2_x) (View.ld x1 r2_m) (View.ld x2 r2_s)⟩]

/-- The one store covers the buffer. -/
theorem cover2_3 (p0 : Vec F S1x512x2048 .f32) (y : S1x512x2048.Idx) :
    ∃ pc ∈ ([⟨r2_o, p0⟩] : List (View.Piece (Elt F) S1x512x2048 .f32)), y ∈ pc.1.set :=
  View.cover_of_tiled [⟨r2_o, p0⟩] S1x512x2048.size (by rfl) y

set_option maxHeartbeats 4000000 in
/-- The body on whole staging buffers, the inputs at known contents and the output at anything, ends with the inputs
    as they were and the output at `out2_3` of them. -/
theorem sound_kernel2 (c : Dev nD) (E : Set ℕ) (i : grid2.Coords) (arg2 : Memref sig .tc .vmem S1x512x256 .f32) (harg2 : arg2.IsWhole) (arg3 : Memref sig .tc .vmem S2048x256 .f32) (harg3 : arg3.IsWhole) (arg4 : Memref sig .tc .vmem S1x512x1 .f32) (harg4 : arg4.IsWhole) (arg5 : Memref sig .tc .vmem S1x512x2048 .f32) (harg5 : arg5.IsWhole)
    (x0 : Vec F S1x512x256 .f32) (x1 : Vec F S2048x256 .f32) (x2 : Vec F S1x512x1 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out2_3 x0 x1 x2)) -∗ K ⟨⟩))
      ⊢ wp frame (wpE (defs₀ (F := F)) Variants.none c none) E (cc2__mem_exp_kernel i arg2 harg2 arg3 harg3 arg4 harg4 arg5 harg5) K := by
  simp only [cc2__mem_exp_kernel_eq_skeleton]; unfold cc2__mem_exp_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The region's proof data: the arrays as the region finds them; after the body each input's buffer still at its
    block and the output's at `out2_3` of the input blocks; nothing owed, full shares, the untouched rest as invariant. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so `sound_kernel2` applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.KbRegion3.lean ====
/-
  Region 3 of the program's four launches of one body: from a view block [1,512,256], a bank tile [2048,256] and a
  column of scales [1,512,1] the body stores exp((view · tileᵀ) · scale) into the output block [1,512,2048].
  Here: what each window's buffer holds around the body at a grid point, the body's run on whole buffers, and the
  obligation the launch asks of every point, for whatever the arrays hold when the region is entered.
-/
import proofs.«112372_j79972291051933_2_alg».proof.Proof.Gen.Kernel.Launch
import proofs.«112372_j79972291051933_2_alg».proof.Proof.Gen.Kernel.Skeleton
import proofs.«112372_j79972291051933_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: one launch of the matmul-scale-exp body over its grid, from the contents `V` it is entered with -/

section Region3
variable (V : (c : Dev nD) → (b : Ref sig .tc) → Buf (Elt F) ((c : Thread nD τ).loc b))

/-- Window `w`'s block at grid point `t`, cut out of its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, whether the block was fetched there or kept
    from the point before (its index has not moved then). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole-block rectangles the body loads and stores through. -/
abbrev r3_x : Rect S1x512x256 := Rect.unit (s := S1x512x256) ![0, 0, 0] S1x512x256.size inb_S1x512x256_S1x512x256_0_0_0
abbrev r3_m : Rect S2048x256 := Rect.unit (s := S2048x256) ![0, 0] S2048x256.size inb_S2048x256_S2048x256_0_0
abbrev r3_s : Rect S1x512x1 := Rect.unit (s := S1x512x1) ![0, 0, 0] S1x512x1.size inb_S1x512x1_S1x512x1_0_0_0
abbrev r3_o : Rect S1x512x2048 := Rect.unit (s := S1x512x2048) ![0, 0, 0] S1x512x2048.size inb_S1x512x2048_S1x512x2048_0_0_0

/-- What the body leaves in the output window's buffer: its one store, of the product block scaled row by row and
    exponentiated, computed from the three input blocks. -/
def out3_3 (x0 : Vec F S1x512x256 .f32) (x1 : Vec F S2048x256 .f32) (x2 : Vec F S1x512x1 .f32) : Vec F S1x512x2048 .f32 :=
  View.canon [⟨r3_o, k3_pay1 (View.ld x0 r3_x) (View.ld x1 r3_m) (View.ld x2 r3_s)⟩]

/-- The one store covers the buffer. -/
theorem cover3_3 (p0 : Vec F S1x512x2048 .f32) (y : S1x512x2048.Idx) :
    ∃ pc ∈ ([⟨r3_o, p0⟩] : List (View.Piece (Elt F) S1x512x2048 .f32)), y ∈ pc.1.set :=
  View.cover_of_tiled [⟨r3_o, p0⟩] S1x512x2048.size (by rfl) y

set_option maxHeartbeats 4000000 in
/-- The body on whole staging buffers, the inputs at known contents and the output at anything, ends with the inputs
    as they were and the output at `out3_3` of them. -/
theorem sound_kernel3 (c : Dev nD) (E : Set ℕ) (i : grid3.Coords) (arg2 : Memref sig .tc .vmem S1x512x256 .f32) (harg2 : arg2.IsWhole) (arg3 : Memref sig .tc .vmem S2048x256 .f32) (harg3 : arg3.IsWhole) (arg4 : Memref sig .tc .vmem S1x512x1 .f32) (harg4 : arg4.IsWhole) (arg5 : Memref sig .tc .vmem S1x512x2048 .f32) (harg5 : arg5.IsWhole)
    (x0 : Vec F S1x512x256 .f32) (x1 : Vec F S2048x256 .f32) (x2 : Vec F S1x512x1 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out3_3 x0 x1 x2)) -∗ K ⟨⟩))
      ⊢ wp frame (wpE (defs₀ (F := F)) Variants.none c none) E (cc3__mem_exp_kernel i arg2 harg2 arg3 harg3 arg4 harg4 arg5 harg5) K := by
  simp only [cc3__mem_exp_kernel_eq_skeleton]; unfold cc3__mem_exp_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The region's proof data: the arrays as the region finds them; after the body each input's buffer still at its
    block and the output's at `out3_3` of the input blocks; nothing owed, full shares, the untouched rest as invariant. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so `sound_kernel3` applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.Kernel.Hand

end
-- ==== Proof.KbFold.lean ====
/-
  The whole program as a run of thirteen pieces: the four norm computations, the long stretch of host operations that
  prepares the scales, the stacked views and the first column of the result, then four launches of the body with the
  host operations between and after them. The contents of every buffer at each boundary are named (`W0` … `W13`: a
  stretch of host operations applies its operations in order; a launch leaves its arrays at what its write-backs fold
  to and every other buffer as it was), and the launch of the pieces in order gives: every execution terminates,
  nothing faults, and at the end every buffer holds `W13`.
-/
import proofs.«112372_j79972291051933_2_alg».proof.Proof.KbRegion0
import proofs.«112372_j79972291051933_2_alg».proof.Proof.KbRegion1
import proofs.«112372_j79972291051933_2_alg».proof.Proof.KbRegion2
import proofs.«112372_j79972291051933_2_alg».proof.Proof.KbRegion3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run
variable (m : (ℓ : Loc nD τ sig) → Buf (Elt F) ℓ) (ρ : Dev nD → PrngReg)

/-! ## The buffer contents at each boundary -/

/-- The core's buffers at launch. -/
abbrev W0 : Dev nD → Valuation τ sig (Elt F) := fun c b => (s₀ m ρ).mem ((c : Dev nD), b)
/-- After the host operations `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the host operations `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
/-- After the host operations `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- After the host operations `hostOps0_3`. -/
abbrev W4 : Dev nD → Valuation τ sig (Elt F) := fun c => StableHlo.after hostOps0_3 (W3 m ρ c)
abbrev V4 : (c : Dev nD) → (b : Ref sig .tc) → Buf (Elt F) ((c : Thread nD τ).loc b) := fun c b => W4 m ρ c b
/-- After the host operations `hostOps0_4`. -/
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b
/-- After launch 0: its arrays at what the write-backs fold to, every other buffer as the launch found it. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)
/-- After the host operations `hostOps1`. -/
abbrev W7 : Dev nD → Valuation τ sig (Elt F) := fun c => StableHlo.after hostOps1 (W6 m ρ c)
abbrev V7 : (c : Dev nD) → (b : Ref sig .tc) → Buf (Elt F) ((c : Thread nD τ).loc b) := fun c b => W7 m ρ c b
/-- After launch 1: its arrays at what the write-backs fold to, every other buffer as the launch found it. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)
/-- After the host operations `hostOps2`. -/
abbrev W9 : Dev nD → Valuation τ sig (Elt F) := fun c => StableHlo.after hostOps2 (W8 m ρ c)
abbrev V9 : (c : Dev nD) → (b : Ref sig .tc) → Buf (Elt F) ((c : Thread nD τ).loc b) := fun c b => W9 m ρ c b
/-- After launch 2: its arrays at what the write-backs fold to, every other buffer as the launch found it. -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
abbrev V10 : (c : Dev nD) → (b : Ref sig .tc) → Buf (Elt F) ((c : Thread nD τ).loc b) := fun c b => W10 m ρ c b
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)
/-- After the host operations `hostOps3`. -/
abbrev W11 : Dev nD → Valuation τ sig (Elt F) := fun c => StableHlo.after hostOps3 (W10 m ρ c)
abbrev V11 : (c : Dev nD) → (b : Ref sig .tc) → Buf (Elt F) ((c : Thread nD τ).loc b) := fun c b => W11 m ρ c b
/-- After launch 3: its arrays at what the write-backs fold to, every other buffer as the launch found it. -/
def W12 (c : Dev nD) : Valuation τ sig (Elt F) :=
  Pipeline.withArrays spec3 c (W11 m ρ c) fun w => (dat3 (V11 m ρ) c).arrAt w cfg3.N
theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
abbrev V12 : (c : Dev nD) → (b : Ref sig .tc) → Buf (Elt F) ((c : Thread nD τ).loc b) := fun c b => W12 m ρ c b
theorem hF3 (c : Dev nD) (w : Fin cfg3.W) : (dat3 (V11 m ρ) c).arrAt w cfg3.N = V12 m ρ c (Pipeline.arrRef spec3 w) :=
  (W12_arr m ρ c w).symm
theorem hrest3 (c : Dev nD) : ∀ b, b ∉ Finset.univ.image (Pipeline.arrRef spec3) → V12 m ρ c b = V11 m ρ c b :=
  fun b hb => W12_of_ne m ρ c b fun w e => hb (Finset.mem_image.mpr ⟨w, Finset.mem_univ _, e⟩)
/-- After the host operations `hostOps4`. -/
abbrev W13 : Dev nD → Valuation τ sig (Elt F) := fun c => StableHlo.after hostOps4 (W12 m ρ c)
abbrev V13 : (c : Dev nD) → (b : Ref sig .tc) → Buf (Elt F) ((c : Thread nD τ).loc b) := fun c b => W13 m ρ c b

end Run

end Cert.Kernel.Hand

end
-- ==== Proof.KbRun.lean ====
/-
  The launch of the thirteen pieces in order. Between pieces the core holds every unscoped buffer at the boundary's
  named contents, its generator register at some state, and owes no one anything; a stretch of host operations moves
  the contents by its operations, a launch takes its arrays out of that state, runs the pipeline over them and puts
  them back at what the write-backs fold to. The conclusion: every execution terminates without a fault and ends with
  every unscoped buffer at the last boundary's contents.
-/
import proofs.«112372_j79972291051933_2_alg».proof.Proof.KbFold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run
variable (m : (ℓ : Loc nD τ sig) → Buf (Elt F) ℓ) (ρ : Dev nD → PrngReg)

/-- No launch has a prefetched table. -/
abbrev adm : (p : Fin 4) → (pcfgs (F := F) p).Adm := fun p => (cfgs p).toPCfg_adm
/-- Each launch's proof data, at the contents the launch is entered with. -/
def pdats : (p : Fin 4) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
  | ⟨2, _⟩ => fun c => dat2 (V9 m ρ) c
  | ⟨3, _⟩ => fun c => dat3 (V11 m ρ) c
abbrev 𝒱₀ : Variants := Variants.none
abbrev L : GSem nD τ sig → Finset Unit := fun _ => ∅
abbrev lv : GSem nD τ sig → Unit → ℕ := fun _ _ => 0
/-- What rides beside the buffers through every piece: the generator register at some state, and nothing owed. -/
abbrev R (c : Dev nD) : sProp 𝕄 := iprop((∃ r, prngReg c r) ∗ ∃ W, owes (c : Thread nD τ) (0 : CellTallies nD τ sig Unit) W)
/-- A stretch of host operations as a piece of the run. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `hostOps0` allocates a buffer. -/
theorem hostOps0_fresh : (hostOps0 : List (HloOp τ sig (Elt F))).Forall fun op => op.fresh = ∅ := by
  simp only [List.Forall]; repeat' constructor
/-- No operation of `hostOps0_1` allocates a buffer. -/
theorem hostOps0_1_fresh : (hostOps0_1 : List (HloOp τ sig (Elt F))).Forall fun op => op.fresh = ∅ := by
  simp only [List.Forall]; repeat' constructor
/-- No operation of `hostOps0_2` allocates a buffer. -/
theorem hostOps0_2_fresh : (hostOps0_2 : List (HloOp τ sig (Elt F))).Forall fun op => op.fresh = ∅ := by
  simp only [List.Forall]; repeat' constructor
/-- No operation of `hostOps0_3` allocates a buffer. -/
theorem hostOps0_3_fresh : (hostOps0_3 : List (HloOp τ sig (Elt F))).Forall fun op => op.fresh = ∅ := by
  simp only [List.Forall]; repeat' constructor
/-- No operation of `hostOps0_4` allocates a buffer. -/
theorem hostOps0_4_fresh : (hostOps0_4 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor
/-- No operation of `hostOps2` allocates a buffer. -/
theorem hostOps2_fresh : (hostOps2 : List (HloOp τ sig (Elt F))).Forall fun op => op.fresh = ∅ := by
  simp only [List.Forall]; repeat' constructor
/-- No operation of `hostOps3` allocates a buffer. -/
theorem hostOps3_fresh : (hostOps3 : List (HloOp τ sig (Elt F))).Forall fun op => op.fresh = ∅ := by
  simp only [List.Forall]; repeat' constructor
/-- No operation of `hostOps4` allocates a buffer. -/
theorem hostOps4_fresh : (hostOps4 : List (HloOp τ sig (Elt F))).Forall fun op => op.fresh = ∅ := by
  simp only [List.Forall]; repeat' constructor

/-- An unscoped reference of the core is among those the state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without what is owed: every unscoped buffer at the last boundary's contents, the register at some state. -/
abbrev Tₙ (c : Dev nD) : sProp 𝕄 := iprop(StableHlo.held (c : Thread nD τ) (Pipeline.ucRefs τ sig) (W13 m ρ c) ∗ ∃ r, prngReg c r)

/-! ## The launches as pieces -/

set_option backward.isDefEq.respectTransparency.types false in
/-- Launch 0: entered with every unscoped buffer at `W5`, left with them at `W6`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1: entered with every unscoped buffer at `W7`, left with them at `W8`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2: entered with every unscoped buffer at `W9`, left with them at `W10`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3: entered with every unscoped buffer at `W11`, left with them at `W12`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V11 m ρ c) (V12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The thirteen pieces in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)),
    .region (reg2 m ρ),
    .host (hseg hostOps3 hostOps3_sub hostOps3_fresh (W10 m ρ)),
    .region (reg3 m ρ),
    .host (hseg hostOps4 hostOps4_sub hostOps4_fresh (W12 m ρ)) ]

/-- The program IS the run of the pieces. -/
theorem main_run (c : Dev nD) : main (F := F) c = Pipeline.Seg.run (segs m ρ) := (main_chain c).trans (by chain_rfl)

set_option backward.isDefEq.respectTransparency.types false in
/-- From any memory with zero counters every weakly fair execution of the program terminates, nothing faulting, and
    ends with every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        show iprop(StableHlo.held (c : Thread nD τ) (Pipeline.ucRefs τ sig) (W13 m ρ c)
            ∗ ((∃ r, prngReg c r) ∗ ∃ W, owes (c : Thread nD τ) (0 : CellTallies nD τ sig Unit) W))
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

end Run

end Cert.Kernel.Hand

end
-- ==== Proof.KbArgs.lean ====
/-
  The twelve argument arrays are never written: no host operation's result is one of them and no launch's window is
  one of them (the launches read reshaped or stacked copies). So at every boundary an argument's buffer holds what it
  held at launch.
-/
import proofs.«112372_j79972291051933_2_alg».proof.Proof.KbFold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Args
variable (m : (ℓ : Loc nD τ sig) → Buf (Elt F) ℓ) (ρ : Dev nD → PrngReg)

/-- A stretch of host operations none of which writes `b` leaves `b`'s buffer as it was. -/
theorem after_keeps (ops : List (HloOp τ sig (Elt F))) (W : Valuation τ sig (Elt F)) (b : Ref sig .tc)
    (h : ops.Forall fun op => (Proc.devRef .tc b : DevRef τ sig) ∉ op.writes) :
    StableHlo.after ops W (Proc.devRef .tc b) = W (Proc.devRef .tc b) :=
  StableHlo.after_of_forall_not_mem (b := Proc.devRef .tc b) _ _ (List.forall_iff_forall_mem.mp h)

theorem W0_main_arg0 (c : Dev nD) : W0 m ρ c (Proc.devRef .tc main_arg0) = m ((c : Thread nD τ).loc main_arg0) := rfl
theorem W1_main_arg0 (c : Dev nD) : W1 m ρ c (Proc.devRef .tc main_arg0) = m ((c : Thread nD τ).loc main_arg0) :=
  (after_keeps hostOps0 (W0 m ρ c) main_arg0 (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W0_main_arg0 m ρ c)
theorem W2_main_arg0 (c : Dev nD) : W2 m ρ c (Proc.devRef .tc main_arg0) = m ((c : Thread nD τ).loc main_arg0) :=
  (after_keeps hostOps0_1 (W1 m ρ c) main_arg0 (by
    simp only [hostOps0_1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W1_main_arg0 m ρ c)
theorem W3_main_arg0 (c : Dev nD) : W3 m ρ c (Proc.devRef .tc main_arg0) = m ((c : Thread nD τ).loc main_arg0) :=
  (after_keeps hostOps0_2 (W2 m ρ c) main_arg0 (by
    simp only [hostOps0_2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W2_main_arg0 m ρ c)
theorem W4_main_arg0 (c : Dev nD) : W4 m ρ c (Proc.devRef .tc main_arg0) = m ((c : Thread nD τ).loc main_arg0) :=
  (after_keeps hostOps0_3 (W3 m ρ c) main_arg0 (by
    simp only [hostOps0_3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W3_main_arg0 m ρ c)
theorem W5_main_arg0 (c : Dev nD) : W5 m ρ c (Proc.devRef .tc main_arg0) = m ((c : Thread nD τ).loc main_arg0) :=
  (after_keeps hostOps0_4 (W4 m ρ c) main_arg0 (by
    simp only [hostOps0_4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W4_main_arg0 m ρ c)
theorem W6_main_arg0 (c : Dev nD) : W6 m ρ c (Proc.devRef .tc main_arg0) = m ((c : Thread nD τ).loc main_arg0) :=
  (W6_of_ne m ρ c main_arg0 (by decide)).trans (W5_main_arg0 m ρ c)
theorem W7_main_arg0 (c : Dev nD) : W7 m ρ c (Proc.devRef .tc main_arg0) = m ((c : Thread nD τ).loc main_arg0) :=
  (after_keeps hostOps1 (W6 m ρ c) main_arg0 (by
    simp only [hostOps1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W6_main_arg0 m ρ c)
theorem W8_main_arg0 (c : Dev nD) : W8 m ρ c (Proc.devRef .tc main_arg0) = m ((c : Thread nD τ).loc main_arg0) :=
  (W8_of_ne m ρ c main_arg0 (by decide)).trans (W7_main_arg0 m ρ c)
theorem W9_main_arg0 (c : Dev nD) : W9 m ρ c (Proc.devRef .tc main_arg0) = m ((c : Thread nD τ).loc main_arg0) :=
  (after_keeps hostOps2 (W8 m ρ c) main_arg0 (by
    simp only [hostOps2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W8_main_arg0 m ρ c)
theorem W10_main_arg0 (c : Dev nD) : W10 m ρ c (Proc.devRef .tc main_arg0) = m ((c : Thread nD τ).loc main_arg0) :=
  (W10_of_ne m ρ c main_arg0 (by decide)).trans (W9_main_arg0 m ρ c)
theorem W11_main_arg0 (c : Dev nD) : W11 m ρ c (Proc.devRef .tc main_arg0) = m ((c : Thread nD τ).loc main_arg0) :=
  (after_keeps hostOps3 (W10 m ρ c) main_arg0 (by
    simp only [hostOps3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W10_main_arg0 m ρ c)
theorem W12_main_arg0 (c : Dev nD) : W12 m ρ c (Proc.devRef .tc main_arg0) = m ((c : Thread nD τ).loc main_arg0) :=
  (W12_of_ne m ρ c main_arg0 (by decide)).trans (W11_main_arg0 m ρ c)
theorem W13_main_arg0 (c : Dev nD) : W13 m ρ c (Proc.devRef .tc main_arg0) = m ((c : Thread nD τ).loc main_arg0) :=
  (after_keeps hostOps4 (W12 m ρ c) main_arg0 (by
    simp only [hostOps4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W12_main_arg0 m ρ c)

theorem W0_main_arg1 (c : Dev nD) : W0 m ρ c (Proc.devRef .tc main_arg1) = m ((c : Thread nD τ).loc main_arg1) := rfl
theorem W1_main_arg1 (c : Dev nD) : W1 m ρ c (Proc.devRef .tc main_arg1) = m ((c : Thread nD τ).loc main_arg1) :=
  (after_keeps hostOps0 (W0 m ρ c) main_arg1 (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W0_main_arg1 m ρ c)
theorem W2_main_arg1 (c : Dev nD) : W2 m ρ c (Proc.devRef .tc main_arg1) = m ((c : Thread nD τ).loc main_arg1) :=
  (after_keeps hostOps0_1 (W1 m ρ c) main_arg1 (by
    simp only [hostOps0_1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W1_main_arg1 m ρ c)
theorem W3_main_arg1 (c : Dev nD) : W3 m ρ c (Proc.devRef .tc main_arg1) = m ((c : Thread nD τ).loc main_arg1) :=
  (after_keeps hostOps0_2 (W2 m ρ c) main_arg1 (by
    simp only [hostOps0_2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W2_main_arg1 m ρ c)
theorem W4_main_arg1 (c : Dev nD) : W4 m ρ c (Proc.devRef .tc main_arg1) = m ((c : Thread nD τ).loc main_arg1) :=
  (after_keeps hostOps0_3 (W3 m ρ c) main_arg1 (by
    simp only [hostOps0_3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W3_main_arg1 m ρ c)
theorem W5_main_arg1 (c : Dev nD) : W5 m ρ c (Proc.devRef .tc main_arg1) = m ((c : Thread nD τ).loc main_arg1) :=
  (after_keeps hostOps0_4 (W4 m ρ c) main_arg1 (by
    simp only [hostOps0_4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W4_main_arg1 m ρ c)
theorem W6_main_arg1 (c : Dev nD) : W6 m ρ c (Proc.devRef .tc main_arg1) = m ((c : Thread nD τ).loc main_arg1) :=
  (W6_of_ne m ρ c main_arg1 (by decide)).trans (W5_main_arg1 m ρ c)
theorem W7_main_arg1 (c : Dev nD) : W7 m ρ c (Proc.devRef .tc main_arg1) = m ((c : Thread nD τ).loc main_arg1) :=
  (after_keeps hostOps1 (W6 m ρ c) main_arg1 (by
    simp only [hostOps1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W6_main_arg1 m ρ c)
theorem W8_main_arg1 (c : Dev nD) : W8 m ρ c (Proc.devRef .tc main_arg1) = m ((c : Thread nD τ).loc main_arg1) :=
  (W8_of_ne m ρ c main_arg1 (by decide)).trans (W7_main_arg1 m ρ c)
theorem W9_main_arg1 (c : Dev nD) : W9 m ρ c (Proc.devRef .tc main_arg1) = m ((c : Thread nD τ).loc main_arg1) :=
  (after_keeps hostOps2 (W8 m ρ c) main_arg1 (by
    simp only [hostOps2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W8_main_arg1 m ρ c)
theorem W10_main_arg1 (c : Dev nD) : W10 m ρ c (Proc.devRef .tc main_arg1) = m ((c : Thread nD τ).loc main_arg1) :=
  (W10_of_ne m ρ c main_arg1 (by decide)).trans (W9_main_arg1 m ρ c)
theorem W11_main_arg1 (c : Dev nD) : W11 m ρ c (Proc.devRef .tc main_arg1) = m ((c : Thread nD τ).loc main_arg1) :=
  (after_keeps hostOps3 (W10 m ρ c) main_arg1 (by
    simp only [hostOps3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W10_main_arg1 m ρ c)
theorem W12_main_arg1 (c : Dev nD) : W12 m ρ c (Proc.devRef .tc main_arg1) = m ((c : Thread nD τ).loc main_arg1) :=
  (W12_of_ne m ρ c main_arg1 (by decide)).trans (W11_main_arg1 m ρ c)
theorem W13_main_arg1 (c : Dev nD) : W13 m ρ c (Proc.devRef .tc main_arg1) = m ((c : Thread nD τ).loc main_arg1) :=
  (after_keeps hostOps4 (W12 m ρ c) main_arg1 (by
    simp only [hostOps4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W12_main_arg1 m ρ c)

theorem W0_main_arg2 (c : Dev nD) : W0 m ρ c (Proc.devRef .tc main_arg2) = m ((c : Thread nD τ).loc main_arg2) := rfl
theorem W1_main_arg2 (c : Dev nD) : W1 m ρ c (Proc.devRef .tc main_arg2) = m ((c : Thread nD τ).loc main_arg2) :=
  (after_keeps hostOps0 (W0 m ρ c) main_arg2 (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W0_main_arg2 m ρ c)
theorem W2_main_arg2 (c : Dev nD) : W2 m ρ c (Proc.devRef .tc main_arg2) = m ((c : Thread nD τ).loc main_arg2) :=
  (after_keeps hostOps0_1 (W1 m ρ c) main_arg2 (by
    simp only [hostOps0_1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W1_main_arg2 m ρ c)
theorem W3_main_arg2 (c : Dev nD) : W3 m ρ c (Proc.devRef .tc main_arg2) = m ((c : Thread nD τ).loc main_arg2) :=
  (after_keeps hostOps0_2 (W2 m ρ c) main_arg2 (by
    simp only [hostOps0_2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W2_main_arg2 m ρ c)
theorem W4_main_arg2 (c : Dev nD) : W4 m ρ c (Proc.devRef .tc main_arg2) = m ((c : Thread nD τ).loc main_arg2) :=
  (after_keeps hostOps0_3 (W3 m ρ c) main_arg2 (by
    simp only [hostOps0_3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W3_main_arg2 m ρ c)
theorem W5_main_arg2 (c : Dev nD) : W5 m ρ c (Proc.devRef .tc main_arg2) = m ((c : Thread nD τ).loc main_arg2) :=
  (after_keeps hostOps0_4 (W4 m ρ c) main_arg2 (by
    simp only [hostOps0_4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W4_main_arg2 m ρ c)
theorem W6_main_arg2 (c : Dev nD) : W6 m ρ c (Proc.devRef .tc main_arg2) = m ((c : Thread nD τ).loc main_arg2) :=
  (W6_of_ne m ρ c main_arg2 (by decide)).trans (W5_main_arg2 m ρ c)
theorem W7_main_arg2 (c : Dev nD) : W7 m ρ c (Proc.devRef .tc main_arg2) = m ((c : Thread nD τ).loc main_arg2) :=
  (after_keeps hostOps1 (W6 m ρ c) main_arg2 (by
    simp only [hostOps1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W6_main_arg2 m ρ c)
theorem W8_main_arg2 (c : Dev nD) : W8 m ρ c (Proc.devRef .tc main_arg2) = m ((c : Thread nD τ).loc main_arg2) :=
  (W8_of_ne m ρ c main_arg2 (by decide)).trans (W7_main_arg2 m ρ c)
theorem W9_main_arg2 (c : Dev nD) : W9 m ρ c (Proc.devRef .tc main_arg2) = m ((c : Thread nD τ).loc main_arg2) :=
  (after_keeps hostOps2 (W8 m ρ c) main_arg2 (by
    simp only [hostOps2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W8_main_arg2 m ρ c)
theorem W10_main_arg2 (c : Dev nD) : W10 m ρ c (Proc.devRef .tc main_arg2) = m ((c : Thread nD τ).loc main_arg2) :=
  (W10_of_ne m ρ c main_arg2 (by decide)).trans (W9_main_arg2 m ρ c)
theorem W11_main_arg2 (c : Dev nD) : W11 m ρ c (Proc.devRef .tc main_arg2) = m ((c : Thread nD τ).loc main_arg2) :=
  (after_keeps hostOps3 (W10 m ρ c) main_arg2 (by
    simp only [hostOps3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W10_main_arg2 m ρ c)
theorem W12_main_arg2 (c : Dev nD) : W12 m ρ c (Proc.devRef .tc main_arg2) = m ((c : Thread nD τ).loc main_arg2) :=
  (W12_of_ne m ρ c main_arg2 (by decide)).trans (W11_main_arg2 m ρ c)
theorem W13_main_arg2 (c : Dev nD) : W13 m ρ c (Proc.devRef .tc main_arg2) = m ((c : Thread nD τ).loc main_arg2) :=
  (after_keeps hostOps4 (W12 m ρ c) main_arg2 (by
    simp only [hostOps4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W12_main_arg2 m ρ c)

theorem W0_main_arg3 (c : Dev nD) : W0 m ρ c (Proc.devRef .tc main_arg3) = m ((c : Thread nD τ).loc main_arg3) := rfl
theorem W1_main_arg3 (c : Dev nD) : W1 m ρ c (Proc.devRef .tc main_arg3) = m ((c : Thread nD τ).loc main_arg3) :=
  (after_keeps hostOps0 (W0 m ρ c) main_arg3 (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W0_main_arg3 m ρ c)
theorem W2_main_arg3 (c : Dev nD) : W2 m ρ c (Proc.devRef .tc main_arg3) = m ((c : Thread nD τ).loc main_arg3) :=
  (after_keeps hostOps0_1 (W1 m ρ c) main_arg3 (by
    simp only [hostOps0_1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W1_main_arg3 m ρ c)
theorem W3_main_arg3 (c : Dev nD) : W3 m ρ c (Proc.devRef .tc main_arg3) = m ((c : Thread nD τ).loc main_arg3) :=
  (after_keeps hostOps0_2 (W2 m ρ c) main_arg3 (by
    simp only [hostOps0_2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W2_main_arg3 m ρ c)
theorem W4_main_arg3 (c : Dev nD) : W4 m ρ c (Proc.devRef .tc main_arg3) = m ((c : Thread nD τ).loc main_arg3) :=
  (after_keeps hostOps0_3 (W3 m ρ c) main_arg3 (by
    simp only [hostOps0_3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W3_main_arg3 m ρ c)
theorem W5_main_arg3 (c : Dev nD) : W5 m ρ c (Proc.devRef .tc main_arg3) = m ((c : Thread nD τ).loc main_arg3) :=
  (after_keeps hostOps0_4 (W4 m ρ c) main_arg3 (by
    simp only [hostOps0_4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W4_main_arg3 m ρ c)
theorem W6_main_arg3 (c : Dev nD) : W6 m ρ c (Proc.devRef .tc main_arg3) = m ((c : Thread nD τ).loc main_arg3) :=
  (W6_of_ne m ρ c main_arg3 (by decide)).trans (W5_main_arg3 m ρ c)
theorem W7_main_arg3 (c : Dev nD) : W7 m ρ c (Proc.devRef .tc main_arg3) = m ((c : Thread nD τ).loc main_arg3) :=
  (after_keeps hostOps1 (W6 m ρ c) main_arg3 (by
    simp only [hostOps1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W6_main_arg3 m ρ c)
theorem W8_main_arg3 (c : Dev nD) : W8 m ρ c (Proc.devRef .tc main_arg3) = m ((c : Thread nD τ).loc main_arg3) :=
  (W8_of_ne m ρ c main_arg3 (by decide)).trans (W7_main_arg3 m ρ c)
theorem W9_main_arg3 (c : Dev nD) : W9 m ρ c (Proc.devRef .tc main_arg3) = m ((c : Thread nD τ).loc main_arg3) :=
  (after_keeps hostOps2 (W8 m ρ c) main_arg3 (by
    simp only [hostOps2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W8_main_arg3 m ρ c)
theorem W10_main_arg3 (c : Dev nD) : W10 m ρ c (Proc.devRef .tc main_arg3) = m ((c : Thread nD τ).loc main_arg3) :=
  (W10_of_ne m ρ c main_arg3 (by decide)).trans (W9_main_arg3 m ρ c)
theorem W11_main_arg3 (c : Dev nD) : W11 m ρ c (Proc.devRef .tc main_arg3) = m ((c : Thread nD τ).loc main_arg3) :=
  (after_keeps hostOps3 (W10 m ρ c) main_arg3 (by
    simp only [hostOps3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W10_main_arg3 m ρ c)
theorem W12_main_arg3 (c : Dev nD) : W12 m ρ c (Proc.devRef .tc main_arg3) = m ((c : Thread nD τ).loc main_arg3) :=
  (W12_of_ne m ρ c main_arg3 (by decide)).trans (W11_main_arg3 m ρ c)
theorem W13_main_arg3 (c : Dev nD) : W13 m ρ c (Proc.devRef .tc main_arg3) = m ((c : Thread nD τ).loc main_arg3) :=
  (after_keeps hostOps4 (W12 m ρ c) main_arg3 (by
    simp only [hostOps4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W12_main_arg3 m ρ c)

theorem W0_main_arg4 (c : Dev nD) : W0 m ρ c (Proc.devRef .tc main_arg4) = m ((c : Thread nD τ).loc main_arg4) := rfl
theorem W1_main_arg4 (c : Dev nD) : W1 m ρ c (Proc.devRef .tc main_arg4) = m ((c : Thread nD τ).loc main_arg4) :=
  (after_keeps hostOps0 (W0 m ρ c) main_arg4 (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W0_main_arg4 m ρ c)
theorem W2_main_arg4 (c : Dev nD) : W2 m ρ c (Proc.devRef .tc main_arg4) = m ((c : Thread nD τ).loc main_arg4) :=
  (after_keeps hostOps0_1 (W1 m ρ c) main_arg4 (by
    simp only [hostOps0_1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W1_main_arg4 m ρ c)
theorem W3_main_arg4 (c : Dev nD) : W3 m ρ c (Proc.devRef .tc main_arg4) = m ((c : Thread nD τ).loc main_arg4) :=
  (after_keeps hostOps0_2 (W2 m ρ c) main_arg4 (by
    simp only [hostOps0_2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W2_main_arg4 m ρ c)
theorem W4_main_arg4 (c : Dev nD) : W4 m ρ c (Proc.devRef .tc main_arg4) = m ((c : Thread nD τ).loc main_arg4) :=
  (after_keeps hostOps0_3 (W3 m ρ c) main_arg4 (by
    simp only [hostOps0_3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W3_main_arg4 m ρ c)
theorem W5_main_arg4 (c : Dev nD) : W5 m ρ c (Proc.devRef .tc main_arg4) = m ((c : Thread nD τ).loc main_arg4) :=
  (after_keeps hostOps0_4 (W4 m ρ c) main_arg4 (by
    simp only [hostOps0_4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W4_main_arg4 m ρ c)
theorem W6_main_arg4 (c : Dev nD) : W6 m ρ c (Proc.devRef .tc main_arg4) = m ((c : Thread nD τ).loc main_arg4) :=
  (W6_of_ne m ρ c main_arg4 (by decide)).trans (W5_main_arg4 m ρ c)
theorem W7_main_arg4 (c : Dev nD) : W7 m ρ c (Proc.devRef .tc main_arg4) = m ((c : Thread nD τ).loc main_arg4) :=
  (after_keeps hostOps1 (W6 m ρ c) main_arg4 (by
    simp only [hostOps1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W6_main_arg4 m ρ c)
theorem W8_main_arg4 (c : Dev nD) : W8 m ρ c (Proc.devRef .tc main_arg4) = m ((c : Thread nD τ).loc main_arg4) :=
  (W8_of_ne m ρ c main_arg4 (by decide)).trans (W7_main_arg4 m ρ c)
theorem W9_main_arg4 (c : Dev nD) : W9 m ρ c (Proc.devRef .tc main_arg4) = m ((c : Thread nD τ).loc main_arg4) :=
  (after_keeps hostOps2 (W8 m ρ c) main_arg4 (by
    simp only [hostOps2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W8_main_arg4 m ρ c)
theorem W10_main_arg4 (c : Dev nD) : W10 m ρ c (Proc.devRef .tc main_arg4) = m ((c : Thread nD τ).loc main_arg4) :=
  (W10_of_ne m ρ c main_arg4 (by decide)).trans (W9_main_arg4 m ρ c)
theorem W11_main_arg4 (c : Dev nD) : W11 m ρ c (Proc.devRef .tc main_arg4) = m ((c : Thread nD τ).loc main_arg4) :=
  (after_keeps hostOps3 (W10 m ρ c) main_arg4 (by
    simp only [hostOps3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W10_main_arg4 m ρ c)
theorem W12_main_arg4 (c : Dev nD) : W12 m ρ c (Proc.devRef .tc main_arg4) = m ((c : Thread nD τ).loc main_arg4) :=
  (W12_of_ne m ρ c main_arg4 (by decide)).trans (W11_main_arg4 m ρ c)
theorem W13_main_arg4 (c : Dev nD) : W13 m ρ c (Proc.devRef .tc main_arg4) = m ((c : Thread nD τ).loc main_arg4) :=
  (after_keeps hostOps4 (W12 m ρ c) main_arg4 (by
    simp only [hostOps4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W12_main_arg4 m ρ c)

theorem W0_main_arg5 (c : Dev nD) : W0 m ρ c (Proc.devRef .tc main_arg5) = m ((c : Thread nD τ).loc main_arg5) := rfl
theorem W1_main_arg5 (c : Dev nD) : W1 m ρ c (Proc.devRef .tc main_arg5) = m ((c : Thread nD τ).loc main_arg5) :=
  (after_keeps hostOps0 (W0 m ρ c) main_arg5 (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W0_main_arg5 m ρ c)
theorem W2_main_arg5 (c : Dev nD) : W2 m ρ c (Proc.devRef .tc main_arg5) = m ((c : Thread nD τ).loc main_arg5) :=
  (after_keeps hostOps0_1 (W1 m ρ c) main_arg5 (by
    simp only [hostOps0_1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W1_main_arg5 m ρ c)
theorem W3_main_arg5 (c : Dev nD) : W3 m ρ c (Proc.devRef .tc main_arg5) = m ((c : Thread nD τ).loc main_arg5) :=
  (after_keeps hostOps0_2 (W2 m ρ c) main_arg5 (by
    simp only [hostOps0_2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W2_main_arg5 m ρ c)
theorem W4_main_arg5 (c : Dev nD) : W4 m ρ c (Proc.devRef .tc main_arg5) = m ((c : Thread nD τ).loc main_arg5) :=
  (after_keeps hostOps0_3 (W3 m ρ c) main_arg5 (by
    simp only [hostOps0_3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W3_main_arg5 m ρ c)
theorem W5_main_arg5 (c : Dev nD) : W5 m ρ c (Proc.devRef .tc main_arg5) = m ((c : Thread nD τ).loc main_arg5) :=
  (after_keeps hostOps0_4 (W4 m ρ c) main_arg5 (by
    simp only [hostOps0_4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W4_main_arg5 m ρ c)
theorem W6_main_arg5 (c : Dev nD) : W6 m ρ c (Proc.devRef .tc main_arg5) = m ((c : Thread nD τ).loc main_arg5) :=
  (W6_of_ne m ρ c main_arg5 (by decide)).trans (W5_main_arg5 m ρ c)
theorem W7_main_arg5 (c : Dev nD) : W7 m ρ c (Proc.devRef .tc main_arg5) = m ((c : Thread nD τ).loc main_arg5) :=
  (after_keeps hostOps1 (W6 m ρ c) main_arg5 (by
    simp only [hostOps1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W6_main_arg5 m ρ c)
theorem W8_main_arg5 (c : Dev nD) : W8 m ρ c (Proc.devRef .tc main_arg5) = m ((c : Thread nD τ).loc main_arg5) :=
  (W8_of_ne m ρ c main_arg5 (by decide)).trans (W7_main_arg5 m ρ c)
theorem W9_main_arg5 (c : Dev nD) : W9 m ρ c (Proc.devRef .tc main_arg5) = m ((c : Thread nD τ).loc main_arg5) :=
  (after_keeps hostOps2 (W8 m ρ c) main_arg5 (by
    simp only [hostOps2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W8_main_arg5 m ρ c)
theorem W10_main_arg5 (c : Dev nD) : W10 m ρ c (Proc.devRef .tc main_arg5) = m ((c : Thread nD τ).loc main_arg5) :=
  (W10_of_ne m ρ c main_arg5 (by decide)).trans (W9_main_arg5 m ρ c)
theorem W11_main_arg5 (c : Dev nD) : W11 m ρ c (Proc.devRef .tc main_arg5) = m ((c : Thread nD τ).loc main_arg5) :=
  (after_keeps hostOps3 (W10 m ρ c) main_arg5 (by
    simp only [hostOps3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W10_main_arg5 m ρ c)
theorem W12_main_arg5 (c : Dev nD) : W12 m ρ c (Proc.devRef .tc main_arg5) = m ((c : Thread nD τ).loc main_arg5) :=
  (W12_of_ne m ρ c main_arg5 (by decide)).trans (W11_main_arg5 m ρ c)
theorem W13_main_arg5 (c : Dev nD) : W13 m ρ c (Proc.devRef .tc main_arg5) = m ((c : Thread nD τ).loc main_arg5) :=
  (after_keeps hostOps4 (W12 m ρ c) main_arg5 (by
    simp only [hostOps4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W12_main_arg5 m ρ c)

theorem W0_main_arg6 (c : Dev nD) : W0 m ρ c (Proc.devRef .tc main_arg6) = m ((c : Thread nD τ).loc main_arg6) := rfl
theorem W1_main_arg6 (c : Dev nD) : W1 m ρ c (Proc.devRef .tc main_arg6) = m ((c : Thread nD τ).loc main_arg6) :=
  (after_keeps hostOps0 (W0 m ρ c) main_arg6 (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W0_main_arg6 m ρ c)
theorem W2_main_arg6 (c : Dev nD) : W2 m ρ c (Proc.devRef .tc main_arg6) = m ((c : Thread nD τ).loc main_arg6) :=
  (after_keeps hostOps0_1 (W1 m ρ c) main_arg6 (by
    simp only [hostOps0_1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W1_main_arg6 m ρ c)
theorem W3_main_arg6 (c : Dev nD) : W3 m ρ c (Proc.devRef .tc main_arg6) = m ((c : Thread nD τ).loc main_arg6) :=
  (after_keeps hostOps0_2 (W2 m ρ c) main_arg6 (by
    simp only [hostOps0_2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W2_main_arg6 m ρ c)
theorem W4_main_arg6 (c : Dev nD) : W4 m ρ c (Proc.devRef .tc main_arg6) = m ((c : Thread nD τ).loc main_arg6) :=
  (after_keeps hostOps0_3 (W3 m ρ c) main_arg6 (by
    simp only [hostOps0_3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W3_main_arg6 m ρ c)
theorem W5_main_arg6 (c : Dev nD) : W5 m ρ c (Proc.devRef .tc main_arg6) = m ((c : Thread nD τ).loc main_arg6) :=
  (after_keeps hostOps0_4 (W4 m ρ c) main_arg6 (by
    simp only [hostOps0_4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W4_main_arg6 m ρ c)
theorem W6_main_arg6 (c : Dev nD) : W6 m ρ c (Proc.devRef .tc main_arg6) = m ((c : Thread nD τ).loc main_arg6) :=
  (W6_of_ne m ρ c main_arg6 (by decide)).trans (W5_main_arg6 m ρ c)
theorem W7_main_arg6 (c : Dev nD) : W7 m ρ c (Proc.devRef .tc main_arg6) = m ((c : Thread nD τ).loc main_arg6) :=
  (after_keeps hostOps1 (W6 m ρ c) main_arg6 (by
    simp only [hostOps1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W6_main_arg6 m ρ c)
theorem W8_main_arg6 (c : Dev nD) : W8 m ρ c (Proc.devRef .tc main_arg6) = m ((c : Thread nD τ).loc main_arg6) :=
  (W8_of_ne m ρ c main_arg6 (by decide)).trans (W7_main_arg6 m ρ c)
theorem W9_main_arg6 (c : Dev nD) : W9 m ρ c (Proc.devRef .tc main_arg6) = m ((c : Thread nD τ).loc main_arg6) :=
  (after_keeps hostOps2 (W8 m ρ c) main_arg6 (by
    simp only [hostOps2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W8_main_arg6 m ρ c)
theorem W10_main_arg6 (c : Dev nD) : W10 m ρ c (Proc.devRef .tc main_arg6) = m ((c : Thread nD τ).loc main_arg6) :=
  (W10_of_ne m ρ c main_arg6 (by decide)).trans (W9_main_arg6 m ρ c)
theorem W11_main_arg6 (c : Dev nD) : W11 m ρ c (Proc.devRef .tc main_arg6) = m ((c : Thread nD τ).loc main_arg6) :=
  (after_keeps hostOps3 (W10 m ρ c) main_arg6 (by
    simp only [hostOps3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W10_main_arg6 m ρ c)
theorem W12_main_arg6 (c : Dev nD) : W12 m ρ c (Proc.devRef .tc main_arg6) = m ((c : Thread nD τ).loc main_arg6) :=
  (W12_of_ne m ρ c main_arg6 (by decide)).trans (W11_main_arg6 m ρ c)
theorem W13_main_arg6 (c : Dev nD) : W13 m ρ c (Proc.devRef .tc main_arg6) = m ((c : Thread nD τ).loc main_arg6) :=
  (after_keeps hostOps4 (W12 m ρ c) main_arg6 (by
    simp only [hostOps4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W12_main_arg6 m ρ c)

theorem W0_main_arg7 (c : Dev nD) : W0 m ρ c (Proc.devRef .tc main_arg7) = m ((c : Thread nD τ).loc main_arg7) := rfl
theorem W1_main_arg7 (c : Dev nD) : W1 m ρ c (Proc.devRef .tc main_arg7) = m ((c : Thread nD τ).loc main_arg7) :=
  (after_keeps hostOps0 (W0 m ρ c) main_arg7 (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W0_main_arg7 m ρ c)
theorem W2_main_arg7 (c : Dev nD) : W2 m ρ c (Proc.devRef .tc main_arg7) = m ((c : Thread nD τ).loc main_arg7) :=
  (after_keeps hostOps0_1 (W1 m ρ c) main_arg7 (by
    simp only [hostOps0_1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W1_main_arg7 m ρ c)
theorem W3_main_arg7 (c : Dev nD) : W3 m ρ c (Proc.devRef .tc main_arg7) = m ((c : Thread nD τ).loc main_arg7) :=
  (after_keeps hostOps0_2 (W2 m ρ c) main_arg7 (by
    simp only [hostOps0_2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W2_main_arg7 m ρ c)
theorem W4_main_arg7 (c : Dev nD) : W4 m ρ c (Proc.devRef .tc main_arg7) = m ((c : Thread nD τ).loc main_arg7) :=
  (after_keeps hostOps0_3 (W3 m ρ c) main_arg7 (by
    simp only [hostOps0_3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W3_main_arg7 m ρ c)
theorem W5_main_arg7 (c : Dev nD) : W5 m ρ c (Proc.devRef .tc main_arg7) = m ((c : Thread nD τ).loc main_arg7) :=
  (after_keeps hostOps0_4 (W4 m ρ c) main_arg7 (by
    simp only [hostOps0_4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W4_main_arg7 m ρ c)
theorem W6_main_arg7 (c : Dev nD) : W6 m ρ c (Proc.devRef .tc main_arg7) = m ((c : Thread nD τ).loc main_arg7) :=
  (W6_of_ne m ρ c main_arg7 (by decide)).trans (W5_main_arg7 m ρ c)
theorem W7_main_arg7 (c : Dev nD) : W7 m ρ c (Proc.devRef .tc main_arg7) = m ((c : Thread nD τ).loc main_arg7) :=
  (after_keeps hostOps1 (W6 m ρ c) main_arg7 (by
    simp only [hostOps1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W6_main_arg7 m ρ c)
theorem W8_main_arg7 (c : Dev nD) : W8 m ρ c (Proc.devRef .tc main_arg7) = m ((c : Thread nD τ).loc main_arg7) :=
  (W8_of_ne m ρ c main_arg7 (by decide)).trans (W7_main_arg7 m ρ c)
theorem W9_main_arg7 (c : Dev nD) : W9 m ρ c (Proc.devRef .tc main_arg7) = m ((c : Thread nD τ).loc main_arg7) :=
  (after_keeps hostOps2 (W8 m ρ c) main_arg7 (by
    simp only [hostOps2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W8_main_arg7 m ρ c)
theorem W10_main_arg7 (c : Dev nD) : W10 m ρ c (Proc.devRef .tc main_arg7) = m ((c : Thread nD τ).loc main_arg7) :=
  (W10_of_ne m ρ c main_arg7 (by decide)).trans (W9_main_arg7 m ρ c)
theorem W11_main_arg7 (c : Dev nD) : W11 m ρ c (Proc.devRef .tc main_arg7) = m ((c : Thread nD τ).loc main_arg7) :=
  (after_keeps hostOps3 (W10 m ρ c) main_arg7 (by
    simp only [hostOps3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W10_main_arg7 m ρ c)
theorem W12_main_arg7 (c : Dev nD) : W12 m ρ c (Proc.devRef .tc main_arg7) = m ((c : Thread nD τ).loc main_arg7) :=
  (W12_of_ne m ρ c main_arg7 (by decide)).trans (W11_main_arg7 m ρ c)
theorem W13_main_arg7 (c : Dev nD) : W13 m ρ c (Proc.devRef .tc main_arg7) = m ((c : Thread nD τ).loc main_arg7) :=
  (after_keeps hostOps4 (W12 m ρ c) main_arg7 (by
    simp only [hostOps4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W12_main_arg7 m ρ c)

theorem W0_main_arg8 (c : Dev nD) : W0 m ρ c (Proc.devRef .tc main_arg8) = m ((c : Thread nD τ).loc main_arg8) := rfl
theorem W1_main_arg8 (c : Dev nD) : W1 m ρ c (Proc.devRef .tc main_arg8) = m ((c : Thread nD τ).loc main_arg8) :=
  (after_keeps hostOps0 (W0 m ρ c) main_arg8 (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W0_main_arg8 m ρ c)
theorem W2_main_arg8 (c : Dev nD) : W2 m ρ c (Proc.devRef .tc main_arg8) = m ((c : Thread nD τ).loc main_arg8) :=
  (after_keeps hostOps0_1 (W1 m ρ c) main_arg8 (by
    simp only [hostOps0_1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W1_main_arg8 m ρ c)
theorem W3_main_arg8 (c : Dev nD) : W3 m ρ c (Proc.devRef .tc main_arg8) = m ((c : Thread nD τ).loc main_arg8) :=
  (after_keeps hostOps0_2 (W2 m ρ c) main_arg8 (by
    simp only [hostOps0_2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W2_main_arg8 m ρ c)
theorem W4_main_arg8 (c : Dev nD) : W4 m ρ c (Proc.devRef .tc main_arg8) = m ((c : Thread nD τ).loc main_arg8) :=
  (after_keeps hostOps0_3 (W3 m ρ c) main_arg8 (by
    simp only [hostOps0_3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W3_main_arg8 m ρ c)
theorem W5_main_arg8 (c : Dev nD) : W5 m ρ c (Proc.devRef .tc main_arg8) = m ((c : Thread nD τ).loc main_arg8) :=
  (after_keeps hostOps0_4 (W4 m ρ c) main_arg8 (by
    simp only [hostOps0_4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W4_main_arg8 m ρ c)
theorem W6_main_arg8 (c : Dev nD) : W6 m ρ c (Proc.devRef .tc main_arg8) = m ((c : Thread nD τ).loc main_arg8) :=
  (W6_of_ne m ρ c main_arg8 (by decide)).trans (W5_main_arg8 m ρ c)
theorem W7_main_arg8 (c : Dev nD) : W7 m ρ c (Proc.devRef .tc main_arg8) = m ((c : Thread nD τ).loc main_arg8) :=
  (after_keeps hostOps1 (W6 m ρ c) main_arg8 (by
    simp only [hostOps1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W6_main_arg8 m ρ c)
theorem W8_main_arg8 (c : Dev nD) : W8 m ρ c (Proc.devRef .tc main_arg8) = m ((c : Thread nD τ).loc main_arg8) :=
  (W8_of_ne m ρ c main_arg8 (by decide)).trans (W7_main_arg8 m ρ c)
theorem W9_main_arg8 (c : Dev nD) : W9 m ρ c (Proc.devRef .tc main_arg8) = m ((c : Thread nD τ).loc main_arg8) :=
  (after_keeps hostOps2 (W8 m ρ c) main_arg8 (by
    simp only [hostOps2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W8_main_arg8 m ρ c)
theorem W10_main_arg8 (c : Dev nD) : W10 m ρ c (Proc.devRef .tc main_arg8) = m ((c : Thread nD τ).loc main_arg8) :=
  (W10_of_ne m ρ c main_arg8 (by decide)).trans (W9_main_arg8 m ρ c)
theorem W11_main_arg8 (c : Dev nD) : W11 m ρ c (Proc.devRef .tc main_arg8) = m ((c : Thread nD τ).loc main_arg8) :=
  (after_keeps hostOps3 (W10 m ρ c) main_arg8 (by
    simp only [hostOps3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W10_main_arg8 m ρ c)
theorem W12_main_arg8 (c : Dev nD) : W12 m ρ c (Proc.devRef .tc main_arg8) = m ((c : Thread nD τ).loc main_arg8) :=
  (W12_of_ne m ρ c main_arg8 (by decide)).trans (W11_main_arg8 m ρ c)
theorem W13_main_arg8 (c : Dev nD) : W13 m ρ c (Proc.devRef .tc main_arg8) = m ((c : Thread nD τ).loc main_arg8) :=
  (after_keeps hostOps4 (W12 m ρ c) main_arg8 (by
    simp only [hostOps4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W12_main_arg8 m ρ c)

theorem W0_main_arg9 (c : Dev nD) : W0 m ρ c (Proc.devRef .tc main_arg9) = m ((c : Thread nD τ).loc main_arg9) := rfl
theorem W1_main_arg9 (c : Dev nD) : W1 m ρ c (Proc.devRef .tc main_arg9) = m ((c : Thread nD τ).loc main_arg9) :=
  (after_keeps hostOps0 (W0 m ρ c) main_arg9 (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W0_main_arg9 m ρ c)
theorem W2_main_arg9 (c : Dev nD) : W2 m ρ c (Proc.devRef .tc main_arg9) = m ((c : Thread nD τ).loc main_arg9) :=
  (after_keeps hostOps0_1 (W1 m ρ c) main_arg9 (by
    simp only [hostOps0_1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W1_main_arg9 m ρ c)
theorem W3_main_arg9 (c : Dev nD) : W3 m ρ c (Proc.devRef .tc main_arg9) = m ((c : Thread nD τ).loc main_arg9) :=
  (after_keeps hostOps0_2 (W2 m ρ c) main_arg9 (by
    simp only [hostOps0_2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W2_main_arg9 m ρ c)
theorem W4_main_arg9 (c : Dev nD) : W4 m ρ c (Proc.devRef .tc main_arg9) = m ((c : Thread nD τ).loc main_arg9) :=
  (after_keeps hostOps0_3 (W3 m ρ c) main_arg9 (by
    simp only [hostOps0_3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W3_main_arg9 m ρ c)
theorem W5_main_arg9 (c : Dev nD) : W5 m ρ c (Proc.devRef .tc main_arg9) = m ((c : Thread nD τ).loc main_arg9) :=
  (after_keeps hostOps0_4 (W4 m ρ c) main_arg9 (by
    simp only [hostOps0_4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W4_main_arg9 m ρ c)
theorem W6_main_arg9 (c : Dev nD) : W6 m ρ c (Proc.devRef .tc main_arg9) = m ((c : Thread nD τ).loc main_arg9) :=
  (W6_of_ne m ρ c main_arg9 (by decide)).trans (W5_main_arg9 m ρ c)
theorem W7_main_arg9 (c : Dev nD) : W7 m ρ c (Proc.devRef .tc main_arg9) = m ((c : Thread nD τ).loc main_arg9) :=
  (after_keeps hostOps1 (W6 m ρ c) main_arg9 (by
    simp only [hostOps1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W6_main_arg9 m ρ c)
theorem W8_main_arg9 (c : Dev nD) : W8 m ρ c (Proc.devRef .tc main_arg9) = m ((c : Thread nD τ).loc main_arg9) :=
  (W8_of_ne m ρ c main_arg9 (by decide)).trans (W7_main_arg9 m ρ c)
theorem W9_main_arg9 (c : Dev nD) : W9 m ρ c (Proc.devRef .tc main_arg9) = m ((c : Thread nD τ).loc main_arg9) :=
  (after_keeps hostOps2 (W8 m ρ c) main_arg9 (by
    simp only [hostOps2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W8_main_arg9 m ρ c)
theorem W10_main_arg9 (c : Dev nD) : W10 m ρ c (Proc.devRef .tc main_arg9) = m ((c : Thread nD τ).loc main_arg9) :=
  (W10_of_ne m ρ c main_arg9 (by decide)).trans (W9_main_arg9 m ρ c)
theorem W11_main_arg9 (c : Dev nD) : W11 m ρ c (Proc.devRef .tc main_arg9) = m ((c : Thread nD τ).loc main_arg9) :=
  (after_keeps hostOps3 (W10 m ρ c) main_arg9 (by
    simp only [hostOps3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W10_main_arg9 m ρ c)
theorem W12_main_arg9 (c : Dev nD) : W12 m ρ c (Proc.devRef .tc main_arg9) = m ((c : Thread nD τ).loc main_arg9) :=
  (W12_of_ne m ρ c main_arg9 (by decide)).trans (W11_main_arg9 m ρ c)
theorem W13_main_arg9 (c : Dev nD) : W13 m ρ c (Proc.devRef .tc main_arg9) = m ((c : Thread nD τ).loc main_arg9) :=
  (after_keeps hostOps4 (W12 m ρ c) main_arg9 (by
    simp only [hostOps4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W12_main_arg9 m ρ c)

theorem W0_main_arg10 (c : Dev nD) : W0 m ρ c (Proc.devRef .tc main_arg10) = m ((c : Thread nD τ).loc main_arg10) := rfl
theorem W1_main_arg10 (c : Dev nD) : W1 m ρ c (Proc.devRef .tc main_arg10) = m ((c : Thread nD τ).loc main_arg10) :=
  (after_keeps hostOps0 (W0 m ρ c) main_arg10 (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W0_main_arg10 m ρ c)
theorem W2_main_arg10 (c : Dev nD) : W2 m ρ c (Proc.devRef .tc main_arg10) = m ((c : Thread nD τ).loc main_arg10) :=
  (after_keeps hostOps0_1 (W1 m ρ c) main_arg10 (by
    simp only [hostOps0_1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W1_main_arg10 m ρ c)
theorem W3_main_arg10 (c : Dev nD) : W3 m ρ c (Proc.devRef .tc main_arg10) = m ((c : Thread nD τ).loc main_arg10) :=
  (after_keeps hostOps0_2 (W2 m ρ c) main_arg10 (by
    simp only [hostOps0_2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W2_main_arg10 m ρ c)
theorem W4_main_arg10 (c : Dev nD) : W4 m ρ c (Proc.devRef .tc main_arg10) = m ((c : Thread nD τ).loc main_arg10) :=
  (after_keeps hostOps0_3 (W3 m ρ c) main_arg10 (by
    simp only [hostOps0_3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W3_main_arg10 m ρ c)
theorem W5_main_arg10 (c : Dev nD) : W5 m ρ c (Proc.devRef .tc main_arg10) = m ((c : Thread nD τ).loc main_arg10) :=
  (after_keeps hostOps0_4 (W4 m ρ c) main_arg10 (by
    simp only [hostOps0_4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W4_main_arg10 m ρ c)
theorem W6_main_arg10 (c : Dev nD) : W6 m ρ c (Proc.devRef .tc main_arg10) = m ((c : Thread nD τ).loc main_arg10) :=
  (W6_of_ne m ρ c main_arg10 (by decide)).trans (W5_main_arg10 m ρ c)
theorem W7_main_arg10 (c : Dev nD) : W7 m ρ c (Proc.devRef .tc main_arg10) = m ((c : Thread nD τ).loc main_arg10) :=
  (after_keeps hostOps1 (W6 m ρ c) main_arg10 (by
    simp only [hostOps1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W6_main_arg10 m ρ c)
theorem W8_main_arg10 (c : Dev nD) : W8 m ρ c (Proc.devRef .tc main_arg10) = m ((c : Thread nD τ).loc main_arg10) :=
  (W8_of_ne m ρ c main_arg10 (by decide)).trans (W7_main_arg10 m ρ c)
theorem W9_main_arg10 (c : Dev nD) : W9 m ρ c (Proc.devRef .tc main_arg10) = m ((c : Thread nD τ).loc main_arg10) :=
  (after_keeps hostOps2 (W8 m ρ c) main_arg10 (by
    simp only [hostOps2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W8_main_arg10 m ρ c)
theorem W10_main_arg10 (c : Dev nD) : W10 m ρ c (Proc.devRef .tc main_arg10) = m ((c : Thread nD τ).loc main_arg10) :=
  (W10_of_ne m ρ c main_arg10 (by decide)).trans (W9_main_arg10 m ρ c)
theorem W11_main_arg10 (c : Dev nD) : W11 m ρ c (Proc.devRef .tc main_arg10) = m ((c : Thread nD τ).loc main_arg10) :=
  (after_keeps hostOps3 (W10 m ρ c) main_arg10 (by
    simp only [hostOps3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W10_main_arg10 m ρ c)
theorem W12_main_arg10 (c : Dev nD) : W12 m ρ c (Proc.devRef .tc main_arg10) = m ((c : Thread nD τ).loc main_arg10) :=
  (W12_of_ne m ρ c main_arg10 (by decide)).trans (W11_main_arg10 m ρ c)
theorem W13_main_arg10 (c : Dev nD) : W13 m ρ c (Proc.devRef .tc main_arg10) = m ((c : Thread nD τ).loc main_arg10) :=
  (after_keeps hostOps4 (W12 m ρ c) main_arg10 (by
    simp only [hostOps4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W12_main_arg10 m ρ c)

theorem W0_main_arg11 (c : Dev nD) : W0 m ρ c (Proc.devRef .tc main_arg11) = m ((c : Thread nD τ).loc main_arg11) := rfl
theorem W1_main_arg11 (c : Dev nD) : W1 m ρ c (Proc.devRef .tc main_arg11) = m ((c : Thread nD τ).loc main_arg11) :=
  (after_keeps hostOps0 (W0 m ρ c) main_arg11 (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W0_main_arg11 m ρ c)
theorem W2_main_arg11 (c : Dev nD) : W2 m ρ c (Proc.devRef .tc main_arg11) = m ((c : Thread nD τ).loc main_arg11) :=
  (after_keeps hostOps0_1 (W1 m ρ c) main_arg11 (by
    simp only [hostOps0_1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W1_main_arg11 m ρ c)
theorem W3_main_arg11 (c : Dev nD) : W3 m ρ c (Proc.devRef .tc main_arg11) = m ((c : Thread nD τ).loc main_arg11) :=
  (after_keeps hostOps0_2 (W2 m ρ c) main_arg11 (by
    simp only [hostOps0_2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W2_main_arg11 m ρ c)
theorem W4_main_arg11 (c : Dev nD) : W4 m ρ c (Proc.devRef .tc main_arg11) = m ((c : Thread nD τ).loc main_arg11) :=
  (after_keeps hostOps0_3 (W3 m ρ c) main_arg11 (by
    simp only [hostOps0_3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W3_main_arg11 m ρ c)
theorem W5_main_arg11 (c : Dev nD) : W5 m ρ c (Proc.devRef .tc main_arg11) = m ((c : Thread nD τ).loc main_arg11) :=
  (after_keeps hostOps0_4 (W4 m ρ c) main_arg11 (by
    simp only [hostOps0_4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W4_main_arg11 m ρ c)
theorem W6_main_arg11 (c : Dev nD) : W6 m ρ c (Proc.devRef .tc main_arg11) = m ((c : Thread nD τ).loc main_arg11) :=
  (W6_of_ne m ρ c main_arg11 (by decide)).trans (W5_main_arg11 m ρ c)
theorem W7_main_arg11 (c : Dev nD) : W7 m ρ c (Proc.devRef .tc main_arg11) = m ((c : Thread nD τ).loc main_arg11) :=
  (after_keeps hostOps1 (W6 m ρ c) main_arg11 (by
    simp only [hostOps1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W6_main_arg11 m ρ c)
theorem W8_main_arg11 (c : Dev nD) : W8 m ρ c (Proc.devRef .tc main_arg11) = m ((c : Thread nD τ).loc main_arg11) :=
  (W8_of_ne m ρ c main_arg11 (by decide)).trans (W7_main_arg11 m ρ c)
theorem W9_main_arg11 (c : Dev nD) : W9 m ρ c (Proc.devRef .tc main_arg11) = m ((c : Thread nD τ).loc main_arg11) :=
  (after_keeps hostOps2 (W8 m ρ c) main_arg11 (by
    simp only [hostOps2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W8_main_arg11 m ρ c)
theorem W10_main_arg11 (c : Dev nD) : W10 m ρ c (Proc.devRef .tc main_arg11) = m ((c : Thread nD τ).loc main_arg11) :=
  (W10_of_ne m ρ c main_arg11 (by decide)).trans (W9_main_arg11 m ρ c)
theorem W11_main_arg11 (c : Dev nD) : W11 m ρ c (Proc.devRef .tc main_arg11) = m ((c : Thread nD τ).loc main_arg11) :=
  (after_keeps hostOps3 (W10 m ρ c) main_arg11 (by
    simp only [hostOps3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W10_main_arg11 m ρ c)
theorem W12_main_arg11 (c : Dev nD) : W12 m ρ c (Proc.devRef .tc main_arg11) = m ((c : Thread nD τ).loc main_arg11) :=
  (W12_of_ne m ρ c main_arg11 (by decide)).trans (W11_main_arg11 m ρ c)
theorem W13_main_arg11 (c : Dev nD) : W13 m ρ c (Proc.devRef .tc main_arg11) = m ((c : Thread nD τ).loc main_arg11) :=
  (after_keeps hostOps4 (W12 m ρ c) main_arg11 (by
    simp only [hostOps4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W12_main_arg11 m ρ c)

end Args

end Cert.Kernel.Hand

end
-- ==== Proof.KbFrame.lean ====
/-
  The frame claim: every execution of the program terminates without a fault and leaves the twelve argument arrays
  as they were — the run of the thirteen pieces, with each argument's buffer read at the last boundary.
-/
import proofs.«112372_j79972291051933_2_alg».proof.Proof.KbRun
import proofs.«112372_j79972291051933_2_alg».proof.Proof.KbArgs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W13_main_arg0 m ρ c),
      (h c _ (mem_uc main_arg1 (by decide))).trans (W13_main_arg1 m ρ c),
      (h c _ (mem_uc main_arg2 (by decide))).trans (W13_main_arg2 m ρ c),
      (h c _ (mem_uc main_arg3 (by decide))).trans (W13_main_arg3 m ρ c),
      (h c _ (mem_uc main_arg4 (by decide))).trans (W13_main_arg4 m ρ c),
      (h c _ (mem_uc main_arg5 (by decide))).trans (W13_main_arg5 m ρ c),
      (h c _ (mem_uc main_arg6 (by decide))).trans (W13_main_arg6 m ρ c),
      (h c _ (mem_uc main_arg7 (by decide))).trans (W13_main_arg7 m ρ c),
      (h c _ (mem_uc main_arg8 (by decide))).trans (W13_main_arg8 m ρ c),
      (h c _ (mem_uc main_arg9 (by decide))).trans (W13_main_arg9 m ρ c),
      (h c _ (mem_uc main_arg10 (by decide))).trans (W13_main_arg10 m ρ c),
      (h c _ (mem_uc main_arg11 (by decide))).trans (W13_main_arg11 m ρ c)⟩) (run_all m ρ)

end Cert.Kernel.Hand

end
-- ==== Proof.KiRegion0.lean ====
/-
  Region 0 of the program's four launches of one body: from a view block [1,512,256], a bank tile [2048,256] and a
  column of scales [1,512,1] the body stores exp((view · tileᵀ) · scale) into the output block [1,512,2048].
  Here: what each window's buffer holds around the body at a grid point, the body's run on whole buffers, and the
  obligation the launch asks of every point, for whatever the arrays hold when the region is entered.
-/
import proofs.«112372_j79972291051933_2_alg».proof.Proof.Gen.KernelIdeal.Launch
import proofs.«112372_j79972291051933_2_alg».proof.Proof.Gen.KernelIdeal.Skeleton
import proofs.«112372_j79972291051933_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: one launch of the matmul-scale-exp body over its grid, from the contents `V` it is entered with -/

section Region0
variable (V : (c : Dev nD) → (b : Ref sig .tc) → Buf (Elt F) ((c : Thread nD τ).loc b))

/-- Window `w`'s block at grid point `t`, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the block was fetched there or kept
    from the point before (its index has not moved then). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_x : Rect S1x512x256 := Rect.unit (s := S1x512x256) ![0, 0, 0] S1x512x256.size inb_S1x512x256_S1x512x256_0_0_0
abbrev r0_m : Rect S2048x256 := Rect.unit (s := S2048x256) ![0, 0] S2048x256.size inb_S2048x256_S2048x256_0_0
abbrev r0_s : Rect S1x512x1 := Rect.unit (s := S1x512x1) ![0, 0, 0] S1x512x1.size inb_S1x512x1_S1x512x1_0_0_0
abbrev r0_o : Rect S1x512x2048 := Rect.unit (s := S1x512x2048) ![0, 0, 0] S1x512x2048.size inb_S1x512x2048_S1x512x2048_0_0_0

/-- What the body leaves in the output window's buffer: its one store, of the product block scaled row by row and
    exponentiated, computed from the three input blocks. -/
def out0_3 (x0 : Vec F S1x512x256 .f32) (x1 : Vec F S2048x256 .f32) (x2 : Vec F S1x512x1 .f32) : Vec F S1x512x2048 .f32 :=
  View.canon [⟨r0_o, k0_pay1 (View.ld x0 r0_x) (View.ld x1 r0_m) (View.ld x2 r0_s)⟩]

/-- The one store covers the buffer. -/
theorem cover0_3 (p0 : Vec F S1x512x2048 .f32) (y : S1x512x2048.Idx) :
    ∃ pc ∈ ([⟨r0_o, p0⟩] : List (View.Piece (Elt F) S1x512x2048 .f32)), y ∈ pc.1.set :=
  View.cover_of_tiled [⟨r0_o, p0⟩] S1x512x2048.size (by rfl) y

set_option maxHeartbeats 4000000 in
/-- The body on whole staging buffers, the inputs at known contents and the output at anything, ends with the inputs
    as they were and the output at `out0_3` of them. -/
theorem sound_kernel0 (c : Dev nD) (E : Set ℕ) (i : grid0.Coords) (arg2 : Memref sig .tc .vmem S1x512x256 .f32) (harg2 : arg2.IsWhole) (arg3 : Memref sig .tc .vmem S2048x256 .f32) (harg3 : arg3.IsWhole) (arg4 : Memref sig .tc .vmem S1x512x1 .f32) (harg4 : arg4.IsWhole) (arg5 : Memref sig .tc .vmem S1x512x2048 .f32) (harg5 : arg5.IsWhole)
    (x0 : Vec F S1x512x256 .f32) (x1 : Vec F S2048x256 .f32) (x2 : Vec F S1x512x1 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__mem_exp_kernel i arg2 harg2 arg3 harg3 arg4 harg4 arg5 harg5) K := by
  simp only [cc0__mem_exp_kernel_eq_skeleton]; unfold cc0__mem_exp_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data: the arrays as the region finds them; after the body each input's buffer still at its
    block and the output's at `out0_3` of the input blocks; nothing owed, full shares, the untouched rest as invariant. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KiRegion1.lean ====
/-
  Region 1 of the program's four launches of one body: from a view block [1,512,256], a bank tile [2048,256] and a
  column of scales [1,512,1] the body stores exp((view · tileᵀ) · scale) into the output block [1,512,2048].
  Here: what each window's buffer holds around the body at a grid point, the body's run on whole buffers, and the
  obligation the launch asks of every point, for whatever the arrays hold when the region is entered.
-/
import proofs.«112372_j79972291051933_2_alg».proof.Proof.Gen.KernelIdeal.Launch
import proofs.«112372_j79972291051933_2_alg».proof.Proof.Gen.KernelIdeal.Skeleton
import proofs.«112372_j79972291051933_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: one launch of the matmul-scale-exp body over its grid, from the contents `V` it is entered with -/

section Region1
variable (V : (c : Dev nD) → (b : Ref sig .tc) → Buf (Elt F) ((c : Thread nD τ).loc b))

/-- Window `w`'s block at grid point `t`, cut out of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the block was fetched there or kept
    from the point before (its index has not moved then). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev r1_x : Rect S1x512x256 := Rect.unit (s := S1x512x256) ![0, 0, 0] S1x512x256.size inb_S1x512x256_S1x512x256_0_0_0
abbrev r1_m : Rect S2048x256 := Rect.unit (s := S2048x256) ![0, 0] S2048x256.size inb_S2048x256_S2048x256_0_0
abbrev r1_s : Rect S1x512x1 := Rect.unit (s := S1x512x1) ![0, 0, 0] S1x512x1.size inb_S1x512x1_S1x512x1_0_0_0
abbrev r1_o : Rect S1x512x2048 := Rect.unit (s := S1x512x2048) ![0, 0, 0] S1x512x2048.size inb_S1x512x2048_S1x512x2048_0_0_0

/-- What the body leaves in the output window's buffer: its one store, of the product block scaled row by row and
    exponentiated, computed from the three input blocks. -/
def out1_3 (x0 : Vec F S1x512x256 .f32) (x1 : Vec F S2048x256 .f32) (x2 : Vec F S1x512x1 .f32) : Vec F S1x512x2048 .f32 :=
  View.canon [⟨r1_o, k1_pay1 (View.ld x0 r1_x) (View.ld x1 r1_m) (View.ld x2 r1_s)⟩]

/-- The one store covers the buffer. -/
theorem cover1_3 (p0 : Vec F S1x512x2048 .f32) (y : S1x512x2048.Idx) :
    ∃ pc ∈ ([⟨r1_o, p0⟩] : List (View.Piece (Elt F) S1x512x2048 .f32)), y ∈ pc.1.set :=
  View.cover_of_tiled [⟨r1_o, p0⟩] S1x512x2048.size (by rfl) y

set_option maxHeartbeats 4000000 in
/-- The body on whole staging buffers, the inputs at known contents and the output at anything, ends with the inputs
    as they were and the output at `out1_3` of them. -/
theorem sound_kernel1 (c : Dev nD) (E : Set ℕ) (i : grid1.Coords) (arg2 : Memref sig .tc .vmem S1x512x256 .f32) (harg2 : arg2.IsWhole) (arg3 : Memref sig .tc .vmem S2048x256 .f32) (harg3 : arg3.IsWhole) (arg4 : Memref sig .tc .vmem S1x512x1 .f32) (harg4 : arg4.IsWhole) (arg5 : Memref sig .tc .vmem S1x512x2048 .f32) (harg5 : arg5.IsWhole)
    (x0 : Vec F S1x512x256 .f32) (x1 : Vec F S2048x256 .f32) (x2 : Vec F S1x512x1 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__mem_exp_kernel i arg2 harg2 arg3 harg3 arg4 harg4 arg5 harg5) K := by
  simp only [cc1__mem_exp_kernel_eq_skeleton]; unfold cc1__mem_exp_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The region's proof data: the arrays as the region finds them; after the body each input's buffer still at its
    block and the output's at `out1_3` of the input blocks; nothing owed, full shares, the untouched rest as invariant. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `sound_kernel1` applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KiRegion2.lean ====
/-
  Region 2 of the program's four launches of one body: from a view block [1,512,256], a bank tile [2048,256] and a
  column of scales [1,512,1] the body stores exp((view · tileᵀ) · scale) into the output block [1,512,2048].
  Here: what each window's buffer holds around the body at a grid point, the body's run on whole buffers, and the
  obligation the launch asks of every point, for whatever the arrays hold when the region is entered.
-/
import proofs.«112372_j79972291051933_2_alg».proof.Proof.Gen.KernelIdeal.Launch
import proofs.«112372_j79972291051933_2_alg».proof.Proof.Gen.KernelIdeal.Skeleton
import proofs.«112372_j79972291051933_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: one launch of the matmul-scale-exp body over its grid, from the contents `V` it is entered with -/

section Region2
variable (V : (c : Dev nD) → (b : Ref sig .tc) → Buf (Elt F) ((c : Thread nD τ).loc b))

/-- Window `w`'s block at grid point `t`, cut out of its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether the block was fetched there or kept
    from the point before (its index has not moved then). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev r2_x : Rect S1x512x256 := Rect.unit (s := S1x512x256) ![0, 0, 0] S1x512x256.size inb_S1x512x256_S1x512x256_0_0_0
abbrev r2_m : Rect S2048x256 := Rect.unit (s := S2048x256) ![0, 0] S2048x256.size inb_S2048x256_S2048x256_0_0
abbrev r2_s : Rect S1x512x1 := Rect.unit (s := S1x512x1) ![0, 0, 0] S1x512x1.size inb_S1x512x1_S1x512x1_0_0_0
abbrev r2_o : Rect S1x512x2048 := Rect.unit (s := S1x512x2048) ![0, 0, 0] S1x512x2048.size inb_S1x512x2048_S1x512x2048_0_0_0

/-- What the body leaves in the output window's buffer: its one store, of the product block scaled row by row and
    exponentiated, computed from the three input blocks. -/
def out2_3 (x0 : Vec F S1x512x256 .f32) (x1 : Vec F S2048x256 .f32) (x2 : Vec F S1x512x1 .f32) : Vec F S1x512x2048 .f32 :=
  View.canon [⟨r2_o, k2_pay1 (View.ld x0 r2_x) (View.ld x1 r2_m) (View.ld x2 r2_s)⟩]

/-- The one store covers the buffer. -/
theorem cover2_3 (p0 : Vec F S1x512x2048 .f32) (y : S1x512x2048.Idx) :
    ∃ pc ∈ ([⟨r2_o, p0⟩] : List (View.Piece (Elt F) S1x512x2048 .f32)), y ∈ pc.1.set :=
  View.cover_of_tiled [⟨r2_o, p0⟩] S1x512x2048.size (by rfl) y

set_option maxHeartbeats 4000000 in
/-- The body on whole staging buffers, the inputs at known contents and the output at anything, ends with the inputs
    as they were and the output at `out2_3` of them. -/
theorem sound_kernel2 (c : Dev nD) (E : Set ℕ) (i : grid2.Coords) (arg2 : Memref sig .tc .vmem S1x512x256 .f32) (harg2 : arg2.IsWhole) (arg3 : Memref sig .tc .vmem S2048x256 .f32) (harg3 : arg3.IsWhole) (arg4 : Memref sig .tc .vmem S1x512x1 .f32) (harg4 : arg4.IsWhole) (arg5 : Memref sig .tc .vmem S1x512x2048 .f32) (harg5 : arg5.IsWhole)
    (x0 : Vec F S1x512x256 .f32) (x1 : Vec F S2048x256 .f32) (x2 : Vec F S1x512x1 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out2_3 x0 x1 x2)) -∗ K ⟨⟩))
      ⊢ wp frame (wpE (defs₀ (F := F)) Variants.none c none) E (cc2__mem_exp_kernel i arg2 harg2 arg3 harg3 arg4 harg4 arg5 harg5) K := by
  simp only [cc2__mem_exp_kernel_eq_skeleton]; unfold cc2__mem_exp_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The region's proof data: the arrays as the region finds them; after the body each input's buffer still at its
    block and the output's at `out2_3` of the input blocks; nothing owed, full shares, the untouched rest as invariant. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so `sound_kernel2` applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KiRegion3.lean ====
/-
  Region 3 of the program's four launches of one body: from a view block [1,512,256], a bank tile [2048,256] and a
  column of scales [1,512,1] the body stores exp((view · tileᵀ) · scale) into the output block [1,512,2048].
  Here: what each window's buffer holds around the body at a grid point, the body's run on whole buffers, and the
  obligation the launch asks of every point, for whatever the arrays hold when the region is entered.
-/
import proofs.«112372_j79972291051933_2_alg».proof.Proof.Gen.KernelIdeal.Launch
import proofs.«112372_j79972291051933_2_alg».proof.Proof.Gen.KernelIdeal.Skeleton
import proofs.«112372_j79972291051933_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: one launch of the matmul-scale-exp body over its grid, from the contents `V` it is entered with -/

section Region3
variable (V : (c : Dev nD) → (b : Ref sig .tc) → Buf (Elt F) ((c : Thread nD τ).loc b))

/-- Window `w`'s block at grid point `t`, cut out of its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, whether the block was fetched there or kept
    from the point before (its index has not moved then). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole-block rectangles the body loads and stores through. -/
abbrev r3_x : Rect S1x512x256 := Rect.unit (s := S1x512x256) ![0, 0, 0] S1x512x256.size inb_S1x512x256_S1x512x256_0_0_0
abbrev r3_m : Rect S2048x256 := Rect.unit (s := S2048x256) ![0, 0] S2048x256.size inb_S2048x256_S2048x256_0_0
abbrev r3_s : Rect S1x512x1 := Rect.unit (s := S1x512x1) ![0, 0, 0] S1x512x1.size inb_S1x512x1_S1x512x1_0_0_0
abbrev r3_o : Rect S1x512x2048 := Rect.unit (s := S1x512x2048) ![0, 0, 0] S1x512x2048.size inb_S1x512x2048_S1x512x2048_0_0_0

/-- What the body leaves in the output window's buffer: its one store, of the product block scaled row by row and
    exponentiated, computed from the three input blocks. -/
def out3_3 (x0 : Vec F S1x512x256 .f32) (x1 : Vec F S2048x256 .f32) (x2 : Vec F S1x512x1 .f32) : Vec F S1x512x2048 .f32 :=
  View.canon [⟨r3_o, k3_pay1 (View.ld x0 r3_x) (View.ld x1 r3_m) (View.ld x2 r3_s)⟩]

/-- The one store covers the buffer. -/
theorem cover3_3 (p0 : Vec F S1x512x2048 .f32) (y : S1x512x2048.Idx) :
    ∃ pc ∈ ([⟨r3_o, p0⟩] : List (View.Piece (Elt F) S1x512x2048 .f32)), y ∈ pc.1.set :=
  View.cover_of_tiled [⟨r3_o, p0⟩] S1x512x2048.size (by rfl) y

set_option maxHeartbeats 4000000 in
/-- The body on whole staging buffers, the inputs at known contents and the output at anything, ends with the inputs
    as they were and the output at `out3_3` of them. -/
theorem sound_kernel3 (c : Dev nD) (E : Set ℕ) (i : grid3.Coords) (arg2 : Memref sig .tc .vmem S1x512x256 .f32) (harg2 : arg2.IsWhole) (arg3 : Memref sig .tc .vmem S2048x256 .f32) (harg3 : arg3.IsWhole) (arg4 : Memref sig .tc .vmem S1x512x1 .f32) (harg4 : arg4.IsWhole) (arg5 : Memref sig .tc .vmem S1x512x2048 .f32) (harg5 : arg5.IsWhole)
    (x0 : Vec F S1x512x256 .f32) (x1 : Vec F S2048x256 .f32) (x2 : Vec F S1x512x1 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out3_3 x0 x1 x2)) -∗ K ⟨⟩))
      ⊢ wp frame (wpE (defs₀ (F := F)) Variants.none c none) E (cc3__mem_exp_kernel i arg2 harg2 arg3 harg3 arg4 harg4 arg5 harg5) K := by
  simp only [cc3__mem_exp_kernel_eq_skeleton]; unfold cc3__mem_exp_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The region's proof data: the arrays as the region finds them; after the body each input's buffer still at its
    block and the output's at `out3_3` of the input blocks; nothing owed, full shares, the untouched rest as invariant. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so `sound_kernel3` applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Hand

end
-- ==== Proof.KiFold.lean ====
/-
  The whole program as a run of thirteen pieces: the four norm computations, the long stretch of host operations that
  prepares the scales, the stacked views and the first column of the result, then four launches of the body with the
  host operations between and after them. The contents of every buffer at each boundary are named (`W0` … `W13`: a
  stretch of host operations applies its operations in order; a launch leaves its arrays at what its write-backs fold
  to and every other buffer as it was), and the launch of the pieces in order gives: every execution terminates,
  nothing faults, and at the end every buffer holds `W13`.
-/
import proofs.«112372_j79972291051933_2_alg».proof.Proof.KiRegion0
import proofs.«112372_j79972291051933_2_alg».proof.Proof.KiRegion1
import proofs.«112372_j79972291051933_2_alg».proof.Proof.KiRegion2
import proofs.«112372_j79972291051933_2_alg».proof.Proof.KiRegion3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run
variable (m : (ℓ : Loc nD τ sig) → Buf (Elt F) ℓ) (ρ : Dev nD → PrngReg)

/-! ## The buffer contents at each boundary -/

/-- The core's buffers at launch. -/
abbrev W0 : Dev nD → Valuation τ sig (Elt F) := fun c b => (s₀ m ρ).mem ((c : Dev nD), b)
/-- After the host operations `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the host operations `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
/-- After the host operations `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- After the host operations `hostOps0_3`. -/
abbrev W4 : Dev nD → Valuation τ sig (Elt F) := fun c => StableHlo.after hostOps0_3 (W3 m ρ c)
abbrev V4 : (c : Dev nD) → (b : Ref sig .tc) → Buf (Elt F) ((c : Thread nD τ).loc b) := fun c b => W4 m ρ c b
/-- After the host operations `hostOps0_4`. -/
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b
/-- After launch 0: its arrays at what the write-backs fold to, every other buffer as the launch found it. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)
/-- After the host operations `hostOps1`. -/
abbrev W7 : Dev nD → Valuation τ sig (Elt F) := fun c => StableHlo.after hostOps1 (W6 m ρ c)
abbrev V7 : (c : Dev nD) → (b : Ref sig .tc) → Buf (Elt F) ((c : Thread nD τ).loc b) := fun c b => W7 m ρ c b
/-- After launch 1: its arrays at what the write-backs fold to, every other buffer as the launch found it. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)
/-- After the host operations `hostOps2`. -/
abbrev W9 : Dev nD → Valuation τ sig (Elt F) := fun c => StableHlo.after hostOps2 (W8 m ρ c)
abbrev V9 : (c : Dev nD) → (b : Ref sig .tc) → Buf (Elt F) ((c : Thread nD τ).loc b) := fun c b => W9 m ρ c b
/-- After launch 2: its arrays at what the write-backs fold to, every other buffer as the launch found it. -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
abbrev V10 : (c : Dev nD) → (b : Ref sig .tc) → Buf (Elt F) ((c : Thread nD τ).loc b) := fun c b => W10 m ρ c b
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)
/-- After the host operations `hostOps3`. -/
abbrev W11 : Dev nD → Valuation τ sig (Elt F) := fun c => StableHlo.after hostOps3 (W10 m ρ c)
abbrev V11 : (c : Dev nD) → (b : Ref sig .tc) → Buf (Elt F) ((c : Thread nD τ).loc b) := fun c b => W11 m ρ c b
/-- After launch 3: its arrays at what the write-backs fold to, every other buffer as the launch found it. -/
def W12 (c : Dev nD) : Valuation τ sig (Elt F) :=
  Pipeline.withArrays spec3 c (W11 m ρ c) fun w => (dat3 (V11 m ρ) c).arrAt w cfg3.N
theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
abbrev V12 : (c : Dev nD) → (b : Ref sig .tc) → Buf (Elt F) ((c : Thread nD τ).loc b) := fun c b => W12 m ρ c b
theorem hF3 (c : Dev nD) (w : Fin cfg3.W) : (dat3 (V11 m ρ) c).arrAt w cfg3.N = V12 m ρ c (Pipeline.arrRef spec3 w) :=
  (W12_arr m ρ c w).symm
theorem hrest3 (c : Dev nD) : ∀ b, b ∉ Finset.univ.image (Pipeline.arrRef spec3) → V12 m ρ c b = V11 m ρ c b :=
  fun b hb => W12_of_ne m ρ c b fun w e => hb (Finset.mem_image.mpr ⟨w, Finset.mem_univ _, e⟩)
/-- After the host operations `hostOps4`. -/
abbrev W13 : Dev nD → Valuation τ sig (Elt F) := fun c => StableHlo.after hostOps4 (W12 m ρ c)
abbrev V13 : (c : Dev nD) → (b : Ref sig .tc) → Buf (Elt F) ((c : Thread nD τ).loc b) := fun c b => W13 m ρ c b

end Run

end Cert.KernelIdeal.Hand

end
-- ==== Proof.KiRun.lean ====
/-
  The launch of the thirteen pieces in order. Between pieces the core holds every unscoped buffer at the boundary's
  named contents, its generator register at some state, and owes no one anything; a stretch of host operations moves
  the contents by its operations, a launch takes its arrays out of that state, runs the pipeline over them and puts
  them back at what the write-backs fold to. The conclusion: every execution terminates without a fault and ends with
  every unscoped buffer at the last boundary's contents.
-/
import proofs.«112372_j79972291051933_2_alg».proof.Proof.KiFold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run
variable (m : (ℓ : Loc nD τ sig) → Buf (Elt F) ℓ) (ρ : Dev nD → PrngReg)

/-- No launch has a prefetched table. -/
abbrev adm : (p : Fin 4) → (pcfgs (F := F) p).Adm := fun p => (cfgs p).toPCfg_adm
/-- Each launch's proof data, at the contents the launch is entered with. -/
def pdats : (p : Fin 4) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
  | ⟨2, _⟩ => fun c => dat2 (V9 m ρ) c
  | ⟨3, _⟩ => fun c => dat3 (V11 m ρ) c
abbrev 𝒱₀ : Variants := Variants.none
abbrev L : GSem nD τ sig → Finset Unit := fun _ => ∅
abbrev lv : GSem nD τ sig → Unit → ℕ := fun _ _ => 0
/-- What rides beside the buffers through every piece: the generator register at some state, and nothing owed. -/
abbrev R (c : Dev nD) : sProp 𝕄 := iprop((∃ r, prngReg c r) ∗ ∃ W, owes (c : Thread nD τ) (0 : CellTallies nD τ sig Unit) W)
/-- A stretch of host operations as a piece of the run. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `hostOps0` allocates a buffer. -/
theorem hostOps0_fresh : (hostOps0 : List (HloOp τ sig (Elt F))).Forall fun op => op.fresh = ∅ := by
  simp only [List.Forall]; repeat' constructor
/-- No operation of `hostOps0_1` allocates a buffer. -/
theorem hostOps0_1_fresh : (hostOps0_1 : List (HloOp τ sig (Elt F))).Forall fun op => op.fresh = ∅ := by
  simp only [List.Forall]; repeat' constructor
/-- No operation of `hostOps0_2` allocates a buffer. -/
theorem hostOps0_2_fresh : (hostOps0_2 : List (HloOp τ sig (Elt F))).Forall fun op => op.fresh = ∅ := by
  simp only [List.Forall]; repeat' constructor
/-- No operation of `hostOps0_3` allocates a buffer. -/
theorem hostOps0_3_fresh : (hostOps0_3 : List (HloOp τ sig (Elt F))).Forall fun op => op.fresh = ∅ := by
  simp only [List.Forall]; repeat' constructor
/-- No operation of `hostOps0_4` allocates a buffer. -/
theorem hostOps0_4_fresh : (hostOps0_4 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor
/-- No operation of `hostOps2` allocates a buffer. -/
theorem hostOps2_fresh : (hostOps2 : List (HloOp τ sig (Elt F))).Forall fun op => op.fresh = ∅ := by
  simp only [List.Forall]; repeat' constructor
/-- No operation of `hostOps3` allocates a buffer. -/
theorem hostOps3_fresh : (hostOps3 : List (HloOp τ sig (Elt F))).Forall fun op => op.fresh = ∅ := by
  simp only [List.Forall]; repeat' constructor
/-- No operation of `hostOps4` allocates a buffer. -/
theorem hostOps4_fresh : (hostOps4 : List (HloOp τ sig (Elt F))).Forall fun op => op.fresh = ∅ := by
  simp only [List.Forall]; repeat' constructor

/-- An unscoped reference of the core is among those the state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without what is owed: every unscoped buffer at the last boundary's contents, the register at some state. -/
abbrev Tₙ (c : Dev nD) : sProp 𝕄 := iprop(StableHlo.held (c : Thread nD τ) (Pipeline.ucRefs τ sig) (W13 m ρ c) ∗ ∃ r, prngReg c r)

/-! ## The launches as pieces -/

set_option backward.isDefEq.respectTransparency.types false in
/-- Launch 0: entered with every unscoped buffer at `W5`, left with them at `W6`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1: entered with every unscoped buffer at `W7`, left with them at `W8`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2: entered with every unscoped buffer at `W9`, left with them at `W10`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3: entered with every unscoped buffer at `W11`, left with them at `W12`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V11 m ρ c) (V12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The thirteen pieces in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)),
    .region (reg2 m ρ),
    .host (hseg hostOps3 hostOps3_sub hostOps3_fresh (W10 m ρ)),
    .region (reg3 m ρ),
    .host (hseg hostOps4 hostOps4_sub hostOps4_fresh (W12 m ρ)) ]

/-- The program IS the run of the pieces. -/
theorem main_run (c : Dev nD) : main (F := F) c = Pipeline.Seg.run (segs m ρ) := (main_chain c).trans (by chain_rfl)

set_option backward.isDefEq.respectTransparency.types false in
/-- From any memory with zero counters every weakly fair execution of the program terminates, nothing faulting, and
    ends with every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        show iprop(StableHlo.held (c : Thread nD τ) (Pipeline.ucRefs τ sig) (W13 m ρ c)
            ∗ ((∃ r, prngReg c r) ∗ ∃ W, owes (c : Thread nD τ) (0 : CellTallies nD τ sig Unit) W))
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

end Run

end Cert.KernelIdeal.Hand

end
-- ==== Proof.KiArgs.lean ====
/-
  The twelve argument arrays are never written: no host operation's result is one of them and no launch's window is
  one of them (the launches read reshaped or stacked copies). So at every boundary an argument's buffer holds what it
  held at launch.
-/
import proofs.«112372_j79972291051933_2_alg».proof.Proof.KiFold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Args
variable (m : (ℓ : Loc nD τ sig) → Buf (Elt F) ℓ) (ρ : Dev nD → PrngReg)

/-- A stretch of host operations none of which writes `b` leaves `b`'s buffer as it was. -/
theorem after_keeps (ops : List (HloOp τ sig (Elt F))) (W : Valuation τ sig (Elt F)) (b : Ref sig .tc)
    (h : ops.Forall fun op => (Proc.devRef .tc b : DevRef τ sig) ∉ op.writes) :
    StableHlo.after ops W (Proc.devRef .tc b) = W (Proc.devRef .tc b) :=
  StableHlo.after_of_forall_not_mem (b := Proc.devRef .tc b) _ _ (List.forall_iff_forall_mem.mp h)

theorem W0_main_arg0 (c : Dev nD) : W0 m ρ c (Proc.devRef .tc main_arg0) = m ((c : Thread nD τ).loc main_arg0) := rfl
theorem W1_main_arg0 (c : Dev nD) : W1 m ρ c (Proc.devRef .tc main_arg0) = m ((c : Thread nD τ).loc main_arg0) :=
  (after_keeps hostOps0 (W0 m ρ c) main_arg0 (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W0_main_arg0 m ρ c)
theorem W2_main_arg0 (c : Dev nD) : W2 m ρ c (Proc.devRef .tc main_arg0) = m ((c : Thread nD τ).loc main_arg0) :=
  (after_keeps hostOps0_1 (W1 m ρ c) main_arg0 (by
    simp only [hostOps0_1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W1_main_arg0 m ρ c)
theorem W3_main_arg0 (c : Dev nD) : W3 m ρ c (Proc.devRef .tc main_arg0) = m ((c : Thread nD τ).loc main_arg0) :=
  (after_keeps hostOps0_2 (W2 m ρ c) main_arg0 (by
    simp only [hostOps0_2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W2_main_arg0 m ρ c)
theorem W4_main_arg0 (c : Dev nD) : W4 m ρ c (Proc.devRef .tc main_arg0) = m ((c : Thread nD τ).loc main_arg0) :=
  (after_keeps hostOps0_3 (W3 m ρ c) main_arg0 (by
    simp only [hostOps0_3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W3_main_arg0 m ρ c)
theorem W5_main_arg0 (c : Dev nD) : W5 m ρ c (Proc.devRef .tc main_arg0) = m ((c : Thread nD τ).loc main_arg0) :=
  (after_keeps hostOps0_4 (W4 m ρ c) main_arg0 (by
    simp only [hostOps0_4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W4_main_arg0 m ρ c)
theorem W6_main_arg0 (c : Dev nD) : W6 m ρ c (Proc.devRef .tc main_arg0) = m ((c : Thread nD τ).loc main_arg0) :=
  (W6_of_ne m ρ c main_arg0 (by decide)).trans (W5_main_arg0 m ρ c)
theorem W7_main_arg0 (c : Dev nD) : W7 m ρ c (Proc.devRef .tc main_arg0) = m ((c : Thread nD τ).loc main_arg0) :=
  (after_keeps hostOps1 (W6 m ρ c) main_arg0 (by
    simp only [hostOps1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W6_main_arg0 m ρ c)
theorem W8_main_arg0 (c : Dev nD) : W8 m ρ c (Proc.devRef .tc main_arg0) = m ((c : Thread nD τ).loc main_arg0) :=
  (W8_of_ne m ρ c main_arg0 (by decide)).trans (W7_main_arg0 m ρ c)
theorem W9_main_arg0 (c : Dev nD) : W9 m ρ c (Proc.devRef .tc main_arg0) = m ((c : Thread nD τ).loc main_arg0) :=
  (after_keeps hostOps2 (W8 m ρ c) main_arg0 (by
    simp only [hostOps2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W8_main_arg0 m ρ c)
theorem W10_main_arg0 (c : Dev nD) : W10 m ρ c (Proc.devRef .tc main_arg0) = m ((c : Thread nD τ).loc main_arg0) :=
  (W10_of_ne m ρ c main_arg0 (by decide)).trans (W9_main_arg0 m ρ c)
theorem W11_main_arg0 (c : Dev nD) : W11 m ρ c (Proc.devRef .tc main_arg0) = m ((c : Thread nD τ).loc main_arg0) :=
  (after_keeps hostOps3 (W10 m ρ c) main_arg0 (by
    simp only [hostOps3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W10_main_arg0 m ρ c)
theorem W12_main_arg0 (c : Dev nD) : W12 m ρ c (Proc.devRef .tc main_arg0) = m ((c : Thread nD τ).loc main_arg0) :=
  (W12_of_ne m ρ c main_arg0 (by decide)).trans (W11_main_arg0 m ρ c)
theorem W13_main_arg0 (c : Dev nD) : W13 m ρ c (Proc.devRef .tc main_arg0) = m ((c : Thread nD τ).loc main_arg0) :=
  (after_keeps hostOps4 (W12 m ρ c) main_arg0 (by
    simp only [hostOps4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W12_main_arg0 m ρ c)

theorem W0_main_arg1 (c : Dev nD) : W0 m ρ c (Proc.devRef .tc main_arg1) = m ((c : Thread nD τ).loc main_arg1) := rfl
theorem W1_main_arg1 (c : Dev nD) : W1 m ρ c (Proc.devRef .tc main_arg1) = m ((c : Thread nD τ).loc main_arg1) :=
  (after_keeps hostOps0 (W0 m ρ c) main_arg1 (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W0_main_arg1 m ρ c)
theorem W2_main_arg1 (c : Dev nD) : W2 m ρ c (Proc.devRef .tc main_arg1) = m ((c : Thread nD τ).loc main_arg1) :=
  (after_keeps hostOps0_1 (W1 m ρ c) main_arg1 (by
    simp only [hostOps0_1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W1_main_arg1 m ρ c)
theorem W3_main_arg1 (c : Dev nD) : W3 m ρ c (Proc.devRef .tc main_arg1) = m ((c : Thread nD τ).loc main_arg1) :=
  (after_keeps hostOps0_2 (W2 m ρ c) main_arg1 (by
    simp only [hostOps0_2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W2_main_arg1 m ρ c)
theorem W4_main_arg1 (c : Dev nD) : W4 m ρ c (Proc.devRef .tc main_arg1) = m ((c : Thread nD τ).loc main_arg1) :=
  (after_keeps hostOps0_3 (W3 m ρ c) main_arg1 (by
    simp only [hostOps0_3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W3_main_arg1 m ρ c)
theorem W5_main_arg1 (c : Dev nD) : W5 m ρ c (Proc.devRef .tc main_arg1) = m ((c : Thread nD τ).loc main_arg1) :=
  (after_keeps hostOps0_4 (W4 m ρ c) main_arg1 (by
    simp only [hostOps0_4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W4_main_arg1 m ρ c)
theorem W6_main_arg1 (c : Dev nD) : W6 m ρ c (Proc.devRef .tc main_arg1) = m ((c : Thread nD τ).loc main_arg1) :=
  (W6_of_ne m ρ c main_arg1 (by decide)).trans (W5_main_arg1 m ρ c)
theorem W7_main_arg1 (c : Dev nD) : W7 m ρ c (Proc.devRef .tc main_arg1) = m ((c : Thread nD τ).loc main_arg1) :=
  (after_keeps hostOps1 (W6 m ρ c) main_arg1 (by
    simp only [hostOps1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W6_main_arg1 m ρ c)
theorem W8_main_arg1 (c : Dev nD) : W8 m ρ c (Proc.devRef .tc main_arg1) = m ((c : Thread nD τ).loc main_arg1) :=
  (W8_of_ne m ρ c main_arg1 (by decide)).trans (W7_main_arg1 m ρ c)
theorem W9_main_arg1 (c : Dev nD) : W9 m ρ c (Proc.devRef .tc main_arg1) = m ((c : Thread nD τ).loc main_arg1) :=
  (after_keeps hostOps2 (W8 m ρ c) main_arg1 (by
    simp only [hostOps2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W8_main_arg1 m ρ c)
theorem W10_main_arg1 (c : Dev nD) : W10 m ρ c (Proc.devRef .tc main_arg1) = m ((c : Thread nD τ).loc main_arg1) :=
  (W10_of_ne m ρ c main_arg1 (by decide)).trans (W9_main_arg1 m ρ c)
theorem W11_main_arg1 (c : Dev nD) : W11 m ρ c (Proc.devRef .tc main_arg1) = m ((c : Thread nD τ).loc main_arg1) :=
  (after_keeps hostOps3 (W10 m ρ c) main_arg1 (by
    simp only [hostOps3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W10_main_arg1 m ρ c)
theorem W12_main_arg1 (c : Dev nD) : W12 m ρ c (Proc.devRef .tc main_arg1) = m ((c : Thread nD τ).loc main_arg1) :=
  (W12_of_ne m ρ c main_arg1 (by decide)).trans (W11_main_arg1 m ρ c)
theorem W13_main_arg1 (c : Dev nD) : W13 m ρ c (Proc.devRef .tc main_arg1) = m ((c : Thread nD τ).loc main_arg1) :=
  (after_keeps hostOps4 (W12 m ρ c) main_arg1 (by
    simp only [hostOps4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W12_main_arg1 m ρ c)

theorem W0_main_arg2 (c : Dev nD) : W0 m ρ c (Proc.devRef .tc main_arg2) = m ((c : Thread nD τ).loc main_arg2) := rfl
theorem W1_main_arg2 (c : Dev nD) : W1 m ρ c (Proc.devRef .tc main_arg2) = m ((c : Thread nD τ).loc main_arg2) :=
  (after_keeps hostOps0 (W0 m ρ c) main_arg2 (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W0_main_arg2 m ρ c)
theorem W2_main_arg2 (c : Dev nD) : W2 m ρ c (Proc.devRef .tc main_arg2) = m ((c : Thread nD τ).loc main_arg2) :=
  (after_keeps hostOps0_1 (W1 m ρ c) main_arg2 (by
    simp only [hostOps0_1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W1_main_arg2 m ρ c)
theorem W3_main_arg2 (c : Dev nD) : W3 m ρ c (Proc.devRef .tc main_arg2) = m ((c : Thread nD τ).loc main_arg2) :=
  (after_keeps hostOps0_2 (W2 m ρ c) main_arg2 (by
    simp only [hostOps0_2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W2_main_arg2 m ρ c)
theorem W4_main_arg2 (c : Dev nD) : W4 m ρ c (Proc.devRef .tc main_arg2) = m ((c : Thread nD τ).loc main_arg2) :=
  (after_keeps hostOps0_3 (W3 m ρ c) main_arg2 (by
    simp only [hostOps0_3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W3_main_arg2 m ρ c)
theorem W5_main_arg2 (c : Dev nD) : W5 m ρ c (Proc.devRef .tc main_arg2) = m ((c : Thread nD τ).loc main_arg2) :=
  (after_keeps hostOps0_4 (W4 m ρ c) main_arg2 (by
    simp only [hostOps0_4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W4_main_arg2 m ρ c)
theorem W6_main_arg2 (c : Dev nD) : W6 m ρ c (Proc.devRef .tc main_arg2) = m ((c : Thread nD τ).loc main_arg2) :=
  (W6_of_ne m ρ c main_arg2 (by decide)).trans (W5_main_arg2 m ρ c)
theorem W7_main_arg2 (c : Dev nD) : W7 m ρ c (Proc.devRef .tc main_arg2) = m ((c : Thread nD τ).loc main_arg2) :=
  (after_keeps hostOps1 (W6 m ρ c) main_arg2 (by
    simp only [hostOps1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W6_main_arg2 m ρ c)
theorem W8_main_arg2 (c : Dev nD) : W8 m ρ c (Proc.devRef .tc main_arg2) = m ((c : Thread nD τ).loc main_arg2) :=
  (W8_of_ne m ρ c main_arg2 (by decide)).trans (W7_main_arg2 m ρ c)
theorem W9_main_arg2 (c : Dev nD) : W9 m ρ c (Proc.devRef .tc main_arg2) = m ((c : Thread nD τ).loc main_arg2) :=
  (after_keeps hostOps2 (W8 m ρ c) main_arg2 (by
    simp only [hostOps2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W8_main_arg2 m ρ c)
theorem W10_main_arg2 (c : Dev nD) : W10 m ρ c (Proc.devRef .tc main_arg2) = m ((c : Thread nD τ).loc main_arg2) :=
  (W10_of_ne m ρ c main_arg2 (by decide)).trans (W9_main_arg2 m ρ c)
theorem W11_main_arg2 (c : Dev nD) : W11 m ρ c (Proc.devRef .tc main_arg2) = m ((c : Thread nD τ).loc main_arg2) :=
  (after_keeps hostOps3 (W10 m ρ c) main_arg2 (by
    simp only [hostOps3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W10_main_arg2 m ρ c)
theorem W12_main_arg2 (c : Dev nD) : W12 m ρ c (Proc.devRef .tc main_arg2) = m ((c : Thread nD τ).loc main_arg2) :=
  (W12_of_ne m ρ c main_arg2 (by decide)).trans (W11_main_arg2 m ρ c)
theorem W13_main_arg2 (c : Dev nD) : W13 m ρ c (Proc.devRef .tc main_arg2) = m ((c : Thread nD τ).loc main_arg2) :=
  (after_keeps hostOps4 (W12 m ρ c) main_arg2 (by
    simp only [hostOps4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W12_main_arg2 m ρ c)

theorem W0_main_arg3 (c : Dev nD) : W0 m ρ c (Proc.devRef .tc main_arg3) = m ((c : Thread nD τ).loc main_arg3) := rfl
theorem W1_main_arg3 (c : Dev nD) : W1 m ρ c (Proc.devRef .tc main_arg3) = m ((c : Thread nD τ).loc main_arg3) :=
  (after_keeps hostOps0 (W0 m ρ c) main_arg3 (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W0_main_arg3 m ρ c)
theorem W2_main_arg3 (c : Dev nD) : W2 m ρ c (Proc.devRef .tc main_arg3) = m ((c : Thread nD τ).loc main_arg3) :=
  (after_keeps hostOps0_1 (W1 m ρ c) main_arg3 (by
    simp only [hostOps0_1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W1_main_arg3 m ρ c)
theorem W3_main_arg3 (c : Dev nD) : W3 m ρ c (Proc.devRef .tc main_arg3) = m ((c : Thread nD τ).loc main_arg3) :=
  (after_keeps hostOps0_2 (W2 m ρ c) main_arg3 (by
    simp only [hostOps0_2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W2_main_arg3 m ρ c)
theorem W4_main_arg3 (c : Dev nD) : W4 m ρ c (Proc.devRef .tc main_arg3) = m ((c : Thread nD τ).loc main_arg3) :=
  (after_keeps hostOps0_3 (W3 m ρ c) main_arg3 (by
    simp only [hostOps0_3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W3_main_arg3 m ρ c)
theorem W5_main_arg3 (c : Dev nD) : W5 m ρ c (Proc.devRef .tc main_arg3) = m ((c : Thread nD τ).loc main_arg3) :=
  (after_keeps hostOps0_4 (W4 m ρ c) main_arg3 (by
    simp only [hostOps0_4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W4_main_arg3 m ρ c)
theorem W6_main_arg3 (c : Dev nD) : W6 m ρ c (Proc.devRef .tc main_arg3) = m ((c : Thread nD τ).loc main_arg3) :=
  (W6_of_ne m ρ c main_arg3 (by decide)).trans (W5_main_arg3 m ρ c)
theorem W7_main_arg3 (c : Dev nD) : W7 m ρ c (Proc.devRef .tc main_arg3) = m ((c : Thread nD τ).loc main_arg3) :=
  (after_keeps hostOps1 (W6 m ρ c) main_arg3 (by
    simp only [hostOps1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W6_main_arg3 m ρ c)
theorem W8_main_arg3 (c : Dev nD) : W8 m ρ c (Proc.devRef .tc main_arg3) = m ((c : Thread nD τ).loc main_arg3) :=
  (W8_of_ne m ρ c main_arg3 (by decide)).trans (W7_main_arg3 m ρ c)
theorem W9_main_arg3 (c : Dev nD) : W9 m ρ c (Proc.devRef .tc main_arg3) = m ((c : Thread nD τ).loc main_arg3) :=
  (after_keeps hostOps2 (W8 m ρ c) main_arg3 (by
    simp only [hostOps2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W8_main_arg3 m ρ c)
theorem W10_main_arg3 (c : Dev nD) : W10 m ρ c (Proc.devRef .tc main_arg3) = m ((c : Thread nD τ).loc main_arg3) :=
  (W10_of_ne m ρ c main_arg3 (by decide)).trans (W9_main_arg3 m ρ c)
theorem W11_main_arg3 (c : Dev nD) : W11 m ρ c (Proc.devRef .tc main_arg3) = m ((c : Thread nD τ).loc main_arg3) :=
  (after_keeps hostOps3 (W10 m ρ c) main_arg3 (by
    simp only [hostOps3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W10_main_arg3 m ρ c)
theorem W12_main_arg3 (c : Dev nD) : W12 m ρ c (Proc.devRef .tc main_arg3) = m ((c : Thread nD τ).loc main_arg3) :=
  (W12_of_ne m ρ c main_arg3 (by decide)).trans (W11_main_arg3 m ρ c)
theorem W13_main_arg3 (c : Dev nD) : W13 m ρ c (Proc.devRef .tc main_arg3) = m ((c : Thread nD τ).loc main_arg3) :=
  (after_keeps hostOps4 (W12 m ρ c) main_arg3 (by
    simp only [hostOps4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W12_main_arg3 m ρ c)

theorem W0_main_arg4 (c : Dev nD) : W0 m ρ c (Proc.devRef .tc main_arg4) = m ((c : Thread nD τ).loc main_arg4) := rfl
theorem W1_main_arg4 (c : Dev nD) : W1 m ρ c (Proc.devRef .tc main_arg4) = m ((c : Thread nD τ).loc main_arg4) :=
  (after_keeps hostOps0 (W0 m ρ c) main_arg4 (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W0_main_arg4 m ρ c)
theorem W2_main_arg4 (c : Dev nD) : W2 m ρ c (Proc.devRef .tc main_arg4) = m ((c : Thread nD τ).loc main_arg4) :=
  (after_keeps hostOps0_1 (W1 m ρ c) main_arg4 (by
    simp only [hostOps0_1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W1_main_arg4 m ρ c)
theorem W3_main_arg4 (c : Dev nD) : W3 m ρ c (Proc.devRef .tc main_arg4) = m ((c : Thread nD τ).loc main_arg4) :=
  (after_keeps hostOps0_2 (W2 m ρ c) main_arg4 (by
    simp only [hostOps0_2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W2_main_arg4 m ρ c)
theorem W4_main_arg4 (c : Dev nD) : W4 m ρ c (Proc.devRef .tc main_arg4) = m ((c : Thread nD τ).loc main_arg4) :=
  (after_keeps hostOps0_3 (W3 m ρ c) main_arg4 (by
    simp only [hostOps0_3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W3_main_arg4 m ρ c)
theorem W5_main_arg4 (c : Dev nD) : W5 m ρ c (Proc.devRef .tc main_arg4) = m ((c : Thread nD τ).loc main_arg4) :=
  (after_keeps hostOps0_4 (W4 m ρ c) main_arg4 (by
    simp only [hostOps0_4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W4_main_arg4 m ρ c)
theorem W6_main_arg4 (c : Dev nD) : W6 m ρ c (Proc.devRef .tc main_arg4) = m ((c : Thread nD τ).loc main_arg4) :=
  (W6_of_ne m ρ c main_arg4 (by decide)).trans (W5_main_arg4 m ρ c)
theorem W7_main_arg4 (c : Dev nD) : W7 m ρ c (Proc.devRef .tc main_arg4) = m ((c : Thread nD τ).loc main_arg4) :=
  (after_keeps hostOps1 (W6 m ρ c) main_arg4 (by
    simp only [hostOps1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W6_main_arg4 m ρ c)
theorem W8_main_arg4 (c : Dev nD) : W8 m ρ c (Proc.devRef .tc main_arg4) = m ((c : Thread nD τ).loc main_arg4) :=
  (W8_of_ne m ρ c main_arg4 (by decide)).trans (W7_main_arg4 m ρ c)
theorem W9_main_arg4 (c : Dev nD) : W9 m ρ c (Proc.devRef .tc main_arg4) = m ((c : Thread nD τ).loc main_arg4) :=
  (after_keeps hostOps2 (W8 m ρ c) main_arg4 (by
    simp only [hostOps2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W8_main_arg4 m ρ c)
theorem W10_main_arg4 (c : Dev nD) : W10 m ρ c (Proc.devRef .tc main_arg4) = m ((c : Thread nD τ).loc main_arg4) :=
  (W10_of_ne m ρ c main_arg4 (by decide)).trans (W9_main_arg4 m ρ c)
theorem W11_main_arg4 (c : Dev nD) : W11 m ρ c (Proc.devRef .tc main_arg4) = m ((c : Thread nD τ).loc main_arg4) :=
  (after_keeps hostOps3 (W10 m ρ c) main_arg4 (by
    simp only [hostOps3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W10_main_arg4 m ρ c)
theorem W12_main_arg4 (c : Dev nD) : W12 m ρ c (Proc.devRef .tc main_arg4) = m ((c : Thread nD τ).loc main_arg4) :=
  (W12_of_ne m ρ c main_arg4 (by decide)).trans (W11_main_arg4 m ρ c)
theorem W13_main_arg4 (c : Dev nD) : W13 m ρ c (Proc.devRef .tc main_arg4) = m ((c : Thread nD τ).loc main_arg4) :=
  (after_keeps hostOps4 (W12 m ρ c) main_arg4 (by
    simp only [hostOps4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W12_main_arg4 m ρ c)

theorem W0_main_arg5 (c : Dev nD) : W0 m ρ c (Proc.devRef .tc main_arg5) = m ((c : Thread nD τ).loc main_arg5) := rfl
theorem W1_main_arg5 (c : Dev nD) : W1 m ρ c (Proc.devRef .tc main_arg5) = m ((c : Thread nD τ).loc main_arg5) :=
  (after_keeps hostOps0 (W0 m ρ c) main_arg5 (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W0_main_arg5 m ρ c)
theorem W2_main_arg5 (c : Dev nD) : W2 m ρ c (Proc.devRef .tc main_arg5) = m ((c : Thread nD τ).loc main_arg5) :=
  (after_keeps hostOps0_1 (W1 m ρ c) main_arg5 (by
    simp only [hostOps0_1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W1_main_arg5 m ρ c)
theorem W3_main_arg5 (c : Dev nD) : W3 m ρ c (Proc.devRef .tc main_arg5) = m ((c : Thread nD τ).loc main_arg5) :=
  (after_keeps hostOps0_2 (W2 m ρ c) main_arg5 (by
    simp only [hostOps0_2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W2_main_arg5 m ρ c)
theorem W4_main_arg5 (c : Dev nD) : W4 m ρ c (Proc.devRef .tc main_arg5) = m ((c : Thread nD τ).loc main_arg5) :=
  (after_keeps hostOps0_3 (W3 m ρ c) main_arg5 (by
    simp only [hostOps0_3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W3_main_arg5 m ρ c)
theorem W5_main_arg5 (c : Dev nD) : W5 m ρ c (Proc.devRef .tc main_arg5) = m ((c : Thread nD τ).loc main_arg5) :=
  (after_keeps hostOps0_4 (W4 m ρ c) main_arg5 (by
    simp only [hostOps0_4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W4_main_arg5 m ρ c)
theorem W6_main_arg5 (c : Dev nD) : W6 m ρ c (Proc.devRef .tc main_arg5) = m ((c : Thread nD τ).loc main_arg5) :=
  (W6_of_ne m ρ c main_arg5 (by decide)).trans (W5_main_arg5 m ρ c)
theorem W7_main_arg5 (c : Dev nD) : W7 m ρ c (Proc.devRef .tc main_arg5) = m ((c : Thread nD τ).loc main_arg5) :=
  (after_keeps hostOps1 (W6 m ρ c) main_arg5 (by
    simp only [hostOps1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W6_main_arg5 m ρ c)
theorem W8_main_arg5 (c : Dev nD) : W8 m ρ c (Proc.devRef .tc main_arg5) = m ((c : Thread nD τ).loc main_arg5) :=
  (W8_of_ne m ρ c main_arg5 (by decide)).trans (W7_main_arg5 m ρ c)
theorem W9_main_arg5 (c : Dev nD) : W9 m ρ c (Proc.devRef .tc main_arg5) = m ((c : Thread nD τ).loc main_arg5) :=
  (after_keeps hostOps2 (W8 m ρ c) main_arg5 (by
    simp only [hostOps2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W8_main_arg5 m ρ c)
theorem W10_main_arg5 (c : Dev nD) : W10 m ρ c (Proc.devRef .tc main_arg5) = m ((c : Thread nD τ).loc main_arg5) :=
  (W10_of_ne m ρ c main_arg5 (by decide)).trans (W9_main_arg5 m ρ c)
theorem W11_main_arg5 (c : Dev nD) : W11 m ρ c (Proc.devRef .tc main_arg5) = m ((c : Thread nD τ).loc main_arg5) :=
  (after_keeps hostOps3 (W10 m ρ c) main_arg5 (by
    simp only [hostOps3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W10_main_arg5 m ρ c)
theorem W12_main_arg5 (c : Dev nD) : W12 m ρ c (Proc.devRef .tc main_arg5) = m ((c : Thread nD τ).loc main_arg5) :=
  (W12_of_ne m ρ c main_arg5 (by decide)).trans (W11_main_arg5 m ρ c)
theorem W13_main_arg5 (c : Dev nD) : W13 m ρ c (Proc.devRef .tc main_arg5) = m ((c : Thread nD τ).loc main_arg5) :=
  (after_keeps hostOps4 (W12 m ρ c) main_arg5 (by
    simp only [hostOps4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W12_main_arg5 m ρ c)

theorem W0_main_arg6 (c : Dev nD) : W0 m ρ c (Proc.devRef .tc main_arg6) = m ((c : Thread nD τ).loc main_arg6) := rfl
theorem W1_main_arg6 (c : Dev nD) : W1 m ρ c (Proc.devRef .tc main_arg6) = m ((c : Thread nD τ).loc main_arg6) :=
  (after_keeps hostOps0 (W0 m ρ c) main_arg6 (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W0_main_arg6 m ρ c)
theorem W2_main_arg6 (c : Dev nD) : W2 m ρ c (Proc.devRef .tc main_arg6) = m ((c : Thread nD τ).loc main_arg6) :=
  (after_keeps hostOps0_1 (W1 m ρ c) main_arg6 (by
    simp only [hostOps0_1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W1_main_arg6 m ρ c)
theorem W3_main_arg6 (c : Dev nD) : W3 m ρ c (Proc.devRef .tc main_arg6) = m ((c : Thread nD τ).loc main_arg6) :=
  (after_keeps hostOps0_2 (W2 m ρ c) main_arg6 (by
    simp only [hostOps0_2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W2_main_arg6 m ρ c)
theorem W4_main_arg6 (c : Dev nD) : W4 m ρ c (Proc.devRef .tc main_arg6) = m ((c : Thread nD τ).loc main_arg6) :=
  (after_keeps hostOps0_3 (W3 m ρ c) main_arg6 (by
    simp only [hostOps0_3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W3_main_arg6 m ρ c)
theorem W5_main_arg6 (c : Dev nD) : W5 m ρ c (Proc.devRef .tc main_arg6) = m ((c : Thread nD τ).loc main_arg6) :=
  (after_keeps hostOps0_4 (W4 m ρ c) main_arg6 (by
    simp only [hostOps0_4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W4_main_arg6 m ρ c)
theorem W6_main_arg6 (c : Dev nD) : W6 m ρ c (Proc.devRef .tc main_arg6) = m ((c : Thread nD τ).loc main_arg6) :=
  (W6_of_ne m ρ c main_arg6 (by decide)).trans (W5_main_arg6 m ρ c)
theorem W7_main_arg6 (c : Dev nD) : W7 m ρ c (Proc.devRef .tc main_arg6) = m ((c : Thread nD τ).loc main_arg6) :=
  (after_keeps hostOps1 (W6 m ρ c) main_arg6 (by
    simp only [hostOps1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W6_main_arg6 m ρ c)
theorem W8_main_arg6 (c : Dev nD) : W8 m ρ c (Proc.devRef .tc main_arg6) = m ((c : Thread nD τ).loc main_arg6) :=
  (W8_of_ne m ρ c main_arg6 (by decide)).trans (W7_main_arg6 m ρ c)
theorem W9_main_arg6 (c : Dev nD) : W9 m ρ c (Proc.devRef .tc main_arg6) = m ((c : Thread nD τ).loc main_arg6) :=
  (after_keeps hostOps2 (W8 m ρ c) main_arg6 (by
    simp only [hostOps2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W8_main_arg6 m ρ c)
theorem W10_main_arg6 (c : Dev nD) : W10 m ρ c (Proc.devRef .tc main_arg6) = m ((c : Thread nD τ).loc main_arg6) :=
  (W10_of_ne m ρ c main_arg6 (by decide)).trans (W9_main_arg6 m ρ c)
theorem W11_main_arg6 (c : Dev nD) : W11 m ρ c (Proc.devRef .tc main_arg6) = m ((c : Thread nD τ).loc main_arg6) :=
  (after_keeps hostOps3 (W10 m ρ c) main_arg6 (by
    simp only [hostOps3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W10_main_arg6 m ρ c)
theorem W12_main_arg6 (c : Dev nD) : W12 m ρ c (Proc.devRef .tc main_arg6) = m ((c : Thread nD τ).loc main_arg6) :=
  (W12_of_ne m ρ c main_arg6 (by decide)).trans (W11_main_arg6 m ρ c)
theorem W13_main_arg6 (c : Dev nD) : W13 m ρ c (Proc.devRef .tc main_arg6) = m ((c : Thread nD τ).loc main_arg6) :=
  (after_keeps hostOps4 (W12 m ρ c) main_arg6 (by
    simp only [hostOps4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W12_main_arg6 m ρ c)

theorem W0_main_arg7 (c : Dev nD) : W0 m ρ c (Proc.devRef .tc main_arg7) = m ((c : Thread nD τ).loc main_arg7) := rfl
theorem W1_main_arg7 (c : Dev nD) : W1 m ρ c (Proc.devRef .tc main_arg7) = m ((c : Thread nD τ).loc main_arg7) :=
  (after_keeps hostOps0 (W0 m ρ c) main_arg7 (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W0_main_arg7 m ρ c)
theorem W2_main_arg7 (c : Dev nD) : W2 m ρ c (Proc.devRef .tc main_arg7) = m ((c : Thread nD τ).loc main_arg7) :=
  (after_keeps hostOps0_1 (W1 m ρ c) main_arg7 (by
    simp only [hostOps0_1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W1_main_arg7 m ρ c)
theorem W3_main_arg7 (c : Dev nD) : W3 m ρ c (Proc.devRef .tc main_arg7) = m ((c : Thread nD τ).loc main_arg7) :=
  (after_keeps hostOps0_2 (W2 m ρ c) main_arg7 (by
    simp only [hostOps0_2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W2_main_arg7 m ρ c)
theorem W4_main_arg7 (c : Dev nD) : W4 m ρ c (Proc.devRef .tc main_arg7) = m ((c : Thread nD τ).loc main_arg7) :=
  (after_keeps hostOps0_3 (W3 m ρ c) main_arg7 (by
    simp only [hostOps0_3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W3_main_arg7 m ρ c)
theorem W5_main_arg7 (c : Dev nD) : W5 m ρ c (Proc.devRef .tc main_arg7) = m ((c : Thread nD τ).loc main_arg7) :=
  (after_keeps hostOps0_4 (W4 m ρ c) main_arg7 (by
    simp only [hostOps0_4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W4_main_arg7 m ρ c)
theorem W6_main_arg7 (c : Dev nD) : W6 m ρ c (Proc.devRef .tc main_arg7) = m ((c : Thread nD τ).loc main_arg7) :=
  (W6_of_ne m ρ c main_arg7 (by decide)).trans (W5_main_arg7 m ρ c)
theorem W7_main_arg7 (c : Dev nD) : W7 m ρ c (Proc.devRef .tc main_arg7) = m ((c : Thread nD τ).loc main_arg7) :=
  (after_keeps hostOps1 (W6 m ρ c) main_arg7 (by
    simp only [hostOps1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W6_main_arg7 m ρ c)
theorem W8_main_arg7 (c : Dev nD) : W8 m ρ c (Proc.devRef .tc main_arg7) = m ((c : Thread nD τ).loc main_arg7) :=
  (W8_of_ne m ρ c main_arg7 (by decide)).trans (W7_main_arg7 m ρ c)
theorem W9_main_arg7 (c : Dev nD) : W9 m ρ c (Proc.devRef .tc main_arg7) = m ((c : Thread nD τ).loc main_arg7) :=
  (after_keeps hostOps2 (W8 m ρ c) main_arg7 (by
    simp only [hostOps2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W8_main_arg7 m ρ c)
theorem W10_main_arg7 (c : Dev nD) : W10 m ρ c (Proc.devRef .tc main_arg7) = m ((c : Thread nD τ).loc main_arg7) :=
  (W10_of_ne m ρ c main_arg7 (by decide)).trans (W9_main_arg7 m ρ c)
theorem W11_main_arg7 (c : Dev nD) : W11 m ρ c (Proc.devRef .tc main_arg7) = m ((c : Thread nD τ).loc main_arg7) :=
  (after_keeps hostOps3 (W10 m ρ c) main_arg7 (by
    simp only [hostOps3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W10_main_arg7 m ρ c)
theorem W12_main_arg7 (c : Dev nD) : W12 m ρ c (Proc.devRef .tc main_arg7) = m ((c : Thread nD τ).loc main_arg7) :=
  (W12_of_ne m ρ c main_arg7 (by decide)).trans (W11_main_arg7 m ρ c)
theorem W13_main_arg7 (c : Dev nD) : W13 m ρ c (Proc.devRef .tc main_arg7) = m ((c : Thread nD τ).loc main_arg7) :=
  (after_keeps hostOps4 (W12 m ρ c) main_arg7 (by
    simp only [hostOps4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W12_main_arg7 m ρ c)

theorem W0_main_arg8 (c : Dev nD) : W0 m ρ c (Proc.devRef .tc main_arg8) = m ((c : Thread nD τ).loc main_arg8) := rfl
theorem W1_main_arg8 (c : Dev nD) : W1 m ρ c (Proc.devRef .tc main_arg8) = m ((c : Thread nD τ).loc main_arg8) :=
  (after_keeps hostOps0 (W0 m ρ c) main_arg8 (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W0_main_arg8 m ρ c)
theorem W2_main_arg8 (c : Dev nD) : W2 m ρ c (Proc.devRef .tc main_arg8) = m ((c : Thread nD τ).loc main_arg8) :=
  (after_keeps hostOps0_1 (W1 m ρ c) main_arg8 (by
    simp only [hostOps0_1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W1_main_arg8 m ρ c)
theorem W3_main_arg8 (c : Dev nD) : W3 m ρ c (Proc.devRef .tc main_arg8) = m ((c : Thread nD τ).loc main_arg8) :=
  (after_keeps hostOps0_2 (W2 m ρ c) main_arg8 (by
    simp only [hostOps0_2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W2_main_arg8 m ρ c)
theorem W4_main_arg8 (c : Dev nD) : W4 m ρ c (Proc.devRef .tc main_arg8) = m ((c : Thread nD τ).loc main_arg8) :=
  (after_keeps hostOps0_3 (W3 m ρ c) main_arg8 (by
    simp only [hostOps0_3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W3_main_arg8 m ρ c)
theorem W5_main_arg8 (c : Dev nD) : W5 m ρ c (Proc.devRef .tc main_arg8) = m ((c : Thread nD τ).loc main_arg8) :=
  (after_keeps hostOps0_4 (W4 m ρ c) main_arg8 (by
    simp only [hostOps0_4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W4_main_arg8 m ρ c)
theorem W6_main_arg8 (c : Dev nD) : W6 m ρ c (Proc.devRef .tc main_arg8) = m ((c : Thread nD τ).loc main_arg8) :=
  (W6_of_ne m ρ c main_arg8 (by decide)).trans (W5_main_arg8 m ρ c)
theorem W7_main_arg8 (c : Dev nD) : W7 m ρ c (Proc.devRef .tc main_arg8) = m ((c : Thread nD τ).loc main_arg8) :=
  (after_keeps hostOps1 (W6 m ρ c) main_arg8 (by
    simp only [hostOps1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W6_main_arg8 m ρ c)
theorem W8_main_arg8 (c : Dev nD) : W8 m ρ c (Proc.devRef .tc main_arg8) = m ((c : Thread nD τ).loc main_arg8) :=
  (W8_of_ne m ρ c main_arg8 (by decide)).trans (W7_main_arg8 m ρ c)
theorem W9_main_arg8 (c : Dev nD) : W9 m ρ c (Proc.devRef .tc main_arg8) = m ((c : Thread nD τ).loc main_arg8) :=
  (after_keeps hostOps2 (W8 m ρ c) main_arg8 (by
    simp only [hostOps2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W8_main_arg8 m ρ c)
theorem W10_main_arg8 (c : Dev nD) : W10 m ρ c (Proc.devRef .tc main_arg8) = m ((c : Thread nD τ).loc main_arg8) :=
  (W10_of_ne m ρ c main_arg8 (by decide)).trans (W9_main_arg8 m ρ c)
theorem W11_main_arg8 (c : Dev nD) : W11 m ρ c (Proc.devRef .tc main_arg8) = m ((c : Thread nD τ).loc main_arg8) :=
  (after_keeps hostOps3 (W10 m ρ c) main_arg8 (by
    simp only [hostOps3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W10_main_arg8 m ρ c)
theorem W12_main_arg8 (c : Dev nD) : W12 m ρ c (Proc.devRef .tc main_arg8) = m ((c : Thread nD τ).loc main_arg8) :=
  (W12_of_ne m ρ c main_arg8 (by decide)).trans (W11_main_arg8 m ρ c)
theorem W13_main_arg8 (c : Dev nD) : W13 m ρ c (Proc.devRef .tc main_arg8) = m ((c : Thread nD τ).loc main_arg8) :=
  (after_keeps hostOps4 (W12 m ρ c) main_arg8 (by
    simp only [hostOps4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W12_main_arg8 m ρ c)

theorem W0_main_arg9 (c : Dev nD) : W0 m ρ c (Proc.devRef .tc main_arg9) = m ((c : Thread nD τ).loc main_arg9) := rfl
theorem W1_main_arg9 (c : Dev nD) : W1 m ρ c (Proc.devRef .tc main_arg9) = m ((c : Thread nD τ).loc main_arg9) :=
  (after_keeps hostOps0 (W0 m ρ c) main_arg9 (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W0_main_arg9 m ρ c)
theorem W2_main_arg9 (c : Dev nD) : W2 m ρ c (Proc.devRef .tc main_arg9) = m ((c : Thread nD τ).loc main_arg9) :=
  (after_keeps hostOps0_1 (W1 m ρ c) main_arg9 (by
    simp only [hostOps0_1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W1_main_arg9 m ρ c)
theorem W3_main_arg9 (c : Dev nD) : W3 m ρ c (Proc.devRef .tc main_arg9) = m ((c : Thread nD τ).loc main_arg9) :=
  (after_keeps hostOps0_2 (W2 m ρ c) main_arg9 (by
    simp only [hostOps0_2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W2_main_arg9 m ρ c)
theorem W4_main_arg9 (c : Dev nD) : W4 m ρ c (Proc.devRef .tc main_arg9) = m ((c : Thread nD τ).loc main_arg9) :=
  (after_keeps hostOps0_3 (W3 m ρ c) main_arg9 (by
    simp only [hostOps0_3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W3_main_arg9 m ρ c)
theorem W5_main_arg9 (c : Dev nD) : W5 m ρ c (Proc.devRef .tc main_arg9) = m ((c : Thread nD τ).loc main_arg9) :=
  (after_keeps hostOps0_4 (W4 m ρ c) main_arg9 (by
    simp only [hostOps0_4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W4_main_arg9 m ρ c)
theorem W6_main_arg9 (c : Dev nD) : W6 m ρ c (Proc.devRef .tc main_arg9) = m ((c : Thread nD τ).loc main_arg9) :=
  (W6_of_ne m ρ c main_arg9 (by decide)).trans (W5_main_arg9 m ρ c)
theorem W7_main_arg9 (c : Dev nD) : W7 m ρ c (Proc.devRef .tc main_arg9) = m ((c : Thread nD τ).loc main_arg9) :=
  (after_keeps hostOps1 (W6 m ρ c) main_arg9 (by
    simp only [hostOps1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W6_main_arg9 m ρ c)
theorem W8_main_arg9 (c : Dev nD) : W8 m ρ c (Proc.devRef .tc main_arg9) = m ((c : Thread nD τ).loc main_arg9) :=
  (W8_of_ne m ρ c main_arg9 (by decide)).trans (W7_main_arg9 m ρ c)
theorem W9_main_arg9 (c : Dev nD) : W9 m ρ c (Proc.devRef .tc main_arg9) = m ((c : Thread nD τ).loc main_arg9) :=
  (after_keeps hostOps2 (W8 m ρ c) main_arg9 (by
    simp only [hostOps2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W8_main_arg9 m ρ c)
theorem W10_main_arg9 (c : Dev nD) : W10 m ρ c (Proc.devRef .tc main_arg9) = m ((c : Thread nD τ).loc main_arg9) :=
  (W10_of_ne m ρ c main_arg9 (by decide)).trans (W9_main_arg9 m ρ c)
theorem W11_main_arg9 (c : Dev nD) : W11 m ρ c (Proc.devRef .tc main_arg9) = m ((c : Thread nD τ).loc main_arg9) :=
  (after_keeps hostOps3 (W10 m ρ c) main_arg9 (by
    simp only [hostOps3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W10_main_arg9 m ρ c)
theorem W12_main_arg9 (c : Dev nD) : W12 m ρ c (Proc.devRef .tc main_arg9) = m ((c : Thread nD τ).loc main_arg9) :=
  (W12_of_ne m ρ c main_arg9 (by decide)).trans (W11_main_arg9 m ρ c)
theorem W13_main_arg9 (c : Dev nD) : W13 m ρ c (Proc.devRef .tc main_arg9) = m ((c : Thread nD τ).loc main_arg9) :=
  (after_keeps hostOps4 (W12 m ρ c) main_arg9 (by
    simp only [hostOps4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W12_main_arg9 m ρ c)

theorem W0_main_arg10 (c : Dev nD) : W0 m ρ c (Proc.devRef .tc main_arg10) = m ((c : Thread nD τ).loc main_arg10) := rfl
theorem W1_main_arg10 (c : Dev nD) : W1 m ρ c (Proc.devRef .tc main_arg10) = m ((c : Thread nD τ).loc main_arg10) :=
  (after_keeps hostOps0 (W0 m ρ c) main_arg10 (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W0_main_arg10 m ρ c)
theorem W2_main_arg10 (c : Dev nD) : W2 m ρ c (Proc.devRef .tc main_arg10) = m ((c : Thread nD τ).loc main_arg10) :=
  (after_keeps hostOps0_1 (W1 m ρ c) main_arg10 (by
    simp only [hostOps0_1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W1_main_arg10 m ρ c)
theorem W3_main_arg10 (c : Dev nD) : W3 m ρ c (Proc.devRef .tc main_arg10) = m ((c : Thread nD τ).loc main_arg10) :=
  (after_keeps hostOps0_2 (W2 m ρ c) main_arg10 (by
    simp only [hostOps0_2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W2_main_arg10 m ρ c)
theorem W4_main_arg10 (c : Dev nD) : W4 m ρ c (Proc.devRef .tc main_arg10) = m ((c : Thread nD τ).loc main_arg10) :=
  (after_keeps hostOps0_3 (W3 m ρ c) main_arg10 (by
    simp only [hostOps0_3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W3_main_arg10 m ρ c)
theorem W5_main_arg10 (c : Dev nD) : W5 m ρ c (Proc.devRef .tc main_arg10) = m ((c : Thread nD τ).loc main_arg10) :=
  (after_keeps hostOps0_4 (W4 m ρ c) main_arg10 (by
    simp only [hostOps0_4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W4_main_arg10 m ρ c)
theorem W6_main_arg10 (c : Dev nD) : W6 m ρ c (Proc.devRef .tc main_arg10) = m ((c : Thread nD τ).loc main_arg10) :=
  (W6_of_ne m ρ c main_arg10 (by decide)).trans (W5_main_arg10 m ρ c)
theorem W7_main_arg10 (c : Dev nD) : W7 m ρ c (Proc.devRef .tc main_arg10) = m ((c : Thread nD τ).loc main_arg10) :=
  (after_keeps hostOps1 (W6 m ρ c) main_arg10 (by
    simp only [hostOps1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W6_main_arg10 m ρ c)
theorem W8_main_arg10 (c : Dev nD) : W8 m ρ c (Proc.devRef .tc main_arg10) = m ((c : Thread nD τ).loc main_arg10) :=
  (W8_of_ne m ρ c main_arg10 (by decide)).trans (W7_main_arg10 m ρ c)
theorem W9_main_arg10 (c : Dev nD) : W9 m ρ c (Proc.devRef .tc main_arg10) = m ((c : Thread nD τ).loc main_arg10) :=
  (after_keeps hostOps2 (W8 m ρ c) main_arg10 (by
    simp only [hostOps2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W8_main_arg10 m ρ c)
theorem W10_main_arg10 (c : Dev nD) : W10 m ρ c (Proc.devRef .tc main_arg10) = m ((c : Thread nD τ).loc main_arg10) :=
  (W10_of_ne m ρ c main_arg10 (by decide)).trans (W9_main_arg10 m ρ c)
theorem W11_main_arg10 (c : Dev nD) : W11 m ρ c (Proc.devRef .tc main_arg10) = m ((c : Thread nD τ).loc main_arg10) :=
  (after_keeps hostOps3 (W10 m ρ c) main_arg10 (by
    simp only [hostOps3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W10_main_arg10 m ρ c)
theorem W12_main_arg10 (c : Dev nD) : W12 m ρ c (Proc.devRef .tc main_arg10) = m ((c : Thread nD τ).loc main_arg10) :=
  (W12_of_ne m ρ c main_arg10 (by decide)).trans (W11_main_arg10 m ρ c)
theorem W13_main_arg10 (c : Dev nD) : W13 m ρ c (Proc.devRef .tc main_arg10) = m ((c : Thread nD τ).loc main_arg10) :=
  (after_keeps hostOps4 (W12 m ρ c) main_arg10 (by
    simp only [hostOps4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W12_main_arg10 m ρ c)

theorem W0_main_arg11 (c : Dev nD) : W0 m ρ c (Proc.devRef .tc main_arg11) = m ((c : Thread nD τ).loc main_arg11) := rfl
theorem W1_main_arg11 (c : Dev nD) : W1 m ρ c (Proc.devRef .tc main_arg11) = m ((c : Thread nD τ).loc main_arg11) :=
  (after_keeps hostOps0 (W0 m ρ c) main_arg11 (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W0_main_arg11 m ρ c)
theorem W2_main_arg11 (c : Dev nD) : W2 m ρ c (Proc.devRef .tc main_arg11) = m ((c : Thread nD τ).loc main_arg11) :=
  (after_keeps hostOps0_1 (W1 m ρ c) main_arg11 (by
    simp only [hostOps0_1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W1_main_arg11 m ρ c)
theorem W3_main_arg11 (c : Dev nD) : W3 m ρ c (Proc.devRef .tc main_arg11) = m ((c : Thread nD τ).loc main_arg11) :=
  (after_keeps hostOps0_2 (W2 m ρ c) main_arg11 (by
    simp only [hostOps0_2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W2_main_arg11 m ρ c)
theorem W4_main_arg11 (c : Dev nD) : W4 m ρ c (Proc.devRef .tc main_arg11) = m ((c : Thread nD τ).loc main_arg11) :=
  (after_keeps hostOps0_3 (W3 m ρ c) main_arg11 (by
    simp only [hostOps0_3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W3_main_arg11 m ρ c)
theorem W5_main_arg11 (c : Dev nD) : W5 m ρ c (Proc.devRef .tc main_arg11) = m ((c : Thread nD τ).loc main_arg11) :=
  (after_keeps hostOps0_4 (W4 m ρ c) main_arg11 (by
    simp only [hostOps0_4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W4_main_arg11 m ρ c)
theorem W6_main_arg11 (c : Dev nD) : W6 m ρ c (Proc.devRef .tc main_arg11) = m ((c : Thread nD τ).loc main_arg11) :=
  (W6_of_ne m ρ c main_arg11 (by decide)).trans (W5_main_arg11 m ρ c)
theorem W7_main_arg11 (c : Dev nD) : W7 m ρ c (Proc.devRef .tc main_arg11) = m ((c : Thread nD τ).loc main_arg11) :=
  (after_keeps hostOps1 (W6 m ρ c) main_arg11 (by
    simp only [hostOps1, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W6_main_arg11 m ρ c)
theorem W8_main_arg11 (c : Dev nD) : W8 m ρ c (Proc.devRef .tc main_arg11) = m ((c : Thread nD τ).loc main_arg11) :=
  (W8_of_ne m ρ c main_arg11 (by decide)).trans (W7_main_arg11 m ρ c)
theorem W9_main_arg11 (c : Dev nD) : W9 m ρ c (Proc.devRef .tc main_arg11) = m ((c : Thread nD τ).loc main_arg11) :=
  (after_keeps hostOps2 (W8 m ρ c) main_arg11 (by
    simp only [hostOps2, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W8_main_arg11 m ρ c)
theorem W10_main_arg11 (c : Dev nD) : W10 m ρ c (Proc.devRef .tc main_arg11) = m ((c : Thread nD τ).loc main_arg11) :=
  (W10_of_ne m ρ c main_arg11 (by decide)).trans (W9_main_arg11 m ρ c)
theorem W11_main_arg11 (c : Dev nD) : W11 m ρ c (Proc.devRef .tc main_arg11) = m ((c : Thread nD τ).loc main_arg11) :=
  (after_keeps hostOps3 (W10 m ρ c) main_arg11 (by
    simp only [hostOps3, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W10_main_arg11 m ρ c)
theorem W12_main_arg11 (c : Dev nD) : W12 m ρ c (Proc.devRef .tc main_arg11) = m ((c : Thread nD τ).loc main_arg11) :=
  (W12_of_ne m ρ c main_arg11 (by decide)).trans (W11_main_arg11 m ρ c)
theorem W13_main_arg11 (c : Dev nD) : W13 m ρ c (Proc.devRef .tc main_arg11) = m ((c : Thread nD τ).loc main_arg11) :=
  (after_keeps hostOps4 (W12 m ρ c) main_arg11 (by
    simp only [hostOps4, List.Forall, StableHlo.nullary_writes, StableHlo.unary_writes, StableHlo.binary_writes, StableHlo.reshape_writes, StableHlo.nary_writes, Finset.mem_singleton]
    repeat' apply And.intro
    all_goals exact StableHlo.devRef_ne_of_ne (by decide))).trans (W12_main_arg11 m ρ c)

end Args

end Cert.KernelIdeal.Hand

end
-- ==== Proof.KiFrame.lean ====
/-
  The frame claim: every execution of the program terminates without a fault and leaves the twelve argument arrays
  as they were — the run of the thirteen pieces, with each argument's buffer read at the last boundary.
-/
import proofs.«112372_j79972291051933_2_alg».proof.Proof.KiRun
import proofs.«112372_j79972291051933_2_alg».proof.Proof.KiArgs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W13_main_arg0 m ρ c),
      (h c _ (mem_uc main_arg1 (by decide))).trans (W13_main_arg1 m ρ c),
      (h c _ (mem_uc main_arg2 (by decide))).trans (W13_main_arg2 m ρ c),
      (h c _ (mem_uc main_arg3 (by decide))).trans (W13_main_arg3 m ρ c),
      (h c _ (mem_uc main_arg4 (by decide))).trans (W13_main_arg4 m ρ c),
      (h c _ (mem_uc main_arg5 (by decide))).trans (W13_main_arg5 m ρ c),
      (h c _ (mem_uc main_arg6 (by decide))).trans (W13_main_arg6 m ρ c),
      (h c _ (mem_uc main_arg7 (by decide))).trans (W13_main_arg7 m ρ c),
      (h c _ (mem_uc main_arg8 (by decide))).trans (W13_main_arg8 m ρ c),
      (h c _ (mem_uc main_arg9 (by decide))).trans (W13_main_arg9 m ρ c),
      (h c _ (mem_uc main_arg10 (by decide))).trans (W13_main_arg10 m ρ c),
      (h c _ (mem_uc main_arg11 (by decide))).trans (W13_main_arg11 m ρ c)⟩) (run_all m ρ)

end Cert.KernelIdeal.Hand

end
-- ==== Proof.RefImports.lean ====
/- The reference's run and its read-at-an-index lemmas, gathered for the modules that state the reference's value. -/
import proofs.«112372_j79972291051933_2_alg».proof.Proof.Gen.ReferenceIdeal.Run
import proofs.«112372_j79972291051933_2_alg».proof.Proof.Gen.ReferenceIdeal.Read
-- ==== Proof.KiHostBRead.lean ====
/-
  Tools for reading one buffer through a stretch of host operations: the value at a buffer after the stretch is the
  value its last writer computed from the buffers before it, and a buffer nobody writes keeps its contents.
-/
import proofs.«112372_j79972291051933_2_alg».proof.Proof.KiArgs
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- Reads buffers through a stretch of host operations: an operation's result at its own result buffer is its
    function's value on its operands' buffers, and at any other buffer what was there before it. The cases are
    tried in the order they occur most often (most operations a buffer passes are not its writer). -/
macro "results_fast" : tactic =>
  `(tactic| (
      simp only [Idealize.ShloMosaic.StableHlo.after_cons, Idealize.ShloMosaic.StableHlo.after_nil]
      repeat (first
        | (rw [Idealize.ShloMosaic.StableHlo.unary_result_ne]; rotate_left; decide)
        | (rw [Idealize.ShloMosaic.StableHlo.binary_result_ne]; rotate_left; decide)
        | (rw [Idealize.ShloMosaic.StableHlo.reshape_result_ne]; rotate_left; decide)
        | (rw [Idealize.ShloMosaic.StableHlo.nary_result_ne]; rotate_left; decide)
        | rw [Idealize.ShloMosaic.StableHlo.unary_result]
        | rw [Idealize.ShloMosaic.StableHlo.binary_result]
        | rw [Idealize.ShloMosaic.StableHlo.reshape_result]
        | rw [Idealize.ShloMosaic.StableHlo.nary_result])))

/-- No operation of a literal stretch writes the buffer: every operation's one result buffer is another one. -/
macro "not_written" : tactic =>
  `(tactic| (
      simp only [hostOps1, hostOps2, hostOps3, hostOps4, List.Forall,
        Idealize.ShloMosaic.StableHlo.nullary_writes, Idealize.ShloMosaic.StableHlo.unary_writes,
        Idealize.ShloMosaic.StableHlo.binary_writes, Idealize.ShloMosaic.StableHlo.reshape_writes,
        Idealize.ShloMosaic.StableHlo.nary_writes, Finset.mem_singleton]
      repeat' apply And.intro
      all_goals exact Idealize.ShloMosaic.StableHlo.devRef_ne_of_ne (by decide)))

/-- A buffer the stretch between launches 0 and 1 does not write is, at launch 1's entry, as launch 0 left it. -/
theorem W7_of_keeps (b : Ref sig .tc)
    (h : (hostOps1 : List (HloOp τ sig (Elt Ideal))).Forall fun op => (Proc.devRef .tc b : DevRef τ sig) ∉ op.writes) :
    W7 m ρ c (Proc.devRef .tc b) = W6 m ρ c (Proc.devRef .tc b) := after_keeps hostOps1 _ b h
/-- A buffer the stretch between launches 1 and 2 does not write is, at launch 2's entry, as launch 1 left it. -/
theorem W9_of_keeps (b : Ref sig .tc)
    (h : (hostOps2 : List (HloOp τ sig (Elt Ideal))).Forall fun op => (Proc.devRef .tc b : DevRef τ sig) ∉ op.writes) :
    W9 m ρ c (Proc.devRef .tc b) = W8 m ρ c (Proc.devRef .tc b) := after_keeps hostOps2 _ b h
/-- A buffer the stretch between launches 2 and 3 does not write is, at launch 3's entry, as launch 2 left it. -/
theorem W11_of_keeps (b : Ref sig .tc)
    (h : (hostOps3 : List (HloOp τ sig (Elt Ideal))).Forall fun op => (Proc.devRef .tc b : DevRef τ sig) ∉ op.writes) :
    W11 m ρ c (Proc.devRef .tc b) = W10 m ρ c (Proc.devRef .tc b) := after_keeps hostOps3 _ b h

end Cert.KernelIdeal.HandValue

end
-- ==== Proof.Spec.lean ====
/-
  What both programs compute, entry by entry, on the extended reals.

  Four feature views x0 … x3 (512 rows of 256 features) and four memory banks mem0 … mem3 (32768 rows of 256
  features) give, for each of the eight ordered pairs (i, j) of views listed in `viewI` / `viewJ`, a table of
  512 × 32769 numbers: in column 0 the inner product of row b of view i with row b of view j, in column q + 1 the
  inner product of row b of view i with row q of bank j; every entry of row b is divided by the product of the
  Euclidean norms of row b of the two views and by the temperature, and exponentiated.

  The reference divides twice, (d / p) / τ; the kernel multiplies by one reciprocal, d · (1 / (p · τ)). The two
  agree whenever d and p are real numbers and p ≠ 0 (the law itself is in Law.lean).
-/
import Idealize.ShloMosaic.PureOps.Ideal
import Idealize.ShloMosaic.Lib.ValueIdx

noncomputable section

open scoped BigOperators

namespace Cert.Moco

open Idealize.ShloMosaic Idealize.ShloMosaic.ValueIdx

/-- A feature view: 512 rows of 256 features. -/
abbrev SX : Shape := ⟨2, ![512, 256]⟩
/-- A memory bank: one slab of 32768 rows of 256 features. -/
abbrev SM : Shape := ⟨3, ![1, 32768, 256]⟩
/-- The eight tables of 512 × (1 + 32768) entries. -/
abbrev SOut : Shape := ⟨3, ![8, 512, 32769]⟩

/-- The float zero a sum starts from. -/
abbrev zero : EReal := Ideal.ofBits .f32 0x00000000#32
/-- The float one. -/
abbrev one : EReal := Ideal.ofBits .f32 0x3F800000#32
/-- The temperature, the float nearest 0.07. -/
abbrev tau : EReal := Ideal.ofBits .f32 0x3D8F5C29#32

/-- The inner product of row `b` of `x` with row `b` of `y`, summed from the float zero. -/
def rowDot (x y : SX.Idx → EReal) (b : Fin 512) : EReal :=
  zero + ∑ k : Fin 256, x (ix2 b k) * y (ix2 b k)

/-- The Euclidean norm of row `b` of `x`. -/
def rowNorm (x : SX.Idx → EReal) (b : Fin 512) : EReal := Ideal.sqrt (rowDot x x b)

/-- The inner product of row `b` of `x` with row `q` of the bank `mem`. -/
def memDot (x : SX.Idx → EReal) (mem : SM.Idx → EReal) (b : Fin 512) (q : Fin 32768) : EReal :=
  ∑ k : Fin 256, x (ix2 b k) * mem (ix3 0 q k)

/-- One entry the reference's way: the logit `d` divided by the norm product `p`, then by the temperature. -/
def refEntry (d p : EReal) : EReal := Ideal.exp (Ideal.div (Ideal.div d p) tau)

/-- One entry the kernel's way: the logit `d` times the one reciprocal `1 / (p · τ)`. -/
def kerEntry (d p : EReal) : EReal := Ideal.exp (d * Ideal.div one (p * tau))

/-- The first view of each of the eight pairs. -/
def viewI : Fin 8 → Fin 4 := ![0, 0, 0, 1, 1, 2, 2, 3]
/-- The second view (and the bank) of each of the eight pairs. -/
def viewJ : Fin 8 → Fin 4 := ![1, 2, 3, 0, 2, 0, 1, 0]

/-- Four arrays as a family over the view number. -/
def pick {α : Type} (a0 a1 a2 a3 : α) : Fin 4 → α := ![a0, a1, a2, a3]

/-- The logit of pair `c`, row `b`, column `q`: column 0 is the views' own inner product, column `q + 1` the
    inner product with row `q` of the bank. -/
def logit (x : Fin 4 → SX.Idx → EReal) (mem : Fin 4 → SM.Idx → EReal) (c : Fin 8) (b : Fin 512) (q : Fin 32769) : EReal :=
  if h : q.val = 0 then rowDot (x (viewI c)) (x (viewJ c)) b
  else memDot (x (viewI c)) (mem (viewJ c)) b ⟨q.val - 1, by omega⟩

/-- The product of the two views' row norms: what every entry of row `b` of pair `c` is divided by. -/
def normProd (x : Fin 4 → SX.Idx → EReal) (c : Fin 8) (b : Fin 512) : EReal :=
  rowNorm (x (viewI c)) b * rowNorm (x (viewJ c)) b

/-- The eight tables, the reference's way. -/
def outRef (x0 x1 x2 x3 : SX.Idx → EReal) (m0 m1 m2 m3 : SM.Idx → EReal) : SOut.Idx → EReal := fun i =>
  refEntry (logit (pick x0 x1 x2 x3) (pick m0 m1 m2 m3) (i 0) (i 1) (i 2)) (normProd (pick x0 x1 x2 x3) (i 0) (i 1))

/-- The eight tables, the kernel's way. -/
def outKer (x0 x1 x2 x3 : SX.Idx → EReal) (m0 m1 m2 m3 : SM.Idx → EReal) : SOut.Idx → EReal := fun i =>
  kerEntry (logit (pick x0 x1 x2 x3) (pick m0 m1 m2 m3) (i 0) (i 1) (i 2)) (normProd (pick x0 x1 x2 x3) (i 0) (i 1))

theorem outRef_apply (x0 x1 x2 x3 : SX.Idx → EReal) (m0 m1 m2 m3 : SM.Idx → EReal) (c : Fin 8) (b : Fin 512) (q : Fin 32769) :
    outRef x0 x1 x2 x3 m0 m1 m2 m3 (ix3 c b q)
      = refEntry (logit (pick x0 x1 x2 x3) (pick m0 m1 m2 m3) c b q) (normProd (pick x0 x1 x2 x3) c b) := rfl

theorem outKer_apply (x0 x1 x2 x3 : SX.Idx → EReal) (m0 m1 m2 m3 : SM.Idx → EReal) (c : Fin 8) (b : Fin 512) (q : Fin 32769) :
    outKer x0 x1 x2 x3 m0 m1 m2 m3 (ix3 c b q)
      = kerEntry (logit (pick x0 x1 x2 x3) (pick m0 m1 m2 m3) c b q) (normProd (pick x0 x1 x2 x3) c b) := rfl

/-- Every entry of the array is a real number. -/
def AllReal {s : Shape} (x : s.Idx → EReal) : Prop := ∀ i, ∃ r : ℝ, x i = (r : EReal)

end Cert.Moco

end
-- ==== Proof.KiHostBBank.lean ====
/-
  The second result: the four memory banks after the update. Each bank drops its first 512 rows and takes the 512
  rows of the matching key view at its end; the four updated banks are stacked. No launch writes any of these
  buffers, so the value at the end is the operations' own term of the argument arrays.
-/
import proofs.«112372_j79972291051933_2_alg».proof.Proof.KiHostBRead
import proofs.«112372_j79972291051933_2_alg».proof.Proof.Spec

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

set_option maxHeartbeats 1000000 in
/-- The first updated bank as a slab: rows 512 … 32767 of the bank, then the 512 rows of its key view. -/
theorem W13_main_v165 :
    (W13 m ρ c (Proc.devRef .tc main_v165) : S1x1x32768x256.Idx → EReal)
      = broadcastInDim S1x1x32768x256 ![1, 2, 3] bcast_S1x32768x256_S1x1x32768x256_1_2_3
        (concatenate S1x32768x256 1
          [⟨S1x32256x256, extractStridedSlice S1x32256x256 ![0, 512, 0] (m ((c : Thread nD τ).loc main_arg8)) slices_S1x32768x256_S1x32256x256_0_512_0⟩,
           ⟨S1x512x256, broadcastInDim S1x512x256 ![1, 2] bcast_S512x256_S1x512x256_1_2 (m ((c : Thread nD τ).loc main_arg4))⟩]
          concatenates_S1x32256x256_S1x512x256_S1x32768x256_d1) := by
  dsimp only [W13]
  simp only [hostOps4]
  results_fast
  rw [W12_main_arg8, W12_main_arg4]

set_option maxHeartbeats 1000000 in
/-- The second updated bank as a slab: rows 512 … 32767 of the bank, then the 512 rows of its key view. -/
theorem W13_main_v166 :
    (W13 m ρ c (Proc.devRef .tc main_v166) : S1x1x32768x256.Idx → EReal)
      = broadcastInDim S1x1x32768x256 ![1, 2, 3] bcast_S1x32768x256_S1x1x32768x256_1_2_3
        (concatenate S1x32768x256 1
          [⟨S1x32256x256, extractStridedSlice S1x32256x256 ![0, 512, 0] (m ((c : Thread nD τ).loc main_arg9)) slices_S1x32768x256_S1x32256x256_0_512_0⟩,
           ⟨S1x512x256, broadcastInDim S1x512x256 ![1, 2] bcast_S512x256_S1x512x256_1_2 (m ((c : Thread nD τ).loc main_arg5))⟩]
          concatenates_S1x32256x256_S1x512x256_S1x32768x256_d1) := by
  dsimp only [W13]
  simp only [hostOps4]
  results_fast
  rw [W12_main_arg9, W12_main_arg5]

set_option maxHeartbeats 1000000 in
/-- The third updated bank as a slab: rows 512 … 32767 of the bank, then the 512 rows of its key view. -/
theorem W13_main_v167 :
    (W13 m ρ c (Proc.devRef .tc main_v167) : S1x1x32768x256.Idx → EReal)
      = broadcastInDim S1x1x32768x256 ![1, 2, 3] bcast_S1x32768x256_S1x1x32768x256_1_2_3
        (concatenate S1x32768x256 1
          [⟨S1x32256x256, extractStridedSlice S1x32256x256 ![0, 512, 0] (m ((c : Thread nD τ).loc main_arg10)) slices_S1x32768x256_S1x32256x256_0_512_0⟩,
           ⟨S1x512x256, broadcastInDim S1x512x256 ![1, 2] bcast_S512x256_S1x512x256_1_2 (m ((c : Thread nD τ).loc main_arg6))⟩]
          concatenates_S1x32256x256_S1x512x256_S1x32768x256_d1) := by
  dsimp only [W13]
  simp only [hostOps4]
  results_fast
  rw [W12_main_arg10, W12_main_arg6]

set_option maxHeartbeats 1000000 in
/-- The fourth updated bank as a slab: rows 512 … 32767 of the bank, then the 512 rows of its key view. -/
theorem W13_main_v168 :
    (W13 m ρ c (Proc.devRef .tc main_v168) : S1x1x32768x256.Idx → EReal)
      = broadcastInDim S1x1x32768x256 ![1, 2, 3] bcast_S1x32768x256_S1x1x32768x256_1_2_3
        (concatenate S1x32768x256 1
          [⟨S1x32256x256, extractStridedSlice S1x32256x256 ![0, 512, 0] (m ((c : Thread nD τ).loc main_arg11)) slices_S1x32768x256_S1x32256x256_0_512_0⟩,
           ⟨S1x512x256, broadcastInDim S1x512x256 ![1, 2] bcast_S512x256_S1x512x256_1_2 (m ((c : Thread nD τ).loc main_arg7))⟩]
          concatenates_S1x32256x256_S1x512x256_S1x32768x256_d1) := by
  dsimp only [W13]
  simp only [hostOps4]
  results_fast
  rw [W12_main_arg11, W12_main_arg7]

/-- The stacked updated banks at the end of the run: for each of the four banks, rows 512 … 32767 of the bank
    followed by the 512 rows of the key view, as one slab; the four slabs joined along a new leading axis. -/
theorem W13_main_v169 :
    (W13 m ρ c (Proc.devRef .tc main_v169) : S4x1x32768x256.Idx → EReal)
      = concatenate S4x1x32768x256 0
        [⟨S1x1x32768x256, broadcastInDim S1x1x32768x256 ![1, 2, 3] bcast_S1x32768x256_S1x1x32768x256_1_2_3
          (concatenate S1x32768x256 1
            [⟨S1x32256x256, extractStridedSlice S1x32256x256 ![0, 512, 0] (m ((c : Thread nD τ).loc main_arg8)) slices_S1x32768x256_S1x32256x256_0_512_0⟩,
             ⟨S1x512x256, broadcastInDim S1x512x256 ![1, 2] bcast_S512x256_S1x512x256_1_2 (m ((c : Thread nD τ).loc main_arg4))⟩]
            concatenates_S1x32256x256_S1x512x256_S1x32768x256_d1)⟩,
         ⟨S1x1x32768x256, broadcastInDim S1x1x32768x256 ![1, 2, 3] bcast_S1x32768x256_S1x1x32768x256_1_2_3
          (concatenate S1x32768x256 1
            [⟨S1x32256x256, extractStridedSlice S1x32256x256 ![0, 512, 0] (m ((c : Thread nD τ).loc main_arg9)) slices_S1x32768x256_S1x32256x256_0_512_0⟩,
             ⟨S1x512x256, broadcastInDim S1x512x256 ![1, 2] bcast_S512x256_S1x512x256_1_2 (m ((c : Thread nD τ).loc main_arg5))⟩]
            concatenates_S1x32256x256_S1x512x256_S1x32768x256_d1)⟩,
         ⟨S1x1x32768x256, broadcastInDim S1x1x32768x256 ![1, 2, 3] bcast_S1x32768x256_S1x1x32768x256_1_2_3
          (concatenate S1x32768x256 1
            [⟨S1x32256x256, extractStridedSlice S1x32256x256 ![0, 512, 0] (m ((c : Thread nD τ).loc main_arg10)) slices_S1x32768x256_S1x32256x256_0_512_0⟩,
             ⟨S1x512x256, broadcastInDim S1x512x256 ![1, 2] bcast_S512x256_S1x512x256_1_2 (m ((c : Thread nD τ).loc main_arg6))⟩]
            concatenates_S1x32256x256_S1x512x256_S1x32768x256_d1)⟩,
         ⟨S1x1x32768x256, broadcastInDim S1x1x32768x256 ![1, 2, 3] bcast_S1x32768x256_S1x1x32768x256_1_2_3
          (concatenate S1x32768x256 1
            [⟨S1x32256x256, extractStridedSlice S1x32256x256 ![0, 512, 0] (m ((c : Thread nD τ).loc main_arg11)) slices_S1x32768x256_S1x32256x256_0_512_0⟩,
             ⟨S1x512x256, broadcastInDim S1x512x256 ![1, 2] bcast_S512x256_S1x512x256_1_2 (m ((c : Thread nD τ).loc main_arg7))⟩]
            concatenates_S1x32256x256_S1x512x256_S1x32768x256_d1)⟩]
        concatenates_S1x1x32768x256_S1x1x32768x256_S1x1x32768x256_S1x1x32768x256_S4x1x32768x256_d0 := by
  have h5 := W13_main_v165 m ρ c
  have h6 := W13_main_v166 m ρ c
  have h7 := W13_main_v167 m ρ c
  have h8 := W13_main_v168 m ρ c
  dsimp only [W13] at h5 h6 h7 h8 ⊢
  simp only [hostOps4, StableHlo.after_cons, StableHlo.after_nil] at h5 h6 h7 h8 ⊢
  rw [StableHlo.nary_result_ne (h := (by decide : main_v165 ≠ main_v169))] at h5
  rw [StableHlo.nary_result_ne (h := (by decide : main_v166 ≠ main_v169))] at h6
  rw [StableHlo.nary_result_ne (h := (by decide : main_v167 ≠ main_v169))] at h7
  rw [StableHlo.nary_result_ne (h := (by decide : main_v168 ≠ main_v169))] at h8
  rw [StableHlo.nary_result]
  simp only [Matrix.cons_val]
  rw [h5, h6, h7, h8]

end Cert.KernelIdeal.HandValue

end
-- ==== Proof.KiHostA0.lean ====
/-
  The host operations that prepare the launches, read at an index on the extended reals: what a column of row sums,
  a column of row norms, a reciprocal scale, a view lifted to a one-slab stack, a stack of columns and the reshaped
  bank hold at one entry. Each statement is over arbitrary arrays of the literal shapes; none mentions the run.
-/
import proofs.«112372_j79972291051933_2_alg».proof.Proof.Gen.KernelIdeal
import proofs.«112372_j79972291051933_2_alg».proof.Proof.Spec
import Idealize.ShloMosaic.Lib.Pipeline.Value
import Idealize.ShloMosaic.Lib.ValueIdx
import Idealize.ShloMosaic.PureOps.Ideal.Laws

noncomputable section

namespace Cert.KernelIdeal.HandValue

open Cert.KernelIdeal Cert.KernelIdeal.Gen Idealize.ShloMosaic Idealize.ShloMosaic.ValueIdx
open scoped BigOperators

/-! ## The columns the host computes, as functions of the arrays they are computed from -/

/-- The column of row inner products of two views: the entrywise product summed over the features from the float
    zero, spread to a column. -/
def dotCol (x y : S512x256.Idx → EReal) : S512x1.Idx → EReal :=
  broadcastInDim S512x1 ![0] bcast_S512_S512x1_0
    (Host.reduceAdd (F := Ideal) (mulf (F := Ideal) x y) (constant (F := Ideal) S_ .f32 0x00000000#32)
      reducesTo_S512x256_S512_d1 h_S_)

/-- The column of row norms of a view: the square root of the row's inner product with itself. -/
def normCol (x : S512x256.Idx → EReal) : S512x1.Idx → EReal := Host.sqrt (F := Ideal) (φ := .f32) (dotCol x x)

/-- The reciprocal scale of a pair of views: the float one over the product of the two norm columns and the
    temperature. -/
def scaleCol (n1 n2 : S512x1.Idx → EReal) : S512x1.Idx → EReal :=
  Host.divf (F := Ideal) (broadcastInDim S512x1 ![] bcast_S_S512x1 (constant (F := Ideal) S_ .f32 0x3F800000#32))
    (mulf (F := Ideal) (mulf (F := Ideal) n1 n2)
      (broadcastInDim S512x1 ![] bcast_S_S512x1 (constant (F := Ideal) S_ .f32 0x3D8F5C29#32)))

/-- The exponential of the entrywise product of two columns. -/
def expMulCol (d s : S512x1.Idx → EReal) : S512x1.Idx → EReal :=
  Host.exp (F := Ideal) (φ := .f32) (mulf (F := Ideal) (φ := .f32) d s)

/-- A column as a one-slab stack. -/
def liftCol (v : S512x1.Idx → EReal) : S1x512x1.Idx → EReal :=
  broadcastInDim S1x512x1 ![1, 2] bcast_S512x1_S1x512x1_1_2 v

/-- A view as a one-slab stack. -/
def liftView (x : S512x256.Idx → EReal) : S1x512x256.Idx → EReal :=
  broadcastInDim S1x512x256 ![1, 2] bcast_S512x256_S1x512x256_1_2 x

/-! ## Each at an index -/

/-- At row `b` the column of row sums is the inner product of the two rows. -/
theorem dotCol_apply (x y : S512x256.Idx → EReal) (b : Fin 512) : dotCol x y (ix2 b 0) = Cert.Moco.rowDot x y b := by
  unfold dotCol
  rw [broadcastInDim_apply _ bcast_S512_S512x1_0 _ (ix2 b 0) (ix1 b) (fun a => match a with
    | ⟨0, _⟩ => by show b.val = if (512 : Nat) = 1 then 0 else b.val; rw [if_neg (by decide)])]
  simp only [Host.reduceAdd, Ideal.hostReduceAdd_def]
  rw [Ideal.hostReduceAdd_single reducesTo_S512x256_S512_d1 (by decide)]
  unfold Cert.Moco.rowDot
  refine congrArg (_ + ·) (Finset.sum_congr rfl fun k _ => ?_)
  rw [mulf_apply]
  have e : (Shape.Reduces.lift (s := S512x256) (t := S512) (a := 1) (by decide) (ix1 b) k) = ix2 b k :=
    funext fun a => Fin.ext (by match a with | ⟨0, _⟩ => rfl | ⟨1, _⟩ => rfl)
  rw [e]; rfl

/-- At row `b` the column of row norms is the row's Euclidean norm. -/
theorem normCol_apply (x : S512x256.Idx → EReal) (b : Fin 512) : normCol x (ix2 b 0) = Cert.Moco.rowNorm x b := by
  unfold Cert.Moco.rowNorm
  rw [← dotCol_apply x x b]
  rfl

/-- The reciprocal scale, entry by entry. -/
theorem scaleCol_apply (n1 n2 : S512x1.Idx → EReal) (i : S512x1.Idx) :
    scaleCol n1 n2 i = Ideal.div Cert.Moco.one (n1 i * n2 i * Cert.Moco.tau) := rfl

/-- The exponential of a product of two columns, entry by entry. -/
theorem expMulCol_apply (d s : S512x1.Idx → EReal) (i : S512x1.Idx) : expMulCol d s i = Ideal.exp (d i * s i) := rfl

/-- A column lifted to a one-slab stack holds, in its only slab, the column. -/
theorem liftCol_apply (v : S512x1.Idx → EReal) (b : Fin 512) : liftCol v (ix3 0 b 0) = v (ix2 b 0) :=
  broadcastInDim_apply _ bcast_S512x1_S1x512x1_1_2 v (ix3 0 b 0) (ix2 b 0) (fun a => match a with
    | ⟨0, _⟩ => by show b.val = if (512 : Nat) = 1 then 0 else b.val; rw [if_neg (by decide)]
    | ⟨1, _⟩ => by show (0 : Nat) = if (1 : Nat) = 1 then 0 else (0 : Nat); rw [if_pos rfl])

/-- A view lifted to a one-slab stack holds, in its only slab, the view. -/
theorem liftView_apply (x : S512x256.Idx → EReal) (b : Fin 512) (k : Fin 256) : liftView x (ix3 0 b k) = x (ix2 b k) :=
  broadcastInDim_apply _ bcast_S512x256_S1x512x256_1_2 x (ix3 0 b k) (ix2 b k) (fun a => match a with
    | ⟨0, _⟩ => by show b.val = if (512 : Nat) = 1 then 0 else b.val; rw [if_neg (by decide)]
    | ⟨1, _⟩ => by show k.val = if (256 : Nat) = 1 then 0 else k.val; rw [if_neg (by decide)])

/-- Three one-slab stacks of columns joined along the slab axis: slab `g` of the join is slab 0 of piece `g`. -/
theorem stack3Col_apply (f : Fin 3 → (S1x512x1.Idx → EReal)) (g : Fin 3) (b : Fin 512) :
    (concatenate S3x512x1 0 [⟨S1x512x1, f 0⟩, ⟨S1x512x1, f 1⟩, ⟨S1x512x1, f 2⟩]
      concatenates_S1x512x1_S1x512x1_S1x512x1_S3x512x1_d0 : S3x512x1.Idx → EReal) (ix3 g b 0) = f g (ix3 0 b 0) :=
  concatenate_ofFn_unit_apply (t := S3x512x1) (s₁ := S1x512x1) 0 f
    concatenates_S1x512x1_S1x512x1_S1x512x1_S3x512x1_d0 rfl rfl (ix3 g b 0) g rfl (ix3 0 b 0)
    (fun a ha => match a, ha with
      | ⟨0, _⟩, ha => absurd rfl ha
      | ⟨1, _⟩, _ => rfl
      | ⟨2, _⟩, _ => rfl)

/-- Three one-slab stacks of views joined along the slab axis. -/
theorem stack3View_apply (f : Fin 3 → (S1x512x256.Idx → EReal)) (g : Fin 3) (b : Fin 512) (k : Fin 256) :
    (concatenate S3x512x256 0 [⟨S1x512x256, f 0⟩, ⟨S1x512x256, f 1⟩, ⟨S1x512x256, f 2⟩]
      concatenates_S1x512x256_S1x512x256_S1x512x256_S3x512x256_d0 : S3x512x256.Idx → EReal) (ix3 g b k) = f g (ix3 0 b k) :=
  concatenate_ofFn_unit_apply (t := S3x512x256) (s₁ := S1x512x256) 0 f
    concatenates_S1x512x256_S1x512x256_S1x512x256_S3x512x256_d0 rfl rfl (ix3 g b k) g rfl (ix3 0 b k)
    (fun a ha => match a, ha with
      | ⟨0, _⟩, ha => absurd rfl ha
      | ⟨1, _⟩, _ => rfl
      | ⟨2, _⟩, _ => rfl)

/-- Eight one-slab stacks of columns joined along the slab axis. -/
theorem stack8Col_apply (f : Fin 8 → (S1x512x1.Idx → EReal)) (cc : Fin 8) (b : Fin 512) :
    (concatenate S8x512x1 0 [⟨S1x512x1, f 0⟩, ⟨S1x512x1, f 1⟩, ⟨S1x512x1, f 2⟩, ⟨S1x512x1, f 3⟩, ⟨S1x512x1, f 4⟩,
        ⟨S1x512x1, f 5⟩, ⟨S1x512x1, f 6⟩, ⟨S1x512x1, f 7⟩]
      concatenates_S1x512x1_S1x512x1_S1x512x1_S1x512x1_S1x512x1_S1x512x1_S1x512x1_S1x512x1_S8x512x1_d0 : S8x512x1.Idx → EReal)
      (ix3 cc b 0) = f cc (ix3 0 b 0) :=
  concatenate_ofFn_unit_apply (t := S8x512x1) (s₁ := S1x512x1) 0 f
    concatenates_S1x512x1_S1x512x1_S1x512x1_S1x512x1_S1x512x1_S1x512x1_S1x512x1_S1x512x1_S8x512x1_d0 rfl rfl (ix3 cc b 0) cc rfl
    (ix3 0 b 0)
    (fun a ha => match a, ha with
      | ⟨0, _⟩, ha => absurd rfl ha
      | ⟨1, _⟩, _ => rfl
      | ⟨2, _⟩, _ => rfl)

/-- The bank with its unit slab axis dropped: row `q`, feature `k` of the result is entry (0, q, k) of the bank. -/
theorem dropSlab_apply (a : S1x32768x256.Idx → EReal) (q : Fin 32768) (k : Fin 256) :
    (shapeCast S32768x256 a shapeCasts_S1x32768x256_S32768x256 : S32768x256.Idx → EReal) (ix2 q k) = a (ix3 0 q k) :=
  shapeCast_apply a shapeCasts_S1x32768x256_S32768x256 (ix2 q k) (ix3 0 q k) (by
    rw [Shape.rowMajor_val_three, Shape.rowMajor_val_two]
    show ((0 : Nat) * 32768 + q.val) * 256 + k.val = q.val * 256 + k.val
    omega)

end Cert.KernelIdeal.HandValue

end
-- ==== Proof.KiHostA1.lean ====
/-
  The four columns of row norms. Each is computed by its own stretch of five host operations (the entrywise square,
  the float zero, the sum over the features, the spread to a column, the square root) from one argument view, and no
  later host operation before the first launch writes it: at the entry of the first launch the buffer of view K's norm
  holds, at row b, the Euclidean norm of row b of view K.
-/
import proofs.«112372_j79972291051933_2_alg».proof.Proof.KiArgs
import proofs.«112372_j79972291051933_2_alg».proof.Proof.KiHostA0

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.StableHlo

section Stretches
variable (X : Valuation τ sig (Elt Ideal))

/-! ### What each stretch writes, and what it leaves, from any contents `X` -/

/-- The norm stretch of view 0 leaves view 0's norm column in its result buffer. -/
theorem normStretch0_result :
    (after hostOps0 X (Proc.devRef .tc main_v0) : S512x1.Idx → EReal) = normCol (X (Proc.devRef .tc main_arg0)) := by
  dsimp only [hostOps0]
  after_results
  rfl

/-- The norm stretch of view 1 does not write view 0's norm. -/
theorem normStretch1_keeps_v0 : after hostOps0_1 X (Proc.devRef .tc main_v0) = X (Proc.devRef .tc main_v0) := by
  dsimp only [hostOps0_1]
  after_results

/-- The norm stretch of view 2 does not write view 0's norm. -/
theorem normStretch2_keeps_v0 : after hostOps0_2 X (Proc.devRef .tc main_v0) = X (Proc.devRef .tc main_v0) := by
  dsimp only [hostOps0_2]
  after_results

/-- The norm stretch of view 3 does not write view 0's norm. -/
theorem normStretch3_keeps_v0 : after hostOps0_3 X (Proc.devRef .tc main_v0) = X (Proc.devRef .tc main_v0) := by
  dsimp only [hostOps0_3]
  after_results

/-- The long stretch before the first launch does not write view 0's norm. -/
theorem prepStretch_keeps_v0 : after hostOps0_4 X (Proc.devRef .tc main_v0) = X (Proc.devRef .tc main_v0) := by
  dsimp only [hostOps0_4]
  after_results_simp

/-- The norm stretch of view 1 leaves view 1's norm column in its result buffer. -/
theorem normStretch1_result :
    (after hostOps0_1 X (Proc.devRef .tc main_v1) : S512x1.Idx → EReal) = normCol (X (Proc.devRef .tc main_arg1)) := by
  dsimp only [hostOps0_1]
  after_results
  rfl

/-- The norm stretch of view 2 does not write view 1's norm. -/
theorem normStretch2_keeps_v1 : after hostOps0_2 X (Proc.devRef .tc main_v1) = X (Proc.devRef .tc main_v1) := by
  dsimp only [hostOps0_2]
  after_results

/-- The norm stretch of view 3 does not write view 1's norm. -/
theorem normStretch3_keeps_v1 : after hostOps0_3 X (Proc.devRef .tc main_v1) = X (Proc.devRef .tc main_v1) := by
  dsimp only [hostOps0_3]
  after_results

/-- The long stretch before the first launch does not write view 1's norm. -/
theorem prepStretch_keeps_v1 : after hostOps0_4 X (Proc.devRef .tc main_v1) = X (Proc.devRef .tc main_v1) := by
  dsimp only [hostOps0_4]
  after_results_simp

/-- The norm stretch of view 2 leaves view 2's norm column in its result buffer. -/
theorem normStretch2_result :
    (after hostOps0_2 X (Proc.devRef .tc main_v2) : S512x1.Idx → EReal) = normCol (X (Proc.devRef .tc main_arg2)) := by
  dsimp only [hostOps0_2]
  after_results
  rfl

/-- The norm stretch of view 3 does not write view 2's norm. -/
theorem normStretch3_keeps_v2 : after hostOps0_3 X (Proc.devRef .tc main_v2) = X (Proc.devRef .tc main_v2) := by
  dsimp only [hostOps0_3]
  after_results

/-- The long stretch before the first launch does not write view 2's norm. -/
theorem prepStretch_keeps_v2 : after hostOps0_4 X (Proc.devRef .tc main_v2) = X (Proc.devRef .tc main_v2) := by
  dsimp only [hostOps0_4]
  after_results_simp

/-- The norm stretch of view 3 leaves view 3's norm column in its result buffer. -/
theorem normStretch3_result :
    (after hostOps0_3 X (Proc.devRef .tc main_v3) : S512x1.Idx → EReal) = normCol (X (Proc.devRef .tc main_arg3)) := by
  dsimp only [hostOps0_3]
  after_results
  rfl

/-- The long stretch before the first launch does not write view 3's norm. -/
theorem prepStretch_keeps_v3 : after hostOps0_4 X (Proc.devRef .tc main_v3) = X (Proc.devRef .tc main_v3) := by
  dsimp only [hostOps0_4]
  after_results_simp

end Stretches

section Run
variable (m : (ℓ : Loc nD τ sig) → Buf (Elt Ideal) ℓ) (ρ : Dev nD → PrngReg) (c : Dev nD)

set_option quotPrecheck false in
local notation "x0" => (m ((c : Thread nD τ).loc main_arg0) : S512x256.Idx → EReal)
set_option quotPrecheck false in
local notation "x1" => (m ((c : Thread nD τ).loc main_arg1) : S512x256.Idx → EReal)
set_option quotPrecheck false in
local notation "x2" => (m ((c : Thread nD τ).loc main_arg2) : S512x256.Idx → EReal)
set_option quotPrecheck false in
local notation "x3" => (m ((c : Thread nD τ).loc main_arg3) : S512x256.Idx → EReal)

/-! ### The norm columns once the four norm stretches have run -/

theorem W4_main_v0 : (W4 m ρ c (Proc.devRef .tc main_v0) : S512x1.Idx → EReal) = normCol x0 := by
  show after hostOps0_3 (after hostOps0_2 (after hostOps0_1 (after hostOps0 (W0 m ρ c)))) _ = _
  rw [normStretch3_keeps_v0, normStretch2_keeps_v0, normStretch1_keeps_v0, normStretch0_result]

theorem W4_main_v1 : (W4 m ρ c (Proc.devRef .tc main_v1) : S512x1.Idx → EReal) = normCol x1 := by
  show after hostOps0_3 (after hostOps0_2 (after hostOps0_1 (after hostOps0 (W0 m ρ c)))) _ = _
  rw [normStretch3_keeps_v1, normStretch2_keeps_v1, normStretch1_result]
  exact congrArg normCol (W1_main_arg1 m ρ c)

theorem W4_main_v2 : (W4 m ρ c (Proc.devRef .tc main_v2) : S512x1.Idx → EReal) = normCol x2 := by
  show after hostOps0_3 (after hostOps0_2 (after hostOps0_1 (after hostOps0 (W0 m ρ c)))) _ = _
  rw [normStretch3_keeps_v2, normStretch2_result]
  exact congrArg normCol (W2_main_arg2 m ρ c)

theorem W4_main_v3 : (W4 m ρ c (Proc.devRef .tc main_v3) : S512x1.Idx → EReal) = normCol x3 := by
  show after hostOps0_3 (after hostOps0_2 (after hostOps0_1 (after hostOps0 (W0 m ρ c)))) _ = _
  rw [normStretch3_result]
  exact congrArg normCol (W3_main_arg3 m ρ c)

/-! ### … and at the entry of the first launch -/

theorem W5_main_v0 : (W5 m ρ c (Proc.devRef .tc main_v0) : S512x1.Idx → EReal) = normCol x0 :=
  (prepStretch_keeps_v0 (W4 m ρ c)).trans (W4_main_v0 m ρ c)

/-- At the entry of the first launch, row `b` of view 0's norm buffer is the Euclidean norm of row `b` of view 0. -/
theorem W5_main_v0_apply (b : Fin 512) :
    (W5 m ρ c (Proc.devRef .tc main_v0) : S512x1.Idx → EReal) (ix2 b 0) = Cert.Moco.rowNorm x0 b := by
  rw [W5_main_v0, normCol_apply]

theorem W5_main_v1 : (W5 m ρ c (Proc.devRef .tc main_v1) : S512x1.Idx → EReal) = normCol x1 :=
  (prepStretch_keeps_v1 (W4 m ρ c)).trans (W4_main_v1 m ρ c)

/-- At the entry of the first launch, row `b` of view 1's norm buffer is the Euclidean norm of row `b` of view 1. -/
theorem W5_main_v1_apply (b : Fin 512) :
    (W5 m ρ c (Proc.devRef .tc main_v1) : S512x1.Idx → EReal) (ix2 b 0) = Cert.Moco.rowNorm x1 b := by
  rw [W5_main_v1, normCol_apply]

theorem W5_main_v2 : (W5 m ρ c (Proc.devRef .tc main_v2) : S512x1.Idx → EReal) = normCol x2 :=
  (prepStretch_keeps_v2 (W4 m ρ c)).trans (W4_main_v2 m ρ c)

/-- At the entry of the first launch, row `b` of view 2's norm buffer is the Euclidean norm of row `b` of view 2. -/
theorem W5_main_v2_apply (b : Fin 512) :
    (W5 m ρ c (Proc.devRef .tc main_v2) : S512x1.Idx → EReal) (ix2 b 0) = Cert.Moco.rowNorm x2 b := by
  rw [W5_main_v2, normCol_apply]

theorem W5_main_v3 : (W5 m ρ c (Proc.devRef .tc main_v3) : S512x1.Idx → EReal) = normCol x3 :=
  (prepStretch_keeps_v3 (W4 m ρ c)).trans (W4_main_v3 m ρ c)

/-- At the entry of the first launch, row `b` of view 3's norm buffer is the Euclidean norm of row `b` of view 3. -/
theorem W5_main_v3_apply (b : Fin 512) :
    (W5 m ρ c (Proc.devRef .tc main_v3) : S512x1.Idx → EReal) (ix2 b 0) = Cert.Moco.rowNorm x3 b := by
  rw [W5_main_v3, normCol_apply]

end Run

end Cert.KernelIdeal.HandValue

end
-- ==== Proof.KiHostA2.lean ====
/-
  The eight reciprocal scales, one per ordered pair (i, j) of views: the float one over the product of view i's norm
  column, view j's norm column and the temperature, computed in the long stretch before the first launch from the
  norm columns. At the entry of the first launch the scale buffer of pair (i, j) holds, at row b,
  1 / (|row b of view i| · |row b of view j| · τ).
-/
import proofs.«112372_j79972291051933_2_alg».proof.Proof.KiHostA1

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.StableHlo

section Stretches
variable (X : Valuation τ sig (Elt Ideal))

/-! ### What the long stretch writes to each scale buffer, from any contents `X` -/

/-- Pair 0, views (0, 1). -/
theorem prepStretch_v8 :
    (after hostOps0_4 X (Proc.devRef .tc main_v8) : S512x1.Idx → EReal)
      = scaleCol (X (Proc.devRef .tc main_v0)) (X (Proc.devRef .tc main_v1)) := by
  dsimp only [hostOps0_4]
  after_results_simp
  rfl

/-- Pair 1, views (0, 2). -/
theorem prepStretch_v13 :
    (after hostOps0_4 X (Proc.devRef .tc main_v13) : S512x1.Idx → EReal)
      = scaleCol (X (Proc.devRef .tc main_v0)) (X (Proc.devRef .tc main_v2)) := by
  dsimp only [hostOps0_4]
  after_results_simp
  rfl

/-- Pair 2, views (0, 3). -/
theorem prepStretch_v18 :
    (after hostOps0_4 X (Proc.devRef .tc main_v18) : S512x1.Idx → EReal)
      = scaleCol (X (Proc.devRef .tc main_v0)) (X (Proc.devRef .tc main_v3)) := by
  dsimp only [hostOps0_4]
  after_results_simp
  rfl

/-- Pair 3, views (1, 0). -/
theorem prepStretch_v23 :
    (after hostOps0_4 X (Proc.devRef .tc main_v23) : S512x1.Idx → EReal)
      = scaleCol (X (Proc.devRef .tc main_v1)) (X (Proc.devRef .tc main_v0)) := by
  dsimp only [hostOps0_4]
  after_results_simp
  rfl

/-- Pair 4, views (1, 2). -/
theorem prepStretch_v28 :
    (after hostOps0_4 X (Proc.devRef .tc main_v28) : S512x1.Idx → EReal)
      = scaleCol (X (Proc.devRef .tc main_v1)) (X (Proc.devRef .tc main_v2)) := by
  dsimp only [hostOps0_4]
  after_results_simp
  rfl

/-- Pair 5, views (2, 0). -/
theorem prepStretch_v33 :
    (after hostOps0_4 X (Proc.devRef .tc main_v33) : S512x1.Idx → EReal)
      = scaleCol (X (Proc.devRef .tc main_v2)) (X (Proc.devRef .tc main_v0)) := by
  dsimp only [hostOps0_4]
  after_results_simp
  rfl

/-- Pair 6, views (2, 1). -/
theorem prepStretch_v38 :
    (after hostOps0_4 X (Proc.devRef .tc main_v38) : S512x1.Idx → EReal)
      = scaleCol (X (Proc.devRef .tc main_v2)) (X (Proc.devRef .tc main_v1)) := by
  dsimp only [hostOps0_4]
  after_results_simp
  rfl

/-- Pair 7, views (3, 0). -/
theorem prepStretch_v43 :
    (after hostOps0_4 X (Proc.devRef .tc main_v43) : S512x1.Idx → EReal)
      = scaleCol (X (Proc.devRef .tc main_v3)) (X (Proc.devRef .tc main_v0)) := by
  dsimp only [hostOps0_4]
  after_results_simp
  rfl

end Stretches

section Run
variable (m : (ℓ : Loc nD τ sig) → Buf (Elt Ideal) ℓ) (ρ : Dev nD → PrngReg) (c : Dev nD)

set_option quotPrecheck false in
local notation "x0" => (m ((c : Thread nD τ).loc main_arg0) : S512x256.Idx → EReal)
set_option quotPrecheck false in
local notation "x1" => (m ((c : Thread nD τ).loc main_arg1) : S512x256.Idx → EReal)
set_option quotPrecheck false in
local notation "x2" => (m ((c : Thread nD τ).loc main_arg2) : S512x256.Idx → EReal)
set_option quotPrecheck false in
local notation "x3" => (m ((c : Thread nD τ).loc main_arg3) : S512x256.Idx → EReal)

/-! ### The scale buffers at the entry of the first launch -/

theorem W5_main_v8 :
    (W5 m ρ c (Proc.devRef .tc main_v8) : S512x1.Idx → EReal) = scaleCol (normCol x0) (normCol x1) := by
  refine (prepStretch_v8 (W4 m ρ c)).trans ?_
  rw [W4_main_v0, W4_main_v1]

/-- Pair 0, views (0, 1): row `b` of the scale is one over the two rows' norms and the temperature. -/
theorem W5_main_v8_apply (b : Fin 512) :
    (W5 m ρ c (Proc.devRef .tc main_v8) : S512x1.Idx → EReal) (ix2 b 0)
      = Ideal.div Cert.Moco.one (Cert.Moco.rowNorm x0 b * Cert.Moco.rowNorm x1 b * Cert.Moco.tau) := by
  rw [W5_main_v8, scaleCol_apply, normCol_apply, normCol_apply]

theorem W5_main_v13 :
    (W5 m ρ c (Proc.devRef .tc main_v13) : S512x1.Idx → EReal) = scaleCol (normCol x0) (normCol x2) := by
  refine (prepStretch_v13 (W4 m ρ c)).trans ?_
  rw [W4_main_v0, W4_main_v2]

/-- Pair 1, views (0, 2): row `b` of the scale is one over the two rows' norms and the temperature. -/
theorem W5_main_v13_apply (b : Fin 512) :
    (W5 m ρ c (Proc.devRef .tc main_v13) : S512x1.Idx → EReal) (ix2 b 0)
      = Ideal.div Cert.Moco.one (Cert.Moco.rowNorm x0 b * Cert.Moco.rowNorm x2 b * Cert.Moco.tau) := by
  rw [W5_main_v13, scaleCol_apply, normCol_apply, normCol_apply]

theorem W5_main_v18 :
    (W5 m ρ c (Proc.devRef .tc main_v18) : S512x1.Idx → EReal) = scaleCol (normCol x0) (normCol x3) := by
  refine (prepStretch_v18 (W4 m ρ c)).trans ?_
  rw [W4_main_v0, W4_main_v3]

/-- Pair 2, views (0, 3): row `b` of the scale is one over the two rows' norms and the temperature. -/
theorem W5_main_v18_apply (b : Fin 512) :
    (W5 m ρ c (Proc.devRef .tc main_v18) : S512x1.Idx → EReal) (ix2 b 0)
      = Ideal.div Cert.Moco.one (Cert.Moco.rowNorm x0 b * Cert.Moco.rowNorm x3 b * Cert.Moco.tau) := by
  rw [W5_main_v18, scaleCol_apply, normCol_apply, normCol_apply]

theorem W5_main_v23 :
    (W5 m ρ c (Proc.devRef .tc main_v23) : S512x1.Idx → EReal) = scaleCol (normCol x1) (normCol x0) := by
  refine (prepStretch_v23 (W4 m ρ c)).trans ?_
  rw [W4_main_v1, W4_main_v0]

/-- Pair 3, views (1, 0): row `b` of the scale is one over the two rows' norms and the temperature. -/
theorem W5_main_v23_apply (b : Fin 512) :
    (W5 m ρ c (Proc.devRef .tc main_v23) : S512x1.Idx → EReal) (ix2 b 0)
      = Ideal.div Cert.Moco.one (Cert.Moco.rowNorm x1 b * Cert.Moco.rowNorm x0 b * Cert.Moco.tau) := by
  rw [W5_main_v23, scaleCol_apply, normCol_apply, normCol_apply]

theorem W5_main_v28 :
    (W5 m ρ c (Proc.devRef .tc main_v28) : S512x1.Idx → EReal) = scaleCol (normCol x1) (normCol x2) := by
  refine (prepStretch_v28 (W4 m ρ c)).trans ?_
  rw [W4_main_v1, W4_main_v2]

/-- Pair 4, views (1, 2): row `b` of the scale is one over the two rows' norms and the temperature. -/
theorem W5_main_v28_apply (b : Fin 512) :
    (W5 m ρ c (Proc.devRef .tc main_v28) : S512x1.Idx → EReal) (ix2 b 0)
      = Ideal.div Cert.Moco.one (Cert.Moco.rowNorm x1 b * Cert.Moco.rowNorm x2 b * Cert.Moco.tau) := by
  rw [W5_main_v28, scaleCol_apply, normCol_apply, normCol_apply]

theorem W5_main_v33 :
    (W5 m ρ c (Proc.devRef .tc main_v33) : S512x1.Idx → EReal) = scaleCol (normCol x2) (normCol x0) := by
  refine (prepStretch_v33 (W4 m ρ c)).trans ?_
  rw [W4_main_v2, W4_main_v0]

/-- Pair 5, views (2, 0): row `b` of the scale is one over the two rows' norms and the temperature. -/
theorem W5_main_v33_apply (b : Fin 512) :
    (W5 m ρ c (Proc.devRef .tc main_v33) : S512x1.Idx → EReal) (ix2 b 0)
      = Ideal.div Cert.Moco.one (Cert.Moco.rowNorm x2 b * Cert.Moco.rowNorm x0 b * Cert.Moco.tau) := by
  rw [W5_main_v33, scaleCol_apply, normCol_apply, normCol_apply]

theorem W5_main_v38 :
    (W5 m ρ c (Proc.devRef .tc main_v38) : S512x1.Idx → EReal) = scaleCol (normCol x2) (normCol x1) := by
  refine (prepStretch_v38 (W4 m ρ c)).trans ?_
  rw [W4_main_v2, W4_main_v1]

/-- Pair 6, views (2, 1): row `b` of the scale is one over the two rows' norms and the temperature. -/
theorem W5_main_v38_apply (b : Fin 512) :
    (W5 m ρ c (Proc.devRef .tc main_v38) : S512x1.Idx → EReal) (ix2 b 0)
      = Ideal.div Cert.Moco.one (Cert.Moco.rowNorm x2 b * Cert.Moco.rowNorm x1 b * Cert.Moco.tau) := by
  rw [W5_main_v38, scaleCol_apply, normCol_apply, normCol_apply]

theorem W5_main_v43 :
    (W5 m ρ c (Proc.devRef .tc main_v43) : S512x1.Idx → EReal) = scaleCol (normCol x3) (normCol x0) := by
  refine (prepStretch_v43 (W4 m ρ c)).trans ?_
  rw [W4_main_v3, W4_main_v0]

/-- Pair 7, views (3, 0): row `b` of the scale is one over the two rows' norms and the temperature. -/
theorem W5_main_v43_apply (b : Fin 512) :
    (W5 m ρ c (Proc.devRef .tc main_v43) : S512x1.Idx → EReal) (ix2 b 0)
      = Ideal.div Cert.Moco.one (Cert.Moco.rowNorm x3 b * Cert.Moco.rowNorm x0 b * Cert.Moco.tau) := by
  rw [W5_main_v43, scaleCol_apply, normCol_apply, normCol_apply]

end Run

end Cert.KernelIdeal.HandValue

end
-- ==== Proof.KiHostA3.lean ====
/-
  The first column of the eight tables: for each pair (i, j) of views, the exponential of the rows' own inner product
  times the pair's reciprocal scale, lifted to a one-slab stack; the eight stacks joined along the slab axis and passed
  through a barrier that changes nothing. At the entry of the first launch the joined buffer holds, at (pair, row b, 0),
  the entry the kernel's way of the rows' inner product over the product of their norms.
-/
import proofs.«112372_j79972291051933_2_alg».proof.Proof.KiHostA2

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.StableHlo

/-! ## One pair's column -/

/-- The first column of one pair, as a one-slab stack, from the two views and the two norm columns. -/
def selfCol (xi xj : S512x256.Idx → EReal) (ni nj : S512x1.Idx → EReal) : S1x512x1.Idx → EReal :=
  liftCol (expMulCol (dotCol xi xj) (scaleCol ni nj))

theorem selfCol_apply (xi xj : S512x256.Idx → EReal) (ni nj : S512x1.Idx → EReal) (b : Fin 512) :
    selfCol xi xj ni nj (ix3 0 b 0)
      = Ideal.exp (Cert.Moco.rowDot xi xj b * Ideal.div Cert.Moco.one (ni (ix2 b 0) * nj (ix2 b 0) * Cert.Moco.tau)) := by
  unfold selfCol
  rw [liftCol_apply, expMulCol_apply, dotCol_apply, scaleCol_apply]

/-- The eight pairs' columns as a family over the pair number, from the four views and the four norm columns. -/
def selfCols (xs : Fin 4 → S512x256.Idx → EReal) (ns : Fin 4 → S512x1.Idx → EReal) : Fin 8 → S1x512x1.Idx → EReal :=
  fun cc => selfCol (xs (Cert.Moco.viewI cc)) (xs (Cert.Moco.viewJ cc)) (ns (Cert.Moco.viewI cc)) (ns (Cert.Moco.viewJ cc))

/-- The four norm columns as a family: column `i` at row `b` is the norm of row `b` of view `i`. -/
theorem pick_normCol_apply (x0 x1 x2 x3 : S512x256.Idx → EReal) (i : Fin 4) (b : Fin 512) :
    Cert.Moco.pick (normCol x0) (normCol x1) (normCol x2) (normCol x3) i (ix2 b 0)
      = Cert.Moco.rowNorm (Cert.Moco.pick x0 x1 x2 x3 i) b := by
  fin_cases i <;> exact normCol_apply _ _

/-- The eight pairs' columns joined along the slab axis. -/
def selfStack (xs : Fin 4 → S512x256.Idx → EReal) (ns : Fin 4 → S512x1.Idx → EReal) : S8x512x1.Idx → EReal :=
  concatenate S8x512x1 0
    [⟨S1x512x1, selfCols xs ns 0⟩, ⟨S1x512x1, selfCols xs ns 1⟩, ⟨S1x512x1, selfCols xs ns 2⟩, ⟨S1x512x1, selfCols xs ns 3⟩,
     ⟨S1x512x1, selfCols xs ns 4⟩, ⟨S1x512x1, selfCols xs ns 5⟩, ⟨S1x512x1, selfCols xs ns 6⟩, ⟨S1x512x1, selfCols xs ns 7⟩]
    concatenates_S1x512x1_S1x512x1_S1x512x1_S1x512x1_S1x512x1_S1x512x1_S1x512x1_S1x512x1_S8x512x1_d0

/-- Slab `cc` of the join is pair `cc`'s column. -/
theorem selfStack_apply (xs : Fin 4 → S512x256.Idx → EReal) (ns : Fin 4 → S512x1.Idx → EReal) (cc : Fin 8) (b : Fin 512) :
    selfStack xs ns (ix3 cc b 0) = selfCols xs ns cc (ix3 0 b 0) :=
  stack8Col_apply (selfCols xs ns) cc b

section Stretches
variable (X : Valuation τ sig (Elt Ideal))

/-- What the long stretch leaves in the barrier's result buffer, from any contents `X`: the eight pairs' columns,
    computed from the argument views and the norm columns as `X` has them, joined along the slab axis (the barrier
    is the identity). -/
theorem prepStretch_v93 :
    (after hostOps0_4 X (Proc.devRef .tc main_v93) : S8x512x1.Idx → EReal)
      = selfStack
          (Cert.Moco.pick (X (Proc.devRef .tc main_arg0)) (X (Proc.devRef .tc main_arg1)) (X (Proc.devRef .tc main_arg2))
            (X (Proc.devRef .tc main_arg3)))
          (Cert.Moco.pick (X (Proc.devRef .tc main_v0)) (X (Proc.devRef .tc main_v1)) (X (Proc.devRef .tc main_v2))
            (X (Proc.devRef .tc main_v3))) := by
  dsimp only [hostOps0_4]
  after_results_simp
  rfl

end Stretches

section Run
variable (m : (ℓ : Loc nD τ sig) → Buf (Elt Ideal) ℓ) (ρ : Dev nD → PrngReg) (c : Dev nD)

set_option quotPrecheck false in
local notation "x0" => (m ((c : Thread nD τ).loc main_arg0) : S512x256.Idx → EReal)
set_option quotPrecheck false in
local notation "x1" => (m ((c : Thread nD τ).loc main_arg1) : S512x256.Idx → EReal)
set_option quotPrecheck false in
local notation "x2" => (m ((c : Thread nD τ).loc main_arg2) : S512x256.Idx → EReal)
set_option quotPrecheck false in
local notation "x3" => (m ((c : Thread nD τ).loc main_arg3) : S512x256.Idx → EReal)

/-- At the entry of the first launch the first-column buffer holds, at (pair `cc`, row `b`, 0), the entry the kernel's
    way of the two rows' inner product over the product of their norms. -/
theorem W5_main_v93_apply (cc : Fin 8) (b : Fin 512) :
    (W5 m ρ c (Proc.devRef .tc main_v93) : S8x512x1.Idx → EReal) (ix3 cc b 0)
      = Cert.Moco.kerEntry
          (Cert.Moco.rowDot (Cert.Moco.pick x0 x1 x2 x3 (Cert.Moco.viewI cc)) (Cert.Moco.pick x0 x1 x2 x3 (Cert.Moco.viewJ cc)) b)
          (Cert.Moco.normProd (Cert.Moco.pick x0 x1 x2 x3) cc b) := by
  rw [show (W5 m ρ c (Proc.devRef .tc main_v93) : S8x512x1.Idx → EReal) = _ from prepStretch_v93 (W4 m ρ c),
    selfStack_apply, W4_main_arg0, W4_main_arg1, W4_main_arg2, W4_main_arg3, W4_main_v0, W4_main_v1, W4_main_v2, W4_main_v3]
  unfold selfCols
  rw [selfCol_apply, pick_normCol_apply, pick_normCol_apply]
  rfl

end Run

end Cert.KernelIdeal.HandValue

end
-- ==== Proof.KiHostA4.lean ====
/-
  The three arrays the first launch reads, as the long stretch of host operations before it leaves them: the views
  1, 2, 3 stacked (the launch of bank 0 pairs each of them with view 0), bank 0 with its unit slab axis dropped, and
  the three pairs' reciprocal scales stacked in the same order.
-/
import proofs.«112372_j79972291051933_2_alg».proof.Proof.KiHostA2

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.StableHlo

/-! ## The stacks as families over the slab number -/

/-- Three views as one-slab stacks. -/
def stackedViews (y0 y1 y2 : S512x256.Idx → EReal) : Fin 3 → S1x512x256.Idx → EReal := fun g => liftView (![y0, y1, y2] g)

/-- The reciprocal scales of three views, each paired with one and the same second view, as one-slab stacks. -/
def stackedScales (n0 n1 n2 nj : S512x1.Idx → EReal) : Fin 3 → S1x512x1.Idx → EReal :=
  fun g => liftCol (scaleCol (![n0, n1, n2] g) nj)

/-- Three views stacked along a new leading slab axis. -/
def viewStack (y0 y1 y2 : S512x256.Idx → EReal) : S3x512x256.Idx → EReal :=
  concatenate S3x512x256 0
    [⟨S1x512x256, stackedViews y0 y1 y2 0⟩, ⟨S1x512x256, stackedViews y0 y1 y2 1⟩, ⟨S1x512x256, stackedViews y0 y1 y2 2⟩]
    concatenates_S1x512x256_S1x512x256_S1x512x256_S3x512x256_d0

/-- Slab `g` of the stack is view `g` of the three. -/
theorem viewStack_apply (y0 y1 y2 : S512x256.Idx → EReal) (g : Fin 3) (b : Fin 512) (k : Fin 256) :
    viewStack y0 y1 y2 (ix3 g b k) = (![y0, y1, y2] g) (ix2 b k) := by
  unfold viewStack
  rw [stack3View_apply (stackedViews y0 y1 y2) g b k]
  unfold stackedViews
  rw [liftView_apply]

/-- Three pairs' reciprocal scales stacked along a new leading slab axis. -/
def scaleStack (n0 n1 n2 nj : S512x1.Idx → EReal) : S3x512x1.Idx → EReal :=
  concatenate S3x512x1 0
    [⟨S1x512x1, stackedScales n0 n1 n2 nj 0⟩, ⟨S1x512x1, stackedScales n0 n1 n2 nj 1⟩, ⟨S1x512x1, stackedScales n0 n1 n2 nj 2⟩]
    concatenates_S1x512x1_S1x512x1_S1x512x1_S3x512x1_d0

/-- Slab `g` of the stack, at row `b`, is one over the two norm columns' entries and the temperature. -/
theorem scaleStack_apply (n0 n1 n2 nj : S512x1.Idx → EReal) (g : Fin 3) (b : Fin 512) :
    scaleStack n0 n1 n2 nj (ix3 g b 0)
      = Ideal.div Cert.Moco.one ((![n0, n1, n2] g) (ix2 b 0) * nj (ix2 b 0) * Cert.Moco.tau) := by
  unfold scaleStack
  rw [stack3Col_apply (stackedScales n0 n1 n2 nj) g b]
  unfold stackedScales
  rw [liftCol_apply, scaleCol_apply]

section Stretches
variable (X : Valuation τ sig (Elt Ideal))

/-- What the long stretch leaves in the stacked-views buffer, from any contents `X`. -/
theorem prepStretch_v97 :
    (after hostOps0_4 X (Proc.devRef .tc main_v97) : S3x512x256.Idx → EReal)
      = viewStack (X (Proc.devRef .tc main_arg1)) (X (Proc.devRef .tc main_arg2)) (X (Proc.devRef .tc main_arg3)) := by
  dsimp only [hostOps0_4]
  after_results_simp
  rfl

/-- What the long stretch leaves in the stacked-scales buffer, from any contents `X`. -/
theorem prepStretch_v101 :
    (after hostOps0_4 X (Proc.devRef .tc main_v101) : S3x512x1.Idx → EReal)
      = scaleStack (X (Proc.devRef .tc main_v1)) (X (Proc.devRef .tc main_v2)) (X (Proc.devRef .tc main_v3))
          (X (Proc.devRef .tc main_v0)) := by
  dsimp only [hostOps0_4]
  after_results_simp
  rfl

/-- What the long stretch leaves in the reshaped-bank buffer, from any contents `X`. -/
theorem prepStretch_v102 :
    (after hostOps0_4 X (Proc.devRef .tc main_v102) : S32768x256.Idx → EReal)
      = shapeCast S32768x256 (X (Proc.devRef .tc main_arg8)) shapeCasts_S1x32768x256_S32768x256 := by
  dsimp only [hostOps0_4]
  after_results_simp
  rfl

end Stretches

section Run
variable (m : (ℓ : Loc nD τ sig) → Buf (Elt Ideal) ℓ) (ρ : Dev nD → PrngReg) (c : Dev nD)

set_option quotPrecheck false in
local notation "x0" => (m ((c : Thread nD τ).loc main_arg0) : S512x256.Idx → EReal)
set_option quotPrecheck false in
local notation "x1" => (m ((c : Thread nD τ).loc main_arg1) : S512x256.Idx → EReal)
set_option quotPrecheck false in
local notation "x2" => (m ((c : Thread nD τ).loc main_arg2) : S512x256.Idx → EReal)
set_option quotPrecheck false in
local notation "x3" => (m ((c : Thread nD τ).loc main_arg3) : S512x256.Idx → EReal)
set_option quotPrecheck false in
local notation "a8" => (m ((c : Thread nD τ).loc main_arg8) : S1x32768x256.Idx → EReal)

/-- The stacked views the first launch reads: slab `g` is view `g + 1`. -/
theorem W5_main_v97_apply (g : Fin 3) (b : Fin 512) (k : Fin 256) :
    (W5 m ρ c (Proc.devRef .tc main_v97) : S3x512x256.Idx → EReal) (ix3 g b k) = (![x1, x2, x3] g) (ix2 b k) := by
  rw [show (W5 m ρ c (Proc.devRef .tc main_v97) : S3x512x256.Idx → EReal) = _ from prepStretch_v97 (W4 m ρ c),
    viewStack_apply, W4_main_arg1, W4_main_arg2, W4_main_arg3]

/-- The bank the first launch reads: bank 0 without its slab axis. -/
theorem W5_main_v102_apply (q : Fin 32768) (k : Fin 256) :
    (W5 m ρ c (Proc.devRef .tc main_v102) : S32768x256.Idx → EReal) (ix2 q k) = a8 (ix3 0 q k) := by
  rw [show (W5 m ρ c (Proc.devRef .tc main_v102) : S32768x256.Idx → EReal) = _ from prepStretch_v102 (W4 m ρ c),
    dropSlab_apply, W4_main_arg8]

/-- The stacked scales the first launch reads: slab `g` is the reciprocal scale of the pair (view `g + 1`, view 0). -/
theorem W5_main_v101_apply (g : Fin 3) (b : Fin 512) :
    (W5 m ρ c (Proc.devRef .tc main_v101) : S3x512x1.Idx → EReal) (ix3 g b 0)
      = Ideal.div Cert.Moco.one (Cert.Moco.rowNorm (![x1, x2, x3] g) b * Cert.Moco.rowNorm x0 b * Cert.Moco.tau) := by
  rw [show (W5 m ρ c (Proc.devRef .tc main_v101) : S3x512x1.Idx → EReal) = _ from prepStretch_v101 (W4 m ρ c),
    scaleStack_apply, W4_main_v0, W4_main_v1, W4_main_v2, W4_main_v3, normCol_apply]
  congr 3
  fin_cases g <;> exact normCol_apply _ _

/-- Slab 0: the pair (view 1, view 0). -/
theorem W5_main_v101_apply_0 (b : Fin 512) :
    (W5 m ρ c (Proc.devRef .tc main_v101) : S3x512x1.Idx → EReal) (ix3 0 b 0)
      = Ideal.div Cert.Moco.one (Cert.Moco.rowNorm x1 b * Cert.Moco.rowNorm x0 b * Cert.Moco.tau) :=
  W5_main_v101_apply m ρ c 0 b

/-- Slab 1: the pair (view 2, view 0). -/
theorem W5_main_v101_apply_1 (b : Fin 512) :
    (W5 m ρ c (Proc.devRef .tc main_v101) : S3x512x1.Idx → EReal) (ix3 1 b 0)
      = Ideal.div Cert.Moco.one (Cert.Moco.rowNorm x2 b * Cert.Moco.rowNorm x0 b * Cert.Moco.tau) :=
  W5_main_v101_apply m ρ c 1 b

/-- Slab 2: the pair (view 3, view 0). -/
theorem W5_main_v101_apply_2 (b : Fin 512) :
    (W5 m ρ c (Proc.devRef .tc main_v101) : S3x512x1.Idx → EReal) (ix3 2 b 0)
      = Ideal.div Cert.Moco.one (Cert.Moco.rowNorm x3 b * Cert.Moco.rowNorm x0 b * Cert.Moco.tau) :=
  W5_main_v101_apply m ρ c 2 b

end Run

end Cert.KernelIdeal.HandValue

end
-- ==== Proof.KiHostBLayout.lean ====
/-
  Reading stacked arrays at an index given by coordinates.

  The host operations around the launches only rearrange: a matrix gets a new leading axis of extent one; two or
  eight such slabs are stacked along that axis; one slab is cut out of a stack again and its unit axis dropped; a
  column and a table are put side by side. Each lemma here says which entry of which operand such an arrangement
  reads at the entry (g, b, k).
-/
import Idealize.ShloMosaic.Lib.Pipeline.Value
import Idealize.ShloMosaic.Lib.ValueLayout
import Idealize.ShloMosaic.Lib.ValueIdx

namespace Cert.KernelIdeal.HandLayout

open Idealize.ShloMosaic Idealize.ShloMosaic.ValueIdx

variable {α : Type}

/-- A matrix given a new leading axis of extent one reads, at (g, b, k), its own entry (b, k). -/
theorem lead_apply {p q : Nat} (h : (⟨2, ![p, q]⟩ : Shape).BroadcastsInDim ⟨3, ![1, p, q]⟩ ![1, 2])
    (x : (⟨2, ![p, q]⟩ : Shape).Idx → α) (g : Fin 1) (b : Fin p) (k : Fin q) :
    broadcastInDim ⟨3, ![1, p, q]⟩ ![1, 2] h x (ix3 g b k) = x (ix2 b k) :=
  broadcastInDim_apply _ h x _ _ fun a => by
    have hb := b.isLt
    have hk := k.isLt
    match a with
    | ⟨0, _⟩ =>
      show b.val = if p = 1 then 0 else b.val
      split <;> omega
    | ⟨1, _⟩ =>
      show k.val = if q = 1 then 0 else k.val
      split <;> omega

/-- Two slabs of one matrix each, stacked: slab g of the stack is the g-th operand. -/
theorem stack2_apply {p q : Nat}
    (h : Shape.Concatenates [(⟨3, ![1, p, q]⟩ : Shape), ⟨3, ![1, p, q]⟩] ⟨3, ![2, p, q]⟩ 0)
    (u v : (⟨3, ![1, p, q]⟩ : Shape).Idx → α) (g : Fin 2) (b : Fin p) (k : Fin q) :
    concatenate ⟨3, ![2, p, q]⟩ 0 [⟨⟨3, ![1, p, q]⟩, u⟩, ⟨⟨3, ![1, p, q]⟩, v⟩] h (ix3 g b k)
      = (![u, v] g) (ix3 (0 : Fin 1) b k) := by
  match g with
  | ⟨0, _⟩ =>
    exact concatenate_pair_apply_left 0 u v h _ rfl (ix3 (0 : Fin 1) b k) fun a => by
      match a with
      | ⟨0, _⟩ => rfl
      | ⟨1, _⟩ => rfl
      | ⟨2, _⟩ => rfl
  | ⟨1, _⟩ =>
    exact concatenate_pair_apply_right 0 u v h _ rfl rfl (ix3 (0 : Fin 1) b k)
      (fun a ha => by
        match a with
        | ⟨0, _⟩ => exact absurd rfl ha
        | ⟨1, _⟩ => rfl
        | ⟨2, _⟩ => rfl)
      rfl

/-- Two matrices, each given a leading unit axis and stacked: entry (g, b, k) of the stack is entry (b, k) of the
    g-th matrix. -/
theorem stack2_lead_apply {p q : Nat}
    (hc : Shape.Concatenates [(⟨3, ![1, p, q]⟩ : Shape), ⟨3, ![1, p, q]⟩] ⟨3, ![2, p, q]⟩ 0)
    (hb : (⟨2, ![p, q]⟩ : Shape).BroadcastsInDim ⟨3, ![1, p, q]⟩ ![1, 2])
    (x y : (⟨2, ![p, q]⟩ : Shape).Idx → α) (g : Fin 2) (b : Fin p) (k : Fin q) :
    concatenate ⟨3, ![2, p, q]⟩ 0
        [⟨⟨3, ![1, p, q]⟩, broadcastInDim ⟨3, ![1, p, q]⟩ ![1, 2] hb x⟩,
         ⟨⟨3, ![1, p, q]⟩, broadcastInDim ⟨3, ![1, p, q]⟩ ![1, 2] hb y⟩] hc (ix3 g b k)
      = (![x, y] g) (ix2 b k) := by
  rw [stack2_apply]
  match g with
  | ⟨0, _⟩ => exact lead_apply hb x 0 b k
  | ⟨1, _⟩ => exact lead_apply hb y 0 b k

/-- Slab g cut out of a stack of n slabs reads, at (0, b, k), the stack's entry (g, b, k). -/
theorem slab_apply {n p q : Nat} (g : Fin n)
    (h : (⟨3, ![n, p, q]⟩ : Shape).Slices ![g.val, 0, 0] ⟨3, ![1, p, q]⟩)
    (x : (⟨3, ![n, p, q]⟩ : Shape).Idx → α) (z : Fin 1) (b : Fin p) (k : Fin q) :
    extractStridedSlice ⟨3, ![1, p, q]⟩ ![g.val, 0, 0] x h (ix3 z b k) = x (ix3 g b k) :=
  extractStridedSlice_apply _ x h _ _ fun a => by
    have hz := z.isLt
    match a with
    | ⟨0, _⟩ =>
      show g.val = g.val + z.val
      omega
    | ⟨1, _⟩ =>
      show b.val = 0 + b.val
      omega
    | ⟨2, _⟩ =>
      show k.val = 0 + k.val
      omega

/-- A column and a table side by side: column 0 of the result is the column. -/
theorem beside_apply_zero {n p q : Nat}
    (h : Shape.Concatenates [(⟨3, ![n, p, 1]⟩ : Shape), ⟨3, ![n, p, q]⟩] ⟨3, ![n, p, q + 1]⟩ 2)
    (u : (⟨3, ![n, p, 1]⟩ : Shape).Idx → α) (v : (⟨3, ![n, p, q]⟩ : Shape).Idx → α)
    (g : Fin n) (b : Fin p) (k : Fin (q + 1)) (hk : k.val = 0) :
    concatenate ⟨3, ![n, p, q + 1]⟩ 2 [⟨⟨3, ![n, p, 1]⟩, u⟩, ⟨⟨3, ![n, p, q]⟩, v⟩] h (ix3 g b k)
      = u (ix3 g b (0 : Fin 1)) :=
  concatenate_pair_apply_left 2 u v h _ rfl (ix3 g b (0 : Fin 1)) fun a => by
    match a with
    | ⟨0, _⟩ => rfl
    | ⟨1, _⟩ => rfl
    | ⟨2, _⟩ => exact hk.symm

/-- A column and a table side by side: column k + 1 of the result is column k of the table. -/
theorem beside_apply_succ {n p q : Nat}
    (h : Shape.Concatenates [(⟨3, ![n, p, 1]⟩ : Shape), ⟨3, ![n, p, q]⟩] ⟨3, ![n, p, q + 1]⟩ 2)
    (u : (⟨3, ![n, p, 1]⟩ : Shape).Idx → α) (v : (⟨3, ![n, p, q]⟩ : Shape).Idx → α)
    (g : Fin n) (b : Fin p) (k' : Fin (q + 1)) (k : Fin q) (hk : k'.val = k.val + 1) :
    concatenate ⟨3, ![n, p, q + 1]⟩ 2 [⟨⟨3, ![n, p, 1]⟩, u⟩, ⟨⟨3, ![n, p, q]⟩, v⟩] h (ix3 g b k')
      = v (ix3 g b k) :=
  concatenate_pair_apply_right 2 u v h _ rfl rfl (ix3 g b k)
    (fun a ha => by
      match a with
      | ⟨0, _⟩ => rfl
      | ⟨1, _⟩ => rfl
      | ⟨2, _⟩ => exact absurd rfl ha)
    (by show k.val + 1 = k'.val; omega)

end Cert.KernelIdeal.HandLayout
-- ==== Proof.KiHostBOperands.lean ====
/-
  What the second, third and fourth launch read. Each launch gets a stack of query views, one memory bank as a
  matrix, and a stack of scale columns. The views and banks are the program's arguments, rearranged; the scale
  columns were computed before the first launch and no launch or later host operation writes them, so at a later
  launch's entry they still hold what they held at the first launch's entry.
-/
import proofs.«112372_j79972291051933_2_alg».proof.Proof.KiHostBRead
import proofs.«112372_j79972291051933_2_alg».proof.Proof.KiHostBLayout
import proofs.«112372_j79972291051933_2_alg».proof.Proof.Spec

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

open Cert.KernelIdeal.HandLayout

/-! ## Scale columns computed before the first launch, at the later entries -/

/-- The scale column of pair (0, 1) as the first launch left it. -/
theorem W6_main_v8 : W6 m ρ c (Proc.devRef .tc main_v8) = W5 m ρ c (Proc.devRef .tc main_v8) :=
  W6_of_ne m ρ c main_v8 (by decide)
/-- The scale column of pair (2, 1) as the first launch left it. -/
theorem W6_main_v38 : W6 m ρ c (Proc.devRef .tc main_v38) = W5 m ρ c (Proc.devRef .tc main_v38) :=
  W6_of_ne m ρ c main_v38 (by decide)
/-- The scale column of pair (0, 2) as the second launch left it. -/
theorem W8_main_v13 : W8 m ρ c (Proc.devRef .tc main_v13) = W5 m ρ c (Proc.devRef .tc main_v13) :=
  (W8_of_ne m ρ c main_v13 (by decide)).trans <| (W7_of_keeps m ρ c main_v13 (by not_written)).trans
    (W6_of_ne m ρ c main_v13 (by decide))
/-- The scale column of pair (1, 2) as the second launch left it. -/
theorem W8_main_v28 : W8 m ρ c (Proc.devRef .tc main_v28) = W5 m ρ c (Proc.devRef .tc main_v28) :=
  (W8_of_ne m ρ c main_v28 (by decide)).trans <| (W7_of_keeps m ρ c main_v28 (by not_written)).trans
    (W6_of_ne m ρ c main_v28 (by decide))
/-- The scale column of pair (0, 3) as the third launch left it. -/
theorem W10_main_v18 : W10 m ρ c (Proc.devRef .tc main_v18) = W5 m ρ c (Proc.devRef .tc main_v18) :=
  (W10_of_ne m ρ c main_v18 (by decide)).trans <| (W9_of_keeps m ρ c main_v18 (by not_written)).trans <|
    (W8_of_ne m ρ c main_v18 (by decide)).trans <| (W7_of_keeps m ρ c main_v18 (by not_written)).trans
      (W6_of_ne m ρ c main_v18 (by decide))

/-! ## The second launch (bank 1; views 0 and 2) -/

/-- Its stack of views: view 0 over view 2. -/
theorem W7_main_v113 :
    (W7 m ρ c (Proc.devRef .tc main_v113) : S2x512x256.Idx → EReal)
      = concatenate S2x512x256 0
        [⟨S1x512x256, broadcastInDim S1x512x256 ![1, 2] bcast_S512x256_S1x512x256_1_2 (m ((c : Thread nD τ).loc main_arg0))⟩,
         ⟨S1x512x256, broadcastInDim S1x512x256 ![1, 2] bcast_S512x256_S1x512x256_1_2 (m ((c : Thread nD τ).loc main_arg2))⟩]
        concatenates_S1x512x256_S1x512x256_S2x512x256_d0 := by
  dsimp only [W7]
  simp only [hostOps1]
  results_fast
  rw [W6_main_arg0, W6_main_arg2]

/-- Its stack of scale columns, of what the first launch left. -/
theorem W7_main_v116_pre :
    (W7 m ρ c (Proc.devRef .tc main_v116) : S2x512x1.Idx → EReal)
      = concatenate S2x512x1 0
        [⟨S1x512x1, broadcastInDim S1x512x1 ![1, 2] bcast_S512x1_S1x512x1_1_2 (W6 m ρ c (Proc.devRef .tc main_v8))⟩,
         ⟨S1x512x1, broadcastInDim S1x512x1 ![1, 2] bcast_S512x1_S1x512x1_1_2 (W6 m ρ c (Proc.devRef .tc main_v38))⟩]
        concatenates_S1x512x1_S1x512x1_S2x512x1_d0 := by
  dsimp only [W7]
  simp only [hostOps1]
  results_fast

/-- Its stack of scale columns: those of the pairs (0, 1) and (2, 1). -/
theorem W7_main_v116 :
    (W7 m ρ c (Proc.devRef .tc main_v116) : S2x512x1.Idx → EReal)
      = concatenate S2x512x1 0
        [⟨S1x512x1, broadcastInDim S1x512x1 ![1, 2] bcast_S512x1_S1x512x1_1_2 (W5 m ρ c (Proc.devRef .tc main_v8))⟩,
         ⟨S1x512x1, broadcastInDim S1x512x1 ![1, 2] bcast_S512x1_S1x512x1_1_2 (W5 m ρ c (Proc.devRef .tc main_v38))⟩]
        concatenates_S1x512x1_S1x512x1_S2x512x1_d0 :=
  (W7_main_v116_pre m ρ c).trans (by rw [W6_main_v8, W6_main_v38])

/-- Its bank: bank 1 with the unit axis dropped. -/
theorem W7_main_v117 :
    (W7 m ρ c (Proc.devRef .tc main_v117) : S32768x256.Idx → EReal)
      = shapeCast S32768x256 (m ((c : Thread nD τ).loc main_arg9)) shapeCasts_S1x32768x256_S32768x256 := by
  dsimp only [W7]
  simp only [hostOps1]
  results_fast
  rw [W6_main_arg9]
  rfl

/-- Entry (g, b, k) of the second launch's views is entry (b, k) of view 0 (g = 0) or view 2 (g = 1). -/
theorem W7_main_v113_apply (g : Fin 2) (b : Fin 512) (k : Fin 256) :
    (W7 m ρ c (Proc.devRef .tc main_v113) : S2x512x256.Idx → EReal) (ix3 g b k)
      = (![(m ((c : Thread nD τ).loc main_arg0) : S512x256.Idx → EReal), m ((c : Thread nD τ).loc main_arg2)] g) (ix2 b k) := by
  rw [W7_main_v113]
  exact stack2_lead_apply _ _ _ _ g b k

/-- Row q of the second launch's bank is row q of bank 1. -/
theorem W7_main_v117_apply (q : Fin 32768) (k : Fin 256) :
    (W7 m ρ c (Proc.devRef .tc main_v117) : S32768x256.Idx → EReal) (ix2 q k)
      = (m ((c : Thread nD τ).loc main_arg9) : S1x32768x256.Idx → EReal) (ix3 (0 : Fin 1) q k) := by
  rw [W7_main_v117]
  exact shapeCast_1ab_ab_apply _ _ q k

/-- Row b of the second launch's scales: the scale of pair (0, 1) (g = 0) or of pair (2, 1) (g = 1), as computed
    before the first launch. -/
theorem W7_main_v116_apply (g : Fin 2) (b : Fin 512) (z : Fin 1) :
    (W7 m ρ c (Proc.devRef .tc main_v116) : S2x512x1.Idx → EReal) (ix3 g b z)
      = (![(W5 m ρ c (Proc.devRef .tc main_v8) : S512x1.Idx → EReal), W5 m ρ c (Proc.devRef .tc main_v38)] g) (ix2 b z) := by
  rw [W7_main_v116]
  exact stack2_lead_apply _ _ _ _ g b z

/-! ## The third launch (bank 2; views 0 and 1) -/

/-- Its stack of views: view 0 over view 1. -/
theorem W9_main_v126 :
    (W9 m ρ c (Proc.devRef .tc main_v126) : S2x512x256.Idx → EReal)
      = concatenate S2x512x256 0
        [⟨S1x512x256, broadcastInDim S1x512x256 ![1, 2] bcast_S512x256_S1x512x256_1_2 (m ((c : Thread nD τ).loc main_arg0))⟩,
         ⟨S1x512x256, broadcastInDim S1x512x256 ![1, 2] bcast_S512x256_S1x512x256_1_2 (m ((c : Thread nD τ).loc main_arg1))⟩]
        concatenates_S1x512x256_S1x512x256_S2x512x256_d0 := by
  dsimp only [W9]
  simp only [hostOps2]
  results_fast
  rw [W8_main_arg0, W8_main_arg1]

/-- Its stack of scale columns, of what the second launch left. -/
theorem W9_main_v129_pre :
    (W9 m ρ c (Proc.devRef .tc main_v129) : S2x512x1.Idx → EReal)
      = concatenate S2x512x1 0
        [⟨S1x512x1, broadcastInDim S1x512x1 ![1, 2] bcast_S512x1_S1x512x1_1_2 (W8 m ρ c (Proc.devRef .tc main_v13))⟩,
         ⟨S1x512x1, broadcastInDim S1x512x1 ![1, 2] bcast_S512x1_S1x512x1_1_2 (W8 m ρ c (Proc.devRef .tc main_v28))⟩]
        concatenates_S1x512x1_S1x512x1_S2x512x1_d0 := by
  dsimp only [W9]
  simp only [hostOps2]
  results_fast

/-- Its stack of scale columns: those of the pairs (0, 2) and (1, 2). -/
theorem W9_main_v129 :
    (W9 m ρ c (Proc.devRef .tc main_v129) : S2x512x1.Idx → EReal)
      = concatenate S2x512x1 0
        [⟨S1x512x1, broadcastInDim S1x512x1 ![1, 2] bcast_S512x1_S1x512x1_1_2 (W5 m ρ c (Proc.devRef .tc main_v13))⟩,
         ⟨S1x512x1, broadcastInDim S1x512x1 ![1, 2] bcast_S512x1_S1x512x1_1_2 (W5 m ρ c (Proc.devRef .tc main_v28))⟩]
        concatenates_S1x512x1_S1x512x1_S2x512x1_d0 :=
  (W9_main_v129_pre m ρ c).trans (by rw [W8_main_v13, W8_main_v28])

/-- Its bank: bank 2 with the unit axis dropped. -/
theorem W9_main_v130 :
    (W9 m ρ c (Proc.devRef .tc main_v130) : S32768x256.Idx → EReal)
      = shapeCast S32768x256 (m ((c : Thread nD τ).loc main_arg10)) shapeCasts_S1x32768x256_S32768x256 := by
  dsimp only [W9]
  simp only [hostOps2]
  results_fast
  rw [W8_main_arg10]
  rfl

/-- Entry (g, b, k) of the third launch's views is entry (b, k) of view 0 (g = 0) or view 1 (g = 1). -/
theorem W9_main_v126_apply (g : Fin 2) (b : Fin 512) (k : Fin 256) :
    (W9 m ρ c (Proc.devRef .tc main_v126) : S2x512x256.Idx → EReal) (ix3 g b k)
      = (![(m ((c : Thread nD τ).loc main_arg0) : S512x256.Idx → EReal), m ((c : Thread nD τ).loc main_arg1)] g) (ix2 b k) := by
  rw [W9_main_v126]
  exact stack2_lead_apply _ _ _ _ g b k

/-- Row q of the third launch's bank is row q of bank 2. -/
theorem W9_main_v130_apply (q : Fin 32768) (k : Fin 256) :
    (W9 m ρ c (Proc.devRef .tc main_v130) : S32768x256.Idx → EReal) (ix2 q k)
      = (m ((c : Thread nD τ).loc main_arg10) : S1x32768x256.Idx → EReal) (ix3 (0 : Fin 1) q k) := by
  rw [W9_main_v130]
  exact shapeCast_1ab_ab_apply _ _ q k

/-- Row b of the third launch's scales: the scale of pair (0, 2) (g = 0) or of pair (1, 2) (g = 1), as computed
    before the first launch. -/
theorem W9_main_v129_apply (g : Fin 2) (b : Fin 512) (z : Fin 1) :
    (W9 m ρ c (Proc.devRef .tc main_v129) : S2x512x1.Idx → EReal) (ix3 g b z)
      = (![(W5 m ρ c (Proc.devRef .tc main_v13) : S512x1.Idx → EReal), W5 m ρ c (Proc.devRef .tc main_v28)] g) (ix2 b z) := by
  rw [W9_main_v129]
  exact stack2_lead_apply _ _ _ _ g b z

/-! ## The fourth launch (bank 3; view 0) -/

/-- Its one view: view 0 as a stack of one. -/
theorem W11_main_v137 :
    (W11 m ρ c (Proc.devRef .tc main_v137) : S1x512x256.Idx → EReal)
      = broadcastInDim S1x512x256 ![1, 2] bcast_S512x256_S1x512x256_1_2 (m ((c : Thread nD τ).loc main_arg0)) := by
  dsimp only [W11]
  simp only [hostOps3]
  results_fast
  rw [W10_main_arg0]

/-- Its one scale column, of what the third launch left. -/
theorem W11_main_v138_pre :
    (W11 m ρ c (Proc.devRef .tc main_v138) : S1x512x1.Idx → EReal)
      = broadcastInDim S1x512x1 ![1, 2] bcast_S512x1_S1x512x1_1_2 (W10 m ρ c (Proc.devRef .tc main_v18)) := by
  dsimp only [W11]
  simp only [hostOps3]
  results_fast

/-- Its one scale column: that of the pair (0, 3). -/
theorem W11_main_v138 :
    (W11 m ρ c (Proc.devRef .tc main_v138) : S1x512x1.Idx → EReal)
      = broadcastInDim S1x512x1 ![1, 2] bcast_S512x1_S1x512x1_1_2 (W5 m ρ c (Proc.devRef .tc main_v18)) :=
  (W11_main_v138_pre m ρ c).trans (by rw [W10_main_v18])

/-- Its bank: bank 3 with the unit axis dropped. -/
theorem W11_main_v139 :
    (W11 m ρ c (Proc.devRef .tc main_v139) : S32768x256.Idx → EReal)
      = shapeCast S32768x256 (m ((c : Thread nD τ).loc main_arg11)) shapeCasts_S1x32768x256_S32768x256 := by
  dsimp only [W11]
  simp only [hostOps3]
  results_fast
  rw [W10_main_arg11]
  rfl

/-- Entry (g, b, k) of the fourth launch's one view is entry (b, k) of view 0. -/
theorem W11_main_v137_apply (g : Fin 1) (b : Fin 512) (k : Fin 256) :
    (W11 m ρ c (Proc.devRef .tc main_v137) : S1x512x256.Idx → EReal) (ix3 g b k)
      = (m ((c : Thread nD τ).loc main_arg0) : S512x256.Idx → EReal) (ix2 b k) := by
  rw [W11_main_v137]
  exact lead_apply _ _ g b k

/-- Row q of the fourth launch's bank is row q of bank 3. -/
theorem W11_main_v139_apply (q : Fin 32768) (k : Fin 256) :
    (W11 m ρ c (Proc.devRef .tc main_v139) : S32768x256.Idx → EReal) (ix2 q k)
      = (m ((c : Thread nD τ).loc main_arg11) : S1x32768x256.Idx → EReal) (ix3 (0 : Fin 1) q k) := by
  rw [W11_main_v139]
  exact shapeCast_1ab_ab_apply _ _ q k

/-- Row b of the fourth launch's scales: the scale of pair (0, 3), as computed before the first launch. -/
theorem W11_main_v138_apply (g : Fin 1) (b : Fin 512) (z : Fin 1) :
    (W11 m ρ c (Proc.devRef .tc main_v138) : S1x512x1.Idx → EReal) (ix3 g b z)
      = (W5 m ρ c (Proc.devRef .tc main_v18) : S512x1.Idx → EReal) (ix2 b z) := by
  rw [W11_main_v138]
  exact lead_apply _ _ g b z

end Cert.KernelIdeal.HandValue

end
-- ==== Proof.KiHostBOut.lean ====
/-
  The first result at the end of the run, entry by entry. Each launch leaves a stack of tables, one per view it was
  given. After a launch the host cuts its stack into single tables; at the end the eight tables are stacked in the
  order of the eight pairs of views, and the column of the views' own inner products, computed before the first
  launch, is put in front as column 0. Nothing here computes: every entry of the result is one entry of one
  launch's result, or of that column.
-/
import proofs.«112372_j79972291051933_2_alg».proof.Proof.KiHostBRead
import proofs.«112372_j79972291051933_2_alg».proof.Proof.KiHostBLayout
import proofs.«112372_j79972291051933_2_alg».proof.Proof.Spec

set_option maxRecDepth 16384

noncomputable section

namespace Cert.KernelIdeal.HandLayout

open Idealize.ShloMosaic Idealize.ShloMosaic.ValueIdx

variable {α : Type}

/-- Eight slabs of one matrix each, stacked: slab g of the stack is the g-th operand. -/
theorem stack8_apply {p q : Nat}
    (h : Shape.Concatenates
      [(⟨3, ![1, p, q]⟩ : Shape), ⟨3, ![1, p, q]⟩, ⟨3, ![1, p, q]⟩, ⟨3, ![1, p, q]⟩, ⟨3, ![1, p, q]⟩, ⟨3, ![1, p, q]⟩,
        ⟨3, ![1, p, q]⟩, ⟨3, ![1, p, q]⟩] ⟨3, ![8, p, q]⟩ 0)
    (u0 u1 u2 u3 u4 u5 u6 u7 : (⟨3, ![1, p, q]⟩ : Shape).Idx → α) (g : Fin 8) (b : Fin p) (k : Fin q) :
    concatenate ⟨3, ![8, p, q]⟩ 0
        [⟨⟨3, ![1, p, q]⟩, u0⟩, ⟨⟨3, ![1, p, q]⟩, u1⟩, ⟨⟨3, ![1, p, q]⟩, u2⟩, ⟨⟨3, ![1, p, q]⟩, u3⟩,
         ⟨⟨3, ![1, p, q]⟩, u4⟩, ⟨⟨3, ![1, p, q]⟩, u5⟩, ⟨⟨3, ![1, p, q]⟩, u6⟩, ⟨⟨3, ![1, p, q]⟩, u7⟩] h (ix3 g b k)
      = (![u0, u1, u2, u3, u4, u5, u6, u7] g) (ix3 (0 : Fin 1) b k) := by
  have off : ∀ a : Fin 3, a ≠ 0 → ((ix3 (0 : Fin 1) b k) a).val = ((ix3 g b k) a).val := fun a ha => by
    match a with
    | ⟨0, _⟩ => exact absurd rfl ha
    | ⟨1, _⟩ => rfl
    | ⟨2, _⟩ => rfl
  match g with
  | ⟨0, _⟩ => exact concatenate_apply_piece 0 [⟨⟨3, ![1, p, q]⟩, u0⟩, ⟨⟨3, ![1, p, q]⟩, u1⟩, ⟨⟨3, ![1, p, q]⟩, u2⟩, ⟨⟨3, ![1, p, q]⟩, u3⟩, ⟨⟨3, ![1, p, q]⟩, u4⟩, ⟨⟨3, ![1, p, q]⟩, u5⟩, ⟨⟨3, ![1, p, q]⟩, u6⟩, ⟨⟨3, ![1, p, q]⟩, u7⟩] h _ 0 (by simp) _ u0 rfl rfl 0 rfl (ix3 (0 : Fin 1) b k) off rfl
  | ⟨1, _⟩ => exact concatenate_apply_piece 0 [⟨⟨3, ![1, p, q]⟩, u0⟩, ⟨⟨3, ![1, p, q]⟩, u1⟩, ⟨⟨3, ![1, p, q]⟩, u2⟩, ⟨⟨3, ![1, p, q]⟩, u3⟩, ⟨⟨3, ![1, p, q]⟩, u4⟩, ⟨⟨3, ![1, p, q]⟩, u5⟩, ⟨⟨3, ![1, p, q]⟩, u6⟩, ⟨⟨3, ![1, p, q]⟩, u7⟩] h _ 1 (by simp) _ u1 rfl rfl 1 rfl (ix3 (0 : Fin 1) b k) off rfl
  | ⟨2, _⟩ => exact concatenate_apply_piece 0 [⟨⟨3, ![1, p, q]⟩, u0⟩, ⟨⟨3, ![1, p, q]⟩, u1⟩, ⟨⟨3, ![1, p, q]⟩, u2⟩, ⟨⟨3, ![1, p, q]⟩, u3⟩, ⟨⟨3, ![1, p, q]⟩, u4⟩, ⟨⟨3, ![1, p, q]⟩, u5⟩, ⟨⟨3, ![1, p, q]⟩, u6⟩, ⟨⟨3, ![1, p, q]⟩, u7⟩] h _ 2 (by simp) _ u2 rfl rfl 2 rfl (ix3 (0 : Fin 1) b k) off rfl
  | ⟨3, _⟩ => exact concatenate_apply_piece 0 [⟨⟨3, ![1, p, q]⟩, u0⟩, ⟨⟨3, ![1, p, q]⟩, u1⟩, ⟨⟨3, ![1, p, q]⟩, u2⟩, ⟨⟨3, ![1, p, q]⟩, u3⟩, ⟨⟨3, ![1, p, q]⟩, u4⟩, ⟨⟨3, ![1, p, q]⟩, u5⟩, ⟨⟨3, ![1, p, q]⟩, u6⟩, ⟨⟨3, ![1, p, q]⟩, u7⟩] h _ 3 (by simp) _ u3 rfl rfl 3 rfl (ix3 (0 : Fin 1) b k) off rfl
  | ⟨4, _⟩ => exact concatenate_apply_piece 0 [⟨⟨3, ![1, p, q]⟩, u0⟩, ⟨⟨3, ![1, p, q]⟩, u1⟩, ⟨⟨3, ![1, p, q]⟩, u2⟩, ⟨⟨3, ![1, p, q]⟩, u3⟩, ⟨⟨3, ![1, p, q]⟩, u4⟩, ⟨⟨3, ![1, p, q]⟩, u5⟩, ⟨⟨3, ![1, p, q]⟩, u6⟩, ⟨⟨3, ![1, p, q]⟩, u7⟩] h _ 4 (by simp) _ u4 rfl rfl 4 rfl (ix3 (0 : Fin 1) b k) off rfl
  | ⟨5, _⟩ => exact concatenate_apply_piece 0 [⟨⟨3, ![1, p, q]⟩, u0⟩, ⟨⟨3, ![1, p, q]⟩, u1⟩, ⟨⟨3, ![1, p, q]⟩, u2⟩, ⟨⟨3, ![1, p, q]⟩, u3⟩, ⟨⟨3, ![1, p, q]⟩, u4⟩, ⟨⟨3, ![1, p, q]⟩, u5⟩, ⟨⟨3, ![1, p, q]⟩, u6⟩, ⟨⟨3, ![1, p, q]⟩, u7⟩] h _ 5 (by simp) _ u5 rfl rfl 5 rfl (ix3 (0 : Fin 1) b k) off rfl
  | ⟨6, _⟩ => exact concatenate_apply_piece 0 [⟨⟨3, ![1, p, q]⟩, u0⟩, ⟨⟨3, ![1, p, q]⟩, u1⟩, ⟨⟨3, ![1, p, q]⟩, u2⟩, ⟨⟨3, ![1, p, q]⟩, u3⟩, ⟨⟨3, ![1, p, q]⟩, u4⟩, ⟨⟨3, ![1, p, q]⟩, u5⟩, ⟨⟨3, ![1, p, q]⟩, u6⟩, ⟨⟨3, ![1, p, q]⟩, u7⟩] h _ 6 (by simp) _ u6 rfl rfl 6 rfl (ix3 (0 : Fin 1) b k) off rfl
  | ⟨7, _⟩ => exact concatenate_apply_piece 0 [⟨⟨3, ![1, p, q]⟩, u0⟩, ⟨⟨3, ![1, p, q]⟩, u1⟩, ⟨⟨3, ![1, p, q]⟩, u2⟩, ⟨⟨3, ![1, p, q]⟩, u3⟩, ⟨⟨3, ![1, p, q]⟩, u4⟩, ⟨⟨3, ![1, p, q]⟩, u5⟩, ⟨⟨3, ![1, p, q]⟩, u6⟩, ⟨⟨3, ![1, p, q]⟩, u7⟩] h _ 7 (by simp) _ u7 rfl rfl 7 rfl (ix3 (0 : Fin 1) b k) off rfl

end Cert.KernelIdeal.HandLayout

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

open Cert.KernelIdeal.HandLayout

/-- Goes on reading buffers through a stretch of host operations once the operands of a many-operand operation
    have been named. -/
macro "results_loop" : tactic =>
  `(tactic| (
      repeat (first
        | (rw [Idealize.ShloMosaic.StableHlo.unary_result_ne]; rotate_left; decide)
        | (rw [Idealize.ShloMosaic.StableHlo.binary_result_ne]; rotate_left; decide)
        | (rw [Idealize.ShloMosaic.StableHlo.reshape_result_ne]; rotate_left; decide)
        | (rw [Idealize.ShloMosaic.StableHlo.nary_result_ne]; rotate_left; decide)
        | rw [Idealize.ShloMosaic.StableHlo.unary_result]
        | rw [Idealize.ShloMosaic.StableHlo.binary_result]
        | rw [Idealize.ShloMosaic.StableHlo.reshape_result]
        | rw [Idealize.ShloMosaic.StableHlo.nary_result])))

/-! ## The launches' results -/

/-- What the first launch leaves: three tables (views 1, 2, 3 against bank 0). -/
abbrev R0 : S3x512x32768.Idx → EReal := W6 m ρ c (Proc.devRef .tc main_v103)
/-- What the second launch leaves: two tables (views 0, 2 against bank 1). -/
abbrev R1 : S2x512x32768.Idx → EReal := W8 m ρ c (Proc.devRef .tc main_v118)
/-- What the third launch leaves: two tables (views 0, 1 against bank 2). -/
abbrev R2 : S2x512x32768.Idx → EReal := W10 m ρ c (Proc.devRef .tc main_v131)
/-- What the fourth launch leaves: one table (view 0 against bank 3). -/
abbrev R3 : S1x512x32768.Idx → EReal := W12 m ρ c (Proc.devRef .tc main_v140)

/-! ## The single tables cut out after each launch -/

/-- Table 0 of the first launch's stack, as a matrix, right after the cut. -/
theorem W7_main_v106 :
    (W7 m ρ c (Proc.devRef .tc main_v106) : S512x32768.Idx → EReal)
      = shapeCast S512x32768
          (extractStridedSlice S1x512x32768 ![0, 0, 0] (W6 m ρ c (Proc.devRef .tc main_v103))
            slices_S3x512x32768_S1x512x32768_0_0_0)
          shapeCasts_S1x512x32768_S512x32768 := by
  dsimp only [W7]
  simp only [hostOps1]
  results_fast
  rfl

/-- Table 1 of the first launch's stack, as a matrix, right after the cut. -/
theorem W7_main_v108 :
    (W7 m ρ c (Proc.devRef .tc main_v108) : S512x32768.Idx → EReal)
      = shapeCast S512x32768
          (extractStridedSlice S1x512x32768 ![1, 0, 0] (W6 m ρ c (Proc.devRef .tc main_v103))
            slices_S3x512x32768_S1x512x32768_1_0_0)
          shapeCasts_S1x512x32768_S512x32768 := by
  dsimp only [W7]
  simp only [hostOps1]
  results_fast
  rfl

/-- Table 2 of the first launch's stack, as a matrix, right after the cut. -/
theorem W7_main_v110 :
    (W7 m ρ c (Proc.devRef .tc main_v110) : S512x32768.Idx → EReal)
      = shapeCast S512x32768
          (extractStridedSlice S1x512x32768 ![2, 0, 0] (W6 m ρ c (Proc.devRef .tc main_v103))
            slices_S3x512x32768_S1x512x32768_2_0_0)
          shapeCasts_S1x512x32768_S512x32768 := by
  dsimp only [W7]
  simp only [hostOps1]
  results_fast
  rfl

/-- Table 0 of the second launch's stack, as a matrix, right after the cut. -/
theorem W9_main_v121 :
    (W9 m ρ c (Proc.devRef .tc main_v121) : S512x32768.Idx → EReal)
      = shapeCast S512x32768
          (extractStridedSlice S1x512x32768 ![0, 0, 0] (W8 m ρ c (Proc.devRef .tc main_v118))
            slices_S2x512x32768_S1x512x32768_0_0_0)
          shapeCasts_S1x512x32768_S512x32768 := by
  dsimp only [W9]
  simp only [hostOps2]
  results_fast
  rfl

/-- Table 1 of the second launch's stack, as a matrix, right after the cut. -/
theorem W9_main_v123 :
    (W9 m ρ c (Proc.devRef .tc main_v123) : S512x32768.Idx → EReal)
      = shapeCast S512x32768
          (extractStridedSlice S1x512x32768 ![1, 0, 0] (W8 m ρ c (Proc.devRef .tc main_v118))
            slices_S2x512x32768_S1x512x32768_1_0_0)
          shapeCasts_S1x512x32768_S512x32768 := by
  dsimp only [W9]
  simp only [hostOps2]
  results_fast
  rfl

/-- Table 0 of the third launch's stack, as a matrix, right after the cut. -/
theorem W11_main_v134 :
    (W11 m ρ c (Proc.devRef .tc main_v134) : S512x32768.Idx → EReal)
      = shapeCast S512x32768
          (extractStridedSlice S1x512x32768 ![0, 0, 0] (W10 m ρ c (Proc.devRef .tc main_v131))
            slices_S2x512x32768_S1x512x32768_0_0_0)
          shapeCasts_S1x512x32768_S512x32768 := by
  dsimp only [W11]
  simp only [hostOps3]
  results_fast
  rfl

/-- Table 1 of the third launch's stack, as a matrix, right after the cut. -/
theorem W11_main_v136 :
    (W11 m ρ c (Proc.devRef .tc main_v136) : S512x32768.Idx → EReal)
      = shapeCast S512x32768
          (extractStridedSlice S1x512x32768 ![1, 0, 0] (W10 m ρ c (Proc.devRef .tc main_v131))
            slices_S2x512x32768_S1x512x32768_1_0_0)
          shapeCasts_S1x512x32768_S512x32768 := by
  dsimp only [W11]
  simp only [hostOps3]
  results_fast
  rfl

/-! ## The same tables, and the first column, at the fourth launch's end

No launch has any of these buffers among its arrays and no later host operation writes them. -/

theorem W12_main_v106 : W12 m ρ c (Proc.devRef .tc main_v106) = W7 m ρ c (Proc.devRef .tc main_v106) :=
  (W12_of_ne m ρ c main_v106 (by decide)).trans <|
    (W11_of_keeps m ρ c main_v106 (by not_written)).trans <|
    (W10_of_ne m ρ c main_v106 (by decide)).trans <|
    (W9_of_keeps m ρ c main_v106 (by not_written)).trans <|
    W8_of_ne m ρ c main_v106 (by decide)

theorem W12_main_v108 : W12 m ρ c (Proc.devRef .tc main_v108) = W7 m ρ c (Proc.devRef .tc main_v108) :=
  (W12_of_ne m ρ c main_v108 (by decide)).trans <|
    (W11_of_keeps m ρ c main_v108 (by not_written)).trans <|
    (W10_of_ne m ρ c main_v108 (by decide)).trans <|
    (W9_of_keeps m ρ c main_v108 (by not_written)).trans <|
    W8_of_ne m ρ c main_v108 (by decide)

theorem W12_main_v110 : W12 m ρ c (Proc.devRef .tc main_v110) = W7 m ρ c (Proc.devRef .tc main_v110) :=
  (W12_of_ne m ρ c main_v110 (by decide)).trans <|
    (W11_of_keeps m ρ c main_v110 (by not_written)).trans <|
    (W10_of_ne m ρ c main_v110 (by decide)).trans <|
    (W9_of_keeps m ρ c main_v110 (by not_written)).trans <|
    W8_of_ne m ρ c main_v110 (by decide)

theorem W12_main_v121 : W12 m ρ c (Proc.devRef .tc main_v121) = W9 m ρ c (Proc.devRef .tc main_v121) :=
  (W12_of_ne m ρ c main_v121 (by decide)).trans <|
    (W11_of_keeps m ρ c main_v121 (by not_written)).trans <|
    W10_of_ne m ρ c main_v121 (by decide)

theorem W12_main_v123 : W12 m ρ c (Proc.devRef .tc main_v123) = W9 m ρ c (Proc.devRef .tc main_v123) :=
  (W12_of_ne m ρ c main_v123 (by decide)).trans <|
    (W11_of_keeps m ρ c main_v123 (by not_written)).trans <|
    W10_of_ne m ρ c main_v123 (by decide)

theorem W12_main_v134 : W12 m ρ c (Proc.devRef .tc main_v134) = W11 m ρ c (Proc.devRef .tc main_v134) :=
  W12_of_ne m ρ c main_v134 (by decide)

theorem W12_main_v136 : W12 m ρ c (Proc.devRef .tc main_v136) = W11 m ρ c (Proc.devRef .tc main_v136) :=
  W12_of_ne m ρ c main_v136 (by decide)

/-- The column of the views' own inner products, exponentiated, as computed before the first launch. -/
theorem W12_main_v93 : W12 m ρ c (Proc.devRef .tc main_v93) = W5 m ρ c (Proc.devRef .tc main_v93) :=
  (W12_of_ne m ρ c main_v93 (by decide)).trans <|
    (W11_of_keeps m ρ c main_v93 (by not_written)).trans <|
    (W10_of_ne m ρ c main_v93 (by decide)).trans <|
    (W9_of_keeps m ρ c main_v93 (by not_written)).trans <|
    (W8_of_ne m ρ c main_v93 (by decide)).trans <|
    (W7_of_keeps m ρ c main_v93 (by not_written)).trans <|
    W6_of_ne m ρ c main_v93 (by decide)

/-! ## Each single table, entry by entry -/

/-- Entry (b, q) of this table is entry (0, b, q) of the first launch's result. -/
theorem W12_main_v106_apply (b : Fin 512) (q : Fin 32768) :
    (W12 m ρ c (Proc.devRef .tc main_v106) : S512x32768.Idx → EReal) (ix2 b q) = R0 m ρ c (ix3 (0 : Fin 3) b q) := by
  rw [W12_main_v106, W7_main_v106]
  exact (shapeCast_1ab_ab_apply _ _ b q).trans (slab_apply (0 : Fin 3) _ _ 0 b q)

/-- Entry (b, q) of this table is entry (1, b, q) of the first launch's result. -/
theorem W12_main_v108_apply (b : Fin 512) (q : Fin 32768) :
    (W12 m ρ c (Proc.devRef .tc main_v108) : S512x32768.Idx → EReal) (ix2 b q) = R0 m ρ c (ix3 (1 : Fin 3) b q) := by
  rw [W12_main_v108, W7_main_v108]
  exact (shapeCast_1ab_ab_apply _ _ b q).trans (slab_apply (1 : Fin 3) _ _ 0 b q)

/-- Entry (b, q) of this table is entry (2, b, q) of the first launch's result. -/
theorem W12_main_v110_apply (b : Fin 512) (q : Fin 32768) :
    (W12 m ρ c (Proc.devRef .tc main_v110) : S512x32768.Idx → EReal) (ix2 b q) = R0 m ρ c (ix3 (2 : Fin 3) b q) := by
  rw [W12_main_v110, W7_main_v110]
  exact (shapeCast_1ab_ab_apply _ _ b q).trans (slab_apply (2 : Fin 3) _ _ 0 b q)

/-- Entry (b, q) of this table is entry (0, b, q) of the second launch's result. -/
theorem W12_main_v121_apply (b : Fin 512) (q : Fin 32768) :
    (W12 m ρ c (Proc.devRef .tc main_v121) : S512x32768.Idx → EReal) (ix2 b q) = R1 m ρ c (ix3 (0 : Fin 2) b q) := by
  rw [W12_main_v121, W9_main_v121]
  exact (shapeCast_1ab_ab_apply _ _ b q).trans (slab_apply (0 : Fin 2) _ _ 0 b q)

/-- Entry (b, q) of this table is entry (1, b, q) of the second launch's result. -/
theorem W12_main_v123_apply (b : Fin 512) (q : Fin 32768) :
    (W12 m ρ c (Proc.devRef .tc main_v123) : S512x32768.Idx → EReal) (ix2 b q) = R1 m ρ c (ix3 (1 : Fin 2) b q) := by
  rw [W12_main_v123, W9_main_v123]
  exact (shapeCast_1ab_ab_apply _ _ b q).trans (slab_apply (1 : Fin 2) _ _ 0 b q)

/-- Entry (b, q) of this table is entry (0, b, q) of the third launch's result. -/
theorem W12_main_v134_apply (b : Fin 512) (q : Fin 32768) :
    (W12 m ρ c (Proc.devRef .tc main_v134) : S512x32768.Idx → EReal) (ix2 b q) = R2 m ρ c (ix3 (0 : Fin 2) b q) := by
  rw [W12_main_v134, W11_main_v134]
  exact (shapeCast_1ab_ab_apply _ _ b q).trans (slab_apply (0 : Fin 2) _ _ 0 b q)

/-- Entry (b, q) of this table is entry (1, b, q) of the third launch's result. -/
theorem W12_main_v136_apply (b : Fin 512) (q : Fin 32768) :
    (W12 m ρ c (Proc.devRef .tc main_v136) : S512x32768.Idx → EReal) (ix2 b q) = R2 m ρ c (ix3 (1 : Fin 2) b q) := by
  rw [W12_main_v136, W11_main_v136]
  exact (shapeCast_1ab_ab_apply _ _ b q).trans (slab_apply (1 : Fin 2) _ _ 0 b q)

/-! ## The first result -/

/-- The first result as the last host operations build it: the first column beside the stack of the eight tables. -/
theorem W13_main_v152 :
    (W13 m ρ c (Proc.devRef .tc main_v152) : S8x512x32769.Idx → EReal)
      = concatenate S8x512x32769 2
          [⟨S8x512x1, W12 m ρ c (Proc.devRef .tc main_v93)⟩,
           ⟨S8x512x32768, concatenate S8x512x32768 0
              [⟨S1x512x32768, broadcastInDim S1x512x32768 ![1, 2] bcast_S512x32768_S1x512x32768_1_2 (W12 m ρ c (Proc.devRef .tc main_v121))⟩,
               ⟨S1x512x32768, broadcastInDim S1x512x32768 ![1, 2] bcast_S512x32768_S1x512x32768_1_2 (W12 m ρ c (Proc.devRef .tc main_v134))⟩,
               ⟨S1x512x32768, broadcastInDim S1x512x32768 ![1, 2] bcast_S512x32768_S1x512x32768_1_2 (shapeCast S512x32768 (W12 m ρ c (Proc.devRef .tc main_v140)) shapeCasts_S1x512x32768_S512x32768)⟩,
               ⟨S1x512x32768, broadcastInDim S1x512x32768 ![1, 2] bcast_S512x32768_S1x512x32768_1_2 (W12 m ρ c (Proc.devRef .tc main_v106))⟩,
               ⟨S1x512x32768, broadcastInDim S1x512x32768 ![1, 2] bcast_S512x32768_S1x512x32768_1_2 (W12 m ρ c (Proc.devRef .tc main_v136))⟩,
               ⟨S1x512x32768, broadcastInDim S1x512x32768 ![1, 2] bcast_S512x32768_S1x512x32768_1_2 (W12 m ρ c (Proc.devRef .tc main_v108))⟩,
               ⟨S1x512x32768, broadcastInDim S1x512x32768 ![1, 2] bcast_S512x32768_S1x512x32768_1_2 (W12 m ρ c (Proc.devRef .tc main_v123))⟩,
               ⟨S1x512x32768, broadcastInDim S1x512x32768 ![1, 2] bcast_S512x32768_S1x512x32768_1_2 (W12 m ρ c (Proc.devRef .tc main_v110))⟩]
              concatenates_S1x512x32768_S1x512x32768_S1x512x32768_S1x512x32768_S1x512x32768_S1x512x32768_S1x512x32768_S1x512x32768_S8x512x32768_d0⟩]
          concatenates_S8x512x1_S8x512x32768_S8x512x32769_d2 := by
  dsimp only [W13]
  simp only [hostOps4]
  results_fast
  simp only [Matrix.cons_val]
  results_loop
  rfl

/-- Column 0 of the first result is the column computed before the first launch. -/
theorem W13_main_v152_col_zero (p : Fin 8) (b : Fin 512) (q' : Fin 32769) (hq : q'.val = 0) :
    (W13 m ρ c (Proc.devRef .tc main_v152) : S8x512x32769.Idx → EReal) (ix3 p b q')
      = (W5 m ρ c (Proc.devRef .tc main_v93) : S8x512x1.Idx → EReal) (ix3 p b (0 : Fin 1)) := by
  rw [W13_main_v152, W12_main_v93]
  exact beside_apply_zero _ _ _ p b q' hq

/-- Column q + 1 of table p of the first result is column q of one launch's table: in the order of the eight pairs
    of views, tables 0 of the second, third and fourth launch, table 0 of the first, table 1 of the third, table 1
    of the first, table 1 of the second, table 2 of the first. -/
theorem W13_main_v152_col_succ (p : Fin 8) (b : Fin 512) (q' : Fin 32769) (q : Fin 32768) (hq : q'.val = q.val + 1) :
    (W13 m ρ c (Proc.devRef .tc main_v152) : S8x512x32769.Idx → EReal) (ix3 p b q')
      = (![R1 m ρ c (ix3 (0 : Fin 2) b q), R2 m ρ c (ix3 (0 : Fin 2) b q), R3 m ρ c (ix3 (0 : Fin 1) b q),
            R0 m ρ c (ix3 (0 : Fin 3) b q), R2 m ρ c (ix3 (1 : Fin 2) b q), R0 m ρ c (ix3 (1 : Fin 3) b q),
            R1 m ρ c (ix3 (1 : Fin 2) b q), R0 m ρ c (ix3 (2 : Fin 3) b q)] : Fin 8 → EReal) p := by
  rw [W13_main_v152]
  refine (beside_apply_succ _ _ _ p b q' q hq).trans ?_
  refine (stack8_apply _ _ _ _ _ _ _ _ _ p b q).trans ?_
  match p with
  | ⟨0, _⟩ =>
    exact (lead_apply bcast_S512x32768_S1x512x32768_1_2 (W12 m ρ c (Proc.devRef .tc main_v121)) 0 b q).trans
      (W12_main_v121_apply m ρ c b q)
  | ⟨1, _⟩ =>
    exact (lead_apply bcast_S512x32768_S1x512x32768_1_2 (W12 m ρ c (Proc.devRef .tc main_v134)) 0 b q).trans
      (W12_main_v134_apply m ρ c b q)
  | ⟨2, _⟩ =>
    exact (lead_apply bcast_S512x32768_S1x512x32768_1_2
      (shapeCast S512x32768 (W12 m ρ c (Proc.devRef .tc main_v140)) shapeCasts_S1x512x32768_S512x32768) 0 b q).trans
      (shapeCast_1ab_ab_apply (W12 m ρ c (Proc.devRef .tc main_v140)) shapeCasts_S1x512x32768_S512x32768 b q)
  | ⟨3, _⟩ =>
    exact (lead_apply bcast_S512x32768_S1x512x32768_1_2 (W12 m ρ c (Proc.devRef .tc main_v106)) 0 b q).trans
      (W12_main_v106_apply m ρ c b q)
  | ⟨4, _⟩ =>
    exact (lead_apply bcast_S512x32768_S1x512x32768_1_2 (W12 m ρ c (Proc.devRef .tc main_v136)) 0 b q).trans
      (W12_main_v136_apply m ρ c b q)
  | ⟨5, _⟩ =>
    exact (lead_apply bcast_S512x32768_S1x512x32768_1_2 (W12 m ρ c (Proc.devRef .tc main_v108)) 0 b q).trans
      (W12_main_v108_apply m ρ c b q)
  | ⟨6, _⟩ =>
    exact (lead_apply bcast_S512x32768_S1x512x32768_1_2 (W12 m ρ c (Proc.devRef .tc main_v123)) 0 b q).trans
      (W12_main_v123_apply m ρ c b q)
  | ⟨7, _⟩ =>
    exact (lead_apply bcast_S512x32768_S1x512x32768_1_2 (W12 m ρ c (Proc.devRef .tc main_v110)) 0 b q).trans
      (W12_main_v110_apply m ρ c b q)

end Cert.KernelIdeal.HandValue

end
-- ==== Proof.KiPayload.lean ====
/-
  The body's arithmetic at one entry of the output block. With the view block x [1,512,256], the bank tile m
  [2048,256] and the column of scales s [1,512,1], entry (0, b, n) of what the body stores is
  exp((∑ k, x(0,b,k) · m(n,k)) · s(0,b,0)): the narrowing of the operands to a shorter float format is the identity on
  the extended reals, the matrix unit's product into a zero accumulator is the plain sum over the contracted axis, the
  column of scales is repeated along the row.
-/
import proofs.«112372_j79972291051933_2_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.HandValue

open Cert.KernelIdeal Cert.KernelIdeal.Gen
open Idealize.ShloMosaic Idealize.ShloMosaic.TcCoe Idealize.ShloMosaic.ValueIdx Idealize.SL.Sem

theorem dd_lhs0 (i : S512x2048.Idx) (q : dot_S512x256_S2048x256_S512x2048_1_1_0_0_n_n.contr.Idx) : (dot_S512x256_S2048x256_S512x2048_1_1_0_0_n_n.lhsIdx i q 0).val = (i 0).val := by
  unfold DotDims.lhsIdx
  rw [dif_neg (show ¬(0 : Fin S512x256.rank) ∈ dot_S512x256_S2048x256_S512x2048_1_1_0_0_n_n.lhsBatch by decide), dif_pos (show (0 : Fin S512x256.rank) ∈ dot_S512x256_S2048x256_S512x2048_1_1_0_0_n_n.lhsNonContracting by decide)]
  rfl
theorem dd_lhs1 (i : S512x2048.Idx) (q : dot_S512x256_S2048x256_S512x2048_1_1_0_0_n_n.contr.Idx) : (dot_S512x256_S2048x256_S512x2048_1_1_0_0_n_n.lhsIdx i q 1).val = (q ⟨0, by decide⟩).val :=
  dot_S512x256_S2048x256_S512x2048_1_1_0_0_n_n.lhsIdx_val_of_single rfl i q
theorem dd_rhs0 (i : S512x2048.Idx) (q : dot_S512x256_S2048x256_S512x2048_1_1_0_0_n_n.contr.Idx) : (dot_S512x256_S2048x256_S512x2048_1_1_0_0_n_n.rhsIdx i q 0).val = (i 1).val := by
  unfold DotDims.rhsIdx
  rw [dif_neg (show ¬(0 : Fin S2048x256.rank) ∈ dot_S512x256_S2048x256_S512x2048_1_1_0_0_n_n.rhsBatch by decide), dif_pos (show (0 : Fin S2048x256.rank) ∈ dot_S512x256_S2048x256_S512x2048_1_1_0_0_n_n.rhsNonContracting by decide)]
  rfl
theorem dd_rhs1 (i : S512x2048.Idx) (q : dot_S512x256_S2048x256_S512x2048_1_1_0_0_n_n.contr.Idx) : (dot_S512x256_S2048x256_S512x2048_1_1_0_0_n_n.rhsIdx i q 1).val = (q ⟨0, by decide⟩).val :=
  dot_S512x256_S2048x256_S512x2048_1_1_0_0_n_n.rhsIdx_val_of_single rfl i q

/-- The product of a [512,256] operand with a [2048,256] operand over their second axes, into a zero accumulator,
    at entry (b, n): the sum over k of the products of the two rows' entries. -/
theorem matmul_rows_apply (l : FVec Ideal S512x256 .bf16) (r : FVec Ideal S2048x256 .bf16) (b : Fin 512) (n : Fin 2048) :
    matmul (F := Ideal) dot_S512x256_S2048x256_S512x2048_1_1_0_0_n_n none l r (constant S512x2048 .f32 0x00000000#32) (ix2 b n) = ∑ k : Fin 256, l (ix2 b k) * r (ix2 n k) := by
  show FloatOps.matmul dot_S512x256_S2048x256_S512x2048_1_1_0_0_n_n none l r (constant S512x2048 .f32 0x00000000#32) (ix2 b n) = _
  rw [Ideal.matmul_constant_zero_apply, ← Equiv.sum_comp (contrEquiv1 dot_S512x256_S2048x256_S512x2048_1_1_0_0_n_n 256 rfl rfl).symm]
  refine Finset.sum_congr rfl fun k _ => ?_
  have hk := contrEquiv1_symm_val dot_S512x256_S2048x256_S512x2048_1_1_0_0_n_n 256 rfl rfl k
  have el : dot_S512x256_S2048x256_S512x2048_1_1_0_0_n_n.lhsIdx (ix2 b n) ((contrEquiv1 dot_S512x256_S2048x256_S512x2048_1_1_0_0_n_n 256 rfl rfl).symm k) = ix2 b k := funext fun a => Fin.ext (by
    match a with
    | ⟨0, _⟩ => exact dd_lhs0 _ _
    | ⟨1, _⟩ => exact (dd_lhs1 _ _).trans hk)
  have er : dot_S512x256_S2048x256_S512x2048_1_1_0_0_n_n.rhsIdx (ix2 b n) ((contrEquiv1 dot_S512x256_S2048x256_S512x2048_1_1_0_0_n_n 256 rfl rfl).symm k) = ix2 n k := funext fun a => Fin.ext (by
    match a with
    | ⟨0, _⟩ => exact dd_rhs0 _ _
    | ⟨1, _⟩ => exact (dd_rhs1 _ _).trans hk)
  rw [el, er]

/-- A [1,512,w] block seen as [512,w] reads (0, b, k) at (b, k). -/
theorem drop_unit_256 (v : S1x512x256.Idx → EReal) (b : Fin 512) (k : Fin 256) :
    shapeCast S512x256 v shapeCasts_S1x512x256_S512x256 (ix2 b k) = v (ix3 0 b k) := by
  refine (shapeCast_apply v shapeCasts_S1x512x256_S512x256 (ix2 b k) (ix3 0 b k) ?_)
  rewrite [Shape.rowMajor_val_three, Shape.rowMajor_val_two]
  show (0 * 512 + b.val) * 256 + k.val = b.val * 256 + k.val
  omega
theorem drop_unit_1 (v : S1x512x1.Idx → EReal) (b : Fin 512) :
    shapeCast S512x1 v shapeCasts_S1x512x1_S512x1 (ix2 b 0) = v (ix3 0 b 0) := by
  refine (shapeCast_apply v shapeCasts_S1x512x1_S512x1 (ix2 b 0) (ix3 0 b 0) ?_)
  rewrite [Shape.rowMajor_val_three, Shape.rowMajor_val_two]
  show (0 * 512 + b.val) * 1 + 0 = b.val * 1 + 0
  omega
/-- A [512,2048] value stored as a [1,512,2048] block reads (b, n) at (0, b, n). -/
theorem add_unit_2048 (v : S512x2048.Idx → EReal) (b : Fin 512) (n : Fin 2048) :
    shapeCast S1x512x2048 v shapeCasts_S512x2048_S1x512x2048 (ix3 0 b n) = v (ix2 b n) := by
  refine (shapeCast_apply v shapeCasts_S512x2048_S1x512x2048 (ix3 0 b n) (ix2 b n) ?_)
  rewrite [Shape.rowMajor_val_three, Shape.rowMajor_val_two]
  show b.val * 2048 + n.val = (0 * 512 + b.val) * 2048 + n.val
  omega
/-- The same shape cast is the identity. -/
theorem same_2048x256 (v : S2048x256.Idx → EReal) : shapeCast S2048x256 v shapeCasts_S2048x256_S2048x256 = v :=
  shapeCast_self v _
/-- A column [512,1] repeated along the rows of [512,2048] reads (b, 0) at (b, n). -/
theorem repeat_col (v : S512x1.Idx → EReal) (b : Fin 512) (n : Fin 2048) :
    broadcastTo S512x2048 v broadcasts_S512x1_S512x2048 (ix2 b n) = v (ix2 b 0) := by
  refine broadcastTo_apply v broadcasts_S512x1_S512x2048 (ix2 b n) (ix2 b 0) fun a => ?_
  match a with
  | ⟨0, _⟩ => show b.val = if (512 : Nat) = 1 then 0 else b.val; rw [if_neg (by decide)]
  | ⟨1, _⟩ => show 0 = if (1 : Nat) = 1 then 0 else n.val; rw [if_pos rfl]

/-- The body's stored value at entry (0, b, n). -/
theorem pay_apply (x0 : Vec Ideal S1x512x256 .f32) (x1 : Vec Ideal S2048x256 .f32) (x2 : Vec Ideal S1x512x1 .f32) (b : Fin 512) (n : Fin 2048) :
    k0_pay1 (F := Ideal) x0 x1 x2 (ix3 0 b n)
      = Ideal.exp ((∑ k : Fin 256, x0 (ix3 0 b k) * x1 (ix2 n k)) * x2 (ix3 0 b 0)) := by
  unfold k0_pay1
  refine (add_unit_2048 _ b n).trans ?_
  show Ideal.exp (matmul (F := Ideal) dot_S512x256_S2048x256_S512x2048_1_1_0_0_n_n none _ _ (constant S512x2048 .f32 0x00000000#32) (ix2 b n) * broadcastTo S512x2048 _ broadcasts_S512x1_S512x2048 (ix2 b n)) = _
  rw [matmul_rows_apply, repeat_col, drop_unit_1]
  congr 2
  refine Finset.sum_congr rfl fun k _ => ?_
  show shapeCast S512x256 x0 shapeCasts_S1x512x256_S512x256 (ix2 b k) * shapeCast S2048x256 x1 shapeCasts_S2048x256_S2048x256 (ix2 n k) = _
  rw [drop_unit_256, same_2048x256]

/-- The body's stored value at entry (0, b, n). -/
theorem pay1_apply (x0 : Vec Ideal S1x512x256 .f32) (x1 : Vec Ideal S2048x256 .f32) (x2 : Vec Ideal S1x512x1 .f32) (b : Fin 512) (n : Fin 2048) :
    k1_pay1 (F := Ideal) x0 x1 x2 (ix3 0 b n)
      = Ideal.exp ((∑ k : Fin 256, x0 (ix3 0 b k) * x1 (ix2 n k)) * x2 (ix3 0 b 0)) := by
  unfold k1_pay1
  refine (add_unit_2048 _ b n).trans ?_
  show Ideal.exp (matmul (F := Ideal) dot_S512x256_S2048x256_S512x2048_1_1_0_0_n_n none _ _ (constant S512x2048 .f32 0x00000000#32) (ix2 b n) * broadcastTo S512x2048 _ broadcasts_S512x1_S512x2048 (ix2 b n)) = _
  rw [matmul_rows_apply, repeat_col, drop_unit_1]
  congr 2
  refine Finset.sum_congr rfl fun k _ => ?_
  show shapeCast S512x256 x0 shapeCasts_S1x512x256_S512x256 (ix2 b k) * shapeCast S2048x256 x1 shapeCasts_S2048x256_S2048x256 (ix2 n k) = _
  rw [drop_unit_256, same_2048x256]

/-- The body's stored value at entry (0, b, n). -/
theorem pay2_apply (x0 : Vec Ideal S1x512x256 .f32) (x1 : Vec Ideal S2048x256 .f32) (x2 : Vec Ideal S1x512x1 .f32) (b : Fin 512) (n : Fin 2048) :
    k2_pay1 (F := Ideal) x0 x1 x2 (ix3 0 b n)
      = Ideal.exp ((∑ k : Fin 256, x0 (ix3 0 b k) * x1 (ix2 n k)) * x2 (ix3 0 b 0)) := by
  unfold k2_pay1
  refine (add_unit_2048 _ b n).trans ?_
  show Ideal.exp (matmul (F := Ideal) dot_S512x256_S2048x256_S512x2048_1_1_0_0_n_n none _ _ (constant S512x2048 .f32 0x00000000#32) (ix2 b n) * broadcastTo S512x2048 _ broadcasts_S512x1_S512x2048 (ix2 b n)) = _
  rw [matmul_rows_apply, repeat_col, drop_unit_1]
  congr 2
  refine Finset.sum_congr rfl fun k _ => ?_
  show shapeCast S512x256 x0 shapeCasts_S1x512x256_S512x256 (ix2 b k) * shapeCast S2048x256 x1 shapeCasts_S2048x256_S2048x256 (ix2 n k) = _
  rw [drop_unit_256, same_2048x256]

/-- The body's stored value at entry (0, b, n). -/
theorem pay3_apply (x0 : Vec Ideal S1x512x256 .f32) (x1 : Vec Ideal S2048x256 .f32) (x2 : Vec Ideal S1x512x1 .f32) (b : Fin 512) (n : Fin 2048) :
    k3_pay1 (F := Ideal) x0 x1 x2 (ix3 0 b n)
      = Ideal.exp ((∑ k : Fin 256, x0 (ix3 0 b k) * x1 (ix2 n k)) * x2 (ix3 0 b 0)) := by
  unfold k3_pay1
  refine (add_unit_2048 _ b n).trans ?_
  show Ideal.exp (matmul (F := Ideal) dot_S512x256_S2048x256_S512x2048_1_1_0_0_n_n none _ _ (constant S512x2048 .f32 0x00000000#32) (ix2 b n) * broadcastTo S512x2048 _ broadcasts_S512x1_S512x2048 (ix2 b n)) = _
  rw [matmul_rows_apply, repeat_col, drop_unit_1]
  congr 2
  refine Finset.sum_congr rfl fun k _ => ?_
  show shapeCast S512x256 x0 shapeCasts_S1x512x256_S512x256 (ix2 b k) * shapeCast S2048x256 x1 shapeCasts_S2048x256_S2048x256 (ix2 n k) = _
  rw [drop_unit_256, same_2048x256]

end Cert.KernelIdeal.HandValue

end
-- ==== Proof.KiLaunch0.lean ====
/-
  Launch 0's result array as one function of the three arrays the launch reads. Grid point (tile, g) writes block
  (g, 0, tile) of the result — 512 rows by 2048 columns of stacked view g — computed from view block (g, 0, 0), bank
  tile (tile, 0) and scale block (g, 0, 0); the blocks tile the array, so in the end entry (g, b, q) of the result is
  exp((∑ k, X(g,b,k) · bank(q,k)) · scale(g,b,0)).
-/
import proofs.«112372_j79972291051933_2_alg».proof.Proof.KiRegion0
import proofs.«112372_j79972291051933_2_alg».proof.Proof.KiPayload
import Idealize.ShloMosaic.Lib.Pipeline.Value

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

theorem hz3_0 : (![0, 0, 0] : Fin 3 → Nat) = fun _ => 0 := funext fun a => by fin_cases a <;> rfl
theorem hz2_0 : (![0, 0] : Fin 2 → Nat) = fun _ => 0 := funext fun a => by fin_cases a <;> rfl

section
variable (V : (c : Dev nD) → (b : Ref sig .tc) → Buf (Elt Ideal) ((c : Thread nD τ).loc b)) (c : Dev nD)

/-- The three arrays launch 0 reads, as it finds them: the stacked views, the bank, the stacked columns of scales. -/
abbrev aX0 : S3x512x256.Idx → EReal := V c main_v97
abbrev aM0 : S32768x256.Idx → EReal := V c main_v102
abbrev aS0 : S3x512x1.Idx → EReal := V c main_v101

/-! ## Launch 0: 3 stacked view(s) against one bank -/

/-- What launch 0's result array holds in the end, entry by entry, from the three arrays it reads: the stacked views
    `X`, the bank `Mm`, the stacked columns of scales `Sc`. -/
def G0 (X : S3x512x256.Idx → EReal) (Mm : S32768x256.Idx → EReal) (Sc : S3x512x1.Idx → EReal) : S3x512x32768.Idx → EReal := fun i =>
  Ideal.exp ((∑ k : Fin 256, X (ix3 (i 0) (i 1) k) * Mm (ix2 (i 2) k)) * Sc (ix3 (i 0) (i 1) 0))

/-- The printed index maps over the grid: the view and scale blocks follow the result block's first coordinate, the
    bank tile its last; every other block coordinate is zero. -/
theorem idx_facts0 : ∀ t : Fin cfg0.N,
      win0_0.index t (0 : Fin 3) = win0_3.index t (0 : Fin 3) ∧ win0_0.index t (1 : Fin 3) = 0 ∧ win0_0.index t (2 : Fin 3) = 0
    ∧ win0_1.index t (0 : Fin 2) = win0_3.index t (2 : Fin 3) ∧ win0_1.index t (1 : Fin 2) = 0
    ∧ win0_2.index t (0 : Fin 3) = win0_3.index t (0 : Fin 3) ∧ win0_2.index t (1 : Fin 3) = 0 ∧ win0_2.index t (2 : Fin 3) = 0
    ∧ win0_3.index t (1 : Fin 3) = 0 ∧ win0_3.index t (0 : Fin 3) < 3 ∧ win0_3.index t (2 : Fin 3) < 16 :=
  (by decide +kernel : ∀ t : Fin grid0.N, _)

/-- Every block of the result array is some grid point's. -/
theorem idx_onto0 : ∀ (q0 : Fin 3) (q2 : Fin 16), ∃ t : Fin cfg0.N, win0_3.index t = ![q0.val, 0, q2.val] :=
  (by decide +kernel : ∀ (q0 : Fin 3) (q2 : Fin 16), ∃ t : Fin grid0.N, win0_3.index t = ![q0.val, 0, q2.val])

set_option maxHeartbeats 1000000 in
/-- What grid point `t` writes back is block `t` of `G0` of the arrays the launch was entered with. -/
theorem flushed0_eq (t : Fin cfg0.N) :
    (dat0 V c).flushed 3 t = ((cfg0.win 3).blk t).view.read (Elt Ideal)
      (G0 (aX0 V c) (aM0 V c) (aS0 V c)) := by
  show (cfg0.win 3).cut (grid0.coords t) ((dat0 V c).after 3 t) = _
  rw [after0_3]
  unfold out0_3
  rw [View.canon_unit_zero hz3_0]
  simp only [View.ld_unit_zero (S := S1x512x256) hz3_0, View.ld_unit_zero (S := S2048x256) hz2_0, View.ld_unit_zero (S := S1x512x1) hz3_0]
  obtain ⟨e00, e01, e02, e10, e11, e20, e21, e22, e31, l30, l32⟩ := idx_facts0 t
  funext j
  obtain ⟨j0, b, n, rfl⟩ : ∃ (j0 : Fin 1) (b : Fin 512) (n : Fin 2048), j = ix3 j0 b n := ⟨j 0, j 1, j 2, eq_ix3 j⟩
  obtain rfl : j0 = 0 := Subsingleton.elim _ _
  refine (pay_apply _ _ _ b n).trans ?_
  show Ideal.exp ((∑ k : Fin 256, aX0 V c (((cfg0.win 0).blk t).view.emb (ix3 0 b k)) * aM0 V c (((cfg0.win 1).blk t).view.emb (ix2 n k)))
      * aS0 V c (((cfg0.win 2).blk t).view.emb (ix3 0 b 0)))
    = G0 (aX0 V c) (aM0 V c) (aS0 V c) (((cfg0.win 3).blk t).view.emb (ix3 0 b n))
  unfold G0
  have hx : ∀ k : Fin 256, ((cfg0.win 0).blk t).view.emb (ix3 0 b k)
      = ix3 ((((cfg0.win 3).blk t).view.emb (ix3 0 b n)) 0) ((((cfg0.win 3).blk t).view.emb (ix3 0 b n)) 1) k := fun k => by
    funext a; apply Fin.ext
    match a with
    | ⟨0, _⟩ => show win0_0.index t (0 : Fin 3) * 1 + 1 * 0 = win0_3.index t (0 : Fin 3) * 1 + 1 * 0; omega
    | ⟨1, _⟩ => show win0_0.index t (1 : Fin 3) * 512 + 1 * b.val = win0_3.index t (1 : Fin 3) * 512 + 1 * b.val; omega
    | ⟨2, _⟩ => show win0_0.index t (2 : Fin 3) * 256 + 1 * k.val = k.val; omega
  have hm : ∀ k : Fin 256, ((cfg0.win 1).blk t).view.emb (ix2 n k)
      = ix2 ((((cfg0.win 3).blk t).view.emb (ix3 0 b n)) 2) k := fun k => by
    funext a; apply Fin.ext
    match a with
    | ⟨0, _⟩ => show win0_1.index t (0 : Fin 2) * 2048 + 1 * n.val = win0_3.index t (2 : Fin 3) * 2048 + 1 * n.val; omega
    | ⟨1, _⟩ => show win0_1.index t (1 : Fin 2) * 256 + 1 * k.val = k.val; omega
  have hs : ((cfg0.win 2).blk t).view.emb (ix3 0 b 0)
      = (ix3 ((((cfg0.win 3).blk t).view.emb (ix3 0 b n)) 0) ((((cfg0.win 3).blk t).view.emb (ix3 0 b n)) 1) (0 : Fin 1) : S3x512x1.Idx) := by
    funext a; apply Fin.ext
    match a with
    | ⟨0, _⟩ => show win0_2.index t (0 : Fin 3) * 1 + 1 * 0 = win0_3.index t (0 : Fin 3) * 1 + 1 * 0; omega
    | ⟨1, _⟩ => show win0_2.index t (1 : Fin 3) * 512 + 1 * b.val = win0_3.index t (1 : Fin 3) * 512 + 1 * b.val; omega
    | ⟨2, _⟩ => show win0_2.index t (2 : Fin 3) * 1 + 1 * 0 = 0; omega
  simp only [hx, hm, hs]
  try rfl

/-- An index of the result array is in point `t`'s block iff each coordinate is in the block's range on its axis. -/
theorem mem_blk0 (t : Fin cfg0.N) (i : S3x512x32768.Idx) :
    i ∈ ((cfg0.win 3).blk t).view.set ↔ ∀ a : Fin 3, win0_3.index t a * S1x512x2048.size a ≤ (i a).val ∧ (i a).val < win0_3.index t a * S1x512x2048.size a + S1x512x2048.size a := by
  show i ∈ ((View.whole main_v103).slice (win0_3.rect t)).set ↔ _
  rw [View.set_slice_whole, Rect.mem_set_unit]
  exact Iff.rfl

/-- The result blocks tile the result array. -/
theorem cover0 (i : S3x512x32768.Idx) : ∃ t : Fin cfg0.N, (cfg0.win 3).flush t = true ∧ i ∈ ((cfg0.win 3).blk t).view.set := by
  have hi0 : (i 0).val < 3 := (i 0).isLt
  have hi1 : (i 1).val < 512 := (i 1).isLt
  have hi2 : (i 2).val < 32768 := (i 2).isLt
  obtain ⟨t, ht⟩ := idx_onto0 ⟨(i 0).val, hi0⟩ ⟨(i 2).val / 2048, by omega⟩
  have q0 : win0_3.index t (0 : Fin 3) = (i 0).val := congrFun ht 0
  have q1 : win0_3.index t (1 : Fin 3) = 0 := congrFun ht 1
  have q2 : win0_3.index t (2 : Fin 3) = (i 2).val / 2048 := congrFun ht 2
  refine ⟨t, flush0_3 t, ?_⟩
  rw [mem_blk0]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 2048 ≤ (i 2).val ∧ (i 2).val < win0_3.index t (2 : Fin 3) * 2048 + 2048; omega

/-- Launch 0's result array after the launch: `G0` of the arrays it was entered with. -/
theorem final0 : (dat0 V c).arrAt 3 cfg0.N
    = G0 (aX0 V c) (aM0 V c) (aS0 V c) :=
  (dat0 V c).arrAt_eq_of_cover 3 _ (fun t _ => flushed0_eq V c t) (cover0)

end

end Cert.KernelIdeal.HandValue

end
-- ==== Proof.KiLaunch1.lean ====
/-
  Launch 1's result array as one function of the three arrays the launch reads. Grid point (tile, g) writes block
  (g, 0, tile) of the result — 512 rows by 2048 columns of stacked view g — computed from view block (g, 0, 0), bank
  tile (tile, 0) and scale block (g, 0, 0); the blocks tile the array, so in the end entry (g, b, q) of the result is
  exp((∑ k, X(g,b,k) · bank(q,k)) · scale(g,b,0)).
-/
import proofs.«112372_j79972291051933_2_alg».proof.Proof.KiRegion1
import proofs.«112372_j79972291051933_2_alg».proof.Proof.KiPayload
import Idealize.ShloMosaic.Lib.Pipeline.Value

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

theorem hz3_1 : (![0, 0, 0] : Fin 3 → Nat) = fun _ => 0 := funext fun a => by fin_cases a <;> rfl
theorem hz2_1 : (![0, 0] : Fin 2 → Nat) = fun _ => 0 := funext fun a => by fin_cases a <;> rfl

section
variable (V : (c : Dev nD) → (b : Ref sig .tc) → Buf (Elt Ideal) ((c : Thread nD τ).loc b)) (c : Dev nD)

/-- The three arrays launch 1 reads, as it finds them: the stacked views, the bank, the stacked columns of scales. -/
abbrev aX1 : S2x512x256.Idx → EReal := V c main_v113
abbrev aM1 : S32768x256.Idx → EReal := V c main_v117
abbrev aS1 : S2x512x1.Idx → EReal := V c main_v116

/-! ## Launch 1: 2 stacked view(s) against one bank -/

/-- What launch 1's result array holds in the end, entry by entry, from the three arrays it reads: the stacked views
    `X`, the bank `Mm`, the stacked columns of scales `Sc`. -/
def G1 (X : S2x512x256.Idx → EReal) (Mm : S32768x256.Idx → EReal) (Sc : S2x512x1.Idx → EReal) : S2x512x32768.Idx → EReal := fun i =>
  Ideal.exp ((∑ k : Fin 256, X (ix3 (i 0) (i 1) k) * Mm (ix2 (i 2) k)) * Sc (ix3 (i 0) (i 1) 0))

/-- The printed index maps over the grid: the view and scale blocks follow the result block's first coordinate, the
    bank tile its last; every other block coordinate is zero. -/
theorem idx_facts1 : ∀ t : Fin cfg1.N,
      win1_0.index t (0 : Fin 3) = win1_3.index t (0 : Fin 3) ∧ win1_0.index t (1 : Fin 3) = 0 ∧ win1_0.index t (2 : Fin 3) = 0
    ∧ win1_1.index t (0 : Fin 2) = win1_3.index t (2 : Fin 3) ∧ win1_1.index t (1 : Fin 2) = 0
    ∧ win1_2.index t (0 : Fin 3) = win1_3.index t (0 : Fin 3) ∧ win1_2.index t (1 : Fin 3) = 0 ∧ win1_2.index t (2 : Fin 3) = 0
    ∧ win1_3.index t (1 : Fin 3) = 0 ∧ win1_3.index t (0 : Fin 3) < 2 ∧ win1_3.index t (2 : Fin 3) < 16 :=
  (by decide +kernel : ∀ t : Fin grid1.N, _)

/-- Every block of the result array is some grid point's. -/
theorem idx_onto1 : ∀ (q0 : Fin 2) (q2 : Fin 16), ∃ t : Fin cfg1.N, win1_3.index t = ![q0.val, 0, q2.val] :=
  (by decide +kernel : ∀ (q0 : Fin 2) (q2 : Fin 16), ∃ t : Fin grid1.N, win1_3.index t = ![q0.val, 0, q2.val])

set_option maxHeartbeats 1000000 in
/-- What grid point `t` writes back is block `t` of `G1` of the arrays the launch was entered with. -/
theorem flushed1_eq (t : Fin cfg1.N) :
    (dat1 V c).flushed 3 t = ((cfg1.win 3).blk t).view.read (Elt Ideal)
      (G1 (aX1 V c) (aM1 V c) (aS1 V c)) := by
  show (cfg1.win 3).cut (grid1.coords t) ((dat1 V c).after 3 t) = _
  rw [after1_3]
  unfold out1_3
  rw [View.canon_unit_zero hz3_1]
  simp only [View.ld_unit_zero (S := S1x512x256) hz3_1, View.ld_unit_zero (S := S2048x256) hz2_1, View.ld_unit_zero (S := S1x512x1) hz3_1]
  obtain ⟨e00, e01, e02, e10, e11, e20, e21, e22, e31, l30, l32⟩ := idx_facts1 t
  funext j
  obtain ⟨j0, b, n, rfl⟩ : ∃ (j0 : Fin 1) (b : Fin 512) (n : Fin 2048), j = ix3 j0 b n := ⟨j 0, j 1, j 2, eq_ix3 j⟩
  obtain rfl : j0 = 0 := Subsingleton.elim _ _
  refine (pay1_apply _ _ _ b n).trans ?_
  show Ideal.exp ((∑ k : Fin 256, aX1 V c (((cfg1.win 0).blk t).view.emb (ix3 0 b k)) * aM1 V c (((cfg1.win 1).blk t).view.emb (ix2 n k)))
      * aS1 V c (((cfg1.win 2).blk t).view.emb (ix3 0 b 0)))
    = G1 (aX1 V c) (aM1 V c) (aS1 V c) (((cfg1.win 3).blk t).view.emb (ix3 0 b n))
  unfold G1
  have hx : ∀ k : Fin 256, ((cfg1.win 0).blk t).view.emb (ix3 0 b k)
      = ix3 ((((cfg1.win 3).blk t).view.emb (ix3 0 b n)) 0) ((((cfg1.win 3).blk t).view.emb (ix3 0 b n)) 1) k := fun k => by
    funext a; apply Fin.ext
    match a with
    | ⟨0, _⟩ => show win1_0.index t (0 : Fin 3) * 1 + 1 * 0 = win1_3.index t (0 : Fin 3) * 1 + 1 * 0; omega
    | ⟨1, _⟩ => show win1_0.index t (1 : Fin 3) * 512 + 1 * b.val = win1_3.index t (1 : Fin 3) * 512 + 1 * b.val; omega
    | ⟨2, _⟩ => show win1_0.index t (2 : Fin 3) * 256 + 1 * k.val = k.val; omega
  have hm : ∀ k : Fin 256, ((cfg1.win 1).blk t).view.emb (ix2 n k)
      = ix2 ((((cfg1.win 3).blk t).view.emb (ix3 0 b n)) 2) k := fun k => by
    funext a; apply Fin.ext
    match a with
    | ⟨0, _⟩ => show win1_1.index t (0 : Fin 2) * 2048 + 1 * n.val = win1_3.index t (2 : Fin 3) * 2048 + 1 * n.val; omega
    | ⟨1, _⟩ => show win1_1.index t (1 : Fin 2) * 256 + 1 * k.val = k.val; omega
  have hs : ((cfg1.win 2).blk t).view.emb (ix3 0 b 0)
      = (ix3 ((((cfg1.win 3).blk t).view.emb (ix3 0 b n)) 0) ((((cfg1.win 3).blk t).view.emb (ix3 0 b n)) 1) (0 : Fin 1) : S2x512x1.Idx) := by
    funext a; apply Fin.ext
    match a with
    | ⟨0, _⟩ => show win1_2.index t (0 : Fin 3) * 1 + 1 * 0 = win1_3.index t (0 : Fin 3) * 1 + 1 * 0; omega
    | ⟨1, _⟩ => show win1_2.index t (1 : Fin 3) * 512 + 1 * b.val = win1_3.index t (1 : Fin 3) * 512 + 1 * b.val; omega
    | ⟨2, _⟩ => show win1_2.index t (2 : Fin 3) * 1 + 1 * 0 = 0; omega
  simp only [hx, hm, hs]
  try rfl

/-- An index of the result array is in point `t`'s block iff each coordinate is in the block's range on its axis. -/
theorem mem_blk1 (t : Fin cfg1.N) (i : S2x512x32768.Idx) :
    i ∈ ((cfg1.win 3).blk t).view.set ↔ ∀ a : Fin 3, win1_3.index t a * S1x512x2048.size a ≤ (i a).val ∧ (i a).val < win1_3.index t a * S1x512x2048.size a + S1x512x2048.size a := by
  show i ∈ ((View.whole main_v118).slice (win1_3.rect t)).set ↔ _
  rw [View.set_slice_whole, Rect.mem_set_unit]
  exact Iff.rfl

/-- The result blocks tile the result array. -/
theorem cover1 (i : S2x512x32768.Idx) : ∃ t : Fin cfg1.N, (cfg1.win 3).flush t = true ∧ i ∈ ((cfg1.win 3).blk t).view.set := by
  have hi0 : (i 0).val < 2 := (i 0).isLt
  have hi1 : (i 1).val < 512 := (i 1).isLt
  have hi2 : (i 2).val < 32768 := (i 2).isLt
  obtain ⟨t, ht⟩ := idx_onto1 ⟨(i 0).val, hi0⟩ ⟨(i 2).val / 2048, by omega⟩
  have q0 : win1_3.index t (0 : Fin 3) = (i 0).val := congrFun ht 0
  have q1 : win1_3.index t (1 : Fin 3) = 0 := congrFun ht 1
  have q2 : win1_3.index t (2 : Fin 3) = (i 2).val / 2048 := congrFun ht 2
  refine ⟨t, flush1_3 t, ?_⟩
  rw [mem_blk1]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 2048 ≤ (i 2).val ∧ (i 2).val < win1_3.index t (2 : Fin 3) * 2048 + 2048; omega

/-- Launch 1's result array after the launch: `G1` of the arrays it was entered with. -/
theorem final1 : (dat1 V c).arrAt 3 cfg1.N
    = G1 (aX1 V c) (aM1 V c) (aS1 V c) :=
  (dat1 V c).arrAt_eq_of_cover 3 _ (fun t _ => flushed1_eq V c t) (cover1)

end

end Cert.KernelIdeal.HandValue

end
-- ==== Proof.KiLaunch2.lean ====
/-
  Launch 2's result array as one function of the three arrays the launch reads. Grid point (tile, g) writes block
  (g, 0, tile) of the result — 512 rows by 2048 columns of stacked view g — computed from view block (g, 0, 0), bank
  tile (tile, 0) and scale block (g, 0, 0); the blocks tile the array, so in the end entry (g, b, q) of the result is
  exp((∑ k, X(g,b,k) · bank(q,k)) · scale(g,b,0)).
-/
import proofs.«112372_j79972291051933_2_alg».proof.Proof.KiRegion2
import proofs.«112372_j79972291051933_2_alg».proof.Proof.KiPayload
import Idealize.ShloMosaic.Lib.Pipeline.Value

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

theorem hz3_2 : (![0, 0, 0] : Fin 3 → Nat) = fun _ => 0 := funext fun a => by fin_cases a <;> rfl
theorem hz2_2 : (![0, 0] : Fin 2 → Nat) = fun _ => 0 := funext fun a => by fin_cases a <;> rfl

section
variable (V : (c : Dev nD) → (b : Ref sig .tc) → Buf (Elt Ideal) ((c : Thread nD τ).loc b)) (c : Dev nD)

/-- The three arrays launch 2 reads, as it finds them: the stacked views, the bank, the stacked columns of scales. -/
abbrev aX2 : S2x512x256.Idx → EReal := V c main_v126
abbrev aM2 : S32768x256.Idx → EReal := V c main_v130
abbrev aS2 : S2x512x1.Idx → EReal := V c main_v129

/-! ## Launch 2: 2 stacked view(s) against one bank -/

/-- What launch 2's result array holds in the end, entry by entry, from the three arrays it reads: the stacked views
    `X`, the bank `Mm`, the stacked columns of scales `Sc`. -/
def G2 (X : S2x512x256.Idx → EReal) (Mm : S32768x256.Idx → EReal) (Sc : S2x512x1.Idx → EReal) : S2x512x32768.Idx → EReal := fun i =>
  Ideal.exp ((∑ k : Fin 256, X (ix3 (i 0) (i 1) k) * Mm (ix2 (i 2) k)) * Sc (ix3 (i 0) (i 1) 0))

/-- The printed index maps over the grid: the view and scale blocks follow the result block's first coordinate, the
    bank tile its last; every other block coordinate is zero. -/
theorem idx_facts2 : ∀ t : Fin cfg2.N,
      win2_0.index t (0 : Fin 3) = win2_3.index t (0 : Fin 3) ∧ win2_0.index t (1 : Fin 3) = 0 ∧ win2_0.index t (2 : Fin 3) = 0
    ∧ win2_1.index t (0 : Fin 2) = win2_3.index t (2 : Fin 3) ∧ win2_1.index t (1 : Fin 2) = 0
    ∧ win2_2.index t (0 : Fin 3) = win2_3.index t (0 : Fin 3) ∧ win2_2.index t (1 : Fin 3) = 0 ∧ win2_2.index t (2 : Fin 3) = 0
    ∧ win2_3.index t (1 : Fin 3) = 0 ∧ win2_3.index t (0 : Fin 3) < 2 ∧ win2_3.index t (2 : Fin 3) < 16 :=
  (by decide +kernel : ∀ t : Fin grid2.N, _)

/-- Every block of the result array is some grid point's. -/
theorem idx_onto2 : ∀ (q0 : Fin 2) (q2 : Fin 16), ∃ t : Fin cfg2.N, win2_3.index t = ![q0.val, 0, q2.val] :=
  (by decide +kernel : ∀ (q0 : Fin 2) (q2 : Fin 16), ∃ t : Fin grid2.N, win2_3.index t = ![q0.val, 0, q2.val])

set_option maxHeartbeats 1000000 in
/-- What grid point `t` writes back is block `t` of `G2` of the arrays the launch was entered with. -/
theorem flushed2_eq (t : Fin cfg2.N) :
    (dat2 V c).flushed 3 t = ((cfg2.win 3).blk t).view.read (Elt Ideal)
      (G2 (aX2 V c) (aM2 V c) (aS2 V c)) := by
  show (cfg2.win 3).cut (grid2.coords t) ((dat2 V c).after 3 t) = _
  rw [after2_3]
  unfold out2_3
  rw [View.canon_unit_zero hz3_2]
  simp only [View.ld_unit_zero (S := S1x512x256) hz3_2, View.ld_unit_zero (S := S2048x256) hz2_2, View.ld_unit_zero (S := S1x512x1) hz3_2]
  obtain ⟨e00, e01, e02, e10, e11, e20, e21, e22, e31, l30, l32⟩ := idx_facts2 t
  funext j
  obtain ⟨j0, b, n, rfl⟩ : ∃ (j0 : Fin 1) (b : Fin 512) (n : Fin 2048), j = ix3 j0 b n := ⟨j 0, j 1, j 2, eq_ix3 j⟩
  obtain rfl : j0 = 0 := Subsingleton.elim _ _
  refine (pay2_apply _ _ _ b n).trans ?_
  show Ideal.exp ((∑ k : Fin 256, aX2 V c (((cfg2.win 0).blk t).view.emb (ix3 0 b k)) * aM2 V c (((cfg2.win 1).blk t).view.emb (ix2 n k)))
      * aS2 V c (((cfg2.win 2).blk t).view.emb (ix3 0 b 0)))
    = G2 (aX2 V c) (aM2 V c) (aS2 V c) (((cfg2.win 3).blk t).view.emb (ix3 0 b n))
  unfold G2
  have hx : ∀ k : Fin 256, ((cfg2.win 0).blk t).view.emb (ix3 0 b k)
      = ix3 ((((cfg2.win 3).blk t).view.emb (ix3 0 b n)) 0) ((((cfg2.win 3).blk t).view.emb (ix3 0 b n)) 1) k := fun k => by
    funext a; apply Fin.ext
    match a with
    | ⟨0, _⟩ => show win2_0.index t (0 : Fin 3) * 1 + 1 * 0 = win2_3.index t (0 : Fin 3) * 1 + 1 * 0; omega
    | ⟨1, _⟩ => show win2_0.index t (1 : Fin 3) * 512 + 1 * b.val = win2_3.index t (1 : Fin 3) * 512 + 1 * b.val; omega
    | ⟨2, _⟩ => show win2_0.index t (2 : Fin 3) * 256 + 1 * k.val = k.val; omega
  have hm : ∀ k : Fin 256, ((cfg2.win 1).blk t).view.emb (ix2 n k)
      = ix2 ((((cfg2.win 3).blk t).view.emb (ix3 0 b n)) 2) k := fun k => by
    funext a; apply Fin.ext
    match a with
    | ⟨0, _⟩ => show win2_1.index t (0 : Fin 2) * 2048 + 1 * n.val = win2_3.index t (2 : Fin 3) * 2048 + 1 * n.val; omega
    | ⟨1, _⟩ => show win2_1.index t (1 : Fin 2) * 256 + 1 * k.val = k.val; omega
  have hs : ((cfg2.win 2).blk t).view.emb (ix3 0 b 0)
      = (ix3 ((((cfg2.win 3).blk t).view.emb (ix3 0 b n)) 0) ((((cfg2.win 3).blk t).view.emb (ix3 0 b n)) 1) (0 : Fin 1) : S2x512x1.Idx) := by
    funext a; apply Fin.ext
    match a with
    | ⟨0, _⟩ => show win2_2.index t (0 : Fin 3) * 1 + 1 * 0 = win2_3.index t (0 : Fin 3) * 1 + 1 * 0; omega
    | ⟨1, _⟩ => show win2_2.index t (1 : Fin 3) * 512 + 1 * b.val = win2_3.index t (1 : Fin 3) * 512 + 1 * b.val; omega
    | ⟨2, _⟩ => show win2_2.index t (2 : Fin 3) * 1 + 1 * 0 = 0; omega
  simp only [hx, hm, hs]
  try rfl

/-- An index of the result array is in point `t`'s block iff each coordinate is in the block's range on its axis. -/
theorem mem_blk2 (t : Fin cfg2.N) (i : S2x512x32768.Idx) :
    i ∈ ((cfg2.win 3).blk t).view.set ↔ ∀ a : Fin 3, win2_3.index t a * S1x512x2048.size a ≤ (i a).val ∧ (i a).val < win2_3.index t a * S1x512x2048.size a + S1x512x2048.size a := by
  show i ∈ ((View.whole main_v131).slice (win2_3.rect t)).set ↔ _
  rw [View.set_slice_whole, Rect.mem_set_unit]
  exact Iff.rfl

/-- The result blocks tile the result array. -/
theorem cover2 (i : S2x512x32768.Idx) : ∃ t : Fin cfg2.N, (cfg2.win 3).flush t = true ∧ i ∈ ((cfg2.win 3).blk t).view.set := by
  have hi0 : (i 0).val < 2 := (i 0).isLt
  have hi1 : (i 1).val < 512 := (i 1).isLt
  have hi2 : (i 2).val < 32768 := (i 2).isLt
  obtain ⟨t, ht⟩ := idx_onto2 ⟨(i 0).val, hi0⟩ ⟨(i 2).val / 2048, by omega⟩
  have q0 : win2_3.index t (0 : Fin 3) = (i 0).val := congrFun ht 0
  have q1 : win2_3.index t (1 : Fin 3) = 0 := congrFun ht 1
  have q2 : win2_3.index t (2 : Fin 3) = (i 2).val / 2048 := congrFun ht 2
  refine ⟨t, flush2_3 t, ?_⟩
  rw [mem_blk2]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 512 ≤ (i 1).val ∧ (i 1).val < win2_3.index t (1 : Fin 3) * 512 + 512; omega
  | ⟨2, _⟩ => show win2_3.index t (2 : Fin 3) * 2048 ≤ (i 2).val ∧ (i 2).val < win2_3.index t (2 : Fin 3) * 2048 + 2048; omega

/-- Launch 2's result array after the launch: `G2` of the arrays it was entered with. -/
theorem final2 : (dat2 V c).arrAt 3 cfg2.N
    = G2 (aX2 V c) (aM2 V c) (aS2 V c) :=
  (dat2 V c).arrAt_eq_of_cover 3 _ (fun t _ => flushed2_eq V c t) (cover2)

end

end Cert.KernelIdeal.HandValue

end
-- ==== Proof.KiLaunch3.lean ====
/-
  Launch 3's result array as one function of the three arrays the launch reads. Grid point (tile, g) writes block
  (g, 0, tile) of the result — 512 rows by 2048 columns of stacked view g — computed from view block (g, 0, 0), bank
  tile (tile, 0) and scale block (g, 0, 0); the blocks tile the array, so in the end entry (g, b, q) of the result is
  exp((∑ k, X(g,b,k) · bank(q,k)) · scale(g,b,0)).
-/
import proofs.«112372_j79972291051933_2_alg».proof.Proof.KiRegion3
import proofs.«112372_j79972291051933_2_alg».proof.Proof.KiPayload
import Idealize.ShloMosaic.Lib.Pipeline.Value

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

theorem hz3_3 : (![0, 0, 0] : Fin 3 → Nat) = fun _ => 0 := funext fun a => by fin_cases a <;> rfl
theorem hz2_3 : (![0, 0] : Fin 2 → Nat) = fun _ => 0 := funext fun a => by fin_cases a <;> rfl

section
variable (V : (c : Dev nD) → (b : Ref sig .tc) → Buf (Elt Ideal) ((c : Thread nD τ).loc b)) (c : Dev nD)

/-- The three arrays launch 3 reads, as it finds them: the stacked views, the bank, the stacked columns of scales. -/
abbrev aX3 : S1x512x256.Idx → EReal := V c main_v137
abbrev aM3 : S32768x256.Idx → EReal := V c main_v139
abbrev aS3 : S1x512x1.Idx → EReal := V c main_v138

/-! ## Launch 3: 1 stacked view(s) against one bank -/

/-- What launch 3's result array holds in the end, entry by entry, from the three arrays it reads: the stacked views
    `X`, the bank `Mm`, the stacked columns of scales `Sc`. -/
def G3 (X : S1x512x256.Idx → EReal) (Mm : S32768x256.Idx → EReal) (Sc : S1x512x1.Idx → EReal) : S1x512x32768.Idx → EReal := fun i =>
  Ideal.exp ((∑ k : Fin 256, X (ix3 (i 0) (i 1) k) * Mm (ix2 (i 2) k)) * Sc (ix3 (i 0) (i 1) 0))

/-- The printed index maps over the grid: the view and scale blocks follow the result block's first coordinate, the
    bank tile its last; every other block coordinate is zero. -/
theorem idx_facts3 : ∀ t : Fin cfg3.N,
      win3_0.index t (0 : Fin 3) = win3_3.index t (0 : Fin 3) ∧ win3_0.index t (1 : Fin 3) = 0 ∧ win3_0.index t (2 : Fin 3) = 0
    ∧ win3_1.index t (0 : Fin 2) = win3_3.index t (2 : Fin 3) ∧ win3_1.index t (1 : Fin 2) = 0
    ∧ win3_2.index t (0 : Fin 3) = win3_3.index t (0 : Fin 3) ∧ win3_2.index t (1 : Fin 3) = 0 ∧ win3_2.index t (2 : Fin 3) = 0
    ∧ win3_3.index t (1 : Fin 3) = 0 ∧ win3_3.index t (0 : Fin 3) < 1 ∧ win3_3.index t (2 : Fin 3) < 16 :=
  (by decide +kernel : ∀ t : Fin grid3.N, _)

/-- Every block of the result array is some grid point's. -/
theorem idx_onto3 : ∀ (q0 : Fin 1) (q2 : Fin 16), ∃ t : Fin cfg3.N, win3_3.index t = ![q0.val, 0, q2.val] :=
  (by decide +kernel : ∀ (q0 : Fin 1) (q2 : Fin 16), ∃ t : Fin grid3.N, win3_3.index t = ![q0.val, 0, q2.val])

set_option maxHeartbeats 1000000 in
/-- What grid point `t` writes back is block `t` of `G3` of the arrays the launch was entered with. -/
theorem flushed3_eq (t : Fin cfg3.N) :
    (dat3 V c).flushed 3 t = ((cfg3.win 3).blk t).view.read (Elt Ideal)
      (G3 (aX3 V c) (aM3 V c) (aS3 V c)) := by
  show (cfg3.win 3).cut (grid3.coords t) ((dat3 V c).after 3 t) = _
  rw [after3_3]
  unfold out3_3
  rw [View.canon_unit_zero hz3_3]
  simp only [View.ld_unit_zero (S := S1x512x256) hz3_3, View.ld_unit_zero (S := S2048x256) hz2_3, View.ld_unit_zero (S := S1x512x1) hz3_3]
  obtain ⟨e00, e01, e02, e10, e11, e20, e21, e22, e31, l30, l32⟩ := idx_facts3 t
  funext j
  obtain ⟨j0, b, n, rfl⟩ : ∃ (j0 : Fin 1) (b : Fin 512) (n : Fin 2048), j = ix3 j0 b n := ⟨j 0, j 1, j 2, eq_ix3 j⟩
  obtain rfl : j0 = 0 := Subsingleton.elim _ _
  refine (pay3_apply _ _ _ b n).trans ?_
  show Ideal.exp ((∑ k : Fin 256, aX3 V c (((cfg3.win 0).blk t).view.emb (ix3 0 b k)) * aM3 V c (((cfg3.win 1).blk t).view.emb (ix2 n k)))
      * aS3 V c (((cfg3.win 2).blk t).view.emb (ix3 0 b 0)))
    = G3 (aX3 V c) (aM3 V c) (aS3 V c) (((cfg3.win 3).blk t).view.emb (ix3 0 b n))
  unfold G3
  have hx : ∀ k : Fin 256, ((cfg3.win 0).blk t).view.emb (ix3 0 b k)
      = ix3 ((((cfg3.win 3).blk t).view.emb (ix3 0 b n)) 0) ((((cfg3.win 3).blk t).view.emb (ix3 0 b n)) 1) k := fun k => by
    funext a; apply Fin.ext
    match a with
    | ⟨0, _⟩ => show win3_0.index t (0 : Fin 3) * 1 + 1 * 0 = win3_3.index t (0 : Fin 3) * 1 + 1 * 0; omega
    | ⟨1, _⟩ => show win3_0.index t (1 : Fin 3) * 512 + 1 * b.val = win3_3.index t (1 : Fin 3) * 512 + 1 * b.val; omega
    | ⟨2, _⟩ => show win3_0.index t (2 : Fin 3) * 256 + 1 * k.val = k.val; omega
  have hm : ∀ k : Fin 256, ((cfg3.win 1).blk t).view.emb (ix2 n k)
      = ix2 ((((cfg3.win 3).blk t).view.emb (ix3 0 b n)) 2) k := fun k => by
    funext a; apply Fin.ext
    match a with
    | ⟨0, _⟩ => show win3_1.index t (0 : Fin 2) * 2048 + 1 * n.val = win3_3.index t (2 : Fin 3) * 2048 + 1 * n.val; omega
    | ⟨1, _⟩ => show win3_1.index t (1 : Fin 2) * 256 + 1 * k.val = k.val; omega
  have hs : ((cfg3.win 2).blk t).view.emb (ix3 0 b 0)
      = (ix3 ((((cfg3.win 3).blk t).view.emb (ix3 0 b n)) 0) ((((cfg3.win 3).blk t).view.emb (ix3 0 b n)) 1) (0 : Fin 1) : S1x512x1.Idx) := by
    funext a; apply Fin.ext
    match a with
    | ⟨0, _⟩ => show win3_2.index t (0 : Fin 3) * 1 + 1 * 0 = win3_3.index t (0 : Fin 3) * 1 + 1 * 0; omega
    | ⟨1, _⟩ => show win3_2.index t (1 : Fin 3) * 512 + 1 * b.val = win3_3.index t (1 : Fin 3) * 512 + 1 * b.val; omega
    | ⟨2, _⟩ => show win3_2.index t (2 : Fin 3) * 1 + 1 * 0 = 0; omega
  simp only [hx, hm, hs]
  try rfl

/-- An index of the result array is in point `t`'s block iff each coordinate is in the block's range on its axis. -/
theorem mem_blk3 (t : Fin cfg3.N) (i : S1x512x32768.Idx) :
    i ∈ ((cfg3.win 3).blk t).view.set ↔ ∀ a : Fin 3, win3_3.index t a * S1x512x2048.size a ≤ (i a).val ∧ (i a).val < win3_3.index t a * S1x512x2048.size a + S1x512x2048.size a := by
  show i ∈ ((View.whole main_v140).slice (win3_3.rect t)).set ↔ _
  rw [View.set_slice_whole, Rect.mem_set_unit]
  exact Iff.rfl

/-- The result blocks tile the result array. -/
theorem cover3 (i : S1x512x32768.Idx) : ∃ t : Fin cfg3.N, (cfg3.win 3).flush t = true ∧ i ∈ ((cfg3.win 3).blk t).view.set := by
  have hi0 : (i 0).val < 1 := (i 0).isLt
  have hi1 : (i 1).val < 512 := (i 1).isLt
  have hi2 : (i 2).val < 32768 := (i 2).isLt
  obtain ⟨t, ht⟩ := idx_onto3 ⟨(i 0).val, hi0⟩ ⟨(i 2).val / 2048, by omega⟩
  have q0 : win3_3.index t (0 : Fin 3) = (i 0).val := congrFun ht 0
  have q1 : win3_3.index t (1 : Fin 3) = 0 := congrFun ht 1
  have q2 : win3_3.index t (2 : Fin 3) = (i 2).val / 2048 := congrFun ht 2
  refine ⟨t, flush3_3 t, ?_⟩
  rw [mem_blk3]
  intro a
  match a with
  | ⟨0, _⟩ => show win3_3.index t (0 : Fin 3) * 1 ≤ (i 0).val ∧ (i 0).val < win3_3.index t (0 : Fin 3) * 1 + 1; omega
  | ⟨1, _⟩ => show win3_3.index t (1 : Fin 3) * 512 ≤ (i 1).val ∧ (i 1).val < win3_3.index t (1 : Fin 3) * 512 + 512; omega
  | ⟨2, _⟩ => show win3_3.index t (2 : Fin 3) * 2048 ≤ (i 2).val ∧ (i 2).val < win3_3.index t (2 : Fin 3) * 2048 + 2048; omega

/-- Launch 3's result array after the launch: `G3` of the arrays it was entered with. -/
theorem final3 : (dat3 V c).arrAt 3 cfg3.N
    = G3 (aX3 V c) (aM3 V c) (aS3 V c) :=
  (dat3 V c).arrAt_eq_of_cover 3 _ (fun t _ => flushed3_eq V c t) (cover3)

end

end Cert.KernelIdeal.HandValue

end
-- ==== Proof.KiLaunchRead.lean ====
/-
  Each launch's result array read at an entry, from the contents of the three arrays the launch was entered with:
  entry (g, b, q) is exp((∑ k, X(g,b,k) · bank(q,k)) · scale(g,b,0)).
-/
import proofs.«112372_j79972291051933_2_alg».proof.Proof.KiFold
import proofs.«112372_j79972291051933_2_alg».proof.Proof.KiLaunch0
import proofs.«112372_j79972291051933_2_alg».proof.Proof.KiLaunch1
import proofs.«112372_j79972291051933_2_alg».proof.Proof.KiLaunch2
import proofs.«112372_j79972291051933_2_alg».proof.Proof.KiLaunch3

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- Launch 0's result array after the launch. -/
theorem launch0_result : (W6 m ρ c (Proc.devRef .tc main_v103) : S3x512x32768.Idx → EReal)
    = G0 (aX0 (V5 m ρ) c) (aM0 (V5 m ρ) c) (aS0 (V5 m ρ) c) :=
  (W6_arr m ρ c 3).trans (final0 (V5 m ρ) c)

set_option maxHeartbeats 1000000 in
theorem launch0_apply (g : Fin 3) (b : Fin 512) (q : Fin 32768) :
    (W6 m ρ c (Proc.devRef .tc main_v103) : S3x512x32768.Idx → EReal) (ix3 g b q)
      = Ideal.exp ((∑ k : Fin 256, aX0 (V5 m ρ) c (ix3 g b k) * aM0 (V5 m ρ) c (ix2 q k)) * aS0 (V5 m ρ) c (ix3 g b 0)) :=
  congrFun (launch0_result m ρ c) (ix3 g b q)

/-- Launch 1's result array after the launch. -/
theorem launch1_result : (W8 m ρ c (Proc.devRef .tc main_v118) : S2x512x32768.Idx → EReal)
    = G1 (aX1 (V7 m ρ) c) (aM1 (V7 m ρ) c) (aS1 (V7 m ρ) c) :=
  (W8_arr m ρ c 3).trans (final1 (V7 m ρ) c)

set_option maxHeartbeats 1000000 in
theorem launch1_apply (g : Fin 2) (b : Fin 512) (q : Fin 32768) :
    (W8 m ρ c (Proc.devRef .tc main_v118) : S2x512x32768.Idx → EReal) (ix3 g b q)
      = Ideal.exp ((∑ k : Fin 256, aX1 (V7 m ρ) c (ix3 g b k) * aM1 (V7 m ρ) c (ix2 q k)) * aS1 (V7 m ρ) c (ix3 g b 0)) :=
  congrFun (launch1_result m ρ c) (ix3 g b q)

/-- Launch 2's result array after the launch. -/
theorem launch2_result : (W10 m ρ c (Proc.devRef .tc main_v131) : S2x512x32768.Idx → EReal)
    = G2 (aX2 (V9 m ρ) c) (aM2 (V9 m ρ) c) (aS2 (V9 m ρ) c) :=
  (W10_arr m ρ c 3).trans (final2 (V9 m ρ) c)

set_option maxHeartbeats 1000000 in
theorem launch2_apply (g : Fin 2) (b : Fin 512) (q : Fin 32768) :
    (W10 m ρ c (Proc.devRef .tc main_v131) : S2x512x32768.Idx → EReal) (ix3 g b q)
      = Ideal.exp ((∑ k : Fin 256, aX2 (V9 m ρ) c (ix3 g b k) * aM2 (V9 m ρ) c (ix2 q k)) * aS2 (V9 m ρ) c (ix3 g b 0)) :=
  congrFun (launch2_result m ρ c) (ix3 g b q)

/-- Launch 3's result array after the launch. -/
theorem launch3_result : (W12 m ρ c (Proc.devRef .tc main_v140) : S1x512x32768.Idx → EReal)
    = G3 (aX3 (V11 m ρ) c) (aM3 (V11 m ρ) c) (aS3 (V11 m ρ) c) :=
  (W12_arr m ρ c 3).trans (final3 (V11 m ρ) c)

set_option maxHeartbeats 1000000 in
theorem launch3_apply (g : Fin 1) (b : Fin 512) (q : Fin 32768) :
    (W12 m ρ c (Proc.devRef .tc main_v140) : S1x512x32768.Idx → EReal) (ix3 g b q)
      = Ideal.exp ((∑ k : Fin 256, aX3 (V11 m ρ) c (ix3 g b k) * aM3 (V11 m ρ) c (ix2 q k)) * aS3 (V11 m ρ) c (ix3 g b 0)) :=
  congrFun (launch3_result m ρ c) (ix3 g b q)

end Cert.KernelIdeal.HandValue

end
-- ==== Proof.KiValue.lean ====
/-
  The first result at the end of the run, entry by entry, is the eight tables written the kernel's way.

  Column 0 of table (i, j) was computed on the host before the first launch: exp of the inner product of row b of
  view i with row b of view j, times the reciprocal 1 / (|x_i b| · |x_j b| · τ). Column q + 1 is entry (b, q) of the
  table one of the four launches left for the pair: exp of the inner product of row b of view i with row q of bank j,
  times the same reciprocal, which the launch read from the stack of scale columns it was given. The launch of bank 0
  serves the pairs (1, 0), (2, 0), (3, 0); that of bank 1 the pairs (0, 1), (2, 1); that of bank 2 the pairs (0, 2),
  (1, 2); that of bank 3 the pair (0, 3).
-/
import proofs.«112372_j79972291051933_2_alg».proof.Proof.KiHostA3
import proofs.«112372_j79972291051933_2_alg».proof.Proof.KiHostA4
import proofs.«112372_j79972291051933_2_alg».proof.Proof.KiHostBOperands
import proofs.«112372_j79972291051933_2_alg».proof.Proof.KiHostBOut
import proofs.«112372_j79972291051933_2_alg».proof.Proof.KiLaunchRead
import proofs.«112372_j79972291051933_2_alg».proof.Proof.Spec

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

set_option quotPrecheck false in
local notation "x0" => (m ((c : Thread nD τ).loc main_arg0) : S512x256.Idx → EReal)
set_option quotPrecheck false in
local notation "x1" => (m ((c : Thread nD τ).loc main_arg1) : S512x256.Idx → EReal)
set_option quotPrecheck false in
local notation "x2" => (m ((c : Thread nD τ).loc main_arg2) : S512x256.Idx → EReal)
set_option quotPrecheck false in
local notation "x3" => (m ((c : Thread nD τ).loc main_arg3) : S512x256.Idx → EReal)
set_option quotPrecheck false in
local notation "a8" => (m ((c : Thread nD τ).loc main_arg8) : S1x32768x256.Idx → EReal)
set_option quotPrecheck false in
local notation "a9" => (m ((c : Thread nD τ).loc main_arg9) : S1x32768x256.Idx → EReal)
set_option quotPrecheck false in
local notation "a10" => (m ((c : Thread nD τ).loc main_arg10) : S1x32768x256.Idx → EReal)
set_option quotPrecheck false in
local notation "a11" => (m ((c : Thread nD τ).loc main_arg11) : S1x32768x256.Idx → EReal)

/-! ## Each launch's table at an entry, in terms of the views and banks -/

/-- The launch of bank 0: table g is that of the pair (view g + 1, view 0). -/
theorem R0_apply (g : Fin 3) (b : Fin 512) (q : Fin 32768) :
    R0 m ρ c (ix3 g b q)
      = Cert.Moco.kerEntry (Cert.Moco.memDot (![x1, x2, x3] g) a8 b q)
          (Cert.Moco.rowNorm (![x1, x2, x3] g) b * Cert.Moco.rowNorm x0 b) := by
  refine (launch0_apply m ρ c g b q).trans ?_
  have hX : ∀ k : Fin 256, aX0 (V5 m ρ) c (ix3 g b k) = (![x1, x2, x3] g) (ix2 b k) :=
    fun k => W5_main_v97_apply m ρ c g b k
  have hM : ∀ k : Fin 256, aM0 (V5 m ρ) c (ix2 q k) = a8 (ix3 0 q k) := fun k => W5_main_v102_apply m ρ c q k
  have hS : aS0 (V5 m ρ) c (ix3 g b 0)
      = Ideal.div Cert.Moco.one (Cert.Moco.rowNorm (![x1, x2, x3] g) b * Cert.Moco.rowNorm x0 b * Cert.Moco.tau) :=
    W5_main_v101_apply m ρ c g b
  simp only [hX, hM, hS]
  rfl

/-- The launch of bank 1, table 0: the pair (0, 1). -/
theorem R1_apply_0 (b : Fin 512) (q : Fin 32768) :
    R1 m ρ c (ix3 0 b q)
      = Cert.Moco.kerEntry (Cert.Moco.memDot x0 a9 b q) (Cert.Moco.rowNorm x0 b * Cert.Moco.rowNorm x1 b) := by
  refine (launch1_apply m ρ c 0 b q).trans ?_
  have hX : ∀ k : Fin 256, aX1 (V7 m ρ) c (ix3 0 b k) = x0 (ix2 b k) :=
    fun k => W7_main_v113_apply m ρ c 0 b k
  have hM : ∀ k : Fin 256, aM1 (V7 m ρ) c (ix2 q k) = a9 (ix3 0 q k) := fun k => W7_main_v117_apply m ρ c q k
  have hS : aS1 (V7 m ρ) c (ix3 0 b 0)
      = Ideal.div Cert.Moco.one (Cert.Moco.rowNorm x0 b * Cert.Moco.rowNorm x1 b * Cert.Moco.tau) := by
    refine (W7_main_v116_apply m ρ c 0 b 0).trans ?_
    simp only [Matrix.cons_val]
    exact W5_main_v8_apply m ρ c b
  simp only [hX, hM, hS]
  rfl

/-- The launch of bank 1, table 1: the pair (2, 1). -/
theorem R1_apply_1 (b : Fin 512) (q : Fin 32768) :
    R1 m ρ c (ix3 1 b q)
      = Cert.Moco.kerEntry (Cert.Moco.memDot x2 a9 b q) (Cert.Moco.rowNorm x2 b * Cert.Moco.rowNorm x1 b) := by
  refine (launch1_apply m ρ c 1 b q).trans ?_
  have hX : ∀ k : Fin 256, aX1 (V7 m ρ) c (ix3 1 b k) = x2 (ix2 b k) :=
    fun k => W7_main_v113_apply m ρ c 1 b k
  have hM : ∀ k : Fin 256, aM1 (V7 m ρ) c (ix2 q k) = a9 (ix3 0 q k) := fun k => W7_main_v117_apply m ρ c q k
  have hS : aS1 (V7 m ρ) c (ix3 1 b 0)
      = Ideal.div Cert.Moco.one (Cert.Moco.rowNorm x2 b * Cert.Moco.rowNorm x1 b * Cert.Moco.tau) := by
    refine (W7_main_v116_apply m ρ c 1 b 0).trans ?_
    simp only [Matrix.cons_val]
    exact W5_main_v38_apply m ρ c b
  simp only [hX, hM, hS]
  rfl

/-- The launch of bank 2, table 0: the pair (0, 2). -/
theorem R2_apply_0 (b : Fin 512) (q : Fin 32768) :
    R2 m ρ c (ix3 0 b q)
      = Cert.Moco.kerEntry (Cert.Moco.memDot x0 a10 b q) (Cert.Moco.rowNorm x0 b * Cert.Moco.rowNorm x2 b) := by
  refine (launch2_apply m ρ c 0 b q).trans ?_
  have hX : ∀ k : Fin 256, aX2 (V9 m ρ) c (ix3 0 b k) = x0 (ix2 b k) :=
    fun k => W9_main_v126_apply m ρ c 0 b k
  have hM : ∀ k : Fin 256, aM2 (V9 m ρ) c (ix2 q k) = a10 (ix3 0 q k) := fun k => W9_main_v130_apply m ρ c q k
  have hS : aS2 (V9 m ρ) c (ix3 0 b 0)
      = Ideal.div Cert.Moco.one (Cert.Moco.rowNorm x0 b * Cert.Moco.rowNorm x2 b * Cert.Moco.tau) := by
    refine (W9_main_v129_apply m ρ c 0 b 0).trans ?_
    simp only [Matrix.cons_val]
    exact W5_main_v13_apply m ρ c b
  simp only [hX, hM, hS]
  rfl

/-- The launch of bank 2, table 1: the pair (1, 2). -/
theorem R2_apply_1 (b : Fin 512) (q : Fin 32768) :
    R2 m ρ c (ix3 1 b q)
      = Cert.Moco.kerEntry (Cert.Moco.memDot x1 a10 b q) (Cert.Moco.rowNorm x1 b * Cert.Moco.rowNorm x2 b) := by
  refine (launch2_apply m ρ c 1 b q).trans ?_
  have hX : ∀ k : Fin 256, aX2 (V9 m ρ) c (ix3 1 b k) = x1 (ix2 b k) :=
    fun k => W9_main_v126_apply m ρ c 1 b k
  have hM : ∀ k : Fin 256, aM2 (V9 m ρ) c (ix2 q k) = a10 (ix3 0 q k) := fun k => W9_main_v130_apply m ρ c q k
  have hS : aS2 (V9 m ρ) c (ix3 1 b 0)
      = Ideal.div Cert.Moco.one (Cert.Moco.rowNorm x1 b * Cert.Moco.rowNorm x2 b * Cert.Moco.tau) := by
    refine (W9_main_v129_apply m ρ c 1 b 0).trans ?_
    simp only [Matrix.cons_val]
    exact W5_main_v28_apply m ρ c b
  simp only [hX, hM, hS]
  rfl

/-- The launch of bank 3: its one table is that of the pair (0, 3). -/
theorem R3_apply (g : Fin 1) (b : Fin 512) (q : Fin 32768) :
    R3 m ρ c (ix3 g b q)
      = Cert.Moco.kerEntry (Cert.Moco.memDot x0 a11 b q) (Cert.Moco.rowNorm x0 b * Cert.Moco.rowNorm x3 b) := by
  refine (launch3_apply m ρ c g b q).trans ?_
  have hX : ∀ k : Fin 256, aX3 (V11 m ρ) c (ix3 g b k) = x0 (ix2 b k) := fun k => W11_main_v137_apply m ρ c g b k
  have hM : ∀ k : Fin 256, aM3 (V11 m ρ) c (ix2 q k) = a11 (ix3 0 q k) := fun k => W11_main_v139_apply m ρ c q k
  have hS : aS3 (V11 m ρ) c (ix3 g b 0)
      = Ideal.div Cert.Moco.one (Cert.Moco.rowNorm x0 b * Cert.Moco.rowNorm x3 b * Cert.Moco.tau) :=
    (W11_main_v138_apply m ρ c g b 0).trans (W5_main_v18_apply m ρ c b)
  simp only [hX, hM, hS]
  rfl

/-! ## The first result -/

/-- The first result at the end of the run is the eight tables the kernel's way. -/
theorem out_value :
    (W13 m ρ c (Proc.devRef .tc main_v152) : S8x512x32769.Idx → EReal)
      = Cert.Moco.outKer x0 x1 x2 x3 a8 a9 a10 a11 := by
  funext i
  obtain ⟨cc, b, q', rfl⟩ : ∃ (cc : Fin 8) (b : Fin 512) (q' : Fin 32769), i = ix3 cc b q' := ⟨i 0, i 1, i 2, eq_ix3 i⟩
  rw [Cert.Moco.outKer_apply]
  by_cases hq : q'.val = 0
  · rw [W13_main_v152_col_zero m ρ c cc b q' hq, W5_main_v93_apply]
    unfold Cert.Moco.logit
    rw [dif_pos hq]
  · have hlt : q'.val - 1 < 32768 := by have := q'.isLt; omega
    rw [W13_main_v152_col_succ m ρ c cc b q' ⟨q'.val - 1, hlt⟩ (by show q'.val = q'.val - 1 + 1; omega)]
    unfold Cert.Moco.logit
    rw [dif_neg hq]
    match cc with
    | ⟨0, _⟩ => exact R1_apply_0 m ρ c b _
    | ⟨1, _⟩ => exact R2_apply_0 m ρ c b _
    | ⟨2, _⟩ => exact R3_apply m ρ c 0 b _
    | ⟨3, _⟩ => exact R0_apply m ρ c 0 b _
    | ⟨4, _⟩ => exact R2_apply_1 m ρ c b _
    | ⟨5, _⟩ => exact R0_apply m ρ c 1 b _
    | ⟨6, _⟩ => exact R1_apply_1 m ρ c b _
    | ⟨7, _⟩ => exact R0_apply m ρ c 2 b _

end Cert.KernelIdeal.HandValue

end
-- ==== Proof.RefLayout.lean ====
/-
  The reference's layout steps read at an index: a column joined to a table along the columns, eight tables stacked
  along a new leading axis, and a table given a leading unit axis.
-/
import proofs.«112372_j79972291051933_2_alg».proof.Proof.RefImports
import proofs.«112372_j79972291051933_2_alg».proof.Proof.Spec

noncomputable section

namespace Cert.Moco.Ref

open Cert.ReferenceIdeal Cert.ReferenceIdeal.Gen Idealize.ShloMosaic Idealize.ShloMosaic.ValueIdx

variable {α : Type}

/-- A [512, 1] column joined in front of a [512, 32768] table: column 0 of the join is the column. -/
theorem catCol_zero (u : S512x1.Idx → α) (v : S512x32768.Idx → α) (b : Fin 512) (q : Fin 32769) (hq : q.val = 0) :
    concatenate S512x32769 1 [⟨S512x1, u⟩, ⟨S512x32768, v⟩] concatenates_S512x1_S512x32768_S512x32769_d1 (ix2 b q)
      = u (ix2 b (0 : Fin 1)) := by
  refine concatenate_pair_apply_left (1 : Fin S512x32769.rank) u v _ (ix2 b q) rfl (ix2 b (0 : Fin 1)) ?_
  intro a
  match a with
  | ⟨0, _⟩ => rfl
  | ⟨1, _⟩ => exact hq.symm

/-- A [512, 1] column joined in front of a [512, 32768] table: column q + 1 of the join is column q of the table. -/
theorem catCol_succ (u : S512x1.Idx → α) (v : S512x32768.Idx → α) (b : Fin 512) (q : Fin 32769) (hq : q.val ≠ 0) :
    concatenate S512x32769 1 [⟨S512x1, u⟩, ⟨S512x32768, v⟩] concatenates_S512x1_S512x32768_S512x32769_d1 (ix2 b q)
      = v (ix2 b (⟨q.val - 1, by omega⟩ : Fin 32768)) := by
  refine concatenate_pair_apply_right (1 : Fin S512x32769.rank) u v _ (ix2 b q) rfl rfl
    (ix2 b (⟨q.val - 1, by omega⟩ : Fin 32768)) ?_ ?_
  · intro a ha
    match a, ha with
    | ⟨0, _⟩, _ => rfl
    | ⟨1, _⟩, ha => exact absurd rfl ha
  · show q.val - 1 + 1 = q.val
    omega

/-- A [512, 32769] table given a leading unit axis, read at (0, b, q): the table at (b, q). -/
theorem lead_apply (t : S512x32769.Idx → α) (b : Fin 512) (q : Fin 32769) :
    broadcastInDim S1x512x32769 ![1, 2] bcast_S512x32769_S1x512x32769_1_2 t (ix3 (0 : Fin 1) b q) = t (ix2 b q) :=
  broadcastInDim_apply _ bcast_S512x32769_S1x512x32769_1_2 t (ix3 (0 : Fin 1) b q) (ix2 b q) (fun a => match a with
    | ⟨0, _⟩ => by show b.val = if (512 : Nat) = 1 then 0 else b.val; rw [if_neg (by decide)]
    | ⟨1, _⟩ => by show q.val = if (32769 : Nat) = 1 then 0 else q.val; rw [if_neg (by decide)])

/-- One of eight things, by number. -/
def pick8 {β : Type} (a0 a1 a2 a3 a4 a5 a6 a7 : β) : Fin 8 → β := ![a0, a1, a2, a3, a4, a5, a6, a7]

/-- Eight [1, 512, 32769] tables stacked along the leading axis: table c of the stack is the c-th piece. -/
theorem cat8 (f0 f1 f2 f3 f4 f5 f6 f7 : S1x512x32769.Idx → α) (c : Fin 8) (b : Fin 512) (q : Fin 32769) :
    concatenate S8x512x32769 0 [⟨S1x512x32769, f0⟩, ⟨S1x512x32769, f1⟩, ⟨S1x512x32769, f2⟩, ⟨S1x512x32769, f3⟩,
        ⟨S1x512x32769, f4⟩, ⟨S1x512x32769, f5⟩, ⟨S1x512x32769, f6⟩, ⟨S1x512x32769, f7⟩]
        concatenates_S1x512x32769_S1x512x32769_S1x512x32769_S1x512x32769_S1x512x32769_S1x512x32769_S1x512x32769_S1x512x32769_S8x512x32769_d0
        (ix3 c b q)
      = pick8 f0 f1 f2 f3 f4 f5 f6 f7 c (ix3 (0 : Fin 1) b q) := by
  have hi : ∀ a : Fin S1x512x32769.rank, a.cast (rfl : S1x512x32769.rank = S8x512x32769.rank) ≠ (0 : Fin S8x512x32769.rank) →
      ((ix3 (0 : Fin 1) b q) a).val = ((ix3 c b q) (a.cast rfl)).val := by
    intro a ha
    match a, ha with
    | ⟨0, _⟩, ha => exact absurd rfl ha
    | ⟨1, _⟩, _ => rfl
    | ⟨2, _⟩, _ => rfl
  match c with
  | ⟨0, hc⟩ =>
    refine concatenate_apply_piece 0 _ _ (ix3 (⟨0, hc⟩ : Fin 8) b q) 0 ?_ S1x512x32769 f0 ?_ rfl 0 ?_ (ix3 (0 : Fin 1) b q) hi ?_
    · exact hc
    · rfl
    · rfl
    · rfl
  | ⟨1, hc⟩ =>
    refine concatenate_apply_piece 0 _ _ (ix3 (⟨1, hc⟩ : Fin 8) b q) 1 ?_ S1x512x32769 f1 ?_ rfl 1 ?_ (ix3 (0 : Fin 1) b q) hi ?_
    · exact hc
    · rfl
    · rfl
    · rfl
  | ⟨2, hc⟩ =>
    refine concatenate_apply_piece 0 _ _ (ix3 (⟨2, hc⟩ : Fin 8) b q) 2 ?_ S1x512x32769 f2 ?_ rfl 2 ?_ (ix3 (0 : Fin 1) b q) hi ?_
    · exact hc
    · rfl
    · rfl
    · rfl
  | ⟨3, hc⟩ =>
    refine concatenate_apply_piece 0 _ _ (ix3 (⟨3, hc⟩ : Fin 8) b q) 3 ?_ S1x512x32769 f3 ?_ rfl 3 ?_ (ix3 (0 : Fin 1) b q) hi ?_
    · exact hc
    · rfl
    · rfl
    · rfl
  | ⟨4, hc⟩ =>
    refine concatenate_apply_piece 0 _ _ (ix3 (⟨4, hc⟩ : Fin 8) b q) 4 ?_ S1x512x32769 f4 ?_ rfl 4 ?_ (ix3 (0 : Fin 1) b q) hi ?_
    · exact hc
    · rfl
    · rfl
    · rfl
  | ⟨5, hc⟩ =>
    refine concatenate_apply_piece 0 _ _ (ix3 (⟨5, hc⟩ : Fin 8) b q) 5 ?_ S1x512x32769 f5 ?_ rfl 5 ?_ (ix3 (0 : Fin 1) b q) hi ?_
    · exact hc
    · rfl
    · rfl
    · rfl
  | ⟨6, hc⟩ =>
    refine concatenate_apply_piece 0 _ _ (ix3 (⟨6, hc⟩ : Fin 8) b q) 6 ?_ S1x512x32769 f6 ?_ rfl 6 ?_ (ix3 (0 : Fin 1) b q) hi ?_
    · exact hc
    · rfl
    · rfl
    · rfl
  | ⟨7, hc⟩ =>
    refine concatenate_apply_piece 0 _ _ (ix3 (⟨7, hc⟩ : Fin 8) b q) 7 ?_ S1x512x32769 f7 ?_ rfl 7 ?_ (ix3 (0 : Fin 1) b q) hi ?_
    · exact hc
    · rfl
    · rfl
    · rfl

end Cert.Moco.Ref

end
-- ==== Proof.RefTable.lean ====
/-
  One pair's table, read at an index. For a pair of views (xi, xj) and a bank mem the reference forms the column of
  the two views' row inner products, joins it in front of the table of xi's rows against the bank's rows, divides
  every entry of row b by the product of the two views' row norms and by the temperature, and exponentiates. The
  eight stages of the program are this one composite at different arguments.
-/
import proofs.«112372_j79972291051933_2_alg».proof.Proof.RefLayout

noncomputable section

open scoped BigOperators

namespace Cert.Moco.Ref

open Cert.ReferenceIdeal Cert.ReferenceIdeal.Gen Cert.ReferenceIdeal.Read Idealize.ShloMosaic Idealize.ShloMosaic.ValueIdx

/-- A feature view, as the program types it. -/
abbrev XV : Type := (⟨S512x256, .f32⟩ : BufTy).Contents (Elt Ideal)
/-- A memory bank, as the program types it. -/
abbrev MV : Type := (⟨S1x32768x256, .f32⟩ : BufTy).Contents (Elt Ideal)

/-- The norm column at row b: the square root of the row's sum of squares, summed from the float zero. -/
theorem norm_apply (x : XV) (b : Fin 512) :
    val_main_v0 (F := Ideal) x (ix2 b (0 : Fin 1)) = rowNorm x b := by
  have e : idx_main_call0_v2 (ix2 b (0 : Fin 1)) = ix1 b :=
    funext fun a => Fin.ext (by match a with | ⟨0, _⟩ => rfl)
  have e' : ∀ k : Fin 256, idx_main_call0_v1 (ix1 b) k = ix2 b k := fun k =>
    funext fun a => Fin.ext (by match a with | ⟨0, _⟩ => rfl | ⟨1, _⟩ => rfl)
  rw [val_main_v0_apply, val_main_call0_v2_apply, e, val_main_call0_v1_apply]
  simp only [e', val_main_call0_v0_apply, val_main_call0_cst_apply, Ideal.hostUnary_sqrt_def, Ideal.mulf_def,
    Ideal.ofBits_def]
  rfl

/-- The second norm stage is the same function of its view. -/
theorem norm_apply' (x : XV) (b : Fin 512) :
    val_main_v1 (F := Ideal) x (ix2 b (0 : Fin 1)) = rowNorm x b :=
  (congrFun (rfl : val_main_v1 (F := Ideal) x = val_main_v0 (F := Ideal) x) _).trans (norm_apply x b)

/-- The column of the two views' row inner products at row b. -/
theorem selfDot_apply (xi xj : XV) (b : Fin 512) :
    val_main_v6 (F := Ideal) xi xj (ix2 b (0 : Fin 1)) = rowDot xi xj b := by
  have e : idx_main_v6 (ix2 b (0 : Fin 1)) = ix1 b :=
    funext fun a => Fin.ext (by match a with | ⟨0, _⟩ => rfl)
  have e' : ∀ k : Fin 256, idx_main_v5 (ix1 b) k = ix2 b k := fun k =>
    funext fun a => Fin.ext (by match a with | ⟨0, _⟩ => rfl | ⟨1, _⟩ => rfl)
  rw [val_main_v6_apply, e, val_main_v5_apply]
  simp only [e', val_main_v4_apply, val_main_cst_apply, Ideal.mulf_def, Ideal.ofBits_def]
  rfl

/-- The table of xi's rows against the bank's rows at (b, q): row q of the bank is (0, q, ·) of the slab. -/
theorem memDot_apply (xi : XV) (mem : MV) (b : Fin 512) (q : Fin 32768) :
    val_main_v8 (F := Ideal) xi mem (ix2 b q) = memDot xi mem b q := by
  have el : ∀ k : Fin 256, lidx_main_v8 (ix2 b q) k = ix2 b k := fun k =>
    funext fun a => Fin.ext (by match a with | ⟨0, _⟩ => rfl | ⟨1, _⟩ => rfl)
  have er : ∀ k : Fin 256, idx_main_v7 (ridx_main_v8 (ix2 b q) k) = ix3 (0 : Fin 1) q k := fun k =>
    funext fun a => Fin.ext (by
      match a with
      | ⟨0, _⟩ => rfl
      | ⟨1, _⟩ =>
        show (q.val * 256 + k.val) / 256 % 32768 = q.val
        have h0 := q.isLt; have h1 := k.isLt; omega
      | ⟨2, _⟩ =>
        show (q.val * 256 + k.val) % 256 = k.val
        have h1 := k.isLt; omega)
  rw [val_main_v8_apply]
  simp only [val_main_v7_apply, el, er]
  rfl

/-- One pair's table at (b, q). -/
theorem table_apply (xi xj : XV) (mem : MV) (b : Fin 512) (q : Fin 32769) :
    val_main_v15 (F := Ideal) xi xj mem (ix2 b q)
      = refEntry (if h : q.val = 0 then rowDot xi xj b else memDot xi mem b ⟨q.val - 1, by omega⟩)
          (rowNorm xi b * rowNorm xj b) := by
  have e11 : idx_main_v11 (ix2 b q) = ix2 b (0 : Fin 1) :=
    funext fun a => Fin.ext (by match a with | ⟨0, _⟩ => rfl | ⟨1, _⟩ => rfl)
  have hden : val_main_v11 (F := Ideal) xi xj (ix2 b q) = rowNorm xi b * rowNorm xj b := by
    rw [val_main_v11_apply, e11, val_main_v10_apply, norm_apply, norm_apply']
    rfl
  have htau : val_main_v13 (F := Ideal) (ix2 b q) = tau := by
    rw [val_main_v13_apply, val_main_cst_0_apply]
    rfl
  have hnum : val_main_v9 (F := Ideal) xi xj mem (ix2 b q)
      = if h : q.val = 0 then rowDot xi xj b else memDot xi mem b ⟨q.val - 1, by omega⟩ := by
    unfold val_main_v9
    by_cases h : q.val = 0
    · rw [dif_pos h, catCol_zero _ _ b q h, selfDot_apply]
    · rw [dif_neg h, catCol_succ _ _ b q h, memDot_apply]
  rw [val_main_v15_apply, val_main_v14_apply, val_main_v12_apply, hden, htau, hnum]
  rfl

end Cert.Moco.Ref

end
-- ==== Proof.RefValue.lean ====
/-
  The reference's value. Its result is eight tables stacked along a leading axis; table c is the one composite of
  RefTable at the c-th pair of views and the second view's bank, so every entry is the specification's: the logit
  divided by the product of the two views' row norms, then by the temperature, and exponentiated.
-/
import proofs.«112372_j79972291051933_2_alg».proof.Proof.RefTable

noncomputable section

namespace Cert.Moco.Ref

open Cert.ReferenceIdeal Cert.ReferenceIdeal.Gen Cert.ReferenceIdeal.Read Idealize.ShloMosaic Idealize.ShloMosaic.ValueIdx

/-- Every entry of the specification's table c is the composite's table of the c-th pair. -/
theorem outRef_eq_table (x0 x1 x2 x3 : XV) (m0 m1 m2 m3 : MV) (c : Fin 8) (b : Fin 512) (q : Fin 32769) :
    outRef x0 x1 x2 x3 m0 m1 m2 m3 (ix3 c b q)
      = val_main_v15 (F := Ideal) (pick x0 x1 x2 x3 (viewI c)) (pick x0 x1 x2 x3 (viewJ c))
          (pick m0 m1 m2 m3 (viewJ c)) (ix2 b q) := by
  rw [table_apply]
  rfl

/-! The eight stages are the one composite: the same operations on the pair's views, the norms of the two views in
    the pair's order, and the second view's bank. -/

theorem stage1 (x0 x2 : XV) (m10 : MV) : val_main_v27 (F := Ideal) x0 x2 m10 = val_main_v15 (F := Ideal) x0 x2 m10 := rfl
theorem stage2 (x0 x3 : XV) (m11 : MV) : val_main_v39 (F := Ideal) x0 x3 m11 = val_main_v15 (F := Ideal) x0 x3 m11 := rfl
theorem stage3 (x0 x1 : XV) (m8 : MV) : val_main_v51 (F := Ideal) x0 x1 m8 = val_main_v15 (F := Ideal) x1 x0 m8 := rfl
theorem stage4 (x1 x2 : XV) (m10 : MV) : val_main_v63 (F := Ideal) x1 x2 m10 = val_main_v15 (F := Ideal) x1 x2 m10 := rfl
theorem stage5 (x0 x2 : XV) (m8 : MV) : val_main_v75 (F := Ideal) x0 x2 m8 = val_main_v15 (F := Ideal) x2 x0 m8 := rfl
theorem stage6 (x1 x2 : XV) (m9 : MV) : val_main_v87 (F := Ideal) x1 x2 m9 = val_main_v15 (F := Ideal) x2 x1 m9 := rfl
theorem stage7 (x0 x3 : XV) (m8 : MV) : val_main_v99 (F := Ideal) x0 x3 m8 = val_main_v15 (F := Ideal) x3 x0 m8 := rfl

/-- The reference's result is the specification's eight tables. -/
theorem ref_out_eq (x0 x1 x2 x3 : (⟨S512x256, .f32⟩ : BufTy).Contents (Elt Ideal))
    (m8 m9 m10 m11 : (⟨S1x32768x256, .f32⟩ : BufTy).Contents (Elt Ideal)) :
    Cert.ReferenceIdeal.Read.val_main_v120 (F := Ideal) x0 x1 x2 x3 m8 m9 m10 m11
      = Cert.Moco.outRef x0 x1 x2 x3 m8 m9 m10 m11 := by
  funext i
  obtain ⟨c, b, q, rfl⟩ : ∃ (c : Fin 8) (b : Fin 512) (q : Fin 32769), i = ix3 c b q :=
    ⟨i 0, i 1, i 2, eq_ix3 i⟩
  rw [outRef_eq_table]
  unfold val_main_v120
  rw [cat8]
  match c with
  | ⟨0, _⟩ => exact lead_apply (val_main_v15 (F := Ideal) x0 x1 m9) b q
  | ⟨1, _⟩ => exact (lead_apply (val_main_v27 (F := Ideal) x0 x2 m10) b q).trans (congrFun (stage1 x0 x2 m10) _)
  | ⟨2, _⟩ => exact (lead_apply (val_main_v39 (F := Ideal) x0 x3 m11) b q).trans (congrFun (stage2 x0 x3 m11) _)
  | ⟨3, _⟩ => exact (lead_apply (val_main_v51 (F := Ideal) x0 x1 m8) b q).trans (congrFun (stage3 x0 x1 m8) _)
  | ⟨4, _⟩ => exact (lead_apply (val_main_v63 (F := Ideal) x1 x2 m10) b q).trans (congrFun (stage4 x1 x2 m10) _)
  | ⟨5, _⟩ => exact (lead_apply (val_main_v75 (F := Ideal) x0 x2 m8) b q).trans (congrFun (stage5 x0 x2 m8) _)
  | ⟨6, _⟩ => exact (lead_apply (val_main_v87 (F := Ideal) x1 x2 m9) b q).trans (congrFun (stage6 x1 x2 m9) _)
  | ⟨7, _⟩ => exact (lead_apply (val_main_v99 (F := Ideal) x0 x3 m8) b q).trans (congrFun (stage7 x0 x3 m8) _)

end Cert.Moco.Ref

end
-- ==== Proof.LawScalar.lean ====
/-
  The scalar law that joins the two programs.

  The reference forms one entry as exp ((d / p) / τ), the kernel as exp (d · (1 / (p · τ))). The float words 0x3F800000
  and 0x3D8F5C29 denote the real 1 and a positive real τ = 9395241 · 2⁻²⁷. For real d and real p ≠ 0 every division
  here is by a nonzero real, so it is the product with the reciprocal, and the identity
  d · (1 / (p · τ)) = d · (1 / p) · (1 / τ) of the field ℝ gives the equality of the two entries. (On the extended
  reals the hypothesis p ≠ 0 cannot be dropped: 0 · (1 / 0) = 0 · ⊤ = 0 while 0 / 0 is ⊥.)
-/
import proofs.«112372_j79972291051933_2_alg».proof.Proof.Spec
import Idealize.ShloMosaic.PureOps.Ideal.Laws

noncomputable section

namespace Cert.Moco

open Idealize.ShloMosaic

/-- The float word 0x00000000 is the real 0. -/
theorem zero_eq : (zero : EReal) = ((0 : ℝ) : EReal) := by
  show Ideal.ofBits .f32 0x00000000#32 = _
  rw [Ideal.ofBits_zero_f32]; rfl

/-- The float word 0x3F800000 is the real 1: sign 0, exponent field 127, fraction 0. -/
theorem one_eq : (one : EReal) = 1 := by
  show Ideal.ofBits .f32 0x3F800000#32 = 1
  simp [Ideal.ofBits, Ideal.ieee, -EReal.coe_mul]; norm_num

/-- The float word 0x3D8F5C29: sign 0, exponent field 123, fraction 1006633, so (2²³ + 1006633) · 2^(123 − 127 − 23). -/
theorem tau_eq : (tau : EReal) = ((9395241 * (2 : ℝ) ^ (-27 : Int) : ℝ) : EReal) := by
  show Ideal.ofBits .f32 0x3D8F5C29#32 = _
  simp [Ideal.ofBits, Ideal.ieee, -EReal.coe_mul]

/-- The temperature is a positive real. -/
theorem tau_pos : ∃ t : ℝ, 0 < t ∧ (tau : EReal) = (t : EReal) :=
  ⟨9395241 * (2 : ℝ) ^ (-27 : Int), by positivity, tau_eq⟩

/-- One entry, the kernel's way and the reference's way, at a real logit and a nonzero real norm product. -/
theorem kerEntry_eq_refEntry (d p : ℝ) (hp : p ≠ 0) :
    kerEntry (d : EReal) (p : EReal) = refEntry (d : EReal) (p : EReal) := by
  obtain ⟨t, ht, hτ⟩ := tau_pos
  have ht0 : t ≠ 0 := ne_of_gt ht
  have hpt : p * t ≠ 0 := mul_ne_zero hp ht0
  unfold kerEntry refEntry
  rw [hτ, one_eq, ← EReal.coe_mul, Ideal.div_coe hpt, Ideal.div_coe hp, Ideal.div_coe ht0, one_mul,
    ← EReal.coe_mul, ← EReal.coe_mul, ← EReal.coe_mul]
  congr 2
  field_simp

end Cert.Moco

end
-- ==== Proof.LawReal.lean ====
/-
  Real inputs give real logits and real norms.

  A finite sum of real numbers, formed on the extended reals, is the real sum; so under real-valued arrays the inner
  products are real numbers, the sum of squares under the square root is a real number that is not negative, and the
  row norm is the real square root of it. Selecting one of four real-valued arrays gives a real-valued array.
-/
import proofs.«112372_j79972291051933_2_alg».proof.Proof.LawScalar

noncomputable section

open scoped BigOperators

namespace Cert.Moco

open Idealize.ShloMosaic Idealize.ShloMosaic.ValueIdx

/-- The embedding of ℝ in the extended reals carries a finite sum to the finite sum. -/
theorem coe_sum {ι : Type} (s : Finset ι) (f : ι → ℝ) :
    Finset.sum s (fun i => ((f i : ℝ) : EReal)) = ((Finset.sum s f : ℝ) : EReal) := by
  classical
  refine Finset.induction_on s (by simp) ?_
  intro a s ha ih
  rw [Finset.sum_insert ha, Finset.sum_insert ha, ih, EReal.coe_add]

/-- The rows' inner product at real-valued arrays, as a real number. -/
theorem rowDot_eq (x y : SX.Idx → EReal) (fx fy : SX.Idx → ℝ) (hx : ∀ i, x i = (fx i : EReal))
    (hy : ∀ i, y i = (fy i : EReal)) (b : Fin 512) :
    rowDot x y b = ((∑ k : Fin 256, fx (ix2 b k) * fy (ix2 b k) : ℝ) : EReal) := by
  unfold rowDot
  rw [zero_eq]
  simp only [hx, hy, ← EReal.coe_mul]
  rw [coe_sum, ← EReal.coe_add, zero_add]

/-- The inner product with a bank's row at real-valued arrays, as a real number. -/
theorem memDot_eq (x : SX.Idx → EReal) (mem : SM.Idx → EReal) (fx : SX.Idx → ℝ) (fm : SM.Idx → ℝ)
    (hx : ∀ i, x i = (fx i : EReal)) (hm : ∀ i, mem i = (fm i : EReal)) (b : Fin 512) (q : Fin 32768) :
    memDot x mem b q = ((∑ k : Fin 256, fx (ix2 b k) * fm (ix3 0 q k) : ℝ) : EReal) := by
  unfold memDot
  simp only [hx, hm, ← EReal.coe_mul]
  rw [coe_sum]

/-- The row norm at a real-valued array is the real square root of the sum of squares. -/
theorem rowNorm_eq (x : SX.Idx → EReal) (fx : SX.Idx → ℝ) (hx : ∀ i, x i = (fx i : EReal)) (b : Fin 512) :
    rowNorm x b = ((Real.sqrt (∑ k : Fin 256, fx (ix2 b k) * fx (ix2 b k)) : ℝ) : EReal) := by
  unfold rowNorm
  rw [rowDot_eq x x fx fx hx hx b, Ideal.sqrt_coe,
    if_neg (not_lt.mpr (Finset.sum_nonneg fun k _ => mul_self_nonneg _))]

theorem rowDot_real (x y : SX.Idx → EReal) (hx : AllReal x) (hy : AllReal y) (b : Fin 512) :
    ∃ r : ℝ, rowDot x y b = (r : EReal) := by
  choose fx hfx using hx
  choose fy hfy using hy
  exact ⟨_, rowDot_eq x y fx fy hfx hfy b⟩

theorem memDot_real (x : SX.Idx → EReal) (mem : SM.Idx → EReal) (hx : AllReal x) (hm : AllReal mem)
    (b : Fin 512) (q : Fin 32768) : ∃ r : ℝ, memDot x mem b q = (r : EReal) := by
  choose fx hfx using hx
  choose fm hfm using hm
  exact ⟨_, memDot_eq x mem fx fm hfx hfm b q⟩

theorem rowNorm_real (x : SX.Idx → EReal) (hx : AllReal x) (b : Fin 512) :
    ∃ r : ℝ, rowNorm x b = (r : EReal) := by
  choose fx hfx using hx
  exact ⟨_, rowNorm_eq x fx hfx b⟩

/-- Whichever of four arrays is selected, a property that all four have holds of it. -/
theorem pick_all {α : Type} (P : α → Prop) (a0 a1 a2 a3 : α) (h0 : P a0) (h1 : P a1) (h2 : P a2) (h3 : P a3)
    (v : Fin 4) : P (pick a0 a1 a2 a3 v) :=
  match v with
  | ⟨0, _⟩ => h0
  | ⟨1, _⟩ => h1
  | ⟨2, _⟩ => h2
  | ⟨3, _⟩ => h3

/-- The logit of a pair at a row and a column is a real number when every view and every bank is real-valued. -/
theorem logit_real (x : Fin 4 → SX.Idx → EReal) (mem : Fin 4 → SM.Idx → EReal) (hx : ∀ v, AllReal (x v))
    (hm : ∀ v, AllReal (mem v)) (c : Fin 8) (b : Fin 512) (q : Fin 32769) :
    ∃ r : ℝ, logit x mem c b q = (r : EReal) := by
  by_cases h : q.val = 0
  · rw [logit, dif_pos h]; exact rowDot_real _ _ (hx _) (hx _) b
  · rw [logit, dif_neg h]; exact memDot_real _ _ (hx _) (hm _) b _

/-- The product of two row norms is a real number, and it is not zero when neither norm is. -/
theorem normProd_real (x : Fin 4 → SX.Idx → EReal) (hx : ∀ v, AllReal (x v)) (hn : ∀ v b, rowNorm (x v) b ≠ 0)
    (c : Fin 8) (b : Fin 512) : ∃ r : ℝ, r ≠ 0 ∧ normProd x c b = (r : EReal) := by
  obtain ⟨r1, h1⟩ := rowNorm_real (x (viewI c)) (hx _) b
  obtain ⟨r2, h2⟩ := rowNorm_real (x (viewJ c)) (hx _) b
  have n1 : r1 ≠ 0 := by
    intro h; apply hn (viewI c) b; rw [h1, h]; rfl
  have n2 : r2 ≠ 0 := by
    intro h; apply hn (viewJ c) b; rw [h2, h]; rfl
  exact ⟨r1 * r2, mul_ne_zero n1 n2, by rw [normProd, h1, h2, EReal.coe_mul]⟩

end Cert.Moco

end
-- ==== Proof.Law.lean ====
/-
  The two programs' tables agree entry by entry.

  At real-valued views and banks every logit is a real number d, and the product of the two row norms is a real number
  p, which is not zero when no row norm is. The scalar law exp (d · (1 / (p · τ))) = exp ((d / p) / τ) then applies at
  each of the 8 × 512 × 32769 entries.
-/
import proofs.«112372_j79972291051933_2_alg».proof.Proof.LawReal

noncomputable section

namespace Cert.Moco

open Idealize.ShloMosaic Idealize.ShloMosaic.ValueIdx

theorem outKer_eq_outRef (x0 x1 x2 x3 : SX.Idx → EReal) (m0 m1 m2 m3 : SM.Idx → EReal)
    (hx0 : AllReal x0) (hx1 : AllReal x1) (hx2 : AllReal x2) (hx3 : AllReal x3)
    (hm0 : AllReal m0) (hm1 : AllReal m1) (hm2 : AllReal m2) (hm3 : AllReal m3)
    (hn0 : ∀ b, rowNorm x0 b ≠ 0) (hn1 : ∀ b, rowNorm x1 b ≠ 0) (hn2 : ∀ b, rowNorm x2 b ≠ 0)
    (hn3 : ∀ b, rowNorm x3 b ≠ 0) :
    outKer x0 x1 x2 x3 m0 m1 m2 m3 = outRef x0 x1 x2 x3 m0 m1 m2 m3 := by
  have hx : ∀ v, AllReal (pick x0 x1 x2 x3 v) := pick_all (fun a => AllReal a) x0 x1 x2 x3 hx0 hx1 hx2 hx3
  have hm : ∀ v, AllReal (pick m0 m1 m2 m3 v) := pick_all (fun a => AllReal a) m0 m1 m2 m3 hm0 hm1 hm2 hm3
  have hn : ∀ v b, rowNorm (pick x0 x1 x2 x3 v) b ≠ 0 :=
    pick_all (fun a => ∀ b, rowNorm a b ≠ 0) x0 x1 x2 x3 hn0 hn1 hn2 hn3
  funext i
  obtain ⟨c, b, q, rfl⟩ : ∃ (c : Fin 8) (b : Fin 512) (q : Fin 32769), i = ix3 c b q :=
    ⟨i 0, i 1, i 2, eq_ix3 i⟩
  rw [outKer_apply, outRef_apply]
  obtain ⟨d, hd⟩ := logit_real _ _ hx hm c b q
  obtain ⟨p, hp0, hp⟩ := normProd_real _ hx hn c b
  rw [hd, hp]
  exact kerEntry_eq_refEntry d p hp0

end Cert.Moco

end
-- ==== Proof.LibRealValued.lean ====
/-
  Real-valued arrays on the extended reals.

  At the ideal reading a float is an extended real, and the laws that join two arrangements of one
  computation (a factor moved across a sum, a variance computed two ways) hold for REAL entries only.
  A precondition says that the INPUTS are real; this module carries that fact through the host
  operations of a program, so that an intermediate array — a normalised adjacency, a propagated
  embedding, a projected feature matrix — is known to be real without ever being read at an index.

  * `IsReal x`, `IsNonneg x`, `IsPos x`: the extended real `x` is (the coercion of) a real, a real `≥ 0`,
    a real `> 0`; closed under `+`, `-`, `*`, `max`, finite sums, the quotient by a nonzero real; a
    nonnegative plus a positive is positive; the reciprocal square root of a positive is positive.
  * `AllReal v`, `AllNonneg v`, `AllPos v`: every entry is. Preserved by re-indexing (hence by
    `gather`, `broadcast_in_dim`, `slice`, `reshape`), by `pad`, by the pointwise operations, by the host's
    accumulating scatter (the exact sum of the colliding updates), by `dot_general` and by a float sum.
  * `AllReal.exists_real`: a real-valued array IS the coercion of an array of reals.
-/
import Idealize.ShloMosaic.PureOps.Ideal
import Idealize.ShloMosaic.PureOps.Contract
import Mathlib.Tactic

noncomputable section

namespace Cert.Lib.RealValued

open Idealize.ShloMosaic

/-! ## One extended real -/

/-- `x` is a real number. -/
def IsReal (x : EReal) : Prop := ∃ r : ℝ, x = (r : EReal)
/-- `x` is a real number `≥ 0`. -/
def IsNonneg (x : EReal) : Prop := ∃ r : ℝ, 0 ≤ r ∧ x = (r : EReal)
/-- `x` is a real number `> 0`. -/
def IsPos (x : EReal) : Prop := ∃ r : ℝ, 0 < r ∧ x = (r : EReal)

theorem IsPos.isNonneg {x : EReal} (h : IsPos x) : IsNonneg x := let ⟨r, hr, e⟩ := h; ⟨r, hr.le, e⟩
theorem IsNonneg.isReal {x : EReal} (h : IsNonneg x) : IsReal x := let ⟨r, _, e⟩ := h; ⟨r, e⟩
theorem IsPos.isReal {x : EReal} (h : IsPos x) : IsReal x := h.isNonneg.isReal

namespace IsReal

theorem coe (r : ℝ) : IsReal (r : EReal) := ⟨r, rfl⟩
theorem zero : IsReal (0 : EReal) := ⟨0, EReal.coe_zero.symm⟩
theorem one : IsReal (1 : EReal) := ⟨1, EReal.coe_one.symm⟩

theorem add {x y : EReal} (hx : IsReal x) (hy : IsReal y) : IsReal (x + y) := by
  obtain ⟨a, rfl⟩ := hx; obtain ⟨b, rfl⟩ := hy; exact ⟨a + b, (EReal.coe_add a b).symm⟩
theorem sub {x y : EReal} (hx : IsReal x) (hy : IsReal y) : IsReal (x - y) := by
  obtain ⟨a, rfl⟩ := hx; obtain ⟨b, rfl⟩ := hy; exact ⟨a - b, (EReal.coe_sub a b).symm⟩
theorem mul {x y : EReal} (hx : IsReal x) (hy : IsReal y) : IsReal (x * y) := by
  obtain ⟨a, rfl⟩ := hx; obtain ⟨b, rfl⟩ := hy; exact ⟨a * b, (EReal.coe_mul a b).symm⟩
theorem neg {x : EReal} (hx : IsReal x) : IsReal (-x) := by
  obtain ⟨a, rfl⟩ := hx; exact ⟨-a, (EReal.coe_neg a).symm⟩
theorem max {x y : EReal} (hx : IsReal x) (hy : IsReal y) : IsReal (max x y) := by
  obtain ⟨a, rfl⟩ := hx; obtain ⟨b, rfl⟩ := hy
  exact ⟨Max.max a b, (EReal.coe_strictMono.monotone.map_max (a := a) (b := b)).symm⟩

/-- A finite sum of reals is a real. -/
theorem sum {ι : Type*} (s : Finset ι) (f : ι → EReal) (h : ∀ i ∈ s, IsReal (f i)) : IsReal (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

/-- The quotient of a real by a nonzero real constant is a real. -/
theorem div_coe {x : EReal} (hx : IsReal x) {n : ℝ} (hn : n ≠ 0) : IsReal (Ideal.div x (n : EReal)) := by
  rw [Ideal.div_coe hn]; exact hx.mul (coe _)

theorem ne_top {x : EReal} (hx : IsReal x) : x ≠ ⊤ := by obtain ⟨a, rfl⟩ := hx; exact EReal.coe_ne_top a
theorem ne_bot {x : EReal} (hx : IsReal x) : x ≠ ⊥ := by obtain ⟨a, rfl⟩ := hx; exact EReal.coe_ne_bot a

end IsReal

namespace IsNonneg

theorem zero : IsNonneg (0 : EReal) := ⟨0, le_rfl, EReal.coe_zero.symm⟩
theorem add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩
theorem mul {x y : EReal} (hx : IsNonneg x) (hy : IsNonneg y) : IsNonneg (x * y) := by
  obtain ⟨a, ha, rfl⟩ := hx; obtain ⟨b, hb, rfl⟩ := hy; exact ⟨a * b, mul_nonneg ha hb, (EReal.coe_mul a b).symm⟩
/-- A nonnegative real plus a positive one is positive (a degree count plus the self loop). -/
theorem add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩
theorem sum {ι : Type*} (s : Finset ι) (f : ι → EReal) (h : ∀ i ∈ s, IsNonneg (f i)) : IsNonneg (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

end IsNonneg

namespace IsPos

theorem one : IsPos (1 : EReal) := ⟨1, one_pos, EReal.coe_one.symm⟩
theorem mul {x y : EReal} (hx : IsPos x) (hy : IsPos y) : IsPos (x * y) := by
  obtain ⟨a, ha, rfl⟩ := hx; obtain ⟨b, hb, rfl⟩ := hy; exact ⟨a * b, mul_pos ha hb, (EReal.coe_mul a b).symm⟩
/-- The reciprocal square root of a positive real is a positive real (no corner of `rsqrt` is met). -/
theorem rsqrt {x : EReal} (hx : IsPos x) : IsPos (Ideal.rsqrt x) := by
  obtain ⟨r, hr, rfl⟩ := hx
  rw [Ideal.rsqrt_coe, if_neg (not_lt.2 hr.le), if_neg hr.ne']
  exact ⟨_, inv_pos.2 (Real.sqrt_pos.2 hr), rfl⟩

end IsPos

/-! ## Arrays -/

/-- Every entry is a real. -/
def AllReal {ι : Type*} (v : ι → EReal) : Prop := ∀ i, IsReal (v i)
/-- Every entry is a real `≥ 0`. -/
def AllNonneg {ι : Type*} (v : ι → EReal) : Prop := ∀ i, IsNonneg (v i)
/-- Every entry is a real `> 0`. -/
def AllPos {ι : Type*} (v : ι → EReal) : Prop := ∀ i, IsPos (v i)

theorem AllPos.allNonneg {ι : Type*} {v : ι → EReal} (h : AllPos v) : AllNonneg v := fun i => (h i).isNonneg
theorem AllNonneg.allReal {ι : Type*} {v : ι → EReal} (h : AllNonneg v) : AllReal v := fun i => (h i).isReal
theorem AllPos.allReal {ι : Type*} {v : ι → EReal} (h : AllPos v) : AllReal v := fun i => (h i).isReal

/-- A real-valued array is the coercion of an array of reals. -/
theorem AllReal.exists_real {ι : Type*} {v : ι → EReal} (h : AllReal v) : ∃ r : ι → ℝ, v = fun i => (r i : EReal) :=
  ⟨fun i => (h i).choose, funext fun i => (h i).choose_spec⟩

/-- Any re-indexing of a real-valued array is real-valued. -/
theorem AllReal.reindex {ι κ : Type*} {v : ι → EReal} (h : AllReal v) (g : κ → ι) : AllReal (fun j => v (g j)) :=
  fun j => h (g j)
theorem AllNonneg.reindex {ι κ : Type*} {v : ι → EReal} (h : AllNonneg v) (g : κ → ι) : AllNonneg (fun j => v (g j)) :=
  fun j => h (g j)
theorem AllPos.reindex {ι κ : Type*} {v : ι → EReal} (h : AllPos v) (g : κ → ι) : AllPos (fun j => v (g j)) :=
  fun j => h (g j)

section Ops

variable {s t : Shape} {φ : FTy}

/-! ### Pointwise operations -/

theorem AllReal.addf {x y : FVec Ideal s φ} (hx : AllReal x) (hy : AllReal y) : AllReal (addf x y) :=
  fun i => (hx i).add (hy i)
theorem AllReal.subf {x y : FVec Ideal s φ} (hx : AllReal x) (hy : AllReal y) : AllReal (subf x y) :=
  fun i => (hx i).sub (hy i)
theorem AllReal.mulf {x y : FVec Ideal s φ} (hx : AllReal x) (hy : AllReal y) : AllReal (mulf x y) :=
  fun i => (hx i).mul (hy i)
theorem AllReal.maximumf {x y : FVec Ideal s φ} (hx : AllReal x) (hy : AllReal y) : AllReal (maximumf x y) :=
  fun i => (hx i).max (hy i)
theorem AllNonneg.add_pos {x y : FVec Ideal s φ} (hx : AllNonneg x) (hy : AllPos y) : AllPos (Idealize.ShloMosaic.addf x y) :=
  fun i => (hx i).add_pos (hy i)
theorem AllPos.mulf {x y : FVec Ideal s φ} (hx : AllPos x) (hy : AllPos y) : AllPos (Idealize.ShloMosaic.mulf x y) :=
  fun i => (hx i).mul (hy i)
/-- The host's reciprocal square root of a positive array is positive. -/
theorem AllPos.hostRsqrt {x : FVec Ideal s φ} (hx : AllPos x) : AllPos (Host.rsqrt x) :=
  fun i => (hx i).rsqrt
/-- The host's quotient by a splat nonzero real constant. -/
theorem AllReal.hostDivf_const {x y : FVec Ideal s φ} (hx : AllReal x) {n : ℝ} (hn : n ≠ 0) (hy : ∀ i, y i = (n : EReal)) :
    AllReal (Host.divf x y) :=
  fun i => by
    show IsReal (Ideal.div (x i) (y i))
    rw [hy i]; exact (hx i).div_coe hn

/-! ### Layout operations -/

theorem AllReal.broadcastInDim {x : s.Idx → EReal} (hx : AllReal x) (dims : Fin s.rank → Fin t.rank)
    (h : s.BroadcastsInDim t dims) : AllReal (broadcastInDim t dims h x) := fun _ => hx _
theorem AllPos.broadcastInDim {x : s.Idx → EReal} (hx : AllPos x) (dims : Fin s.rank → Fin t.rank)
    (h : s.BroadcastsInDim t dims) : AllPos (Idealize.ShloMosaic.broadcastInDim t dims h x) := fun _ => hx _
theorem AllReal.extractStridedSlice {x : s.Idx → EReal} (hx : AllReal x) (off : Fin s.rank → Nat) (h : s.Slices off t) :
    AllReal (extractStridedSlice t off x h) := fun _ => hx _
theorem AllReal.shapeCast {x : s.Idx → EReal} (hx : AllReal x) (h : s.ShapeCasts t) :
    AllReal (shapeCast t x h) := fun _ => hx _
/-- A padded array is real-valued when the array and the padding value are. -/
theorem AllReal.pad {x : s.Idx → EReal} (hx : AllReal x) (lo hi interior : Fin s.rank → Nat) {u : Shape} {v : u.Idx → EReal}
    (hv : AllReal v) (h : s.Pads lo hi interior t) (hu : 0 < u.numel) : AllReal (pad t lo hi interior x v h hu) := fun j => by
  unfold Idealize.ShloMosaic.pad
  split_ifs
  · exact hx _
  · exact hv _

/-! ### Gather, scatter-add, contraction, sum -/

/-- A gather reads entries of its operand. -/
theorem AllReal.gather {si : Shape} {w : Nat} {x : s.Idx → EReal} (hx : AllReal x) (d : GatherDims s si t) (idx : IVec si w) :
    AllReal (Host.gather d x idx) := fun _ => hx _
theorem AllPos.gather {si : Shape} {w : Nat} {x : s.Idx → EReal} (hx : AllPos x) (d : GatherDims s si t) (idx : IVec si w) :
    AllPos (Host.gather d x idx) := fun _ => hx _

/-- The host's accumulating scatter at the ideal reading is each operand entry plus the exact sum of the updates
    landing on it: real-valued when operand and updates are, wherever the indices point. -/
theorem AllReal.scatterAdd {si u : Shape} {w : Nat} (d : ScatterDims s si u) {x : FVec Ideal s φ} (hx : AllReal x)
    (idx : IVec si w) {upd : FVec Ideal u φ} (hu : AllReal upd) : AllReal (Host.scatterAdd d x idx upd) := fun i => by
  show IsReal (x i + ∑ j ∈ Finset.univ.filter (fun j => d.resultIdx? j idx = some i), upd j)
  exact (hx i).add (IsReal.sum _ _ fun j _ => hu j)
/-- … and nonnegative when both are (a degree count). -/
theorem AllNonneg.scatterAdd {si u : Shape} {w : Nat} (d : ScatterDims s si u) {x : FVec Ideal s φ} (hx : AllNonneg x)
    (idx : IVec si w) {upd : FVec Ideal u φ} (hu : AllNonneg upd) : AllNonneg (Host.scatterAdd d x idx upd) := fun i => by
  show IsNonneg (x i + ∑ j ∈ Finset.univ.filter (fun j => d.resultIdx? j idx = some i), upd j)
  exact (hx i).add (IsNonneg.sum _ _ fun j _ => hu j)

/-- The host's `dot_general` of real-valued operands is real-valued: a finite sum of products. -/
theorem AllReal.dotGeneral {sl sr so : Shape} {φ₁ φ₂ : FTy} (d : DotDims sl sr so) (prec : Option ContractPrecision)
    {l : FVec Ideal sl φ₁} (hl : AllReal l) {r : FVec Ideal sr φ₂} (hr : AllReal r) :
    AllReal (Host.dotGeneral d prec l r) := fun j => by
  show IsReal ((0 : EReal) + ∑ k : d.contr.Idx, l (d.lhsIdx j k) * r (d.rhsIdx j k))
  exact IsReal.zero.add (IsReal.sum _ _ fun k _ => (hl _).mul (hr _))

/-- The host's float sum of a real-valued array from a real initial value is real-valued. -/
theorem AllReal.reduceAdd {axes : List (Fin s.rank)} {u : Shape} {x : FVec Ideal s φ} (hx : AllReal x)
    {init : u.Idx → Ideal φ} (hi : AllReal init) (h : s.ReducesTo axes t) (hu : 0 < u.numel) :
    AllReal (Host.reduceAdd x init h hu) := fun j => by
  show IsReal (init (Shape.Idx.first hu) + ∑ i ∈ Finset.univ.filter (fun i => h.drop i = j), x i)
  exact (hi _).add (IsReal.sum _ _ fun i _ => hx i)

end Ops

end Cert.Lib.RealValued

end
-- ==== Proof.LibFiniteTest.lean ====
/-
  The precondition "every float input is finite", read back.

  A precondition `jnp.all(jnp.abs(x) < inf)` prints as: the absolute value of the array, compared `<`
  entry by entry with the splat of the pattern of `+∞`, the `i1` results reduced by `and` from `1` over
  all axes. At the ideal reading `|x| = max x (−x)`, the pattern `0x7F800000` denotes `⊤`, and `max x (−x) < ⊤`
  holds exactly of the real numbers (for `⊥` the maximum is `⊤` too). So a test that came out `1` says
  every entry is a real.

  * `ofBits_inf`            the f32 pattern `0x7F800000` denotes `⊤`;
  * `lt_of_cmp_olt`         an ordered `<` comparison that answered `1` is the order's `<`;
  * `isReal_of_abs_lt_top`  `max x (−x) < ⊤` makes `x` a real;
  * `isReal_of_test`        one entry's printed test;
  * `allReal_of_all`        the whole printed conjunct: `jnp.all(jnp.abs(x) < inf) = 1` makes `x` real-valued.
-/
import Idealize.ShloMosaic.Lib.ReduceAll
import Idealize.ShloMosaic.PureOps.Ideal
import proofs.«112372_j79972291051933_2_alg».proof.Proof.LibRealValued

noncomputable section

namespace Cert.Lib.FiniteTest

open Idealize.ShloMosaic Cert.Lib.RealValued

/-- The f32 pattern of `+∞` denotes `⊤`. -/
theorem ofBits_inf : Ideal.ofBits .f32 0x7F800000#32 = (⊤ : EReal) := by
  simp [Ideal.ofBits, Ideal.ieee]

/-- An ordered `<` that answered `1` is `<`. -/
theorem lt_of_cmp_olt {a b : EReal} (h : Ideal.cmp .olt a b = 1#1) : a < b := by
  unfold Ideal.cmp at h
  by_contra hn
  simp [hn] at h

/-- An extended real whose absolute value is below `⊤` is a real. -/
theorem isReal_of_abs_lt_top {x : EReal} (h : max x (-x) < ⊤) : IsReal x := by
  induction x using EReal.rec with
  | bot => simp at h
  | coe r => exact ⟨r, rfl⟩
  | top => simp at h

/-- One entry's test, as printed: `|x| < +∞` answered `1`. -/
theorem isReal_of_test {x : EReal}
    (h : Ideal.cmp .olt (max x (-x)) (Ideal.ofBits .f32 0x7F800000#32) = 1#1) : IsReal x := by
  rw [ofBits_inf] at h
  exact isReal_of_abs_lt_top (lt_of_cmp_olt h)

/-- The printed conjunct of one input: the `and`-reduction over all axes of `|x| < +∞` (the bound a splat of the
    pattern of `+∞` from any constant shape) is `1`; then every entry of `x` is a real. -/
theorem allReal_of_all {s t u c : Shape} [Subsingleton t.Idx] {axes : List (Fin s.rank)} (x : FVec Ideal s .f32)
    (init : u.Idx → BitVec 1) (h : s.ReducesTo axes t) (hu : 0 < u.numel)
    (dims : Fin c.rank → Fin s.rank) (hb : c.BroadcastsInDim s dims) (j : t.Idx)
    (e : Host.reduce IntOp.andi (cmpf .olt (Host.absf x) (broadcastInDim s dims hb (constant c .f32 0x7F800000#32))) init h hu j = 1#1) :
    AllReal x := fun i =>
  isReal_of_test (Host.reduce_andi_all _ init h hu j e i)

end Cert.Lib.FiniteTest

end
-- ==== Proof.LibNonzeroTest.lean ====
/-
  The precondition "no entry is zero", read back.

  A precondition `jnp.all(v != 0.0)` prints as: the array compared entry by entry, by "unordered or not equal", with
  the splat of the pattern `0x00000000`, the `i1` results reduced by `and` from `1` over all axes. At the ideal
  reading nothing is unordered, so the comparison is `≠` on the extended reals, and the pattern denotes `0`. So a
  test that came out `1` says every entry is nonzero — what a program that divides by the array needs of it.

  * `ne_of_cmp_une`     an "unordered or not equal" comparison that answered `1` is `≠`;
  * `ne_zero_of_test`   one entry's printed test `v ≠ 0.0`;
  * `ne_zero_of_all`    the whole printed conjunct: `jnp.all(v != 0.0) = 1` makes every entry of `v` nonzero.
-/
import Idealize.ShloMosaic.Lib.ReduceAll
import Idealize.ShloMosaic.PureOps.Ideal
import Idealize.ShloMosaic.PureOps.Ideal.Laws

noncomputable section

namespace Cert.Lib.NonzeroTest

open Idealize.ShloMosaic

/-- An "unordered or not equal" comparison that answered `1` is `≠`. -/
theorem ne_of_cmp_une {a b : EReal} (h : Ideal.cmp .une a b = 1#1) : a ≠ b := by
  unfold Ideal.cmp at h
  intro hab
  simp [hab] at h

/-- One entry's test, as printed: `v ≠ 0.0` answered `1` (the pattern `0x00000000` denotes `0`). -/
theorem ne_zero_of_test {v : EReal}
    (h : Ideal.cmp .une v (Ideal.ofBits .f32 0x00000000#32) = 1#1) : v ≠ 0 := by
  rw [Ideal.ofBits_zero_f32] at h
  exact ne_of_cmp_une h

/-- The printed conjunct `all(v ≠ 0.0)`: the `and`-reduction over all axes of the comparison of `v` with a splat
    of the pattern of `0` (from any constant shape) is `1`; then every entry of `v` is nonzero. -/
theorem ne_zero_of_all {s t u c : Shape} [Subsingleton t.Idx] {axes : List (Fin s.rank)} (v : FVec Ideal s .f32)
    (init : u.Idx → BitVec 1) (h : s.ReducesTo axes t) (hu : 0 < u.numel)
    (dims : Fin c.rank → Fin s.rank) (hb : c.BroadcastsInDim s dims) (j : t.Idx)
    (e : Host.reduce IntOp.andi (cmpf .une v (broadcastInDim s dims hb (constant c .f32 0x00000000#32))) init h hu j = 1#1) :
    ∀ i, v i ≠ 0 := fun i =>
  ne_zero_of_test (Host.reduce_andi_all _ init h hu j e i)

end Cert.Lib.NonzeroTest

end
-- ==== Proof.PreNorm.lean ====
/-
  The Euclidean norm of a row, as the precondition prints it.

  For a 512 × 256 array x the precondition forms the 512 numbers sqrt(∑ₖ x[b,k] · x[b,k]): the entrywise square,
  summed along the second axis starting from the float zero, then the square root. Read at row b this is the row
  norm of the specification: the sum along one axis at an index is the initial value plus the sum, over the
  coordinate k of that axis, of the operand at the index with k inserted, and here that index is (b, k).
-/
import Idealize.ShloMosaic.PureOps.Ideal.Laws
import Idealize.ShloMosaic.Lib.ValueIdx
import proofs.«112372_j79972291051933_2_alg».proof.Proof.Spec

noncomputable section

open scoped BigOperators

namespace Cert.Moco.Pre

open Idealize.ShloMosaic Idealize.ShloMosaic.ValueIdx

/-- The 512 row norms of a view. -/
abbrev SRow : Shape := ⟨1, ![512]⟩
/-- The shape of a single number. -/
abbrev SOne : Shape := ⟨0, ![]⟩

/-- Removing the second axis of a view leaves its 512 rows. -/
theorem reduces_rows : SX.Reduces [1] SRow := by decide

/-- The index the sum along the second axis visits at row `b`, step `k`, is `(b, k)`. -/
theorem lift_row (h : SX.Reduces [1] SRow) (b : Fin 512) (k : Fin 256) : h.lift (ix1 b) k = ix2 b k :=
  funext fun a => Fin.ext (by match a with | ⟨0, _⟩ => rfl | ⟨1, _⟩ => rfl)

/-- The printed norm — square, sum along the second axis from the float zero, square root — at row `b` is
    the row norm of `x` at `b`. -/
theorem sqrt_sum_sq_apply (x : FVec Ideal SX .f32) (h' : SX.ReducesTo [1] SRow) (hu : 0 < SOne.numel) (b : Fin 512) :
    Host.sqrt (F := Ideal) (Host.reduceAdd (F := Ideal) (mulf x x) (constant (F := Ideal) SOne .f32 0x00000000#32) h' hu)
        (ix1 b) = rowNorm x b := by
  show Ideal.sqrt (Ideal.hostReduceAdd h' (mulf x x) (Ideal.ofBits .f32 0x00000000#32) (ix1 b)) = _
  rw [Ideal.hostReduceAdd_single h' reduces_rows]
  show Ideal.sqrt (zero + ∑ k : Fin 256, mulf x x (reduces_rows.lift (ix1 b) k))
      = Ideal.sqrt (zero + ∑ k : Fin 256, x (ix2 b k) * x (ix2 b k))
  simp only [lift_row]
  rfl

end Cert.Moco.Pre

end
-- ==== Proof.PreFacts.lean ====
/-
  The precondition, decoded.

  The precondition is one bit: the conjunction of sixteen tests. Twelve say of one float input each that every
  entry has absolute value below +∞; four say of one feature view each that the Euclidean norm of every row is
  not the float zero. Each test is a conjunction over all entries (or all rows), so the bit being 1 gives every
  one of them at every index. On the extended reals an entry with |x| < ⊤ is a real number, and the printed row
  norm at row b is the specification's `rowNorm` at b. What the equivalence proof uses: the four views and the
  four memory banks are real-valued, and no row of a view has norm zero.
-/
import Idealize.ShloMosaic.Lib.ReduceAll
import proofs.«112372_j79972291051933_2_alg».proof.Pre_finite_inputs
import proofs.«112372_j79972291051933_2_alg».proof.Proof.Gen.Pre_finite_inputs
import proofs.«112372_j79972291051933_2_alg».proof.Proof.Spec
import proofs.«112372_j79972291051933_2_alg».proof.Proof.LibFiniteTest
import proofs.«112372_j79972291051933_2_alg».proof.Proof.LibNonzeroTest
import proofs.«112372_j79972291051933_2_alg».proof.Proof.PreNorm

noncomputable section

namespace Cert.Moco.Pre

open Idealize.ShloMosaic Idealize.ShloMosaic.ValueIdx Cert.Pre_finite_inputs

/-- A shape with no axes has one index. -/
instance : Subsingleton S_.Idx := ⟨fun a b => funext fun d => d.elim0⟩

/-- The conjunction of two one-bit arrays is 1 at an index exactly when both are. -/
theorem andi_apply_eq_one {s : Shape} (x y : IVec s 1) (i : s.Idx) :
    andi x y i = 1#1 ↔ x i = 1#1 ∧ y i = 1#1 := IntOp.andi_eq_one

/-- One finiteness test, as printed: every entry of `x` has absolute value below +∞. Then `x` is real-valued. -/
theorem allReal_of_test {s : Shape} {axes : List (Fin s.rank)} (x : FVec Ideal s .f32)
    (dims : Fin S_.rank → Fin s.rank) (hb : S_.BroadcastsInDim s dims) (hr : s.ReducesTo axes S_) (hu : 0 < S_.numel)
    (e : Host.reduce IntOp.andi
          (cmpf .olt (Host.absf x) (broadcastInDim s dims hb (constant (F := Ideal) S_ .f32 0x7F800000#32)))
          (constantI S_ 1 1#1) hr hu ix0 = 1#1) :
    AllReal x := fun i =>
  Cert.Lib.FiniteTest.allReal_of_all x (constantI S_ 1 1#1) hr hu dims hb ix0 e i

/-- One norm test, as printed: the norm of every row of `x` differs from the float zero. Then no row norm is 0. -/
theorem rowNorm_ne_zero_of_test (x : FVec Ideal S512x256 .f32)
    (h' : S512x256.ReducesTo [1] S512) (hu : 0 < S_.numel)
    (dims : Fin S_.rank → Fin S512.rank) (hb : S_.BroadcastsInDim S512 dims) (hr : S512.ReducesTo [0] S_)
    (e : Host.reduce IntOp.andi
          (cmpf .une (Host.sqrt (Host.reduceAdd (mulf x x) (constant (F := Ideal) S_ .f32 0x00000000#32) h' hu))
            (broadcastInDim S512 dims hb (constant (F := Ideal) S_ .f32 0x00000000#32)))
          (constantI S_ 1 1#1) hr hu ix0 = 1#1) :
    ∀ b, rowNorm x b ≠ 0 := fun b hz =>
  Cert.Lib.NonzeroTest.ne_zero_of_all _ (constantI S_ 1 1#1) hr hu dims hb ix0 e (ix1 b)
    ((sqrt_sum_sq_apply x h' hu b).trans hz)

variable [Facts]

/-- The precondition holds: the four views and the four memory banks are real-valued, and no row of a view has
    Euclidean norm zero. -/
theorem pre_facts (a0 a1 a2 a3 a4 a5 a6 a7 : FVec Ideal S512x256 .f32) (a8 a9 a10 a11 : FVec Ideal S1x32768x256 .f32)
    (h : fn (F := Ideal) a0 a1 a2 a3 a4 a5 a6 a7 a8 a9 a10 a11 = fun _ => 1#1) :
    (AllReal a0 ∧ AllReal a1 ∧ AllReal a2 ∧ AllReal a3 ∧ AllReal a8 ∧ AllReal a9 ∧ AllReal a10 ∧ AllReal a11)
      ∧ (∀ b, rowNorm a0 b ≠ 0) ∧ (∀ b, rowNorm a1 b ≠ 0) ∧ (∀ b, rowNorm a2 b ≠ 0) ∧ (∀ b, rowNorm a3 b ≠ 0) := by
  have h0 := congrFun h ix0
  unfold fn at h0; dsimp only at h0
  unfold fn_part1 at h0; dsimp only at h0
  unfold fn_part2 at h0; dsimp only at h0
  unfold fn_part3 at h0; dsimp only at h0
  unfold fn_part4 at h0; dsimp only at h0
  unfold fn_part5 at h0; dsimp only at h0
  -- the sixteen tests, last first
  obtain ⟨h0, n3⟩ := (andi_apply_eq_one _ _ _).1 h0
  obtain ⟨h0, n2⟩ := (andi_apply_eq_one _ _ _).1 h0
  obtain ⟨h0, n1⟩ := (andi_apply_eq_one _ _ _).1 h0
  obtain ⟨h0, n0⟩ := (andi_apply_eq_one _ _ _).1 h0
  obtain ⟨h0, f11⟩ := (andi_apply_eq_one _ _ _).1 h0
  obtain ⟨h0, f10⟩ := (andi_apply_eq_one _ _ _).1 h0
  obtain ⟨h0, f9⟩ := (andi_apply_eq_one _ _ _).1 h0
  obtain ⟨h0, f8⟩ := (andi_apply_eq_one _ _ _).1 h0
  obtain ⟨h0, _⟩ := (andi_apply_eq_one _ _ _).1 h0
  obtain ⟨h0, _⟩ := (andi_apply_eq_one _ _ _).1 h0
  obtain ⟨h0, _⟩ := (andi_apply_eq_one _ _ _).1 h0
  obtain ⟨h0, _⟩ := (andi_apply_eq_one _ _ _).1 h0
  obtain ⟨h0, f3⟩ := (andi_apply_eq_one _ _ _).1 h0
  obtain ⟨h0, f2⟩ := (andi_apply_eq_one _ _ _).1 h0
  obtain ⟨f0, f1⟩ := (andi_apply_eq_one _ _ _).1 h0
  exact ⟨⟨allReal_of_test a0 _ _ _ _ f0, allReal_of_test a1 _ _ _ _ f1, allReal_of_test a2 _ _ _ _ f2,
      allReal_of_test a3 _ _ _ _ f3, allReal_of_test a8 _ _ _ _ f8, allReal_of_test a9 _ _ _ _ f9,
      allReal_of_test a10 _ _ _ _ f10, allReal_of_test a11 _ _ _ _ f11⟩,
    rowNorm_ne_zero_of_test a0 _ _ _ _ _ n0, rowNorm_ne_zero_of_test a1 _ _ _ _ _ n1,
    rowNorm_ne_zero_of_test a2 _ _ _ _ _ n2, rowNorm_ne_zero_of_test a3 _ _ _ _ _ n3⟩

end Cert.Moco.Pre

end
-- ==== Proof.Final.lean ====
/-
  The value claim. The kernel's first result is, entry by entry, the kernel's way of writing the eight tables
  (KiValue), the reference's first result the reference's way (RefValue); under the precondition every entry of the
  views and banks is real and no row norm is zero, and then the two ways agree (Law). The second result — the banks
  shifted by one batch with the new keys appended — is the same term of the arguments in both programs.
-/
import proofs.«112372_j79972291051933_2_alg».proof.Defs
import proofs.«112372_j79972291051933_2_alg».proof.Proof.KiRun
import proofs.«112372_j79972291051933_2_alg».proof.Proof.KiArgs
import proofs.«112372_j79972291051933_2_alg».proof.Proof.KiHostBBank
import proofs.«112372_j79972291051933_2_alg».proof.Proof.KiValue
import proofs.«112372_j79972291051933_2_alg».proof.Proof.RefValue
import proofs.«112372_j79972291051933_2_alg».proof.Proof.Law
import proofs.«112372_j79972291051933_2_alg».proof.Proof.PreFacts

set_option maxRecDepth 16384

noncomputable section

namespace Cert.Proof

open Idealize.ShloMosaic Idealize.ShloMosaic.TcCoe Idealize.SL.Sem

theorem algebraic : Cert.algebraic_KernelIdeal_ReferenceIdeal := by
  intro m ρ m' ρ' hpre hagree
  refine ⟨fun c => Cert.Moco.outKer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.KernelIdeal.Hand.W13 m ρ c (Proc.devRef .tc Cert.KernelIdeal.main_v169), ?_, ?_⟩
  · refine (θ_run Cert.KernelIdeal.defs _ _).mono (fun r h c => ⟨?_, h c _ (Cert.KernelIdeal.Hand.mem_uc Cert.KernelIdeal.main_v169 (by decide)),
      (h c _ (Cert.KernelIdeal.Hand.mem_uc Cert.KernelIdeal.main_arg0 (by decide))).trans (Cert.KernelIdeal.Hand.W13_main_arg0 m ρ c),
      (h c _ (Cert.KernelIdeal.Hand.mem_uc Cert.KernelIdeal.main_arg1 (by decide))).trans (Cert.KernelIdeal.Hand.W13_main_arg1 m ρ c),
      (h c _ (Cert.KernelIdeal.Hand.mem_uc Cert.KernelIdeal.main_arg2 (by decide))).trans (Cert.KernelIdeal.Hand.W13_main_arg2 m ρ c),
      (h c _ (Cert.KernelIdeal.Hand.mem_uc Cert.KernelIdeal.main_arg3 (by decide))).trans (Cert.KernelIdeal.Hand.W13_main_arg3 m ρ c),
      (h c _ (Cert.KernelIdeal.Hand.mem_uc Cert.KernelIdeal.main_arg4 (by decide))).trans (Cert.KernelIdeal.Hand.W13_main_arg4 m ρ c),
      (h c _ (Cert.KernelIdeal.Hand.mem_uc Cert.KernelIdeal.main_arg5 (by decide))).trans (Cert.KernelIdeal.Hand.W13_main_arg5 m ρ c),
      (h c _ (Cert.KernelIdeal.Hand.mem_uc Cert.KernelIdeal.main_arg6 (by decide))).trans (Cert.KernelIdeal.Hand.W13_main_arg6 m ρ c),
      (h c _ (Cert.KernelIdeal.Hand.mem_uc Cert.KernelIdeal.main_arg7 (by decide))).trans (Cert.KernelIdeal.Hand.W13_main_arg7 m ρ c),
      (h c _ (Cert.KernelIdeal.Hand.mem_uc Cert.KernelIdeal.main_arg8 (by decide))).trans (Cert.KernelIdeal.Hand.W13_main_arg8 m ρ c),
      (h c _ (Cert.KernelIdeal.Hand.mem_uc Cert.KernelIdeal.main_arg9 (by decide))).trans (Cert.KernelIdeal.Hand.W13_main_arg9 m ρ c),
      (h c _ (Cert.KernelIdeal.Hand.mem_uc Cert.KernelIdeal.main_arg10 (by decide))).trans (Cert.KernelIdeal.Hand.W13_main_arg10 m ρ c),
      (h c _ (Cert.KernelIdeal.Hand.mem_uc Cert.KernelIdeal.main_arg11 (by decide))).trans (Cert.KernelIdeal.Hand.W13_main_arg11 m ρ c)⟩)
      (Cert.KernelIdeal.Hand.run_all m ρ)
    exact (h c _ (Cert.KernelIdeal.Hand.mem_uc Cert.KernelIdeal.main_v152 (by decide))).trans (Cert.KernelIdeal.HandValue.out_value m ρ c)
  · refine (θ_run Cert.ReferenceIdeal.defs _ _).mono (fun r h c => ⟨?_, ?_, (h c).2.2⟩) (Cert.ReferenceIdeal.Value.run (F := Ideal) m' ρ')
    · obtain ⟨e0, e1, e2, e3, e4, e5, e6, e7, e8, e9, e10, e11⟩ := hagree c
      obtain ⟨⟨r0, r1, r2, r3, r8, r9, r10, r11⟩, n0, n1, n2, n3⟩ := Cert.Moco.Pre.pre_facts _ _ _ _ _ _ _ _ _ _ _ _ (hpre c)
      rw [(h c).1, Cert.ReferenceIdeal.Read.val_main_v120_eq, Cert.Moco.Ref.ref_out_eq, e0, e1, e2, e3, e8, e9, e10, e11]
      exact (Cert.Moco.outKer_eq_outRef _ _ _ _ _ _ _ _ r0 r1 r2 r3 r8 r9 r10 r11 n0 n1 n2 n3).symm
    · obtain ⟨e0, e1, e2, e3, e4, e5, e6, e7, e8, e9, e10, e11⟩ := hagree c
      rw [(h c).2.1, e4, e5, e6, e7, e8, e9, e10, e11]
      exact (Cert.KernelIdeal.HandValue.W13_main_v169 m ρ c).symm

end Cert.Proof

end
-- ==== Proof.lean ====
/-
  Equivalence of a memory-bank contrastive forward pass with its reference. For eight ordered pairs (i, j) of four
  feature views the program outputs, per row b, exp of the inner products of row b of view i with row b of view j and
  with every row of memory bank j, each divided by the product of the two rows' norms and by the temperature; and the
  four banks shifted by one batch with the new keys appended. The kernel computes the bank products in four launches
  of one matmul-scale-exp body (one per bank) and multiplies by the single reciprocal 1/(|x_i|·|x_j|·τ) where the
  reference divides by |x_i|·|x_j| and then by τ; on the extended reals the two agree when the entries are real and
  no row norm is zero, which is what the precondition states.

  The three frames: the kernel's two readings by the run of its thirteen pieces (KbFrame, KiFrame), the reference's by
  its generated run. The idealization rewrote nothing. The value claim is in Final.lean.
-/
import proofs.«112372_j79972291051933_2_alg».proof.Defs
import proofs.«112372_j79972291051933_2_alg».proof.Proof.Gen.Kernel
import proofs.«112372_j79972291051933_2_alg».proof.Proof.Gen.KernelIdeal
import proofs.«112372_j79972291051933_2_alg».proof.Proof.Gen.ReferenceIdeal
import proofs.«112372_j79972291051933_2_alg».proof.Proof.Gen.Pre_finite_inputs
import proofs.«112372_j79972291051933_2_alg».proof.Proof.KbFrame
import proofs.«112372_j79972291051933_2_alg».proof.Proof.KiFrame
import proofs.«112372_j79972291051933_2_alg».proof.Proof.RefImports
import proofs.«112372_j79972291051933_2_alg».proof.Proof.Final

import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Proof.algebraic⟩

end Cert.Proof

end
